-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S1024 .f32) (main_arg8 : FVec F S1024 .f32) (main_arg9 : FVec F S1024 .f32) (main_arg10 : FVec F S1024 .f32) (main_arg11 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_v48 main_v49 main_v50

def fn_part1 {F : FTy → Type} [FloatOps F] (main_arg4 : FVec F S4096x1024 .f32) (main_arg5 : FVec F S1024 .f32) (main_arg6 : FVec F S1024 .f32) (main_arg7 : FVec F S1024 .f32) (main_arg8 : FVec F S1024 .f32) (main_arg9 : FVec F S1024 .f32) (main_arg10 : FVec F S1024 .f32) (main_arg11 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4x2048x1024 .f32) (main_arg1 : FVec F S4x2048x1024 .f32) (main_arg2 : FVec F S1024x4096 .f32) (main_arg3 : FVec F S4096 .f32) (main_arg4 : FVec F S4096x1024 .f32) (main_arg5 : FVec F S1024 .f32) (main_arg6 : FVec F S1024 .f32) (main_arg7 : FVec F S1024 .f32) (main_arg8 : FVec F S1024 .f32) (main_arg9 : FVec F S1024 .f32) (main_arg10 : FVec F S1024 .f32) (main_arg11 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_arg10 main_arg11 main_v13 main_v16
-- ==== Kernel.lean ====
abbrev S4x2048x1024 : Shape := ⟨3, ![4, 2048, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S1x1024x1024 : Shape := ⟨3, ![1, 1024, 1024]⟩
abbrev S1024x1 : Shape := ⟨2, ![1024, 1]⟩
abbrev S1024x1024 : Shape := ⟨2, ![1024, 1024]⟩
abbrev S1x1024 : Shape := ⟨2, ![1, 1024]⟩
abbrev S8192x1024 : Shape := ⟨2, ![8192, 1024]⟩
abbrev S512x1024 : Shape := ⟨2, ![512, 1024]⟩
abbrev S512x4096 : Shape := ⟨2, ![512, 4096]⟩
abbrev S1x4096 : Shape := ⟨2, ![1, 4096]⟩
abbrev S512 : Shape := ⟨1, ![512]⟩
abbrev S512x1 : Shape := ⟨2, ![512, 1]⟩

abbrev nBuf : Space → Nat
  | .hbm => 22
  | .vmem => 40
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x4096, .f32⟩
  | .hbm, ⟨3, _⟩ => ⟨S4096, .f32⟩
  | .hbm, ⟨4, _⟩ => ⟨S4096x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S4x2048x1024, .bf16⟩
  | .hbm, ⟨13, _⟩ => ⟨S4x2048x1024, .f32⟩
  | .hbm, ⟨14, _⟩ => ⟨S4x2048x1024, .bf16⟩
  | .hbm, ⟨15, _⟩ => ⟨S4x2048x1024, .bf16⟩
  | .hbm, ⟨16, _⟩ => ⟨S4x2048x1024, .f32⟩
  | .hbm, ⟨17, _⟩ => ⟨S8192x1024, .f32⟩
  | .hbm, ⟨18, _⟩ => ⟨S1024x4096, .bf16⟩
  | .hbm, ⟨19, _⟩ => ⟨S4096x1024, .bf16⟩
  | .hbm, ⟨20, _⟩ => ⟨S8192x1024, .f32⟩
  | .hbm, ⟨21, _⟩ => ⟨S4x2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .f32⟩
  | .local _ .vmem, ⟨7, _⟩ => ⟨S1x1024x1024, .f32⟩
  | .local _ .vmem, ⟨8, _⟩ => ⟨S1024, .f32⟩
  | .local _ .vmem, ⟨9, _⟩ => ⟨S1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1024x1, .f32⟩
  | .local _ .vmem, ⟨13, _⟩ => ⟨S1024x1, .f32⟩
  | .local _ .vmem, ⟨14, _⟩ => ⟨S1024x1024, .f32⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .bf16⟩
  | .local _ .vmem, ⟨21, _⟩ => ⟨S1x1024x1024, .f32⟩
  | .local _ .vmem, ⟨22, _⟩ => ⟨S1x1024x1024, .f32⟩
  | .local _ .vmem, ⟨23, _⟩ => ⟨S1024, .f32⟩
  | .local _ .vmem, ⟨24, _⟩ => ⟨S1024, .f32⟩
  | .local _ .vmem, ⟨25, _⟩ => ⟨S1x1024x1024, .f32⟩
  | .local _ .vmem, ⟨26, _⟩ => ⟨S1x1024x1024, .f32⟩
  | .local _ .vmem, ⟨27, _⟩ => ⟨S1024x1, .f32⟩
  | .local _ .vmem, ⟨28, _⟩ => ⟨S1024x1, .f32⟩
  | .local _ .vmem, ⟨29, _⟩ => ⟨S1024x1024, .f32⟩
  | .local _ .vmem, ⟨30, _⟩ => ⟨S512x1024, .f32⟩
  | .local _ .vmem, ⟨31, _⟩ => ⟨S512x1024, .f32⟩
  | .local _ .vmem, ⟨32, _⟩ => ⟨S1024x4096, .bf16⟩
  | .local _ .vmem, ⟨33, _⟩ => ⟨S4096, .f32⟩
  | .local _ .vmem, ⟨34, _⟩ => ⟨S4096x1024, .bf16⟩
  | .local _ .vmem, ⟨35, _⟩ => ⟨S1024, .f32⟩
  | .local _ .vmem, ⟨36, _⟩ => ⟨S1024, .f32⟩
  | .local _ .vmem, ⟨37, _⟩ => ⟨S1024, .f32⟩
  | .local _ .vmem, ⟨38, _⟩ => ⟨S512x1024, .f32⟩
  | .local _ .vmem, ⟨39, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc1_scratch0 : Ref sig .tc := ⟨.vmem, 27, rfl⟩
abbrev cc1_scratch1 : Ref sig .tc := ⟨.vmem, 28, rfl⟩
abbrev cc1_scratch2 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg7_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem7_1 : DmaSem sig := 33

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev grid1 : Pipeline.Grid := ⟨3, ![4, 2, 2], ![false, false, false]⟩

def k1_cond2 (i : grid1.Coords) : BitVec 1 :=
  let arg2 : BitVec 32 := BitVec.ofNat 32 (i 2).val
  let c1_i32 : BitVec 32 := 1#32
  let v42 : BitVec 1 := Scalar.cmpi .eq arg2 c1_i32
  let v43 : BitVec 32 := Scalar.extui v42
  let c0_i32_25 : BitVec 32 := 0#32
  let v44 : BitVec 1 := Scalar.cmpi .ne v43 c0_i32_25
  v44

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4096x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S512x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  transposes_S1024x1024_p1_0_S1024x1024 : S1024x1024.Transposes [1, 0] S1024x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S1024x1024_S1x1024x1024 : S1024x1024.ShapeCasts S1x1024x1024
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S512x4096 : S1x4096.Broadcasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  shapeCasts_S8192x1024_S4x2048x1024 : S8192x1024.ShapeCasts S4x2048x1024
  dot_S1024x1024_S1024x1024_S1024x1024_1_0_0_1_n_n_wf : DotDims.WF S1024x1024 S1024x1024 S1024x1024 [1] [0] [0] [1] [] []
  dot_S512x1024_S1024x4096_S512x4096_1_0_0_1_n_n_wf : DotDims.WF S512x1024 S1024x4096 S512x4096 [1] [0] [0] [1] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x2048x1024.size a
  hwx0_0 : ∀ i : grid0.Coords, EltTy.bits .bf16 = 32 ∨ (Rect.block (s := S4x2048x1024) S1x1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S4x2048x1024.size a
  hwx0_1 : ∀ i : grid0.Coords, EltTy.bits .bf16 = 32 ∨ (Rect.block (s := S4x2048x1024) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S4x2048x1024.size a
  hwx0_2 : ∀ i : grid0.Coords, EltTy.bits .bf16 = 32 ∨ (Rect.block (s := S4x2048x1024) S1x1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S4x2048x1024.size a
  hwx0_3 : ∀ i : grid0.Coords, EltTy.bits .f32 = 32 ∨ (Rect.block (s := S4x2048x1024) S1x1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x1024.size a ≤ S4x2048x1024.size a
  hwx0_6 : ∀ i : grid0.Coords, EltTy.bits .f32 = 32 ∨ (Rect.block (s := S4x2048x1024) S1x1024x1024.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .bf16 = 32 ∨ (Rect.block (s := S4x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x2048x1024.size a
  hwx1_1 : ∀ i : grid1.Coords, EltTy.bits .bf16 = 32 ∨ (Rect.block (s := S4x2048x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x2048x1024.size a
  hwx1_2 : ∀ i : grid1.Coords, EltTy.bits .bf16 = 32 ∨ (Rect.block (s := S4x2048x1024) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .f32 = 32 ∨ (Rect.block (s := S4x2048x1024) S1x1024x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024.size a ≤ S1024.size a
  hwx1_5 : ∀ i : grid1.Coords, EltTy.bits .f32 = 32 ∨ (Rect.block (s := S1024) S1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024x1024.size a ≤ S4x2048x1024.size a
  hwx1_6 : ∀ i : grid1.Coords, EltTy.bits .f32 = 32 ∨ (Rect.block (s := S4x2048x1024) S1x1024x1024.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .f32 = 32 ∨ (Rect.block (s := S8192x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x4096.size a ≤ S1024x4096.size a
  hwx2_1 : ∀ i : grid2.Coords, EltTy.bits .bf16 = 32 ∨ (Rect.block (s := S1024x4096) S1024x4096.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096.size a ≤ S4096.size a
  hwx2_2 : ∀ i : grid2.Coords, EltTy.bits .f32 = 32 ∨ (Rect.block (s := S4096) S4096.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4096x1024.size a ≤ S4096x1024.size a
  hwx2_3 : ∀ i : grid2.Coords, EltTy.bits .bf16 = 32 ∨ (Rect.block (s := S4096x1024) S4096x1024.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024.size a ≤ S1024.size a
  hwx2_4 : ∀ i : grid2.Coords, EltTy.bits .f32 = 32 ∨ (Rect.block (s := S1024) S1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024.size a ≤ S1024.size a
  hwx2_5 : ∀ i : grid2.Coords, EltTy.bits .f32 = 32 ∨ (Rect.block (s := S1024) S1024.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1024.size a ≤ S1024.size a
  hwx2_6 : ∀ i : grid2.Coords, EltTy.bits .f32 = 32 ∨ (Rect.block (s := S1024) S1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x1024.size a ≤ S8192x1024.size a
  hwx2_7 : ∀ i : grid2.Coords, EltTy.bits .f32 = 32 ∨ (Rect.block (s := S8192x1024) S512x1024.size (cc2_transform_7 i) (hinb2_7 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

abbrev win1_0 : Pipeline.Window sig grid1 :=
  Pipeline.Window.ofSpec (Memref.whole main_v2) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1x1024x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v5) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1024x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S4096x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg11) S1024.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v8) S512x1024.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S4x2048x2048 : Shape := ⟨3, ![4, 2048, 2048]⟩
abbrev S_ : Shape := ⟨0, ![]⟩
abbrev S2048x2048 : Shape := ⟨2, ![2048, 2048]⟩
abbrev S1x2048x2048 : Shape := ⟨3, ![1, 2048, 2048]⟩
abbrev S4x2048 : Shape := ⟨2, ![4, 2048]⟩
abbrev S4x2048x1 : Shape := ⟨3, ![4, 2048, 1]⟩
abbrev S1x1x1024 : Shape := ⟨3, ![1, 1, 1024]⟩
abbrev S4x2048x4096 : Shape := ⟨3, ![4, 2048, 4096]⟩
abbrev S1x1x4096 : Shape := ⟨3, ![1, 1, 4096]⟩

abbrev nBuf : Space → Nat
  | .hbm => 214
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S1024x4096, .f32⟩
  | 3 => ⟨S4096, .f32⟩
  | 4 => ⟨S4096x1024, .f32⟩
  | 5 => ⟨S1024, .f32⟩
  | 6 => ⟨S1024, .f32⟩
  | 7 => ⟨S1024, .f32⟩
  | 8 => ⟨S1024, .f32⟩
  | 9 => ⟨S1024, .f32⟩
  | 10 => ⟨S1024, .f32⟩
  | 11 => ⟨S1024, .f32⟩
  | 12 => ⟨S4x2048x2048, .f32⟩
  | 13 => ⟨S_, .f32⟩
  | 14 => ⟨S_, .f32⟩
  | 15 => ⟨S4x2048x2048, .f32⟩
  | 16 => ⟨S4x2048x2048, .f32⟩
  | 17 => ⟨S_, .i1⟩
  | 18 => ⟨S2048x2048, .i1⟩
  | 19 => ⟨S2048x2048, .i32⟩
  | 20 => ⟨S_, .i32⟩
  | 21 => ⟨S2048x2048, .i32⟩
  | 22 => ⟨S2048x2048, .i32⟩
  | 23 => ⟨S2048x2048, .i32⟩
  | 24 => ⟨S2048x2048, .i1⟩
  | 25 => ⟨S_, .i1⟩
  | 26 => ⟨S2048x2048, .i1⟩
  | 27 => ⟨S2048x2048, .i1⟩
  | 28 => ⟨S1x2048x2048, .i1⟩
  | 29 => ⟨S_, .f32⟩
  | 30 => ⟨S4x2048x2048, .i1⟩
  | 31 => ⟨S4x2048x2048, .f32⟩
  | 32 => ⟨S4x2048x2048, .f32⟩
  | 33 => ⟨S_, .f32⟩
  | 34 => ⟨S4x2048, .f32⟩
  | 35 => ⟨S_, .f32⟩
  | 36 => ⟨S4x2048, .f32⟩
  | 37 => ⟨S4x2048, .f32⟩
  | 38 => ⟨S4x2048x1, .f32⟩
  | 39 => ⟨S4x2048x2048, .f32⟩
  | 40 => ⟨S4x2048x2048, .f32⟩
  | 41 => ⟨S4x2048x2048, .f32⟩
  | 42 => ⟨S_, .f32⟩
  | 43 => ⟨S4x2048, .f32⟩
  | 44 => ⟨S4x2048x1, .f32⟩
  | 45 => ⟨S4x2048x2048, .f32⟩
  | 46 => ⟨S4x2048x2048, .f32⟩
  | 47 => ⟨S4x2048x1024, .f32⟩
  | 48 => ⟨S4x2048x1024, .f32⟩
  | 49 => ⟨S_, .f32⟩
  | 50 => ⟨S4x2048, .f32⟩
  | 51 => ⟨S4x2048x1, .f32⟩
  | 52 => ⟨S_, .f32⟩
  | 53 => ⟨S4x2048x1, .f32⟩
  | 54 => ⟨S4x2048x1, .f32⟩
  | 55 => ⟨S_, .i32⟩
  | 56 => ⟨S_, .f32⟩
  | 57 => ⟨S4x2048, .f32⟩
  | 58 => ⟨S4x2048x1, .f32⟩
  | 59 => ⟨S_, .f32⟩
  | 60 => ⟨S4x2048x1, .f32⟩
  | 61 => ⟨S4x2048x1, .f32⟩
  | 62 => ⟨S4x2048x1024, .f32⟩
  | 63 => ⟨S4x2048x1024, .f32⟩
  | 64 => ⟨S4x2048x1024, .f32⟩
  | 65 => ⟨S_, .f32⟩
  | 66 => ⟨S_, .f32⟩
  | 67 => ⟨S_, .f32⟩
  | 68 => ⟨S_, .f32⟩
  | 69 => ⟨S4x2048, .f32⟩
  | 70 => ⟨S4x2048x1, .f32⟩
  | 71 => ⟨S4x2048x1, .f32⟩
  | 72 => ⟨S4x2048x1, .f32⟩
  | 73 => ⟨S_, .f32⟩
  | 74 => ⟨S_, .i1⟩
  | 75 => ⟨S_, .f32⟩
  | 76 => ⟨S_, .f32⟩
  | 77 => ⟨S4x2048x1, .f32⟩
  | 78 => ⟨S4x2048x1, .f32⟩
  | 79 => ⟨S4x2048x1024, .f32⟩
  | 80 => ⟨S4x2048x1024, .f32⟩
  | 81 => ⟨S_, .f32⟩
  | 82 => ⟨S4x2048x1, .f32⟩
  | 83 => ⟨S4x2048x1, .f32⟩
  | 84 => ⟨S4x2048x1, .f32⟩
  | 85 => ⟨S4x2048x1024, .f32⟩
  | 86 => ⟨S4x2048x1024, .f32⟩
  | 87 => ⟨S1x1x1024, .f32⟩
  | 88 => ⟨S4x2048x1024, .f32⟩
  | 89 => ⟨S4x2048x1024, .f32⟩
  | 90 => ⟨S1x1x1024, .f32⟩
  | 91 => ⟨S4x2048x1024, .f32⟩
  | 92 => ⟨S4x2048x1024, .f32⟩
  | 93 => ⟨S4x2048x2048, .f32⟩
  | 94 => ⟨S_, .f32⟩
  | 95 => ⟨S_, .f32⟩
  | 96 => ⟨S4x2048x2048, .f32⟩
  | 97 => ⟨S4x2048x2048, .f32⟩
  | 98 => ⟨S_, .f32⟩
  | 99 => ⟨S4x2048, .f32⟩
  | 100 => ⟨S_, .f32⟩
  | 101 => ⟨S4x2048, .f32⟩
  | 102 => ⟨S4x2048, .f32⟩
  | 103 => ⟨S4x2048x1, .f32⟩
  | 104 => ⟨S4x2048x2048, .f32⟩
  | 105 => ⟨S4x2048x2048, .f32⟩
  | 106 => ⟨S4x2048x2048, .f32⟩
  | 107 => ⟨S_, .f32⟩
  | 108 => ⟨S4x2048, .f32⟩
  | 109 => ⟨S4x2048x1, .f32⟩
  | 110 => ⟨S4x2048x2048, .f32⟩
  | 111 => ⟨S4x2048x2048, .f32⟩
  | 112 => ⟨S4x2048x1024, .f32⟩
  | 113 => ⟨S4x2048x1024, .f32⟩
  | 114 => ⟨S_, .f32⟩
  | 115 => ⟨S4x2048, .f32⟩
  | 116 => ⟨S4x2048x1, .f32⟩
  | 117 => ⟨S_, .f32⟩
  | 118 => ⟨S4x2048x1, .f32⟩
  | 119 => ⟨S4x2048x1, .f32⟩
  | 120 => ⟨S_, .i32⟩
  | 121 => ⟨S_, .f32⟩
  | 122 => ⟨S4x2048, .f32⟩
  | 123 => ⟨S4x2048x1, .f32⟩
  | 124 => ⟨S_, .f32⟩
  | 125 => ⟨S4x2048x1, .f32⟩
  | 126 => ⟨S4x2048x1, .f32⟩
  | 127 => ⟨S4x2048x1024, .f32⟩
  | _ => ⟨S4x2048x1024, .f32⟩

abbrev hbmTy0_1 (i : Nat) : BufTy := match i % 128 with
  | 0 => ⟨S4x2048x1024, .f32⟩
  | 1 => ⟨S4x2048x1024, .f32⟩
  | 2 => ⟨S_, .f32⟩
  | 3 => ⟨S_, .f32⟩
  | 4 => ⟨S_, .f32⟩
  | 5 => ⟨S_, .f32⟩
  | 6 => ⟨S4x2048, .f32⟩
  | 7 => ⟨S4x2048x1, .f32⟩
  | 8 => ⟨S4x2048x1, .f32⟩
  | 9 => ⟨S4x2048x1, .f32⟩
  | 10 => ⟨S_, .f32⟩
  | 11 => ⟨S_, .i1⟩
  | 12 => ⟨S_, .f32⟩
  | 13 => ⟨S_, .f32⟩
  | 14 => ⟨S4x2048x1, .f32⟩
  | 15 => ⟨S4x2048x1, .f32⟩
  | 16 => ⟨S4x2048x1024, .f32⟩
  | 17 => ⟨S4x2048x1024, .f32⟩
  | 18 => ⟨S_, .f32⟩
  | 19 => ⟨S4x2048x1, .f32⟩
  | 20 => ⟨S4x2048x1, .f32⟩
  | 21 => ⟨S4x2048x1, .f32⟩
  | 22 => ⟨S4x2048x1024, .f32⟩
  | 23 => ⟨S4x2048x1024, .f32⟩
  | 24 => ⟨S1x1x1024, .f32⟩
  | 25 => ⟨S4x2048x1024, .f32⟩
  | 26 => ⟨S4x2048x1024, .f32⟩
  | 27 => ⟨S1x1x1024, .f32⟩
  | 28 => ⟨S4x2048x1024, .f32⟩
  | 29 => ⟨S4x2048x1024, .f32⟩
  | 30 => ⟨S4x2048x4096, .f32⟩
  | 31 => ⟨S1x1x4096, .f32⟩
  | 32 => ⟨S4x2048x4096, .f32⟩
  | 33 => ⟨S4x2048x4096, .f32⟩
  | 34 => ⟨S_, .f32⟩
  | 35 => ⟨S4x2048x4096, .f32⟩
  | 36 => ⟨S4x2048x4096, .f32⟩
  | 37 => ⟨S4x2048x1024, .f32⟩
  | 38 => ⟨S1x1x1024, .f32⟩
  | 39 => ⟨S4x2048x1024, .f32⟩
  | 40 => ⟨S4x2048x1024, .f32⟩
  | 41 => ⟨S4x2048x1024, .f32⟩
  | 42 => ⟨S_, .f32⟩
  | 43 => ⟨S4x2048, .f32⟩
  | 44 => ⟨S4x2048x1, .f32⟩
  | 45 => ⟨S_, .f32⟩
  | 46 => ⟨S4x2048x1, .f32⟩
  | 47 => ⟨S4x2048x1, .f32⟩
  | 48 => ⟨S_, .i32⟩
  | 49 => ⟨S_, .f32⟩
  | 50 => ⟨S4x2048, .f32⟩
  | 51 => ⟨S4x2048x1, .f32⟩
  | 52 => ⟨S_, .f32⟩
  | 53 => ⟨S4x2048x1, .f32⟩
  | 54 => ⟨S4x2048x1, .f32⟩
  | 55 => ⟨S4x2048x1024, .f32⟩
  | 56 => ⟨S4x2048x1024, .f32⟩
  | 57 => ⟨S4x2048x1024, .f32⟩
  | 58 => ⟨S_, .f32⟩
  | 59 => ⟨S_, .f32⟩
  | 60 => ⟨S_, .f32⟩
  | 61 => ⟨S_, .f32⟩
  | 62 => ⟨S4x2048, .f32⟩
  | 63 => ⟨S4x2048x1, .f32⟩
  | 64 => ⟨S4x2048x1, .f32⟩
  | 65 => ⟨S4x2048x1, .f32⟩
  | 66 => ⟨S_, .f32⟩
  | 67 => ⟨S_, .i1⟩
  | 68 => ⟨S_, .f32⟩
  | 69 => ⟨S_, .f32⟩
  | 70 => ⟨S4x2048x1, .f32⟩
  | 71 => ⟨S4x2048x1, .f32⟩
  | 72 => ⟨S4x2048x1024, .f32⟩
  | 73 => ⟨S4x2048x1024, .f32⟩
  | 74 => ⟨S_, .f32⟩
  | 75 => ⟨S4x2048x1, .f32⟩
  | 76 => ⟨S4x2048x1, .f32⟩
  | 77 => ⟨S4x2048x1, .f32⟩
  | 78 => ⟨S4x2048x1024, .f32⟩
  | 79 => ⟨S4x2048x1024, .f32⟩
  | 80 => ⟨S1x1x1024, .f32⟩
  | 81 => ⟨S4x2048x1024, .f32⟩
  | 82 => ⟨S4x2048x1024, .f32⟩
  | 83 => ⟨S1x1x1024, .f32⟩
  | 84 => ⟨S4x2048x1024, .f32⟩
  | 85 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_0 : Ref sig .tc := ⟨.hbm, 25, rfl⟩
abbrev main_call0_v5 : Ref sig .tc := ⟨.hbm, 26, rfl⟩
abbrev main_v5 : Ref sig .tc := ⟨.hbm, 27, rfl⟩
abbrev main_v6 : Ref sig .tc := ⟨.hbm, 28, rfl⟩
abbrev main_cst_0 : Ref sig .tc := ⟨.hbm, 29, rfl⟩
abbrev main_call1_v0 : Ref sig .tc := ⟨.hbm, 30, rfl⟩
abbrev main_call1_v1 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_cst_2 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst_3 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_4 : Ref sig .tc := ⟨.hbm, 49, rfl⟩
abbrev main_v21 : Ref sig .tc := ⟨.hbm, 50, rfl⟩
abbrev main_v22 : Ref sig .tc := ⟨.hbm, 51, rfl⟩
abbrev main_cst_5 : Ref sig .tc := ⟨.hbm, 52, rfl⟩
abbrev main_v23 : Ref sig .tc := ⟨.hbm, 53, rfl⟩
abbrev main_v24 : Ref sig .tc := ⟨.hbm, 54, rfl⟩
abbrev main_c_6 : Ref sig .tc := ⟨.hbm, 55, rfl⟩
abbrev main_call2_cst : Ref sig .tc := ⟨.hbm, 56, rfl⟩
abbrev main_call2_v0 : Ref sig .tc := ⟨.hbm, 57, rfl⟩
abbrev main_call2_v1 : Ref sig .tc := ⟨.hbm, 58, rfl⟩
abbrev main_call2_cst_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_v6 : Ref sig .tc := ⟨.hbm, 64, rfl⟩
abbrev main_call2_v7 : Ref sig .tc := ⟨.hbm, 65, rfl⟩
abbrev main_call2_cst_1 : Ref sig .tc := ⟨.hbm, 66, rfl⟩
abbrev main_call2_v8 : Ref sig .tc := ⟨.hbm, 67, rfl⟩
abbrev main_call2_cst_2 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_v12 : Ref sig .tc := ⟨.hbm, 72, rfl⟩
abbrev main_call2_cst_3 : Ref sig .tc := ⟨.hbm, 73, rfl⟩
abbrev main_call2_v13 : Ref sig .tc := ⟨.hbm, 74, rfl⟩
abbrev main_call2_cst_4 : Ref sig .tc := ⟨.hbm, 75, rfl⟩
abbrev main_call2_call0_v0 : Ref sig .tc := ⟨.hbm, 76, rfl⟩
abbrev main_call2_call0_v1 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_cst_7 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_cst_8 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_cst_9 : Ref sig .tc := ⟨.hbm, 98, rfl⟩
abbrev main_v43 : Ref sig .tc := ⟨.hbm, 99, rfl⟩
abbrev main_cst_10 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_cst_11 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_cst_12 : Ref sig .tc := ⟨.hbm, 114, rfl⟩
abbrev main_v56 : Ref sig .tc := ⟨.hbm, 115, rfl⟩
abbrev main_v57 : Ref sig .tc := ⟨.hbm, 116, rfl⟩
abbrev main_cst_13 : Ref sig .tc := ⟨.hbm, 117, rfl⟩
abbrev main_v58 : Ref sig .tc := ⟨.hbm, 118, rfl⟩
abbrev main_v59 : Ref sig .tc := ⟨.hbm, 119, rfl⟩
abbrev main_c_14 : Ref sig .tc := ⟨.hbm, 120, rfl⟩
abbrev main_call3_cst : Ref sig .tc := ⟨.hbm, 121, rfl⟩
abbrev main_call3_v0 : Ref sig .tc := ⟨.hbm, 122, rfl⟩
abbrev main_call3_v1 : Ref sig .tc := ⟨.hbm, 123, rfl⟩
abbrev main_call3_cst_0 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_call3_v5 : Ref sig .tc := ⟨.hbm, 128, rfl⟩
abbrev main_call3_v6 : Ref sig .tc := ⟨.hbm, 129, rfl⟩
abbrev main_call3_v7 : Ref sig .tc := ⟨.hbm, 130, rfl⟩
abbrev main_call3_cst_1 : Ref sig .tc := ⟨.hbm, 131, rfl⟩
abbrev main_call3_v8 : Ref sig .tc := ⟨.hbm, 132, rfl⟩
abbrev main_call3_cst_2 : Ref sig .tc := ⟨.hbm, 133, rfl⟩
abbrev main_call3_v9 : Ref sig .tc := ⟨.hbm, 134, rfl⟩
abbrev main_call3_v10 : Ref sig .tc := ⟨.hbm, 135, rfl⟩
abbrev main_call3_v11 : Ref sig .tc := ⟨.hbm, 136, rfl⟩
abbrev main_call3_v12 : Ref sig .tc := ⟨.hbm, 137, rfl⟩
abbrev main_call3_cst_3 : Ref sig .tc := ⟨.hbm, 138, rfl⟩
abbrev main_call3_v13 : Ref sig .tc := ⟨.hbm, 139, rfl⟩
abbrev main_call3_cst_4 : Ref sig .tc := ⟨.hbm, 140, rfl⟩
abbrev main_call3_call0_v0 : Ref sig .tc := ⟨.hbm, 141, rfl⟩
abbrev main_call3_call0_v1 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_cst_15 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_call4_cst : Ref sig .tc := ⟨.hbm, 162, rfl⟩
abbrev main_call4_v0 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_cst_16 : Ref sig .tc := ⟨.hbm, 170, rfl⟩
abbrev main_v84 : Ref sig .tc := ⟨.hbm, 171, rfl⟩
abbrev main_v85 : Ref sig .tc := ⟨.hbm, 172, rfl⟩
abbrev main_cst_17 : Ref sig .tc := ⟨.hbm, 173, rfl⟩
abbrev main_v86 : Ref sig .tc := ⟨.hbm, 174, rfl⟩
abbrev main_v87 : Ref sig .tc := ⟨.hbm, 175, rfl⟩
abbrev main_c_18 : Ref sig .tc := ⟨.hbm, 176, rfl⟩
abbrev main_call5_cst : Ref sig .tc := ⟨.hbm, 177, rfl⟩
abbrev main_call5_v0 : Ref sig .tc := ⟨.hbm, 178, rfl⟩
abbrev main_call5_v1 : Ref sig .tc := ⟨.hbm, 179, rfl⟩
abbrev main_call5_cst_0 : Ref sig .tc := ⟨.hbm, 180, rfl⟩
abbrev main_call5_v2 : Ref sig .tc := ⟨.hbm, 181, rfl⟩
abbrev main_call5_v3 : Ref sig .tc := ⟨.hbm, 182, rfl⟩
abbrev main_call5_v4 : Ref sig .tc := ⟨.hbm, 183, rfl⟩
abbrev main_call5_v5 : Ref sig .tc := ⟨.hbm, 184, rfl⟩
abbrev main_call5_v6 : Ref sig .tc := ⟨.hbm, 185, rfl⟩
abbrev main_call5_v7 : Ref sig .tc := ⟨.hbm, 186, rfl⟩
abbrev main_call5_cst_1 : Ref sig .tc := ⟨.hbm, 187, rfl⟩
abbrev main_call5_v8 : Ref sig .tc := ⟨.hbm, 188, rfl⟩
abbrev main_call5_cst_2 : Ref sig .tc := ⟨.hbm, 189, rfl⟩
abbrev main_call5_v9 : Ref sig .tc := ⟨.hbm, 190, rfl⟩
abbrev main_call5_v10 : Ref sig .tc := ⟨.hbm, 191, rfl⟩
abbrev main_call5_v11 : Ref sig .tc := ⟨.hbm, 192, rfl⟩
abbrev main_call5_v12 : Ref sig .tc := ⟨.hbm, 193, rfl⟩
abbrev main_call5_cst_3 : Ref sig .tc := ⟨.hbm, 194, rfl⟩
abbrev main_call5_v13 : Ref sig .tc := ⟨.hbm, 195, rfl⟩
abbrev main_call5_cst_4 : Ref sig .tc := ⟨.hbm, 196, rfl⟩
abbrev main_call5_call0_v0 : Ref sig .tc := ⟨.hbm, 197, rfl⟩
abbrev main_call5_call0_v1 : Ref sig .tc := ⟨.hbm, 198, rfl⟩
abbrev main_v88 : Ref sig .tc := ⟨.hbm, 199, rfl⟩
abbrev main_v89 : Ref sig .tc := ⟨.hbm, 200, rfl⟩
abbrev main_v90 : Ref sig .tc := ⟨.hbm, 201, rfl⟩
abbrev main_cst_19 : Ref sig .tc := ⟨.hbm, 202, rfl⟩
abbrev main_v91 : Ref sig .tc := ⟨.hbm, 203, rfl⟩
abbrev main_v92 : Ref sig .tc := ⟨.hbm, 204, rfl⟩
abbrev main_v93 : Ref sig .tc := ⟨.hbm, 205, rfl⟩
abbrev main_v94 : Ref sig .tc := ⟨.hbm, 206, rfl⟩
abbrev main_v95 : Ref sig .tc := ⟨.hbm, 207, rfl⟩
abbrev main_v96 : Ref sig .tc := ⟨.hbm, 208, rfl⟩
abbrev main_v97 : Ref sig .tc := ⟨.hbm, 209, rfl⟩
abbrev main_v98 : Ref sig .tc := ⟨.hbm, 210, rfl⟩
abbrev main_v99 : Ref sig .tc := ⟨.hbm, 211, rfl⟩
abbrev main_v100 : Ref sig .tc := ⟨.hbm, 212, rfl⟩
abbrev main_v101 : Ref sig .tc := ⟨.hbm, 213, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  reducesTo_S4x2048x1024_S4x2048_d2 : S4x2048x1024.ReducesTo [2] S4x2048
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]
  dot_S4x2048x1024_S1024x4096_S4x2048x4096_2_0_01_1_n_n_wf : DotDims.WF S4x2048x1024 S1024x4096 S4x2048x4096 [2] [0] [0, 1] [1] [] []
  dot_S4x2048x4096_S4096x1024_S4x2048x1024_2_0_01_1_n_n_wf : DotDims.WF S4x2048x4096 S4096x1024 S4x2048x1024 [2] [0] [0, 1] [1] [] []

variable [Facts₀]

def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf
def dot_S4x2048x1024_S1024x4096_S4x2048x4096_2_0_01_1_n_n : DotDims S4x2048x1024 S1024x4096 S4x2048x4096 where
  lhsContracting := [2]
  rhsContracting := [0]
  lhsNonContracting := [0, 1]
  rhsNonContracting := [1]
  lhsBatch := []
  rhsBatch := []
  wf := dot_S4x2048x1024_S1024x4096_S4x2048x4096_2_0_01_1_n_n_wf
def dot_S4x2048x4096_S4096x1024_S4x2048x1024_2_0_01_1_n_n : DotDims S4x2048x4096 S4096x1024 S4x2048x1024 where
  lhsContracting := [2]
  rhsContracting := [0]
  lhsNonContracting := [0, 1]
  rhsNonContracting := [1]
  lhsBatch := []
  rhsBatch := []
  wf := dot_S4x2048x4096_S4096x1024_S4x2048x1024_2_0_01_1_n_n_wf

class Facts : Prop extends Facts₀ where

variable [Facts]
-- ==== Proof.BK0RunA.lean ====
/-
  The causal-attention kernel's body at the first key tile of a row block, run symbolically on whole buffers: the running
  maximum, normaliser and accumulator are reset and one tile is accumulated into them; the output buffer is not touched.
  (For the program as printed; the reading of the same program on the extended reals has its own copy of this module.)
-/
import proofs.«167660_j22771916603726_2_alg».proof.Proof.Gen.Kernel.Launch
import proofs.«167660_j22771916603726_2_alg».proof.Proof.Gen.Kernel.Skeleton
import proofs.«167660_j22771916603726_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first kernel (causal attention with a running softmax, then normalisation): its body on whole buffers, case by case -/

/-- The first branch (reset of the running state) is taken at the first key tile. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)
/-- The second branch (one tile of the running softmax) is taken when the key tile is not after the query tile. -/
abbrev cond0_1 (i : grid0.Coords) : Prop := (Scalar.cmpi .ne (Scalar.extui (Scalar.cmpi .sle (BitVec.ofNat 32 (i 2).val) (BitVec.ofNat 32 (i 1).val))) 0#32) = 1#1
theorem hcond0_1 : ∀ t : Fin cfg0.N, cond0_1 (grid0.coords t) ↔ t.val % 4 ≠ 1 :=
  (by decide +kernel : ∀ t : Fin grid0.N, cond0_1 (grid0.coords t) ↔ t.val % 4 ≠ 1)
/-- The third branch (normalise and store) is taken at the last key tile. -/
abbrev cond0_2 (i : grid0.Coords) : Prop := k0_cond3 i = 1#1
theorem hcond0_2 : ∀ t : Fin cfg0.N, cond0_2 (grid0.coords t) ↔ t.val % 2 = 1 :=
  (by decide +kernel : ∀ t : Fin grid0.N, cond0_2 (grid0.coords t) ↔ t.val % 2 = 1)

set_option maxHeartbeats 8000000 in
/-- At the first key tile: the running state is reset and one tile is accumulated; the output buffer is not touched. -/
noncomputable def kernelRun0_A (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond0_0 i) (hc1 : cond0_1 i) (hc2 : ¬cond0_2 i)
    (x0 : Vec F S1x1024x1024 .bf16) (x1 : Vec F S1x1024x1024 .bf16) (x2 : Vec F S1x1024x1024 .bf16) (x3 : Vec F S1x1024x1024 .f32) (x4 : Vec F S1024 .f32) (x5 : Vec F S1024 .f32)  :
    Σ' (LS0 : List (View.Piece (Elt F) S1024x1 .f32)), Σ' (LS1 : List (View.Piece (Elt F) S1024x1 .f32)), { LS2 : List (View.Piece (Elt F) S1024x1024 .f32) //
      ∀ (xi6 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__causal_attn_ln_kernel i arg3 harg3 arg4 harg4 arg5 harg5 arg6 harg6 arg7 harg7 arg8 harg8 arg9 harg9 arg10 harg10 arg11 harg11 arg12 harg12) K } := by
  refine ⟨?_, ?_, ?_, fun xi6 E K => ?run⟩
  case run =>
    simp only [cc0__causal_attn_ln_kernel_eq_skeleton]; unfold cc0__causal_attn_ln_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

end Cert.Kernel.KF

end
-- ==== Proof.BK0RunB.lean ====
/-
  The causal-attention kernel's body at the last key tile when that tile lies wholly after the query tile: nothing is
  accumulated, the carried running state is normalised and the row block is stored.
  (For the program as printed; the reading of the same program on the extended reals has its own copy of this module.)
-/
import proofs.«167660_j22771916603726_2_alg».proof.Proof.BK0RunA

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first kernel's body at a skipped last tile -/
set_option maxHeartbeats 8000000 in
/-- At the last key tile when that tile lies wholly after the query tile: nothing is accumulated; the running state is normalised and stored. -/
noncomputable def kernelRun0_B (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond0_0 i) (hc1 : ¬cond0_1 i) (hc2 : cond0_2 i)
    (x0 : Vec F S1x1024x1024 .bf16) (x1 : Vec F S1x1024x1024 .bf16) (x2 : Vec F S1x1024x1024 .bf16) (x3 : Vec F S1x1024x1024 .f32) (x4 : Vec F S1024 .f32) (x5 : Vec F S1024 .f32) (xs0 : Vec F S1024x1 .f32) (xs1 : Vec F S1024x1 .f32) (xs2 : Vec F S1024x1024 .f32) :
    Σ' (L6 : List (View.Piece (Elt F) S1x1024x1024 .f32)), Σ' (LS0 : List (View.Piece (Elt F) S1024x1 .f32)), Σ' (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__causal_attn_ln_kernel i arg3 harg3 arg4 harg4 arg5 harg5 arg6 harg6 arg7 harg7 arg8 harg8 arg9 harg9 arg10 harg10 arg11 harg11 arg12 harg12) K } := by
  refine ⟨?_, [], [], [], fun E K => ?run⟩
  case run =>
    simp only [cc0__causal_attn_ln_kernel_eq_skeleton]; unfold cc0__causal_attn_ln_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0; obtain rfl := harg11.eq_unread hfs1; obtain rfl := harg12.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    isplitl [HS1]; · iexists _; iexact HS1
    iexists _; iexact HS2

end Cert.Kernel.KF

end
-- ==== Proof.BK0RunC.lean ====
/-
  The causal-attention kernel's body at the last key tile on the diagonal: one more tile is accumulated onto the carried
  running state, which is then normalised and stored.
  (For the program as printed; the reading of the same program on the extended reals has its own copy of this module.)
-/
import proofs.«167660_j22771916603726_2_alg».proof.Proof.BK0RunB

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first kernel's body at a processed last tile -/
set_option maxHeartbeats 8000000 in
/-- At the last key tile on the diagonal: one more tile is accumulated onto the carried state, then the state is normalised and stored. -/
noncomputable def kernelRun0_C (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond0_0 i) (hc1 : cond0_1 i) (hc2 : cond0_2 i)
    (x0 : Vec F S1x1024x1024 .bf16) (x1 : Vec F S1x1024x1024 .bf16) (x2 : Vec F S1x1024x1024 .bf16) (x3 : Vec F S1x1024x1024 .f32) (x4 : Vec F S1024 .f32) (x5 : Vec F S1024 .f32) (xs0 : Vec F S1024x1 .f32) (xs1 : Vec F S1024x1 .f32) (xs2 : Vec F S1024x1024 .f32) :
    Σ' (L6 : List (View.Piece (Elt F) S1x1024x1024 .f32)), Σ' (LS0 : List (View.Piece (Elt F) S1024x1 .f32)), Σ' (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__causal_attn_ln_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__causal_attn_ln_kernel_eq_skeleton]; unfold cc0__causal_attn_ln_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0; obtain rfl := harg11.eq_unread hfs1; obtain rfl := harg12.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    isplitl [HS1]; · iexists _; iexact HS1
    iexists _; iexact HS2

end Cert.Kernel.KF

end
-- ==== Proof.BK0a.lean ====
/-
  The causal-attention kernel as a pipelined region. The grid's points come in pairs — the two key tiles of one block of
  1024 query rows —: what each window's buffer holds after the body at each point, and the invariant that carries the
  running maximum, normaliser and accumulator from the first point of a pair to the second.
  (For the program as printed; the reading of the same program on the extended reals has its own copy of this module.)
-/
import proofs.«167660_j22771916603726_2_alg».proof.Proof.BK0RunC

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Kernel 1 as a region: proof data and body obligation at the entry contents V.
    The grid's points come in pairs: an even point resets the running state and accumulates the first key tile; the odd
    point after it finishes the row block and stores it. So the running state is named only between the two. -/

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev ms0_0 (t : Fin cfg0.N) : Memref sig .tc .vmem S1x1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x1024 .f32 := win0_6.stage (cfg0.slots t 6)
abbrev hs0_6 (t : Fin cfg0.N) : (ms0_6 t).IsWhole := hstage0_6 ((cfg0.slots t 6).cast nbuf0_6)
abbrev scM0_0 : Memref sig .tc .vmem S1024x1 .f32 := Memref.whole cc0_scratch0
abbrev VS0_0 : View sig .tc .vmem S1024x1 .f32 := scM0_0.view
abbrev scM0_1 : Memref sig .tc .vmem S1024x1 .f32 := Memref.whole cc0_scratch1
abbrev VS0_1 : View sig .tc .vmem S1024x1 .f32 := scM0_1.view
abbrev scM0_2 : Memref sig .tc .vmem S1024x1024 .f32 := Memref.whole cc0_scratch2
abbrev VS0_2 : View sig .tc .vmem S1024x1024 .f32 := scM0_2.view
abbrev VO0_6 : View sig .tc .vmem S1x1024x1024 .f32 := (Memref.whole cc0_stg6_0 : Memref sig .tc .vmem S1x1024x1024 .f32).view

theorem liveAt0_in : ∀ (w : Fin 7), w.val < 6 → ∀ t : Fin cfg0.N, cfg0.idle w (grid0.coords t) = false := by decide +kernel
theorem idleAt0_6 : ∀ t : Fin cfg0.N, t.val % 2 = 0 → cfg0.idle 6 (grid0.coords t) = true := by decide +kernel
theorem liveAt0_6 : ∀ t : Fin cfg0.N, t.val % 2 = 1 → cfg0.idle 6 (grid0.coords t) = false := by decide +kernel
theorem noFlush0_6 : ∀ t : Fin cfg0.N, t.val % 2 = 0 → (cfg0.win 6).flush t = false := by decide +kernel

/-- The body's run at an even point. -/
def runA0 (c : Dev nD) (n : ℕ) (hn : n < cfg0.N) (h : n % 2 = 0) :=
  kernelRun0_A (F := F) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) scM0_0 (Memref.isWhole_whole _) scM0_1 (Memref.isWhole_whole _) scM0_2 (Memref.isWhole_whole _) ((hcond0_0 ⟨n, hn⟩).mpr h) ((hcond0_1 ⟨n, hn⟩).mpr (by show n % 4 ≠ 1; omega)) (fun h' => by have := (hcond0_2 ⟨n, hn⟩).mp h'; (try dsimp only at this); omega) (iblk0 V c 0 ⟨n, hn⟩) (iblk0 V c 1 ⟨n, hn⟩) (iblk0 V c 2 ⟨n, hn⟩) (iblk0 V c 3 ⟨n, hn⟩) (iblk0 V c 4 ⟨n, hn⟩) (iblk0 V c 5 ⟨n, hn⟩)

theorem scoverA0_0 (c : Dev nD) (n : ℕ) (hn : n < cfg0.N) (h : n % 2 = 0) (y : S1024x1.Idx) :
    ∃ pc ∈ (runA0 V c n hn h).1, y ∈ pc.1.set :=
  View.cover_of_tiledL (runA0 V c n hn h).1 S1024x1.size (by sl_kernel_rfl) y
/-- What an even point leaves in scratch 0. -/
def sA0_0 (c : Dev nD) (n : ℕ) (hn : n < cfg0.N) (h : n % 2 = 0) : Vec F S1024x1 .f32 :=
  VS0_0.read (Elt F) (VS0_0.writes (Elt F) VS0_0.junk (runA0 V c n hn h).1)
theorem scoverA0_1 (c : Dev nD) (n : ℕ) (hn : n < cfg0.N) (h : n % 2 = 0) (y : S1024x1.Idx) :
    ∃ pc ∈ (runA0 V c n hn h).2.1, y ∈ pc.1.set :=
  View.cover_of_tiledL (runA0 V c n hn h).2.1 S1024x1.size (by sl_kernel_rfl) y
/-- What an even point leaves in scratch 1. -/
def sA0_1 (c : Dev nD) (n : ℕ) (hn : n < cfg0.N) (h : n % 2 = 0) : Vec F S1024x1 .f32 :=
  VS0_1.read (Elt F) (VS0_1.writes (Elt F) VS0_1.junk (runA0 V c n hn h).2.1)
theorem scoverA0_2 (c : Dev nD) (n : ℕ) (hn : n < cfg0.N) (h : n % 2 = 0) (y : S1024x1024.Idx) :
    ∃ pc ∈ (runA0 V c n hn h).2.2.1, y ∈ pc.1.set :=
  View.cover_of_tiledL (runA0 V c n hn h).2.2.1 S1024x1024.size (by sl_kernel_rfl) y
/-- What an even point leaves in scratch 2. -/
def sA0_2 (c : Dev nD) (n : ℕ) (hn : n < cfg0.N) (h : n % 2 = 0) : Vec F S1024x1024 .f32 :=
  VS0_2.read (Elt F) (VS0_2.writes (Elt F) VS0_2.junk (runA0 V c n hn h).2.2.1)

/-- The body's run at an odd point whose key tile is skipped. -/
def runB0 (c : Dev nD) (n : ℕ) (hn : n < cfg0.N) (h : n % 2 = 1) (h4 : n % 4 = 1) :=
  kernelRun0_B (F := F) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) scM0_0 (Memref.isWhole_whole _) scM0_1 (Memref.isWhole_whole _) scM0_2 (Memref.isWhole_whole _) (fun h' => by have := (hcond0_0 ⟨n, hn⟩).mp h'; (try dsimp only at this); omega) (fun h' => ((hcond0_1 ⟨n, hn⟩).mp h') (by show n % 4 = 1; exact h4)) ((hcond0_2 ⟨n, hn⟩).mpr h) (iblk0 V c 0 ⟨n, hn⟩) (iblk0 V c 1 ⟨n, hn⟩) (iblk0 V c 2 ⟨n, hn⟩) (iblk0 V c 3 ⟨n, hn⟩) (iblk0 V c 4 ⟨n, hn⟩) (iblk0 V c 5 ⟨n, hn⟩) (sA0_0 V c (n - 1) (by omega) (by omega)) (sA0_1 V c (n - 1) (by omega) (by omega)) (sA0_2 V c (n - 1) (by omega) (by omega))
/-- The body's run at an odd point whose key tile is processed. -/
def runC0 (c : Dev nD) (n : ℕ) (hn : n < cfg0.N) (h : n % 2 = 1) (h4 : ¬ n % 4 = 1) :=
  kernelRun0_C (F := F) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) scM0_0 (Memref.isWhole_whole _) scM0_1 (Memref.isWhole_whole _) scM0_2 (Memref.isWhole_whole _) (fun h' => by have := (hcond0_0 ⟨n, hn⟩).mp h'; (try dsimp only at this); omega) ((hcond0_1 ⟨n, hn⟩).mpr (by show n % 4 ≠ 1; exact h4)) ((hcond0_2 ⟨n, hn⟩).mpr h) (iblk0 V c 0 ⟨n, hn⟩) (iblk0 V c 1 ⟨n, hn⟩) (iblk0 V c 2 ⟨n, hn⟩) (iblk0 V c 3 ⟨n, hn⟩) (iblk0 V c 4 ⟨n, hn⟩) (iblk0 V c 5 ⟨n, hn⟩) (sA0_0 V c (n - 1) (by omega) (by omega)) (sA0_1 V c (n - 1) (by omega) (by omega)) (sA0_2 V c (n - 1) (by omega) (by omega))

theorem coverB0_6 (c : Dev nD) (n : ℕ) (hn : n < cfg0.N) (h : n % 2 = 1) (h4 : n % 4 = 1) (y : S1x1024x1024.Idx) :
    ∃ pc ∈ (runB0 V c n hn h h4).1, y ∈ pc.1.set :=
  View.cover_of_tiledL (runB0 V c n hn h h4).1 S1x1024x1024.size (by sl_kernel_rfl) y
theorem coverC0_6 (c : Dev nD) (n : ℕ) (hn : n < cfg0.N) (h : n % 2 = 1) (h4 : ¬ n % 4 = 1) (y : S1x1024x1024.Idx) :
    ∃ pc ∈ (runC0 V c n hn h h4).1, y ∈ pc.1.set :=
  View.cover_of_tiledL (runC0 V c n hn h h4).1 S1x1024x1024.size (by sl_kernel_rfl) y

/-- The output block an odd point leaves in the staging buffer. -/
def outOdd0 (c : Dev nD) (n : ℕ) (hn : n < cfg0.N) (h : n % 2 = 1) : Vec F S1x1024x1024 .f32 :=
  if h4 : n % 4 = 1 then VO0_6.read (Elt F) (VO0_6.writes (Elt F) VO0_6.junk (runB0 V c n hn h h4).1)
  else VO0_6.read (Elt F) (VO0_6.writes (Elt F) VO0_6.junk (runC0 V c n hn h h4).1)
theorem outOdd0_B (c : Dev nD) (n : ℕ) (hn : n < cfg0.N) (h : n % 2 = 1) (h4 : n % 4 = 1) :
    outOdd0 V c n hn h = VO0_6.read (Elt F) (VO0_6.writes (Elt F) VO0_6.junk (runB0 V c n hn h h4).1) := by
  unfold outOdd0; rw [dif_pos h4]
theorem outOdd0_C (c : Dev nD) (n : ℕ) (hn : n < cfg0.N) (h : n % 2 = 1) (h4 : ¬ n % 4 = 1) :
    outOdd0 V c n hn h = VO0_6.read (Elt F) (VO0_6.writes (Elt F) VO0_6.junk (runC0 V c n hn h h4).1) := by
  unfold outOdd0; rw [dif_neg h4]

/-- The invariant before position n: after an even point the three scratch buffers at what it left; otherwise anything. -/
def PhiS0 (c : Dev nD) (n : ℕ) (hn : n ≤ cfg0.N) : sProp 𝕄 :=
  if h : n % 2 = 1 then
    iprop(iprop(owns (c : Thread nD τ) scM0_0 fullShare (sA0_0 V c (n - 1) (by omega) (by omega)) ∗ owns (c : Thread nD τ) scM0_1 fullShare (sA0_1 V c (n - 1) (by omega) (by omega)) ∗ owns (c : Thread nD τ) scM0_2 fullShare (sA0_2 V c (n - 1) (by omega) (by omega)))
      ∗ Pipeline.scopedRestBut (Ix := Unit) (Name := ℕ) (U := UR sig nD τ) (Lvl := ℕ) (Val := Elt F) spec0 c [cc0_scratch0, cc0_scratch1, cc0_scratch2] ∗ (∃ r, prngReg c r))
  else Pipeline.ΦA spec0 c

theorem PhiS0_even (c : Dev nD) (n : ℕ) (hn : n ≤ cfg0.N) (h : n % 2 = 0) : PhiS0 V c n hn = Pipeline.ΦA spec0 c := by
  unfold PhiS0; rw [dif_neg (by omega)]
theorem PhiS0_odd (c : Dev nD) (n : ℕ) (hn : n ≤ cfg0.N) (h : n % 2 = 1) : PhiS0 V c n hn =
    iprop(iprop(owns (c : Thread nD τ) scM0_0 fullShare (sA0_0 V c (n - 1) (by omega) (by omega)) ∗ owns (c : Thread nD τ) scM0_1 fullShare (sA0_1 V c (n - 1) (by omega) (by omega)) ∗ owns (c : Thread nD τ) scM0_2 fullShare (sA0_2 V c (n - 1) (by omega) (by omega)))
      ∗ Pipeline.scopedRestBut (Ix := Unit) (Name := ℕ) (U := UR sig nD τ) (Lvl := ℕ) (Val := Elt F) spec0 c [cc0_scratch0, cc0_scratch1, cc0_scratch2] ∗ (∃ r, prngReg c r)) := by
  unfold PhiS0; rw [dif_pos h]

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d))
          ∗ Pipeline.scopedRestBut (Ix := Unit) (Name := ℕ) (U := UR sig nD τ) (Lvl := ℕ) (Val := Elt F) spec0 c [cc0_scratch0, cc0_scratch1, cc0_scratch2]) ∗ (∃ r, prngReg c r)) := by
  unfold Pipeline.ΦA; rw [scopedRest0_split]; simp only [scM0_0, scM0_1, scM0_2, owns_whole]
  rfl

/-- The proof data: arrays as found; inputs left in place; the output at an odd point's block (an arbitrary value at even
    points, where the window is idle and not written back); the running state carried inside each pair of points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => if h : t.val % 2 = 1 then outOdd0 V c t.val t.isLt h else VO0_6.read (Elt F) VO0_6.junk
  Φ t := PhiS0 V c t.val (Nat.le_of_lt_succ t.isLt)
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) (h : t.val % 2 = 1) : (dat0 V c).after 6 t = outOdd0 V c t.val t.isLt h := by
  dsimp only [dat0]; rw [dif_pos h]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem PhiS0_castSucc (c : Dev nD) (t : Fin cfg0.N) :
    (dat0 V c).Φ t.castSucc = PhiS0 V c t.val (Nat.le_of_lt t.isLt) := by
  dsimp only [dat0]; simp only [Fin.coe_castSucc]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

end Cert.Kernel.KF

end
-- ==== Proof.BK0.lean ====
/-
  The causal-attention kernel's body meets its obligation at every grid point: the first point of a pair finds the three
  state buffers at anything and leaves them at the named state; the second finds that state and leaves the row block.
  (For the program as printed; the reading of the same program on the extended reals has its own copy of this module.)
-/
import proofs.«167660_j22771916603726_2_alg».proof.Proof.BK0a

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
/-- The body at any point: an even point finds the scratch at anything and leaves it at the named state, the output buffer
    untouched; an odd point finds the named state and leaves the output block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_castSucc V c t]
  rw [show (dat0 V c).leavesExact 0 t = owns (c : Thread nD τ) (ms0_0 t) fullShare ((dat0 V c).after 0 t) from by
    unfold Dat.leavesExact; rw [liveAt0_in 0 (by decide) t], after0_0]
  rw [show (dat0 V c).leavesExact 1 t = owns (c : Thread nD τ) (ms0_1 t) fullShare ((dat0 V c).after 1 t) from by
    unfold Dat.leavesExact; rw [liveAt0_in 1 (by decide) t], after0_1]
  rw [show (dat0 V c).leavesExact 2 t = owns (c : Thread nD τ) (ms0_2 t) fullShare ((dat0 V c).after 2 t) from by
    unfold Dat.leavesExact; rw [liveAt0_in 2 (by decide) t], after0_2]
  rw [show (dat0 V c).leavesExact 3 t = owns (c : Thread nD τ) (ms0_3 t) fullShare ((dat0 V c).after 3 t) from by
    unfold Dat.leavesExact; rw [liveAt0_in 3 (by decide) t], after0_3]
  rw [show (dat0 V c).leavesExact 4 t = owns (c : Thread nD τ) (ms0_4 t) fullShare ((dat0 V c).after 4 t) from by
    unfold Dat.leavesExact; rw [liveAt0_in 4 (by decide) t], after0_4]
  rw [show (dat0 V c).leavesExact 5 t = owns (c : Thread nD τ) (ms0_5 t) fullShare ((dat0 V c).after 5 t) from by
    unfold Dat.leavesExact; rw [liveAt0_in 5 (by decide) t], after0_5]
  by_cases h0 : t.val % 2 = 0
  · rw [Dat.leavesExact_idle (dat0 V c) 6 t (idleAt0_6 t h0) (noFlush0_6 t h0)]
    rw [PhiS0_even V c _ _ h0, PhiA0_eq, PhiS0_odd V c _ _ (by omega)]
    iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((runA0 V c t.val t.isLt h0).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, ⟨%es0, HS0⟩, ⟨%es1, HS1⟩, ⟨%es2, HS2⟩⟩
    isplitl [HS0 HS1 HS2 Hrest Hg]
    · isplitl [HS0 HS1 HS2]
      · isplitl [HS0]
        · unfold owns; iexists _; isplitr
          swap; · iexact HS0
          ipureintro; exact View.read_writes_of_cover _ _ _ _ _ (scoverA0_0 V c _ _ _)
        isplitl [HS1]
        · unfold owns; iexists _; isplitr
          swap; · iexact HS1
          ipureintro; exact View.read_writes_of_cover _ _ _ _ _ (scoverA0_1 V c _ _ _)
        unfold owns; iexists _; isplitr
        swap; · iexact HS2
        ipureintro; exact View.read_writes_of_cover _ _ _ _ _ (scoverA0_2 V c _ _ _)
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  ·
    have h1 : t.val % 2 = 1 := by omega
    rw [show (dat0 V c).leavesExact 6 t = owns (c : Thread nD τ) (ms0_6 t) fullShare ((dat0 V c).after 6 t) from by
      unfold Dat.leavesExact; rw [liveAt0_6 t h1], after0_6 V c t h1]
    rw [PhiS0_odd V c _ _ h1, PhiS0_even V c _ _ (by omega), PhiA0_eq]
    by_cases h4 : t.val % 4 = 1
    · rw [outOdd0_B V c _ _ h1 h4]
      iintro ⟨⟨⟨HS0, HS1, HS2⟩, Hrest, Hg⟩, Ho, ⟨%d0, H0⟩, ⟨%d1, H1⟩, ⟨%d2, H2⟩, ⟨%d3, H3⟩, ⟨%d4, H4⟩, ⟨%d5, H5⟩, ⟨%d6, H6⟩⟩
      iapply ((runB0 V c t.val t.isLt h1 h4).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, ⟨%e6, H6⟩, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · iexists _; unfold owns; iexists _; isplitr
              swap; · iexact HS0
              ipureintro; rfl
            isplitl [HS1]
            · iexists _; unfold owns; iexists _; isplitr
              swap; · iexact HS1
              ipureintro; rfl
            iexists _; unfold owns; iexists _; isplitr
            swap; · iexact HS2
            ipureintro; rfl
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverB0_6 V c _ _ _ _)
    · rw [outOdd0_C V c _ _ h1 h4]
      iintro ⟨⟨⟨HS0, HS1, HS2⟩, Hrest, Hg⟩, Ho, ⟨%d0, H0⟩, ⟨%d1, H1⟩, ⟨%d2, H2⟩, ⟨%d3, H3⟩, ⟨%d4, H4⟩, ⟨%d5, H5⟩, ⟨%d6, H6⟩⟩
      iapply ((runC0 V c t.val t.isLt h1 h4).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, ⟨%e6, H6⟩, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · iexists _; unfold owns; iexists _; isplitr
              swap; · iexact HS0
              ipureintro; rfl
            isplitl [HS1]
            · iexists _; unfold owns; iexists _; isplitr
              swap; · iexact HS1
              ipureintro; rfl
            iexists _; unfold owns; iexists _; isplitr
            swap; · iexact HS2
            ipureintro; rfl
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverC0_6 V c _ _ _ _)

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_even V c 0 _ rfl]

theorem hout0 (c : Dev nD) : (dat0 V c).Φ (Fin.last cfg0.N) ⊢ Pipeline.ΦA spec0 c := by
  rw [show (dat0 V c).Φ (Fin.last cfg0.N) = PhiS0 V c cfg0.N (Nat.le_refl _) from rfl, PhiS0_even V c _ _ (by rw [show cfg0.N = 16 from N_0])]

end Cert.Kernel.KF

end
-- ==== Proof.BK1RunA.lean ====
/-
  The memory-attention kernel's body at the first key tile of a row block: the running state is reset and one tile is
  accumulated; the output buffer is not touched.
  (For the program as printed; the reading of the same program on the extended reals has its own copy of this module.)
-/
import proofs.«167660_j22771916603726_2_alg».proof.Proof.BK0RunC

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second kernel (attention over the memory): its body on whole buffers, case by case -/

/-- The reset of the running state is taken at the first key tile. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- The normalise-and-store branch is taken at the last key tile. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)
set_option maxHeartbeats 8000000 in
/-- At the first key tile: the running state is reset and one tile is accumulated; the output buffer is not touched. -/
noncomputable def kernelRun1_A (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond1_0 i) (hc1 : ¬cond1_1 i)
    (x0 : Vec F S1x1024x1024 .bf16) (x1 : Vec F S1x1024x1024 .bf16) (x2 : Vec F S1x1024x1024 .bf16) (x3 : Vec F S1x1024x1024 .f32) (x4 : Vec F S1024 .f32) (x5 : Vec F S1024 .f32)  :
    Σ' (LS0 : List (View.Piece (Elt F) S1024x1 .f32)), Σ' (LS1 : List (View.Piece (Elt F) S1024x1 .f32)), { LS2 : List (View.Piece (Elt F) S1024x1024 .f32) //
      ∀ (xi6 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__cross_attn_ln_kernel i arg3 harg3 arg4 harg4 arg5 harg5 arg6 harg6 arg7 harg7 arg8 harg8 arg9 harg9 arg10 harg10 arg11 harg11 arg12 harg12) K } := by
  refine ⟨?_, ?_, ?_, fun xi6 E K => ?run⟩
  case run =>
    simp only [cc1__cross_attn_ln_kernel_eq_skeleton]; unfold cc1__cross_attn_ln_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

end Cert.Kernel.KF

end
-- ==== Proof.BK1RunB.lean ====
/-
  The memory-attention kernel's body at the last key tile: one more tile is accumulated onto the carried running state,
  which is then normalised and stored.
  (For the program as printed; the reading of the same program on the extended reals has its own copy of this module.)
-/
import proofs.«167660_j22771916603726_2_alg».proof.Proof.BK1RunA

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second kernel's body at the last tile -/
set_option maxHeartbeats 8000000 in
/-- At the last key tile: one more tile is accumulated onto the carried state, then the state is normalised and stored. -/
noncomputable def kernelRun1_B (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : cond1_1 i)
    (x0 : Vec F S1x1024x1024 .bf16) (x1 : Vec F S1x1024x1024 .bf16) (x2 : Vec F S1x1024x1024 .bf16) (x3 : Vec F S1x1024x1024 .f32) (x4 : Vec F S1024 .f32) (x5 : Vec F S1024 .f32) (xs0 : Vec F S1024x1 .f32) (xs1 : Vec F S1024x1 .f32) (xs2 : Vec F S1024x1024 .f32) :
    Σ' (L6 : List (View.Piece (Elt F) S1x1024x1024 .f32)), Σ' (LS0 : List (View.Piece (Elt F) S1024x1 .f32)), Σ' (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__cross_attn_ln_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__cross_attn_ln_kernel_eq_skeleton]; unfold cc1__cross_attn_ln_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    isplitl [HS1]; · iexists _; iexact HS1
    iexists _; iexact HS2

end Cert.Kernel.KF

end
-- ==== Proof.BK1a.lean ====
/-
  The memory-attention kernel as a pipelined region: what each window's buffer holds after the body at each point of a
  pair of key tiles, and the invariant carrying the running softmax state from the first point of a pair to the second.
  (For the program as printed; the reading of the same program on the extended reals has its own copy of this module.)
-/
import proofs.«167660_j22771916603726_2_alg».proof.Proof.BK1RunB

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Kernel 2 as a region: proof data and body obligation at the entry contents V.
    The grid's points come in pairs: an even point resets the running state and accumulates the first key tile; the odd
    point after it finishes the row block and stores it. So the running state is named only between the two. -/

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024x1024 .f32 := win1_6.stage (cfg1.slots t 6)
abbrev hs1_6 (t : Fin cfg1.N) : (ms1_6 t).IsWhole := hstage1_6 ((cfg1.slots t 6).cast nbuf1_6)
abbrev scM1_0 : Memref sig .tc .vmem S1024x1 .f32 := Memref.whole cc1_scratch0
abbrev VS1_0 : View sig .tc .vmem S1024x1 .f32 := scM1_0.view
abbrev scM1_1 : Memref sig .tc .vmem S1024x1 .f32 := Memref.whole cc1_scratch1
abbrev VS1_1 : View sig .tc .vmem S1024x1 .f32 := scM1_1.view
abbrev scM1_2 : Memref sig .tc .vmem S1024x1024 .f32 := Memref.whole cc1_scratch2
abbrev VS1_2 : View sig .tc .vmem S1024x1024 .f32 := scM1_2.view
abbrev VO1_6 : View sig .tc .vmem S1x1024x1024 .f32 := (Memref.whole cc1_stg6_0 : Memref sig .tc .vmem S1x1024x1024 .f32).view

theorem liveAt1_in : ∀ (w : Fin 7), w.val < 6 → ∀ t : Fin cfg1.N, cfg1.idle w (grid1.coords t) = false := by decide +kernel
theorem idleAt1_6 : ∀ t : Fin cfg1.N, t.val % 2 = 0 → cfg1.idle 6 (grid1.coords t) = true := by decide +kernel
theorem liveAt1_6 : ∀ t : Fin cfg1.N, t.val % 2 = 1 → cfg1.idle 6 (grid1.coords t) = false := by decide +kernel
theorem noFlush1_6 : ∀ t : Fin cfg1.N, t.val % 2 = 0 → (cfg1.win 6).flush t = false := by decide +kernel

/-- The body's run at an even point. -/
def runA1 (c : Dev nD) (n : ℕ) (hn : n < cfg1.N) (h : n % 2 = 0) :=
  kernelRun1_A (F := F) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) scM1_0 (Memref.isWhole_whole _) scM1_1 (Memref.isWhole_whole _) scM1_2 (Memref.isWhole_whole _) ((hcond1_0 ⟨n, hn⟩).mpr h) (fun h' => by have := (hcond1_1 ⟨n, hn⟩).mp h'; (try dsimp only at this); omega) (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩)

theorem scoverA1_0 (c : Dev nD) (n : ℕ) (hn : n < cfg1.N) (h : n % 2 = 0) (y : S1024x1.Idx) :
    ∃ pc ∈ (runA1 V c n hn h).1, y ∈ pc.1.set :=
  View.cover_of_tiledL (runA1 V c n hn h).1 S1024x1.size (by sl_kernel_rfl) y
/-- What an even point leaves in scratch 0. -/
def sA1_0 (c : Dev nD) (n : ℕ) (hn : n < cfg1.N) (h : n % 2 = 0) : Vec F S1024x1 .f32 :=
  VS1_0.read (Elt F) (VS1_0.writes (Elt F) VS1_0.junk (runA1 V c n hn h).1)
theorem scoverA1_1 (c : Dev nD) (n : ℕ) (hn : n < cfg1.N) (h : n % 2 = 0) (y : S1024x1.Idx) :
    ∃ pc ∈ (runA1 V c n hn h).2.1, y ∈ pc.1.set :=
  View.cover_of_tiledL (runA1 V c n hn h).2.1 S1024x1.size (by sl_kernel_rfl) y
/-- What an even point leaves in scratch 1. -/
def sA1_1 (c : Dev nD) (n : ℕ) (hn : n < cfg1.N) (h : n % 2 = 0) : Vec F S1024x1 .f32 :=
  VS1_1.read (Elt F) (VS1_1.writes (Elt F) VS1_1.junk (runA1 V c n hn h).2.1)
theorem scoverA1_2 (c : Dev nD) (n : ℕ) (hn : n < cfg1.N) (h : n % 2 = 0) (y : S1024x1024.Idx) :
    ∃ pc ∈ (runA1 V c n hn h).2.2.1, y ∈ pc.1.set :=
  View.cover_of_tiledL (runA1 V c n hn h).2.2.1 S1024x1024.size (by sl_kernel_rfl) y
/-- What an even point leaves in scratch 2. -/
def sA1_2 (c : Dev nD) (n : ℕ) (hn : n < cfg1.N) (h : n % 2 = 0) : Vec F S1024x1024 .f32 :=
  VS1_2.read (Elt F) (VS1_2.writes (Elt F) VS1_2.junk (runA1 V c n hn h).2.2.1)

/-- The body's run at an odd point. -/
def runB1 (c : Dev nD) (n : ℕ) (hn : n < cfg1.N) (h : n % 2 = 1) :=
  kernelRun1_B (F := F) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) scM1_0 (Memref.isWhole_whole _) scM1_1 (Memref.isWhole_whole _) scM1_2 (Memref.isWhole_whole _) (fun h' => by have := (hcond1_0 ⟨n, hn⟩).mp h'; (try dsimp only at this); omega) ((hcond1_1 ⟨n, hn⟩).mpr h) (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩) (sA1_0 V c (n - 1) (by omega) (by omega)) (sA1_1 V c (n - 1) (by omega) (by omega)) (sA1_2 V c (n - 1) (by omega) (by omega))

theorem coverB1_6 (c : Dev nD) (n : ℕ) (hn : n < cfg1.N) (h : n % 2 = 1) (y : S1x1024x1024.Idx) :
    ∃ pc ∈ (runB1 V c n hn h).1, y ∈ pc.1.set :=
  View.cover_of_tiledL (runB1 V c n hn h).1 S1x1024x1024.size (by sl_kernel_rfl) y

/-- The output block an odd point leaves in the staging buffer. -/
def outOdd1 (c : Dev nD) (n : ℕ) (hn : n < cfg1.N) (h : n % 2 = 1) : Vec F S1x1024x1024 .f32 :=
  VO1_6.read (Elt F) (VO1_6.writes (Elt F) VO1_6.junk (runB1 V c n hn h).1)

/-- The invariant before position n: after an even point the three scratch buffers at what it left; otherwise anything. -/
def PhiS1 (c : Dev nD) (n : ℕ) (hn : n ≤ cfg1.N) : sProp 𝕄 :=
  if h : n % 2 = 1 then
    iprop(iprop(owns (c : Thread nD τ) scM1_0 fullShare (sA1_0 V c (n - 1) (by omega) (by omega)) ∗ owns (c : Thread nD τ) scM1_1 fullShare (sA1_1 V c (n - 1) (by omega) (by omega)) ∗ owns (c : Thread nD τ) scM1_2 fullShare (sA1_2 V c (n - 1) (by omega) (by omega)))
      ∗ Pipeline.scopedRestBut (Ix := Unit) (Name := ℕ) (U := UR sig nD τ) (Lvl := ℕ) (Val := Elt F) spec1 c [cc1_scratch0, cc1_scratch1, cc1_scratch2] ∗ (∃ r, prngReg c r))
  else Pipeline.ΦA spec1 c

theorem PhiS1_even (c : Dev nD) (n : ℕ) (hn : n ≤ cfg1.N) (h : n % 2 = 0) : PhiS1 V c n hn = Pipeline.ΦA spec1 c := by
  unfold PhiS1; rw [dif_neg (by omega)]
theorem PhiS1_odd (c : Dev nD) (n : ℕ) (hn : n ≤ cfg1.N) (h : n % 2 = 1) : PhiS1 V c n hn =
    iprop(iprop(owns (c : Thread nD τ) scM1_0 fullShare (sA1_0 V c (n - 1) (by omega) (by omega)) ∗ owns (c : Thread nD τ) scM1_1 fullShare (sA1_1 V c (n - 1) (by omega) (by omega)) ∗ owns (c : Thread nD τ) scM1_2 fullShare (sA1_2 V c (n - 1) (by omega) (by omega)))
      ∗ Pipeline.scopedRestBut (Ix := Unit) (Name := ℕ) (U := UR sig nD τ) (Lvl := ℕ) (Val := Elt F) spec1 c [cc1_scratch0, cc1_scratch1, cc1_scratch2] ∗ (∃ r, prngReg c r)) := by
  unfold PhiS1; rw [dif_pos h]

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d))
          ∗ Pipeline.scopedRestBut (Ix := Unit) (Name := ℕ) (U := UR sig nD τ) (Lvl := ℕ) (Val := Elt F) spec1 c [cc1_scratch0, cc1_scratch1, cc1_scratch2]) ∗ (∃ r, prngReg c r)) := by
  unfold Pipeline.ΦA; rw [scopedRest1_split]; simp only [scM1_0, scM1_1, scM1_2, owns_whole]
  rfl

/-- The proof data: arrays as found; inputs left in place; the output at an odd point's block (an arbitrary value at even
    points, where the window is idle and not written back); the running state carried inside each pair of points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => if h : t.val % 2 = 1 then outOdd1 V c t.val t.isLt h else VO1_6.read (Elt F) VO1_6.junk
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) (h : t.val % 2 = 1) : (dat1 V c).after 6 t = outOdd1 V c t.val t.isLt h := by
  dsimp only [dat1]; rw [dif_pos h]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem PhiS1_castSucc (c : Dev nD) (t : Fin cfg1.N) :
    (dat1 V c).Φ t.castSucc = PhiS1 V c t.val (Nat.le_of_lt t.isLt) := by
  dsimp only [dat1]; simp only [Fin.coe_castSucc]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

end Cert.Kernel.KF

end
-- ==== Proof.BK1.lean ====
/-
  The memory-attention kernel's body meets its obligation at every grid point, pair by pair.
  (For the program as printed; the reading of the same program on the extended reals has its own copy of this module.)
-/
import proofs.«167660_j22771916603726_2_alg».proof.Proof.BK1a

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
/-- The body at any point: an even point finds the scratch at anything and leaves it at the named state, the output buffer
    untouched; an odd point finds the named state and leaves the output block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_castSucc V c t]
  rw [show (dat1 V c).leavesExact 0 t = owns (c : Thread nD τ) (ms1_0 t) fullShare ((dat1 V c).after 0 t) from by
    unfold Dat.leavesExact; rw [liveAt1_in 0 (by decide) t], after1_0]
  rw [show (dat1 V c).leavesExact 1 t = owns (c : Thread nD τ) (ms1_1 t) fullShare ((dat1 V c).after 1 t) from by
    unfold Dat.leavesExact; rw [liveAt1_in 1 (by decide) t], after1_1]
  rw [show (dat1 V c).leavesExact 2 t = owns (c : Thread nD τ) (ms1_2 t) fullShare ((dat1 V c).after 2 t) from by
    unfold Dat.leavesExact; rw [liveAt1_in 2 (by decide) t], after1_2]
  rw [show (dat1 V c).leavesExact 3 t = owns (c : Thread nD τ) (ms1_3 t) fullShare ((dat1 V c).after 3 t) from by
    unfold Dat.leavesExact; rw [liveAt1_in 3 (by decide) t], after1_3]
  rw [show (dat1 V c).leavesExact 4 t = owns (c : Thread nD τ) (ms1_4 t) fullShare ((dat1 V c).after 4 t) from by
    unfold Dat.leavesExact; rw [liveAt1_in 4 (by decide) t], after1_4]
  rw [show (dat1 V c).leavesExact 5 t = owns (c : Thread nD τ) (ms1_5 t) fullShare ((dat1 V c).after 5 t) from by
    unfold Dat.leavesExact; rw [liveAt1_in 5 (by decide) t], after1_5]
  by_cases h0 : t.val % 2 = 0
  · rw [Dat.leavesExact_idle (dat1 V c) 6 t (idleAt1_6 t h0) (noFlush1_6 t h0)]
    rw [PhiS1_even V c _ _ h0, PhiA1_eq, PhiS1_odd V c _ _ (by omega)]
    iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((runA1 V c t.val t.isLt h0).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, ⟨%es0, HS0⟩, ⟨%es1, HS1⟩, ⟨%es2, HS2⟩⟩
    isplitl [HS0 HS1 HS2 Hrest Hg]
    · isplitl [HS0 HS1 HS2]
      · isplitl [HS0]
        · unfold owns; iexists _; isplitr
          swap; · iexact HS0
          ipureintro; exact View.read_writes_of_cover _ _ _ _ _ (scoverA1_0 V c _ _ _)
        isplitl [HS1]
        · unfold owns; iexists _; isplitr
          swap; · iexact HS1
          ipureintro; exact View.read_writes_of_cover _ _ _ _ _ (scoverA1_1 V c _ _ _)
        unfold owns; iexists _; isplitr
        swap; · iexact HS2
        ipureintro; exact View.read_writes_of_cover _ _ _ _ _ (scoverA1_2 V c _ _ _)
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  ·
    have h1 : t.val % 2 = 1 := by omega
    rw [show (dat1 V c).leavesExact 6 t = owns (c : Thread nD τ) (ms1_6 t) fullShare ((dat1 V c).after 6 t) from by
      unfold Dat.leavesExact; rw [liveAt1_6 t h1], after1_6 V c t h1]
    rw [PhiS1_odd V c _ _ h1, PhiS1_even V c _ _ (by omega), PhiA1_eq]
    unfold outOdd1
    iintro ⟨⟨⟨HS0, HS1, HS2⟩, Hrest, Hg⟩, Ho, ⟨%d0, H0⟩, ⟨%d1, H1⟩, ⟨%d2, H2⟩, ⟨%d3, H3⟩, ⟨%d4, H4⟩, ⟨%d5, H5⟩, ⟨%d6, H6⟩⟩
    iapply ((runB1 V c t.val t.isLt h1).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, ⟨%e6, H6⟩, ⟨%es0, HS0⟩, ⟨%es1, HS1⟩, ⟨%es2, HS2⟩⟩
    isplitl [HS0 HS1 HS2 Hrest Hg]
    · isplitl [HS0 HS1 HS2 Hrest]
      · isplitl [HS0 HS1 HS2]
        · isplitl [HS0]
          · iexists _; unfold owns; iexists _; isplitr
            swap; · iexact HS0
            ipureintro; rfl
          isplitl [HS1]
          · iexists _; unfold owns; iexists _; isplitr
            swap; · iexact HS1
            ipureintro; rfl
          iexists _; unfold owns; iexists _; isplitr
          swap; · iexact HS2
          ipureintro; rfl
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverB1_6 V c _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_even V c 0 _ rfl]

theorem hout1 (c : Dev nD) : (dat1 V c).Φ (Fin.last cfg1.N) ⊢ Pipeline.ΦA spec1 c := by
  rw [show (dat1 V c).Φ (Fin.last cfg1.N) = PhiS1 V c cfg1.N (Nat.le_refl _) from rfl, PhiS1_even V c _ _ (by rw [show cfg1.N = 16 from N_1])]

end Cert.Kernel.KF

end
-- ==== Proof.BK2Run.lean ====
/-
  The feed-forward kernel's body run symbolically on whole buffers: from the seven input buffers at given contents it
  terminates without a fault, leaves the inputs as they were and the output buffer with the body's stores written.
  (For the program as printed; the reading of the same program on the extended reals has its own copy of this module.)
-/
import proofs.«167660_j22771916603726_2_alg».proof.Proof.Gen.Kernel.Launch
import proofs.«167660_j22771916603726_2_alg».proof.Proof.Gen.Kernel.Skeleton
import proofs.«167660_j22771916603726_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The third kernel (feed-forward and normalisation): its body on whole staging buffers -/

set_option maxHeartbeats 4000000 in
/-- The body on whole staging buffers — the seven inputs at contents x0 … x6, the output's at anything — runs to the
    continuation holding the inputs as they were and the output's buffer with the body's pieces written. -/
noncomputable def kernelRun2 (c : Dev nD) (i : grid2.Coords) (arg1 : Memref sig .tc .vmem S512x1024 .f32) (harg1 : arg1.IsWhole) (arg2 : Memref sig .tc .vmem S1024x4096 .bf16) (harg2 : arg2.IsWhole) (arg3 : Memref sig .tc .vmem S4096 .f32) (harg3 : arg3.IsWhole) (arg4 : Memref sig .tc .vmem S4096x1024 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S512x1024 .f32) (harg8 : arg8.IsWhole)
    (x0 : Vec F S512x1024 .f32) (x1 : Vec F S1024x4096 .bf16) (x2 : Vec F S4096 .f32) (x3 : Vec F S4096x1024 .bf16) (x4 : Vec F S1024 .f32) (x5 : Vec F S1024 .f32) (x6 : Vec F S1024 .f32) :
    { L7 : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)) -∗ K ⟨⟩))
          ⊢ wp frame (wpE (defs₀ (F := F)) Variants.none c none) E (cc2__ffn_ln_kernel i arg1 harg1 arg2 harg2 arg3 harg3 arg4 harg4 arg5 harg5 arg6 harg6 arg7 harg7 arg8 harg8) K } := by
  refine ⟨?_, fun E K => ?run⟩
  case run =>
    simp only [cc2__ffn_ln_kernel_eq_skeleton]; unfold cc2__ffn_ln_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

end Cert.Kernel.KF

end
-- ==== Proof.BK2.lean ====
/-
  The feed-forward kernel as a pipelined region: every point reads a block of 512 rows and the whole weights and writes
  the block's result; nothing is carried between points.
  (For the program as printed; the reading of the same program on the extended reals has its own copy of this module.)
-/
import proofs.«167660_j22771916603726_2_alg».proof.Proof.BK2Run

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The third kernel as a region: proof data and body obligation at the entry contents V -/

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

abbrev ms2_0 (t : Fin cfg2.N) : Memref sig .tc .vmem S512x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x4096 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S512x1024 .f32 := win2_7.stage (cfg2.slots t 7)
abbrev hs2_7 (t : Fin cfg2.N) : (ms2_7 t).IsWhole := hstage2_7 ((cfg2.slots t 7).cast nbuf2_7)

/-- One staging buffer of the output window, through which its contents are stated. -/
abbrev VO2_7 : View sig .tc .vmem S512x1024 .f32 := (Memref.whole cc2_stg7_0 : Memref sig .tc .vmem S512x1024 .f32).view

/-- The body's pieces for the output tile its block, so they cover it. -/
theorem cover2_7 (c : Dev nD) (i : grid2.Coords) (arg1 : Memref sig .tc .vmem S512x1024 .f32) (harg1 : arg1.IsWhole) (arg2 : Memref sig .tc .vmem S1024x4096 .bf16) (harg2 : arg2.IsWhole) (arg3 : Memref sig .tc .vmem S4096 .f32) (harg3 : arg3.IsWhole) (arg4 : Memref sig .tc .vmem S4096x1024 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S512x1024 .f32) (harg8 : arg8.IsWhole) (x0 : Vec F S512x1024 .f32) (x1 : Vec F S1024x4096 .bf16) (x2 : Vec F S4096 .f32) (x3 : Vec F S4096x1024 .bf16) (x4 : Vec F S1024 .f32) (x5 : Vec F S1024 .f32) (x6 : Vec F S1024 .f32) (y : S512x1024.Idx) :
    ∃ pc ∈ (kernelRun2 c i arg1 harg1 arg2 harg2 arg3 harg3 arg4 harg4 arg5 harg5 arg6 harg6 arg7 harg7 arg8 harg8 x0 x1 x2 x3 x4 x5 x6).1, y ∈ pc.1.set :=
  View.cover_of_tiledL (kernelRun2 c i arg1 harg1 arg2 harg2 arg3 harg3 arg4 harg4 arg5 harg5 arg6 harg6 arg7 harg7 arg8 harg8 x0 x1 x2 x3 x4 x5 x6).1 S512x1024.size (by sl_kernel_rfl) y

/-- What the body leaves in the output's staging buffer: its pieces read back. -/
def out2_7 (c : Dev nD) (i : grid2.Coords) (arg1 : Memref sig .tc .vmem S512x1024 .f32) (harg1 : arg1.IsWhole) (arg2 : Memref sig .tc .vmem S1024x4096 .bf16) (harg2 : arg2.IsWhole) (arg3 : Memref sig .tc .vmem S4096 .f32) (harg3 : arg3.IsWhole) (arg4 : Memref sig .tc .vmem S4096x1024 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S512x1024 .f32) (harg8 : arg8.IsWhole) (x0 : Vec F S512x1024 .f32) (x1 : Vec F S1024x4096 .bf16) (x2 : Vec F S4096 .f32) (x3 : Vec F S4096x1024 .bf16) (x4 : Vec F S1024 .f32) (x5 : Vec F S1024 .f32) (x6 : Vec F S1024 .f32) : Vec F S512x1024 .f32 :=
  VO2_7.read (Elt F) (VO2_7.writes (Elt F) VO2_7.junk (kernelRun2 c i arg1 harg1 arg2 harg2 arg3 harg3 arg4 harg4 arg5 harg5 arg6 harg6 arg7 harg7 arg8 harg8 x0 x1 x2 x3 x4 x5 x6).1)

/-- The output block of point t. -/
def outAt2 (c : Dev nD) (t : Fin cfg2.N) : Vec F S512x1024 .f32 :=
  out2_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t) (iblk2 V c 5 t) (iblk2 V c 6 t)

/-- The proof data: arrays as found, inputs left in place, the output at the body's result, nothing carried. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  unfold outAt2 out2_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t) (iblk2 V c 5 t) (iblk2 V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover2_7 c _ _ _ _ _ _ _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

end Cert.Kernel.KF

end
-- ==== Proof.BKRunCond.lean ====
/-
  The whole program's run from one record per kernel region: the host operations between the regions are run as they
  stand, and the result buffer and the arguments are read off the last valuation of the buffers.
  (For the program as printed; the reading of the same program on the extended reals has its own copy of this module.)
-/
import proofs.«167660_j22771916603726_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

/-! # The whole program's run from its regions' records, with the result buffer read at the end -/

set_option backward.isDefEq.respectTransparency.types false in
/-- The run of the whole program given the three regions' records: every weakly fair execution terminates, the result
    buffer ends at the last valuation's contents and every argument as launched. -/
theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      r.2.mem ((c.tc : Thread nD τ).loc main_v9) = V7 m outs c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, hpre0 c, hpost0 c, hpre1 c, hpost1 c, hpre2 c, hpost2 c, sep_mono .rfl (hE3 c)⟩)
    (hinit := ?_) (QY := fun c s => s.mem ((c.tc : Thread nD τ).loc main_v9) = V7 m outs c main_v9 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact ⟨h (Proc.devRef .tc main_v9) (Finset.mem_filter.mpr ⟨StableHlo.devRef_mem_tcRefs main_v9, by decide⟩),
        (h (Proc.devRef .tc main_arg0) (Finset.mem_filter.mpr ⟨StableHlo.devRef_mem_tcRefs main_arg0, by decide⟩)).trans (V7_main_arg0 m outs c),
        (h (Proc.devRef .tc main_arg1) (Finset.mem_filter.mpr ⟨StableHlo.devRef_mem_tcRefs main_arg1, by decide⟩)).trans (V7_main_arg1 m outs c),
        (h (Proc.devRef .tc main_arg2) (Finset.mem_filter.mpr ⟨StableHlo.devRef_mem_tcRefs main_arg2, by decide⟩)).trans (V7_main_arg2 m outs c),
        (h (Proc.devRef .tc main_arg3) (Finset.mem_filter.mpr ⟨StableHlo.devRef_mem_tcRefs main_arg3, by decide⟩)).trans (V7_main_arg3 m outs c),
        (h (Proc.devRef .tc main_arg4) (Finset.mem_filter.mpr ⟨StableHlo.devRef_mem_tcRefs main_arg4, by decide⟩)).trans (V7_main_arg4 m outs c),
        (h (Proc.devRef .tc main_arg5) (Finset.mem_filter.mpr ⟨StableHlo.devRef_mem_tcRefs main_arg5, by decide⟩)).trans (V7_main_arg5 m outs c),
        (h (Proc.devRef .tc main_arg6) (Finset.mem_filter.mpr ⟨StableHlo.devRef_mem_tcRefs main_arg6, by decide⟩)).trans (V7_main_arg6 m outs c),
        (h (Proc.devRef .tc main_arg7) (Finset.mem_filter.mpr ⟨StableHlo.devRef_mem_tcRefs main_arg7, by decide⟩)).trans (V7_main_arg7 m outs c),
        (h (Proc.devRef .tc main_arg8) (Finset.mem_filter.mpr ⟨StableHlo.devRef_mem_tcRefs main_arg8, by decide⟩)).trans (V7_main_arg8 m outs c),
        (h (Proc.devRef .tc main_arg9) (Finset.mem_filter.mpr ⟨StableHlo.devRef_mem_tcRefs main_arg9, by decide⟩)).trans (V7_main_arg9 m outs c),
        (h (Proc.devRef .tc main_arg10) (Finset.mem_filter.mpr ⟨StableHlo.devRef_mem_tcRefs main_arg10, by decide⟩)).trans (V7_main_arg10 m outs c),
        (h (Proc.devRef .tc main_arg11) (Finset.mem_filter.mpr ⟨StableHlo.devRef_mem_tcRefs main_arg11, by decide⟩)).trans (V7_main_arg11 m outs c)⟩
    · iexact HSI

end Cert.Kernel.KF

end
-- ==== Proof.BKFrame.lean ====
/-
  The three kernels as segments of the program. A region's arrays are split out of the unscoped buffers at its entry —
  the array several input windows read is shared among them, each window holding a part of the full share — and put
  back at its exit; what a region leaves in its result is chosen region by region, each choice reading only the earlier
  ones. From these the program runs to the end, keeps its arguments and ends with the named result.
  (For the program as printed; the reading of the same program on the extended reals has its own copy of this module.)
-/
import proofs.«167660_j22771916603726_2_alg».proof.Proof.BK0
import proofs.«167660_j22771916603726_2_alg».proof.Proof.BK1
import proofs.«167660_j22771916603726_2_alg».proof.Proof.BK2
import proofs.«167660_j22771916603726_2_alg».proof.Proof.BKRunCond

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

/-! # The three regions as segments of the program, and the program's run -/

set_option maxHeartbeats 4000000 in
/-- The distinct buffers behind region 0's arrays, each whole at the full share, are its windows' arrays at their shares:
    the array several input windows read is split among them, and joined again, along the share. -/
theorem arrays_split0 {c : Dev nD} (dat : Dat τ (Elt F) Unit ℕ (UR sig nD τ) ℕ cfg0 c)
    (hq0 : dat.q 0 = fullShare.left) (hq1 : dat.q 1 = fullShare.right.left) (hq2 : dat.q 2 = fullShare.right.right) (hq3 : dat.q 3 = fullShare) (hq4 : dat.q 4 = fullShare) (hq5 : dat.q 5 = fullShare)
    (W : (b : Ref sig .tc) → Buf (Elt F) ((c : Thread nD τ).loc b))
    (F' : (w : Fin cfg0.W) → Buf (Elt F) ((cfg0.win w).arr.view.loc (c : Thread nD τ)))
    (hF : ∀ w, F' w = W (Pipeline.arrRef spec0 w)) :
    (Pipeline.arrBufs (Ix := Unit) (Name := ℕ) (U := UR sig nD τ) (Lvl := ℕ) spec0 c W : sProp 𝕄) ⊣⊢ dat.arrays F' := by
  unfold Pipeline.arrBufs Dat.arrays
  have eL : (bigSep (Finset.univ.image (Pipeline.arrRef spec0)) fun b => (((c : Thread nD τ).loc b) ↦{fullShare} W b : sProp 𝕄))
      = iprop((((c : Thread nD τ).loc main_v0) ↦{fullShare} W main_v0) ∗ (((c : Thread nD τ).loc main_arg0) ↦{fullShare} W main_arg0) ∗ (((c : Thread nD τ).loc main_arg6) ↦{fullShare} W main_arg6) ∗ (((c : Thread nD τ).loc main_arg7) ↦{fullShare} W main_arg7) ∗ (((c : Thread nD τ).loc main_v1) ↦{fullShare} W main_v1)) :=
    Idealize.SL.BI.bigSep_eq_bigSepL_of_eq [main_v0, main_arg0, main_arg6, main_arg7, main_v1] (by decide) (by decide) _
  rw [eL, bigSep_W0]
  have e0 : ((cfg0.win 0).arr.view.loc (c : Thread nD τ) ↦[(cfg0.win 0).arr.view.set]{dat.share 0} F' 0 : sProp 𝕄)
      = (((c : Thread nD τ).loc main_v0) ↦{fullShare.left} W main_v0) := by
    have hs : dat.share 0 = fullShare.left := by unfold Dat.share; rw [if_neg (by decide), hq0]
    rw [hF 0, (arr_whole0 0).set_eq_univ, hs]
  have e1 : ((cfg0.win 1).arr.view.loc (c : Thread nD τ) ↦[(cfg0.win 1).arr.view.set]{dat.share 1} F' 1 : sProp 𝕄)
      = (((c : Thread nD τ).loc main_v0) ↦{fullShare.right.left} W main_v0) := by
    have hs : dat.share 1 = fullShare.right.left := by unfold Dat.share; rw [if_neg (by decide), hq1]
    rw [hF 1, (arr_whole0 1).set_eq_univ, hs]
  have e2 : ((cfg0.win 2).arr.view.loc (c : Thread nD τ) ↦[(cfg0.win 2).arr.view.set]{dat.share 2} F' 2 : sProp 𝕄)
      = (((c : Thread nD τ).loc main_v0) ↦{fullShare.right.right} W main_v0) := by
    have hs : dat.share 2 = fullShare.right.right := by unfold Dat.share; rw [if_neg (by decide), hq2]
    rw [hF 2, (arr_whole0 2).set_eq_univ, hs]
  have e3 : ((cfg0.win 3).arr.view.loc (c : Thread nD τ) ↦[(cfg0.win 3).arr.view.set]{dat.share 3} F' 3 : sProp 𝕄)
      = (((c : Thread nD τ).loc main_arg0) ↦{fullShare} W main_arg0) := by
    have hs : dat.share 3 = fullShare := by unfold Dat.share; rw [if_neg (by decide), hq3]
    rw [hF 3, (arr_whole0 3).set_eq_univ, hs]
  have e4 : ((cfg0.win 4).arr.view.loc (c : Thread nD τ) ↦[(cfg0.win 4).arr.view.set]{dat.share 4} F' 4 : sProp 𝕄)
      = (((c : Thread nD τ).loc main_arg6) ↦{fullShare} W main_arg6) := by
    have hs : dat.share 4 = fullShare := by unfold Dat.share; rw [if_neg (by decide), hq4]
    rw [hF 4, (arr_whole0 4).set_eq_univ, hs]
  have e5 : ((cfg0.win 5).arr.view.loc (c : Thread nD τ) ↦[(cfg0.win 5).arr.view.set]{dat.share 5} F' 5 : sProp 𝕄)
      = (((c : Thread nD τ).loc main_arg7) ↦{fullShare} W main_arg7) := by
    have hs : dat.share 5 = fullShare := by unfold Dat.share; rw [if_neg (by decide), hq5]
    rw [hF 5, (arr_whole0 5).set_eq_univ, hs]
  have e6 : ((cfg0.win 6).arr.view.loc (c : Thread nD τ) ↦[(cfg0.win 6).arr.view.set]{dat.share 6} F' 6 : sProp 𝕄)
      = (((c : Thread nD τ).loc main_v1) ↦{fullShare} W main_v1) := by
    have hs : dat.share 6 = fullShare := by unfold Dat.share; rw [if_pos (by decide)]
    rw [hF 6, (arr_whole0 6).set_eq_univ, hs]
  rw [e0, e1, e2, e3, e4, e5, e6]
  constructor
  ·
    iintro ⟨Hv, Ha0, Ha6, Ha7, Hv1⟩
    ihave H := (pointsTo_share (PosShare.mem_left_op_right fullShare)).1 $$ Hv
    icases H with ⟨H0, Hr⟩
    ihave H := (pointsTo_share (PosShare.mem_left_op_right fullShare.right)).1 $$ Hr
    icases H with ⟨H1, H2⟩
    isplitl [H0]; · iexact H0
    isplitl [H1]; · iexact H1
    isplitl [H2]; · iexact H2
    isplitl [Ha0]; · iexact Ha0
    isplitl [Ha6]; · iexact Ha6
    isplitl [Ha7]; · iexact Ha7
    iexact Hv1
  ·
    iintro ⟨H0, H1, H2, Ha0, Ha6, Ha7, Hv1⟩
    isplitl [H0 H1 H2]
    · iapply (pointsTo_share (PosShare.mem_left_op_right fullShare)).2
      isplitl [H0]; · iexact H0
      iapply (pointsTo_share (PosShare.mem_left_op_right fullShare.right)).2
      isplitl [H1]; · iexact H1
      iexact H2
    isplitl [Ha0]; · iexact Ha0
    isplitl [Ha6]; · iexact Ha6
    isplitl [Ha7]; · iexact Ha7
    iexact Hv1

set_option maxHeartbeats 4000000 in
/-- The distinct buffers behind region 1's arrays, each whole at the full share, are its windows' arrays at their shares:
    the array several input windows read is split among them, and joined again, along the share. -/
theorem arrays_split1 {c : Dev nD} (dat : Dat τ (Elt F) Unit ℕ (UR sig nD τ) ℕ cfg1 c)
    (hq0 : dat.q 0 = fullShare) (hq1 : dat.q 1 = fullShare.left) (hq2 : dat.q 2 = fullShare.right) (hq3 : dat.q 3 = fullShare) (hq4 : dat.q 4 = fullShare) (hq5 : dat.q 5 = fullShare)
    (W : (b : Ref sig .tc) → Buf (Elt F) ((c : Thread nD τ).loc b))
    (F' : (w : Fin cfg1.W) → Buf (Elt F) ((cfg1.win w).arr.view.loc (c : Thread nD τ)))
    (hF : ∀ w, F' w = W (Pipeline.arrRef spec1 w)) :
    (Pipeline.arrBufs (Ix := Unit) (Name := ℕ) (U := UR sig nD τ) (Lvl := ℕ) spec1 c W : sProp 𝕄) ⊣⊢ dat.arrays F' := by
  unfold Pipeline.arrBufs Dat.arrays
  have eL : (bigSep (Finset.univ.image (Pipeline.arrRef spec1)) fun b => (((c : Thread nD τ).loc b) ↦{fullShare} W b : sProp 𝕄))
      = iprop((((c : Thread nD τ).loc main_v2) ↦{fullShare} W main_v2) ∗ (((c : Thread nD τ).loc main_v3) ↦{fullShare} W main_v3) ∗ (((c : Thread nD τ).loc main_v1) ↦{fullShare} W main_v1) ∗ (((c : Thread nD τ).loc main_arg8) ↦{fullShare} W main_arg8) ∗ (((c : Thread nD τ).loc main_arg9) ↦{fullShare} W main_arg9) ∗ (((c : Thread nD τ).loc main_v4) ↦{fullShare} W main_v4)) :=
    Idealize.SL.BI.bigSep_eq_bigSepL_of_eq [main_v2, main_v3, main_v1, main_arg8, main_arg9, main_v4] (by decide) (by decide) _
  rw [eL, bigSep_W1]
  have e0 : ((cfg1.win 0).arr.view.loc (c : Thread nD τ) ↦[(cfg1.win 0).arr.view.set]{dat.share 0} F' 0 : sProp 𝕄)
      = (((c : Thread nD τ).loc main_v2) ↦{fullShare} W main_v2) := by
    have hs : dat.share 0 = fullShare := by unfold Dat.share; rw [if_neg (by decide), hq0]
    rw [hF 0, (arr_whole1 0).set_eq_univ, hs]
  have e1 : ((cfg1.win 1).arr.view.loc (c : Thread nD τ) ↦[(cfg1.win 1).arr.view.set]{dat.share 1} F' 1 : sProp 𝕄)
      = (((c : Thread nD τ).loc main_v3) ↦{fullShare.left} W main_v3) := by
    have hs : dat.share 1 = fullShare.left := by unfold Dat.share; rw [if_neg (by decide), hq1]
    rw [hF 1, (arr_whole1 1).set_eq_univ, hs]
  have e2 : ((cfg1.win 2).arr.view.loc (c : Thread nD τ) ↦[(cfg1.win 2).arr.view.set]{dat.share 2} F' 2 : sProp 𝕄)
      = (((c : Thread nD τ).loc main_v3) ↦{fullShare.right} W main_v3) := by
    have hs : dat.share 2 = fullShare.right := by unfold Dat.share; rw [if_neg (by decide), hq2]
    rw [hF 2, (arr_whole1 2).set_eq_univ, hs]
  have e3 : ((cfg1.win 3).arr.view.loc (c : Thread nD τ) ↦[(cfg1.win 3).arr.view.set]{dat.share 3} F' 3 : sProp 𝕄)
      = (((c : Thread nD τ).loc main_v1) ↦{fullShare} W main_v1) := by
    have hs : dat.share 3 = fullShare := by unfold Dat.share; rw [if_neg (by decide), hq3]
    rw [hF 3, (arr_whole1 3).set_eq_univ, hs]
  have e4 : ((cfg1.win 4).arr.view.loc (c : Thread nD τ) ↦[(cfg1.win 4).arr.view.set]{dat.share 4} F' 4 : sProp 𝕄)
      = (((c : Thread nD τ).loc main_arg8) ↦{fullShare} W main_arg8) := by
    have hs : dat.share 4 = fullShare := by unfold Dat.share; rw [if_neg (by decide), hq4]
    rw [hF 4, (arr_whole1 4).set_eq_univ, hs]
  have e5 : ((cfg1.win 5).arr.view.loc (c : Thread nD τ) ↦[(cfg1.win 5).arr.view.set]{dat.share 5} F' 5 : sProp 𝕄)
      = (((c : Thread nD τ).loc main_arg9) ↦{fullShare} W main_arg9) := by
    have hs : dat.share 5 = fullShare := by unfold Dat.share; rw [if_neg (by decide), hq5]
    rw [hF 5, (arr_whole1 5).set_eq_univ, hs]
  have e6 : ((cfg1.win 6).arr.view.loc (c : Thread nD τ) ↦[(cfg1.win 6).arr.view.set]{dat.share 6} F' 6 : sProp 𝕄)
      = (((c : Thread nD τ).loc main_v4) ↦{fullShare} W main_v4) := by
    have hs : dat.share 6 = fullShare := by unfold Dat.share; rw [if_pos (by decide)]
    rw [hF 6, (arr_whole1 6).set_eq_univ, hs]
  rw [e0, e1, e2, e3, e4, e5, e6]
  constructor
  ·
    iintro ⟨Hv2, Hv, Hv1, Ha8, Ha9, Hv4⟩
    ihave H := (pointsTo_share (PosShare.mem_left_op_right fullShare)).1 $$ Hv
    icases H with ⟨H1, H2⟩
    isplitl [Hv2]; · iexact Hv2
    isplitl [H1]; · iexact H1
    isplitl [H2]; · iexact H2
    isplitl [Hv1]; · iexact Hv1
    isplitl [Ha8]; · iexact Ha8
    isplitl [Ha9]; · iexact Ha9
    iexact Hv4
  ·
    iintro ⟨Hv2, H1, H2, Hv1, Ha8, Ha9, Hv4⟩
    isplitl [Hv2]; · iexact Hv2
    isplitl [H1 H2]
    · iapply (pointsTo_share (PosShare.mem_left_op_right fullShare)).2
      isplitl [H1]; · iexact H1
      iexact H2
    isplitl [Hv1]; · iexact Hv1
    isplitl [Ha8]; · iexact Ha8
    isplitl [Ha9]; · iexact Ha9
    iexact Hv4

abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev Rr (c : Dev nD) : sProp 𝕄 := iprop((∃ r, prngReg c r) ∗ ∃ W, owes (c : Thread nD τ) (0 : CellTallies nD τ sig Unit) W)

variable (m : (ℓ : Loc nD τ sig) → Buf (Elt F) ℓ) (outs : Outs (F := F))

/-- The buffers' contents at each region's entry and exit, read at the TensorCore's references. -/
abbrev Vr1 : (c : Dev nD) → (b : Ref sig .tc) → Buf (Elt F) ((c : Thread nD τ).loc b) := fun c b => V1 m c b
abbrev Vr2 : (c : Dev nD) → (b : Ref sig .tc) → Buf (Elt F) ((c : Thread nD τ).loc b) := fun c b => V2 m outs c b
abbrev Vr3 : (c : Dev nD) → (b : Ref sig .tc) → Buf (Elt F) ((c : Thread nD τ).loc b) := fun c b => V3 m outs c b
abbrev Vr4 : (c : Dev nD) → (b : Ref sig .tc) → Buf (Elt F) ((c : Thread nD τ).loc b) := fun c b => V4 m outs c b
abbrev Vr5 : (c : Dev nD) → (b : Ref sig .tc) → Buf (Elt F) ((c : Thread nD τ).loc b) := fun c b => V5 m outs c b
abbrev Vr6 : (c : Dev nD) → (b : Ref sig .tc) → Buf (Elt F) ((c : Thread nD τ).loc b) := fun c b => V6 m outs c b

/-- Every pipeline's proof data, each at its region's entry contents. -/
def pdats : (p : Fin 3) → (c : Dev nD) → Dat τ (Elt F) Unit ℕ (UR sig nD τ) ℕ (cfgs p) c
  | ⟨0, _⟩ => fun c => dat0 (Vr1 m) c
  | ⟨1, _⟩ => fun c => dat1 (Vr3 m outs) c
  | ⟨2, _⟩ => fun c => dat2 (Vr5 m outs) c

/-! ## Region 0: what its arrays hold at the exit, and its record -/

theorem hF0 (hO : ∀ c, outs 2 main_v1 c = (dat0 (Vr1 m) c).arrAt 6 cfg0.N) (c : Dev nD) (w : Fin cfg0.W) :
    (pdats m outs 0 c).arrAt w cfg0.N = (Vr2 m outs c) (Pipeline.arrRef spec0 w) := by
  have h1 : ∀ w : Fin cfg0.W, w.val < 6 → (cfg0.win w).isOut = false := by decide
  have h2 : ∀ w : Fin cfg0.W, w.val < 6 → Pipeline.arrRef spec0 w ∉ ([main_v1] : List (Ref sig .tc)) := by decide
  by_cases hw : w.val < 6
  · have e1 : (pdats m outs 0 c).arrAt w cfg0.N = (pdats m outs 0 c).A w :=
      (pdats m outs 0 c).arrAt_in w (h1 w hw) _
    rw [e1, show (pdats m outs 0 c).A w = (Vr1 m) c (Pipeline.arrRef spec0 w) from A_eq0 (Vr1 m) c w]
    exact (V2_of m outs c (Pipeline.arrRef spec0 w) (h2 w hw)).symm
  · have : w = ⟨6, by decide⟩ := Fin.ext (by have := (show w.val < 7 from w.isLt); show w.val = 6; omega)
    subst this
    show (dat0 (Vr1 m) c).arrAt 6 cfg0.N = Function.update (V1 m c) (Proc.devRef .tc main_v1) (outs 2 main_v1 c) (Proc.devRef .tc main_v1)
    rw [Function.update_self, hO c]

theorem hrest0 (c : Dev nD) : ∀ b, b ∉ Finset.univ.image (Pipeline.arrRef spec0) → (Vr2 m outs c) b = (Vr1 m) c b :=
  fun b hb => V2_of m outs c b (fun h => hb (by
    rw [List.mem_singleton] at h; subst h
    exact Finset.mem_image.mpr ⟨⟨6, by decide⟩, Finset.mem_univ _, rfl⟩))

set_option backward.isDefEq.respectTransparency.types false in
/-- Region 0 over the thread state "every unscoped buffer at the boundary's contents, the generator register at some
    state, nothing owed": its arrays split out of the unscoped buffers at entry and put back at exit. -/
def reg0 (hO : ∀ c, outs 2 main_v1 c = (dat0 (Vr1 m) c).arrAt 6 cfg0.N) :
    Pipeline.RegionSeg (pcfgs (F := F)) adm (pdats m outs) () defs₀ 𝒱₀ L lv 0 where
  win := winFacts₀0
  block_pos := block_pos0
  stage_whole := stage_whole0
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (V2 m outs c) ∗ Rr c)
  X c := iprop(∃ r, prngReg c r)
  Y c := iprop(∃ r, prngReg c r)
  Z c := Pipeline.unscopedRest (Ix := Unit) (Name := ℕ) (U := UR sig nD τ) (Lvl := ℕ) spec0 c ((Vr1 m) c)
  hentry c := by
    rw [Pipeline.ownSems0_none]
    have hsplit : (unscopedBufs (Ix := Unit) (Name := ℕ) (U := UR sig nD τ) (Lvl := ℕ) c ((Vr1 m) c) : sProp 𝕄)
        ⊢ iprop((pdats m outs 0 c).arrays ((pdats m outs 0 c).arrAt · 0) ∗ Pipeline.unscopedRest (Ix := Unit) (Name := ℕ) (U := UR sig nD τ) (Lvl := ℕ) spec0 c ((Vr1 m) c)) := by
      rw [Pipeline.unscopedBufs_split₀ cfgs 0 winFacts₀0.arr_unscoped c ((Vr1 m) c)]
      exact sep_mono (arrays_split0 (dat0 (Vr1 m) c) (by dsimp only [dat0]) (by dsimp only [dat0]) (by dsimp only [dat0]) (by dsimp only [dat0]) (by dsimp only [dat0]) (by dsimp only [dat0]) ((Vr1 m) c) _ (fun w => A_eq0 (Vr1 m) c w)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vr1 m) c)
    unfold Pipeline.ΦA
    iintro ⟨Hp, -, Hr⟩
    isplitl [Hr]; · iexact Hr
    iexact Hp
  hout c := by
    rw [Pipeline.ownSems0_none]
    refine BIBase.Entails.trans (hout0 (Vr1 m) c) ?_
    unfold Pipeline.ΦA
    iintro ⟨Hr, Hp⟩
    isplitl [Hp]; · iexact Hp
    isplitr; · iempintro
    iexact Hr
  hexit c := by
    have hjoin : iprop((pdats m outs 0 c).arrays ((pdats m outs 0 c).arrAt · cfg0.N) ∗ Pipeline.unscopedRest (Ix := Unit) (Name := ℕ) (U := UR sig nD τ) (Lvl := ℕ) spec0 c ((Vr1 m) c))
        ⊢ (unscopedBufs (Ix := Unit) (Name := ℕ) (U := UR sig nD τ) (Lvl := ℕ) c (Vr2 m outs c) : sProp 𝕄) := by
      rw [Pipeline.unscopedBufs_split₀ cfgs 0 winFacts₀0.arr_unscoped c (Vr2 m outs c)]
      refine sep_mono (arrays_split0 (dat0 (Vr1 m) c) (by dsimp only [dat0]) (by dsimp only [dat0]) (by dsimp only [dat0]) (by dsimp only [dat0]) (by dsimp only [dat0]) (by dsimp only [dat0]) (Vr2 m outs c) _ (hF0 m outs hO c)).2 (Entails.of_eq ?_)
      unfold Pipeline.unscopedRest
      exact bigSep_congr fun b hb => by rw [hrest0 m outs c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: what its arrays hold at the exit, and its record -/

theorem hF1 (hO : ∀ c, outs 4 main_v4 c = (dat1 (Vr3 m outs) c).arrAt 6 cfg1.N) (c : Dev nD) (w : Fin cfg1.W) :
    (pdats m outs 1 c).arrAt w cfg1.N = (Vr4 m outs c) (Pipeline.arrRef spec1 w) := by
  have h1 : ∀ w : Fin cfg1.W, w.val < 6 → (cfg1.win w).isOut = false := by decide
  have h2 : ∀ w : Fin cfg1.W, w.val < 6 → Pipeline.arrRef spec1 w ∉ ([main_v4] : List (Ref sig .tc)) := by decide
  by_cases hw : w.val < 6
  · have e1 : (pdats m outs 1 c).arrAt w cfg1.N = (pdats m outs 1 c).A w :=
      (pdats m outs 1 c).arrAt_in w (h1 w hw) _
    rw [e1, show (pdats m outs 1 c).A w = (Vr3 m outs) c (Pipeline.arrRef spec1 w) from A_eq1 (Vr3 m outs) c w]
    exact (V4_of m outs c (Pipeline.arrRef spec1 w) (h2 w hw)).symm
  · have : w = ⟨6, by decide⟩ := Fin.ext (by have := (show w.val < 7 from w.isLt); show w.val = 6; omega)
    subst this
    show (dat1 (Vr3 m outs) c).arrAt 6 cfg1.N = Function.update (V3 m outs c) (Proc.devRef .tc main_v4) (outs 4 main_v4 c) (Proc.devRef .tc main_v4)
    rw [Function.update_self, hO c]

theorem hrest1 (c : Dev nD) : ∀ b, b ∉ Finset.univ.image (Pipeline.arrRef spec1) → (Vr4 m outs c) b = (Vr3 m outs) c b :=
  fun b hb => V4_of m outs c b (fun h => hb (by
    rw [List.mem_singleton] at h; subst h
    exact Finset.mem_image.mpr ⟨⟨6, by decide⟩, Finset.mem_univ _, rfl⟩))

set_option backward.isDefEq.respectTransparency.types false in
/-- Region 1 over the thread state "every unscoped buffer at the boundary's contents, the generator register at some
    state, nothing owed": its arrays split out of the unscoped buffers at entry and put back at exit. -/
def reg1 (hO : ∀ c, outs 4 main_v4 c = (dat1 (Vr3 m outs) c).arrAt 6 cfg1.N) :
    Pipeline.RegionSeg (pcfgs (F := F)) adm (pdats m outs) () defs₀ 𝒱₀ L lv 1 where
  win := winFacts₀1
  block_pos := block_pos1
  stage_whole := stage_whole1
  K := PEmpty
  osem k := k.elim
  ho := Pipeline.OwnSemFacts.none _
  hbody c := (body_obligation1 (Vr3 m outs) c).loose
  hwaits := Pipeline.hwaits_of_owed_zero _ _ _ _ L lv 1 fun _ _ => rfl
  pre c := iprop(StableHlo.held (c : Thread nD τ) (Pipeline.ucRefs τ sig) (V3 m outs c) ∗ Rr c)
  post c := iprop(StableHlo.held (c : Thread nD τ) (Pipeline.ucRefs τ sig) (V4 m outs c) ∗ Rr c)
  X c := iprop(∃ r, prngReg c r)
  Y c := iprop(∃ r, prngReg c r)
  Z c := Pipeline.unscopedRest (Ix := Unit) (Name := ℕ) (U := UR sig nD τ) (Lvl := ℕ) spec1 c ((Vr3 m outs) c)
  hentry c := by
    rw [Pipeline.ownSems0_none]
    have hsplit : (unscopedBufs (Ix := Unit) (Name := ℕ) (U := UR sig nD τ) (Lvl := ℕ) c ((Vr3 m outs) c) : sProp 𝕄)
        ⊢ iprop((pdats m outs 1 c).arrays ((pdats m outs 1 c).arrAt · 0) ∗ Pipeline.unscopedRest (Ix := Unit) (Name := ℕ) (U := UR sig nD τ) (Lvl := ℕ) spec1 c ((Vr3 m outs) c)) := by
      rw [Pipeline.unscopedBufs_split₀ cfgs 1 winFacts₀1.arr_unscoped c ((Vr3 m outs) c)]
      exact sep_mono (arrays_split1 (dat1 (Vr3 m outs) c) (by dsimp only [dat1]) (by dsimp only [dat1]) (by dsimp only [dat1]) (by dsimp only [dat1]) (by dsimp only [dat1]) (by dsimp only [dat1]) ((Vr3 m outs) c) _ (fun w => A_eq1 (Vr3 m outs) c w)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr3 m outs) c)
    unfold Pipeline.ΦA
    iintro ⟨Hp, -, Hr⟩
    isplitl [Hr]; · iexact Hr
    iexact Hp
  hout c := by
    rw [Pipeline.ownSems0_none]
    refine BIBase.Entails.trans (hout1 (Vr3 m outs) c) ?_
    unfold Pipeline.ΦA
    iintro ⟨Hr, Hp⟩
    isplitl [Hp]; · iexact Hp
    isplitr; · iempintro
    iexact Hr
  hexit c := by
    have hjoin : iprop((pdats m outs 1 c).arrays ((pdats m outs 1 c).arrAt · cfg1.N) ∗ Pipeline.unscopedRest (Ix := Unit) (Name := ℕ) (U := UR sig nD τ) (Lvl := ℕ) spec1 c ((Vr3 m outs) c))
        ⊢ (unscopedBufs (Ix := Unit) (Name := ℕ) (U := UR sig nD τ) (Lvl := ℕ) c (Vr4 m outs c) : sProp 𝕄) := by
      rw [Pipeline.unscopedBufs_split₀ cfgs 1 winFacts₀1.arr_unscoped c (Vr4 m outs c)]
      refine sep_mono (arrays_split1 (dat1 (Vr3 m outs) c) (by dsimp only [dat1]) (by dsimp only [dat1]) (by dsimp only [dat1]) (by dsimp only [dat1]) (by dsimp only [dat1]) (by dsimp only [dat1]) (Vr4 m outs c) _ (hF1 m outs hO c)).2 (Entails.of_eq ?_)
      unfold Pipeline.unscopedRest
      exact bigSep_congr fun b hb => by rw [hrest1 m outs c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2: what its arrays hold at the exit, and its record -/

theorem hF2 (hO : ∀ c, outs 6 main_v8 c = (dat2 (Vr5 m outs) c).arrAt 7 cfg2.N) (c : Dev nD) (w : Fin cfg2.W) :
    (pdats m outs 2 c).arrAt w cfg2.N = (Vr6 m outs c) (Pipeline.arrRef spec2 w) := by
  have h1 : ∀ w : Fin cfg2.W, w.val < 7 → (cfg2.win w).isOut = false := by decide
  have h2 : ∀ w : Fin cfg2.W, w.val < 7 → Pipeline.arrRef spec2 w ∉ ([main_v8] : List (Ref sig .tc)) := by decide
  by_cases hw : w.val < 7
  · have e1 : (pdats m outs 2 c).arrAt w cfg2.N = (pdats m outs 2 c).A w :=
      (pdats m outs 2 c).arrAt_in w (h1 w hw) _
    rw [e1, show (pdats m outs 2 c).A w = (Vr5 m outs) c (Pipeline.arrRef spec2 w) from A_eq2 (Vr5 m outs) c w]
    exact (V6_of m outs c (Pipeline.arrRef spec2 w) (h2 w hw)).symm
  · have : w = ⟨7, by decide⟩ := Fin.ext (by have := (show w.val < 8 from w.isLt); show w.val = 7; omega)
    subst this
    show (dat2 (Vr5 m outs) c).arrAt 7 cfg2.N = Function.update (V5 m outs c) (Proc.devRef .tc main_v8) (outs 6 main_v8 c) (Proc.devRef .tc main_v8)
    rw [Function.update_self, hO c]

theorem hrest2 (c : Dev nD) : ∀ b, b ∉ Finset.univ.image (Pipeline.arrRef spec2) → (Vr6 m outs c) b = (Vr5 m outs) c b :=
  fun b hb => V6_of m outs c b (fun h => hb (by
    rw [List.mem_singleton] at h; subst h
    exact Finset.mem_image.mpr ⟨⟨7, by decide⟩, Finset.mem_univ _, rfl⟩))

set_option backward.isDefEq.respectTransparency.types false in
/-- Region 2 over the thread state "every unscoped buffer at the boundary's contents, the generator register at some
    state, nothing owed": its arrays split out of the unscoped buffers at entry and put back at exit. -/
def reg2 (hO : ∀ c, outs 6 main_v8 c = (dat2 (Vr5 m outs) c).arrAt 7 cfg2.N) :
    Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr5 m outs) c).loose
  hwaits := Pipeline.hwaits_of_owed_zero _ _ _ _ L lv 2 fun _ _ => rfl
  pre c := iprop(StableHlo.held (c : Thread nD τ) (Pipeline.ucRefs τ sig) (V5 m outs c) ∗ Rr c)
  post c := iprop(StableHlo.held (c : Thread nD τ) (Pipeline.ucRefs τ sig) (V6 m outs c) ∗ Rr c)
  X c := iprop(∃ r, prngReg c r)
  Y c := iprop(∃ r, prngReg c r)
  Z c := Pipeline.unscopedRest (Ix := Unit) (Name := ℕ) (U := UR sig nD τ) (Lvl := ℕ) spec2 c ((Vr5 m outs) c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (Vr5 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (Vr5 m outs c) (Vr6 m outs c) ((pdats m outs 2 c).arrAt · cfg2.N) (hF2 m outs hO c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The contents the regions leave, chosen stage by stage -/

/-- A family of region results with one entry set. -/
def setOut (o : Outs (F := F)) (J : ℕ) (r : Ref sig .tc) (x : (c : Dev nD) → Buf (Elt F) ((c : Thread nD τ).loc r)) : Outs (F := F) :=
  fun J' r' c => if h : J' = J ∧ r' = r then h.2 ▸ x c else o J' r' c
theorem setOut_same (o : Outs (F := F)) (J : ℕ) (r : Ref sig .tc) (x : (c : Dev nD) → Buf (Elt F) ((c : Thread nD τ).loc r)) (c : Dev nD) :
    setOut o J r x J r c = x c := by unfold setOut; rw [dif_pos ⟨rfl, rfl⟩]
theorem setOut_ne (o : Outs (F := F)) (J : ℕ) (r : Ref sig .tc) (x : (c : Dev nD) → Buf (Elt F) ((c : Thread nD τ).loc r)) (J' : ℕ) (r' : Ref sig .tc) (c : Dev nD) (h : J' ≠ J) :
    setOut o J r x J' r' c = o J' r' c := by unfold setOut; rw [dif_neg (fun h' => h h'.1)]

theorem Vr3_congr (o o' : Outs (F := F)) (h : ∀ c, o 2 main_v1 c = o' 2 main_v1 c) : Vr3 m o = Vr3 m o' := by
  funext c b
  show StableHlo.after hostOps1 (Function.update (V1 m c) (Proc.devRef .tc main_v1) (o 2 main_v1 c)) b = StableHlo.after hostOps1 (Function.update (V1 m c) (Proc.devRef .tc main_v1) (o' 2 main_v1 c)) b
  rw [h c]
theorem Vr5_congr (o o' : Outs (F := F)) (h : ∀ c, o 2 main_v1 c = o' 2 main_v1 c) (h' : ∀ c, o 4 main_v4 c = o' 4 main_v4 c) : Vr5 m o = Vr5 m o' := by
  funext c b
  show StableHlo.after hostOps2 (Function.update (StableHlo.after hostOps1 (Function.update (V1 m c) (Proc.devRef .tc main_v1) (o 2 main_v1 c))) (Proc.devRef .tc main_v4) (o 4 main_v4 c)) b
    = StableHlo.after hostOps2 (Function.update (StableHlo.after hostOps1 (Function.update (V1 m c) (Proc.devRef .tc main_v1) (o' 2 main_v1 c))) (Proc.devRef .tc main_v4) (o' 4 main_v4 c)) b
  rw [h c, h' c]

/-- Before any region: the launch contents. -/
def o0 : Outs (F := F) := fun _ r c => m ((c : Thread nD τ).loc r)
/-- What region 0 leaves in its result. -/
def X2 (c : Dev nD) := (dat0 (Vr1 m) c).arrAt 6 cfg0.N
def o1 : Outs (F := F) := setOut (o0 m) 2 main_v1 (X2 m)
/-- What region 1 leaves in its result. -/
def X4 (c : Dev nD) := (dat1 (Vr3 m (o1 m)) c).arrAt 6 cfg1.N
def o2 : Outs (F := F) := setOut (o1 m) 4 main_v4 (X4 m)
/-- What region 2 leaves in its result. -/
def X6 (c : Dev nD) := (dat2 (Vr5 m (o2 m)) c).arrAt 7 cfg2.N
def o3 : Outs (F := F) := setOut (o2 m) 6 main_v8 (X6 m)

theorem o3_2 (c : Dev nD) : o3 m 2 main_v1 c = X2 m c := by
  unfold o3 o2; rw [setOut_ne _ _ _ _ _ _ _ (by decide), setOut_ne _ _ _ _ _ _ _ (by decide)]; unfold o1; rw [setOut_same]
theorem o1_2 (c : Dev nD) : o1 m 2 main_v1 c = X2 m c := by unfold o1; rw [setOut_same]
theorem o2_2 (c : Dev nD) : o2 m 2 main_v1 c = X2 m c := by unfold o2; rw [setOut_ne _ _ _ _ _ _ _ (by decide)]; exact o1_2 m c
theorem o3_4 (c : Dev nD) : o3 m 4 main_v4 c = X4 m c := by
  unfold o3; rw [setOut_ne _ _ _ _ _ _ _ (by decide)]; unfold o2; rw [setOut_same]
theorem o2_4 (c : Dev nD) : o2 m 4 main_v4 c = X4 m c := by unfold o2; rw [setOut_same]
theorem o3_6 (c : Dev nD) : o3 m 6 main_v8 c = X6 m c := by unfold o3; rw [setOut_same]

theorem Vr3_o3 : Vr3 m (o3 m) = Vr3 m (o1 m) := Vr3_congr m _ _ fun c => (o3_2 m c).trans (o1_2 m c).symm
theorem Vr5_o3 : Vr5 m (o3 m) = Vr5 m (o2 m) := Vr5_congr m _ _ (fun c => (o3_2 m c).trans (o2_2 m c).symm) (fun c => (o3_4 m c).trans (o2_4 m c).symm)

theorem hO2 (c : Dev nD) : o3 m 2 main_v1 c = (dat0 (Vr1 m) c).arrAt 6 cfg0.N := o3_2 m c
theorem hO4 (c : Dev nD) : o3 m 4 main_v4 c = (dat1 (Vr3 m (o3 m)) c).arrAt 6 cfg1.N := by rw [Vr3_o3]; exact o3_4 m c
theorem hO6 (c : Dev nD) : o3 m 6 main_v8 c = (dat2 (Vr5 m (o3 m)) c).arrAt 7 cfg2.N := by rw [Vr5_o3]; exact o3_6 m c

/-! ## The run -/

set_option backward.isDefEq.respectTransparency.types false in
/-- Every weakly fair execution of the program terminates without a fault; the result buffer ends at what the last host
    operation makes of region 2's result, and every argument as launched. -/
theorem run (ρ : Dev nD → PrngReg) : θ_run defs (onTc (τ := τ) (main (F := F))) ⟨m, fun _ => 0, ρ⟩ (fun r => ∀ c : Dev nD,
      r.2.mem ((c.tc : Thread nD τ).loc main_v9) = V7 m (o3 m) c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_cond m emb₁ () 𝒱₀ L lv (fun _ _ => rfl) ρ (o3 m) (pdats m (o3 m)) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => Rr)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (reg0 m (o3 m) (hO2 m)) (fun _ => .rfl) (fun _ => .rfl)
    (reg1 m (o3 m) (hO4 m)) (fun _ => .rfl) (fun _ => .rfl)
    (reg2 m (o3 m) (hO6 m)) (fun _ => .rfl) (fun _ => .rfl)

end Cert.Kernel.KF

end
-- ==== Proof.K0RunA.lean ====
/-
  The causal-attention kernel's body at the first key tile of a row block, run symbolically on whole buffers: the running
  maximum, normaliser and accumulator are reset and one tile is accumulated into them; the output buffer is not touched.
-/
import proofs.«167660_j22771916603726_2_alg».proof.Proof.Gen.KernelIdeal.Launch
import proofs.«167660_j22771916603726_2_alg».proof.Proof.Gen.KernelIdeal.Skeleton
import proofs.«167660_j22771916603726_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The first kernel (causal attention with a running softmax, then normalisation): its body on whole buffers, case by case -/

/-- The first branch (reset of the running state) is taken at the first key tile. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)
/-- The second branch (one tile of the running softmax) is taken when the key tile is not after the query tile. -/
abbrev cond0_1 (i : grid0.Coords) : Prop := (Scalar.cmpi .ne (Scalar.extui (Scalar.cmpi .sle (BitVec.ofNat 32 (i 2).val) (BitVec.ofNat 32 (i 1).val))) 0#32) = 1#1
theorem hcond0_1 : ∀ t : Fin cfg0.N, cond0_1 (grid0.coords t) ↔ t.val % 4 ≠ 1 :=
  (by decide +kernel : ∀ t : Fin grid0.N, cond0_1 (grid0.coords t) ↔ t.val % 4 ≠ 1)
/-- The third branch (normalise and store) is taken at the last key tile. -/
abbrev cond0_2 (i : grid0.Coords) : Prop := k0_cond3 i = 1#1
theorem hcond0_2 : ∀ t : Fin cfg0.N, cond0_2 (grid0.coords t) ↔ t.val % 2 = 1 :=
  (by decide +kernel : ∀ t : Fin grid0.N, cond0_2 (grid0.coords t) ↔ t.val % 2 = 1)

set_option maxHeartbeats 8000000 in
/-- At the first key tile: the running state is reset and one tile is accumulated; the output buffer is not touched. -/
noncomputable def kernelRun0_A (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond0_0 i) (hc1 : cond0_1 i) (hc2 : ¬cond0_2 i)
    (x0 : Vec F S1x1024x1024 .bf16) (x1 : Vec F S1x1024x1024 .bf16) (x2 : Vec F S1x1024x1024 .bf16) (x3 : Vec F S1x1024x1024 .f32) (x4 : Vec F S1024 .f32) (x5 : Vec F S1024 .f32)  :
    Σ' (LS0 : List (View.Piece (Elt F) S1024x1 .f32)), Σ' (LS1 : List (View.Piece (Elt F) S1024x1 .f32)), { LS2 : List (View.Piece (Elt F) S1024x1024 .f32) //
      ∀ (xi6 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__causal_attn_ln_kernel i arg3 harg3 arg4 harg4 arg5 harg5 arg6 harg6 arg7 harg7 arg8 harg8 arg9 harg9 arg10 harg10 arg11 harg11 arg12 harg12) K } := by
  refine ⟨?_, ?_, ?_, fun xi6 E K => ?run⟩
  case run =>
    simp only [cc0__causal_attn_ln_kernel_eq_skeleton]; unfold cc0__causal_attn_ln_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

end Cert.KernelIdeal.KF

end
-- ==== Proof.K0RunB.lean ====
/-
  The causal-attention kernel's body at the last key tile when that tile lies wholly after the query tile: nothing is
  accumulated, the carried running state is normalised and the row block is stored.
-/
import proofs.«167660_j22771916603726_2_alg».proof.Proof.K0RunA

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The first kernel's body at a skipped last tile -/
set_option maxHeartbeats 8000000 in
/-- At the last key tile when that tile lies wholly after the query tile: nothing is accumulated; the running state is normalised and stored. -/
noncomputable def kernelRun0_B (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond0_0 i) (hc1 : ¬cond0_1 i) (hc2 : cond0_2 i)
    (x0 : Vec F S1x1024x1024 .bf16) (x1 : Vec F S1x1024x1024 .bf16) (x2 : Vec F S1x1024x1024 .bf16) (x3 : Vec F S1x1024x1024 .f32) (x4 : Vec F S1024 .f32) (x5 : Vec F S1024 .f32) (xs0 : Vec F S1024x1 .f32) (xs1 : Vec F S1024x1 .f32) (xs2 : Vec F S1024x1024 .f32) :
    Σ' (L6 : List (View.Piece (Elt F) S1x1024x1024 .f32)), Σ' (LS0 : List (View.Piece (Elt F) S1024x1 .f32)), Σ' (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__causal_attn_ln_kernel i arg3 harg3 arg4 harg4 arg5 harg5 arg6 harg6 arg7 harg7 arg8 harg8 arg9 harg9 arg10 harg10 arg11 harg11 arg12 harg12) K } := by
  refine ⟨?_, [], [], [], fun E K => ?run⟩
  case run =>
    simp only [cc0__causal_attn_ln_kernel_eq_skeleton]; unfold cc0__causal_attn_ln_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0; obtain rfl := harg11.eq_unread hfs1; obtain rfl := harg12.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    isplitl [HS1]; · iexists _; iexact HS1
    iexists _; iexact HS2

end Cert.KernelIdeal.KF

end
-- ==== Proof.K0RunC.lean ====
/-
  The causal-attention kernel's body at the last key tile on the diagonal: one more tile is accumulated onto the carried
  running state, which is then normalised and stored.
-/
import proofs.«167660_j22771916603726_2_alg».proof.Proof.K0RunB

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The first kernel's body at a processed last tile -/
set_option maxHeartbeats 8000000 in
/-- At the last key tile on the diagonal: one more tile is accumulated onto the carried state, then the state is normalised and stored. -/
noncomputable def kernelRun0_C (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond0_0 i) (hc1 : cond0_1 i) (hc2 : cond0_2 i)
    (x0 : Vec F S1x1024x1024 .bf16) (x1 : Vec F S1x1024x1024 .bf16) (x2 : Vec F S1x1024x1024 .bf16) (x3 : Vec F S1x1024x1024 .f32) (x4 : Vec F S1024 .f32) (x5 : Vec F S1024 .f32) (xs0 : Vec F S1024x1 .f32) (xs1 : Vec F S1024x1 .f32) (xs2 : Vec F S1024x1024 .f32) :
    Σ' (L6 : List (View.Piece (Elt F) S1x1024x1024 .f32)), Σ' (LS0 : List (View.Piece (Elt F) S1024x1 .f32)), Σ' (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__causal_attn_ln_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__causal_attn_ln_kernel_eq_skeleton]; unfold cc0__causal_attn_ln_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0; obtain rfl := harg11.eq_unread hfs1; obtain rfl := harg12.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    isplitl [HS1]; · iexists _; iexact HS1
    iexists _; iexact HS2

end Cert.KernelIdeal.KF

end
-- ==== Proof.K0a.lean ====
/-
  The causal-attention kernel as a pipelined region. The grid's points come in pairs — the two key tiles of one block of
  1024 query rows —: what each window's buffer holds after the body at each point, and the invariant that carries the
  running maximum, normaliser and accumulator from the first point of a pair to the second.
-/
import proofs.«167660_j22771916603726_2_alg».proof.Proof.K0RunC

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # Kernel 1 as a region: proof data and body obligation at the entry contents V.
    The grid's points come in pairs: an even point resets the running state and accumulates the first key tile; the odd
    point after it finishes the row block and stores it. So the running state is named only between the two. -/

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev ms0_0 (t : Fin cfg0.N) : Memref sig .tc .vmem S1x1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x1024 .f32 := win0_6.stage (cfg0.slots t 6)
abbrev hs0_6 (t : Fin cfg0.N) : (ms0_6 t).IsWhole := hstage0_6 ((cfg0.slots t 6).cast nbuf0_6)
abbrev scM0_0 : Memref sig .tc .vmem S1024x1 .f32 := Memref.whole cc0_scratch0
abbrev VS0_0 : View sig .tc .vmem S1024x1 .f32 := scM0_0.view
abbrev scM0_1 : Memref sig .tc .vmem S1024x1 .f32 := Memref.whole cc0_scratch1
abbrev VS0_1 : View sig .tc .vmem S1024x1 .f32 := scM0_1.view
abbrev scM0_2 : Memref sig .tc .vmem S1024x1024 .f32 := Memref.whole cc0_scratch2
abbrev VS0_2 : View sig .tc .vmem S1024x1024 .f32 := scM0_2.view
abbrev VO0_6 : View sig .tc .vmem S1x1024x1024 .f32 := (Memref.whole cc0_stg6_0 : Memref sig .tc .vmem S1x1024x1024 .f32).view

theorem liveAt0_in : ∀ (w : Fin 7), w.val < 6 → ∀ t : Fin cfg0.N, cfg0.idle w (grid0.coords t) = false := by decide +kernel
theorem idleAt0_6 : ∀ t : Fin cfg0.N, t.val % 2 = 0 → cfg0.idle 6 (grid0.coords t) = true := by decide +kernel
theorem liveAt0_6 : ∀ t : Fin cfg0.N, t.val % 2 = 1 → cfg0.idle 6 (grid0.coords t) = false := by decide +kernel
theorem noFlush0_6 : ∀ t : Fin cfg0.N, t.val % 2 = 0 → (cfg0.win 6).flush t = false := by decide +kernel

/-- The body's run at an even point. -/
def runA0 (c : Dev nD) (n : ℕ) (hn : n < cfg0.N) (h : n % 2 = 0) :=
  kernelRun0_A (F := F) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) scM0_0 (Memref.isWhole_whole _) scM0_1 (Memref.isWhole_whole _) scM0_2 (Memref.isWhole_whole _) ((hcond0_0 ⟨n, hn⟩).mpr h) ((hcond0_1 ⟨n, hn⟩).mpr (by show n % 4 ≠ 1; omega)) (fun h' => by have := (hcond0_2 ⟨n, hn⟩).mp h'; (try dsimp only at this); omega) (iblk0 V c 0 ⟨n, hn⟩) (iblk0 V c 1 ⟨n, hn⟩) (iblk0 V c 2 ⟨n, hn⟩) (iblk0 V c 3 ⟨n, hn⟩) (iblk0 V c 4 ⟨n, hn⟩) (iblk0 V c 5 ⟨n, hn⟩)

theorem scoverA0_0 (c : Dev nD) (n : ℕ) (hn : n < cfg0.N) (h : n % 2 = 0) (y : S1024x1.Idx) :
    ∃ pc ∈ (runA0 V c n hn h).1, y ∈ pc.1.set :=
  View.cover_of_tiledL (runA0 V c n hn h).1 S1024x1.size (by sl_kernel_rfl) y
/-- What an even point leaves in scratch 0. -/
def sA0_0 (c : Dev nD) (n : ℕ) (hn : n < cfg0.N) (h : n % 2 = 0) : Vec F S1024x1 .f32 :=
  VS0_0.read (Elt F) (VS0_0.writes (Elt F) VS0_0.junk (runA0 V c n hn h).1)
theorem scoverA0_1 (c : Dev nD) (n : ℕ) (hn : n < cfg0.N) (h : n % 2 = 0) (y : S1024x1.Idx) :
    ∃ pc ∈ (runA0 V c n hn h).2.1, y ∈ pc.1.set :=
  View.cover_of_tiledL (runA0 V c n hn h).2.1 S1024x1.size (by sl_kernel_rfl) y
/-- What an even point leaves in scratch 1. -/
def sA0_1 (c : Dev nD) (n : ℕ) (hn : n < cfg0.N) (h : n % 2 = 0) : Vec F S1024x1 .f32 :=
  VS0_1.read (Elt F) (VS0_1.writes (Elt F) VS0_1.junk (runA0 V c n hn h).2.1)
theorem scoverA0_2 (c : Dev nD) (n : ℕ) (hn : n < cfg0.N) (h : n % 2 = 0) (y : S1024x1024.Idx) :
    ∃ pc ∈ (runA0 V c n hn h).2.2.1, y ∈ pc.1.set :=
  View.cover_of_tiledL (runA0 V c n hn h).2.2.1 S1024x1024.size (by sl_kernel_rfl) y
/-- What an even point leaves in scratch 2. -/
def sA0_2 (c : Dev nD) (n : ℕ) (hn : n < cfg0.N) (h : n % 2 = 0) : Vec F S1024x1024 .f32 :=
  VS0_2.read (Elt F) (VS0_2.writes (Elt F) VS0_2.junk (runA0 V c n hn h).2.2.1)

/-- The body's run at an odd point whose key tile is skipped. -/
def runB0 (c : Dev nD) (n : ℕ) (hn : n < cfg0.N) (h : n % 2 = 1) (h4 : n % 4 = 1) :=
  kernelRun0_B (F := F) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) scM0_0 (Memref.isWhole_whole _) scM0_1 (Memref.isWhole_whole _) scM0_2 (Memref.isWhole_whole _) (fun h' => by have := (hcond0_0 ⟨n, hn⟩).mp h'; (try dsimp only at this); omega) (fun h' => ((hcond0_1 ⟨n, hn⟩).mp h') (by show n % 4 = 1; exact h4)) ((hcond0_2 ⟨n, hn⟩).mpr h) (iblk0 V c 0 ⟨n, hn⟩) (iblk0 V c 1 ⟨n, hn⟩) (iblk0 V c 2 ⟨n, hn⟩) (iblk0 V c 3 ⟨n, hn⟩) (iblk0 V c 4 ⟨n, hn⟩) (iblk0 V c 5 ⟨n, hn⟩) (sA0_0 V c (n - 1) (by omega) (by omega)) (sA0_1 V c (n - 1) (by omega) (by omega)) (sA0_2 V c (n - 1) (by omega) (by omega))
/-- The body's run at an odd point whose key tile is processed. -/
def runC0 (c : Dev nD) (n : ℕ) (hn : n < cfg0.N) (h : n % 2 = 1) (h4 : ¬ n % 4 = 1) :=
  kernelRun0_C (F := F) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) scM0_0 (Memref.isWhole_whole _) scM0_1 (Memref.isWhole_whole _) scM0_2 (Memref.isWhole_whole _) (fun h' => by have := (hcond0_0 ⟨n, hn⟩).mp h'; (try dsimp only at this); omega) ((hcond0_1 ⟨n, hn⟩).mpr (by show n % 4 ≠ 1; exact h4)) ((hcond0_2 ⟨n, hn⟩).mpr h) (iblk0 V c 0 ⟨n, hn⟩) (iblk0 V c 1 ⟨n, hn⟩) (iblk0 V c 2 ⟨n, hn⟩) (iblk0 V c 3 ⟨n, hn⟩) (iblk0 V c 4 ⟨n, hn⟩) (iblk0 V c 5 ⟨n, hn⟩) (sA0_0 V c (n - 1) (by omega) (by omega)) (sA0_1 V c (n - 1) (by omega) (by omega)) (sA0_2 V c (n - 1) (by omega) (by omega))

theorem coverB0_6 (c : Dev nD) (n : ℕ) (hn : n < cfg0.N) (h : n % 2 = 1) (h4 : n % 4 = 1) (y : S1x1024x1024.Idx) :
    ∃ pc ∈ (runB0 V c n hn h h4).1, y ∈ pc.1.set :=
  View.cover_of_tiledL (runB0 V c n hn h h4).1 S1x1024x1024.size (by sl_kernel_rfl) y
theorem coverC0_6 (c : Dev nD) (n : ℕ) (hn : n < cfg0.N) (h : n % 2 = 1) (h4 : ¬ n % 4 = 1) (y : S1x1024x1024.Idx) :
    ∃ pc ∈ (runC0 V c n hn h h4).1, y ∈ pc.1.set :=
  View.cover_of_tiledL (runC0 V c n hn h h4).1 S1x1024x1024.size (by sl_kernel_rfl) y

/-- The output block an odd point leaves in the staging buffer. -/
def outOdd0 (c : Dev nD) (n : ℕ) (hn : n < cfg0.N) (h : n % 2 = 1) : Vec F S1x1024x1024 .f32 :=
  if h4 : n % 4 = 1 then VO0_6.read (Elt F) (VO0_6.writes (Elt F) VO0_6.junk (runB0 V c n hn h h4).1)
  else VO0_6.read (Elt F) (VO0_6.writes (Elt F) VO0_6.junk (runC0 V c n hn h h4).1)
theorem outOdd0_B (c : Dev nD) (n : ℕ) (hn : n < cfg0.N) (h : n % 2 = 1) (h4 : n % 4 = 1) :
    outOdd0 V c n hn h = VO0_6.read (Elt F) (VO0_6.writes (Elt F) VO0_6.junk (runB0 V c n hn h h4).1) := by
  unfold outOdd0; rw [dif_pos h4]
theorem outOdd0_C (c : Dev nD) (n : ℕ) (hn : n < cfg0.N) (h : n % 2 = 1) (h4 : ¬ n % 4 = 1) :
    outOdd0 V c n hn h = VO0_6.read (Elt F) (VO0_6.writes (Elt F) VO0_6.junk (runC0 V c n hn h h4).1) := by
  unfold outOdd0; rw [dif_neg h4]

/-- The invariant before position n: after an even point the three scratch buffers at what it left; otherwise anything. -/
def PhiS0 (c : Dev nD) (n : ℕ) (hn : n ≤ cfg0.N) : sProp 𝕄 :=
  if h : n % 2 = 1 then
    iprop(iprop(owns (c : Thread nD τ) scM0_0 fullShare (sA0_0 V c (n - 1) (by omega) (by omega)) ∗ owns (c : Thread nD τ) scM0_1 fullShare (sA0_1 V c (n - 1) (by omega) (by omega)) ∗ owns (c : Thread nD τ) scM0_2 fullShare (sA0_2 V c (n - 1) (by omega) (by omega)))
      ∗ Pipeline.scopedRestBut (Ix := Unit) (Name := ℕ) (U := UR sig nD τ) (Lvl := ℕ) (Val := Elt F) spec0 c [cc0_scratch0, cc0_scratch1, cc0_scratch2] ∗ (∃ r, prngReg c r))
  else Pipeline.ΦA spec0 c

theorem PhiS0_even (c : Dev nD) (n : ℕ) (hn : n ≤ cfg0.N) (h : n % 2 = 0) : PhiS0 V c n hn = Pipeline.ΦA spec0 c := by
  unfold PhiS0; rw [dif_neg (by omega)]
theorem PhiS0_odd (c : Dev nD) (n : ℕ) (hn : n ≤ cfg0.N) (h : n % 2 = 1) : PhiS0 V c n hn =
    iprop(iprop(owns (c : Thread nD τ) scM0_0 fullShare (sA0_0 V c (n - 1) (by omega) (by omega)) ∗ owns (c : Thread nD τ) scM0_1 fullShare (sA0_1 V c (n - 1) (by omega) (by omega)) ∗ owns (c : Thread nD τ) scM0_2 fullShare (sA0_2 V c (n - 1) (by omega) (by omega)))
      ∗ Pipeline.scopedRestBut (Ix := Unit) (Name := ℕ) (U := UR sig nD τ) (Lvl := ℕ) (Val := Elt F) spec0 c [cc0_scratch0, cc0_scratch1, cc0_scratch2] ∗ (∃ r, prngReg c r)) := by
  unfold PhiS0; rw [dif_pos h]

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d))
          ∗ Pipeline.scopedRestBut (Ix := Unit) (Name := ℕ) (U := UR sig nD τ) (Lvl := ℕ) (Val := Elt F) spec0 c [cc0_scratch0, cc0_scratch1, cc0_scratch2]) ∗ (∃ r, prngReg c r)) := by
  unfold Pipeline.ΦA; rw [scopedRest0_split]; simp only [scM0_0, scM0_1, scM0_2, owns_whole]
  rfl

/-- The proof data: arrays as found; inputs left in place; the output at an odd point's block (an arbitrary value at even
    points, where the window is idle and not written back); the running state carried inside each pair of points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => if h : t.val % 2 = 1 then outOdd0 V c t.val t.isLt h else VO0_6.read (Elt F) VO0_6.junk
  Φ t := PhiS0 V c t.val (Nat.le_of_lt_succ t.isLt)
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) (h : t.val % 2 = 1) : (dat0 V c).after 6 t = outOdd0 V c t.val t.isLt h := by
  dsimp only [dat0]; rw [dif_pos h]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem PhiS0_castSucc (c : Dev nD) (t : Fin cfg0.N) :
    (dat0 V c).Φ t.castSucc = PhiS0 V c t.val (Nat.le_of_lt t.isLt) := by
  dsimp only [dat0]; simp only [Fin.coe_castSucc]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

end Cert.KernelIdeal.KF

end
-- ==== Proof.K0.lean ====
/-
  The causal-attention kernel's body meets its obligation at every grid point: the first point of a pair finds the three
  state buffers at anything and leaves them at the named state; the second finds that state and leaves the row block.
-/
import proofs.«167660_j22771916603726_2_alg».proof.Proof.K0a

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 8000000 in
/-- The body at any point: an even point finds the scratch at anything and leaves it at the named state, the output buffer
    untouched; an odd point finds the named state and leaves the output block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_castSucc V c t]
  rw [show (dat0 V c).leavesExact 0 t = owns (c : Thread nD τ) (ms0_0 t) fullShare ((dat0 V c).after 0 t) from by
    unfold Dat.leavesExact; rw [liveAt0_in 0 (by decide) t], after0_0]
  rw [show (dat0 V c).leavesExact 1 t = owns (c : Thread nD τ) (ms0_1 t) fullShare ((dat0 V c).after 1 t) from by
    unfold Dat.leavesExact; rw [liveAt0_in 1 (by decide) t], after0_1]
  rw [show (dat0 V c).leavesExact 2 t = owns (c : Thread nD τ) (ms0_2 t) fullShare ((dat0 V c).after 2 t) from by
    unfold Dat.leavesExact; rw [liveAt0_in 2 (by decide) t], after0_2]
  rw [show (dat0 V c).leavesExact 3 t = owns (c : Thread nD τ) (ms0_3 t) fullShare ((dat0 V c).after 3 t) from by
    unfold Dat.leavesExact; rw [liveAt0_in 3 (by decide) t], after0_3]
  rw [show (dat0 V c).leavesExact 4 t = owns (c : Thread nD τ) (ms0_4 t) fullShare ((dat0 V c).after 4 t) from by
    unfold Dat.leavesExact; rw [liveAt0_in 4 (by decide) t], after0_4]
  rw [show (dat0 V c).leavesExact 5 t = owns (c : Thread nD τ) (ms0_5 t) fullShare ((dat0 V c).after 5 t) from by
    unfold Dat.leavesExact; rw [liveAt0_in 5 (by decide) t], after0_5]
  by_cases h0 : t.val % 2 = 0
  · rw [Dat.leavesExact_idle (dat0 V c) 6 t (idleAt0_6 t h0) (noFlush0_6 t h0)]
    rw [PhiS0_even V c _ _ h0, PhiA0_eq, PhiS0_odd V c _ _ (by omega)]
    iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((runA0 V c t.val t.isLt h0).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, ⟨%es0, HS0⟩, ⟨%es1, HS1⟩, ⟨%es2, HS2⟩⟩
    isplitl [HS0 HS1 HS2 Hrest Hg]
    · isplitl [HS0 HS1 HS2]
      · isplitl [HS0]
        · unfold owns; iexists _; isplitr
          swap; · iexact HS0
          ipureintro; exact View.read_writes_of_cover _ _ _ _ _ (scoverA0_0 V c _ _ _)
        isplitl [HS1]
        · unfold owns; iexists _; isplitr
          swap; · iexact HS1
          ipureintro; exact View.read_writes_of_cover _ _ _ _ _ (scoverA0_1 V c _ _ _)
        unfold owns; iexists _; isplitr
        swap; · iexact HS2
        ipureintro; exact View.read_writes_of_cover _ _ _ _ _ (scoverA0_2 V c _ _ _)
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  ·
    have h1 : t.val % 2 = 1 := by omega
    rw [show (dat0 V c).leavesExact 6 t = owns (c : Thread nD τ) (ms0_6 t) fullShare ((dat0 V c).after 6 t) from by
      unfold Dat.leavesExact; rw [liveAt0_6 t h1], after0_6 V c t h1]
    rw [PhiS0_odd V c _ _ h1, PhiS0_even V c _ _ (by omega), PhiA0_eq]
    by_cases h4 : t.val % 4 = 1
    · rw [outOdd0_B V c _ _ h1 h4]
      iintro ⟨⟨⟨HS0, HS1, HS2⟩, Hrest, Hg⟩, Ho, ⟨%d0, H0⟩, ⟨%d1, H1⟩, ⟨%d2, H2⟩, ⟨%d3, H3⟩, ⟨%d4, H4⟩, ⟨%d5, H5⟩, ⟨%d6, H6⟩⟩
      iapply ((runB0 V c t.val t.isLt h1 h4).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, ⟨%e6, H6⟩, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · iexists _; unfold owns; iexists _; isplitr
              swap; · iexact HS0
              ipureintro; rfl
            isplitl [HS1]
            · iexists _; unfold owns; iexists _; isplitr
              swap; · iexact HS1
              ipureintro; rfl
            iexists _; unfold owns; iexists _; isplitr
            swap; · iexact HS2
            ipureintro; rfl
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverB0_6 V c _ _ _ _)
    · rw [outOdd0_C V c _ _ h1 h4]
      iintro ⟨⟨⟨HS0, HS1, HS2⟩, Hrest, Hg⟩, Ho, ⟨%d0, H0⟩, ⟨%d1, H1⟩, ⟨%d2, H2⟩, ⟨%d3, H3⟩, ⟨%d4, H4⟩, ⟨%d5, H5⟩, ⟨%d6, H6⟩⟩
      iapply ((runC0 V c t.val t.isLt h1 h4).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, ⟨%e6, H6⟩, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · iexists _; unfold owns; iexists _; isplitr
              swap; · iexact HS0
              ipureintro; rfl
            isplitl [HS1]
            · iexists _; unfold owns; iexists _; isplitr
              swap; · iexact HS1
              ipureintro; rfl
            iexists _; unfold owns; iexists _; isplitr
            swap; · iexact HS2
            ipureintro; rfl
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverC0_6 V c _ _ _ _)

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_even V c 0 _ rfl]

theorem hout0 (c : Dev nD) : (dat0 V c).Φ (Fin.last cfg0.N) ⊢ Pipeline.ΦA spec0 c := by
  rw [show (dat0 V c).Φ (Fin.last cfg0.N) = PhiS0 V c cfg0.N (Nat.le_refl _) from rfl, PhiS0_even V c _ _ (by rw [show cfg0.N = 16 from N_0])]

end Cert.KernelIdeal.KF

end
-- ==== Proof.K1RunA.lean ====
/-
  The memory-attention kernel's body at the first key tile of a row block: the running state is reset and one tile is
  accumulated; the output buffer is not touched.
-/
import proofs.«167660_j22771916603726_2_alg».proof.Proof.K0RunC

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The second kernel (attention over the memory): its body on whole buffers, case by case -/

/-- The reset of the running state is taken at the first key tile. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- The normalise-and-store branch is taken at the last key tile. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)
set_option maxHeartbeats 8000000 in
/-- At the first key tile: the running state is reset and one tile is accumulated; the output buffer is not touched. -/
noncomputable def kernelRun1_A (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond1_0 i) (hc1 : ¬cond1_1 i)
    (x0 : Vec F S1x1024x1024 .bf16) (x1 : Vec F S1x1024x1024 .bf16) (x2 : Vec F S1x1024x1024 .bf16) (x3 : Vec F S1x1024x1024 .f32) (x4 : Vec F S1024 .f32) (x5 : Vec F S1024 .f32)  :
    Σ' (LS0 : List (View.Piece (Elt F) S1024x1 .f32)), Σ' (LS1 : List (View.Piece (Elt F) S1024x1 .f32)), { LS2 : List (View.Piece (Elt F) S1024x1024 .f32) //
      ∀ (xi6 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__cross_attn_ln_kernel i arg3 harg3 arg4 harg4 arg5 harg5 arg6 harg6 arg7 harg7 arg8 harg8 arg9 harg9 arg10 harg10 arg11 harg11 arg12 harg12) K } := by
  refine ⟨?_, ?_, ?_, fun xi6 E K => ?run⟩
  case run =>
    simp only [cc1__cross_attn_ln_kernel_eq_skeleton]; unfold cc1__cross_attn_ln_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

end Cert.KernelIdeal.KF

end
-- ==== Proof.K1RunB.lean ====
/-
  The memory-attention kernel's body at the last key tile: one more tile is accumulated onto the carried running state,
  which is then normalised and stored.
-/
import proofs.«167660_j22771916603726_2_alg».proof.Proof.K1RunA

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The second kernel's body at the last tile -/
set_option maxHeartbeats 8000000 in
/-- At the last key tile: one more tile is accumulated onto the carried state, then the state is normalised and stored. -/
noncomputable def kernelRun1_B (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : cond1_1 i)
    (x0 : Vec F S1x1024x1024 .bf16) (x1 : Vec F S1x1024x1024 .bf16) (x2 : Vec F S1x1024x1024 .bf16) (x3 : Vec F S1x1024x1024 .f32) (x4 : Vec F S1024 .f32) (x5 : Vec F S1024 .f32) (xs0 : Vec F S1024x1 .f32) (xs1 : Vec F S1024x1 .f32) (xs2 : Vec F S1024x1024 .f32) :
    Σ' (L6 : List (View.Piece (Elt F) S1x1024x1024 .f32)), Σ' (LS0 : List (View.Piece (Elt F) S1024x1 .f32)), Σ' (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__cross_attn_ln_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__cross_attn_ln_kernel_eq_skeleton]; unfold cc1__cross_attn_ln_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    isplitl [HS1]; · iexists _; iexact HS1
    iexists _; iexact HS2

end Cert.KernelIdeal.KF

end
-- ==== Proof.K1a.lean ====
/-
  The memory-attention kernel as a pipelined region: what each window's buffer holds after the body at each point of a
  pair of key tiles, and the invariant carrying the running softmax state from the first point of a pair to the second.
-/
import proofs.«167660_j22771916603726_2_alg».proof.Proof.K1RunB

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # Kernel 2 as a region: proof data and body obligation at the entry contents V.
    The grid's points come in pairs: an even point resets the running state and accumulates the first key tile; the odd
    point after it finishes the row block and stores it. So the running state is named only between the two. -/

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024x1024 .f32 := win1_6.stage (cfg1.slots t 6)
abbrev hs1_6 (t : Fin cfg1.N) : (ms1_6 t).IsWhole := hstage1_6 ((cfg1.slots t 6).cast nbuf1_6)
abbrev scM1_0 : Memref sig .tc .vmem S1024x1 .f32 := Memref.whole cc1_scratch0
abbrev VS1_0 : View sig .tc .vmem S1024x1 .f32 := scM1_0.view
abbrev scM1_1 : Memref sig .tc .vmem S1024x1 .f32 := Memref.whole cc1_scratch1
abbrev VS1_1 : View sig .tc .vmem S1024x1 .f32 := scM1_1.view
abbrev scM1_2 : Memref sig .tc .vmem S1024x1024 .f32 := Memref.whole cc1_scratch2
abbrev VS1_2 : View sig .tc .vmem S1024x1024 .f32 := scM1_2.view
abbrev VO1_6 : View sig .tc .vmem S1x1024x1024 .f32 := (Memref.whole cc1_stg6_0 : Memref sig .tc .vmem S1x1024x1024 .f32).view

theorem liveAt1_in : ∀ (w : Fin 7), w.val < 6 → ∀ t : Fin cfg1.N, cfg1.idle w (grid1.coords t) = false := by decide +kernel
theorem idleAt1_6 : ∀ t : Fin cfg1.N, t.val % 2 = 0 → cfg1.idle 6 (grid1.coords t) = true := by decide +kernel
theorem liveAt1_6 : ∀ t : Fin cfg1.N, t.val % 2 = 1 → cfg1.idle 6 (grid1.coords t) = false := by decide +kernel
theorem noFlush1_6 : ∀ t : Fin cfg1.N, t.val % 2 = 0 → (cfg1.win 6).flush t = false := by decide +kernel

/-- The body's run at an even point. -/
def runA1 (c : Dev nD) (n : ℕ) (hn : n < cfg1.N) (h : n % 2 = 0) :=
  kernelRun1_A (F := F) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) scM1_0 (Memref.isWhole_whole _) scM1_1 (Memref.isWhole_whole _) scM1_2 (Memref.isWhole_whole _) ((hcond1_0 ⟨n, hn⟩).mpr h) (fun h' => by have := (hcond1_1 ⟨n, hn⟩).mp h'; (try dsimp only at this); omega) (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩)

theorem scoverA1_0 (c : Dev nD) (n : ℕ) (hn : n < cfg1.N) (h : n % 2 = 0) (y : S1024x1.Idx) :
    ∃ pc ∈ (runA1 V c n hn h).1, y ∈ pc.1.set :=
  View.cover_of_tiledL (runA1 V c n hn h).1 S1024x1.size (by sl_kernel_rfl) y
/-- What an even point leaves in scratch 0. -/
def sA1_0 (c : Dev nD) (n : ℕ) (hn : n < cfg1.N) (h : n % 2 = 0) : Vec F S1024x1 .f32 :=
  VS1_0.read (Elt F) (VS1_0.writes (Elt F) VS1_0.junk (runA1 V c n hn h).1)
theorem scoverA1_1 (c : Dev nD) (n : ℕ) (hn : n < cfg1.N) (h : n % 2 = 0) (y : S1024x1.Idx) :
    ∃ pc ∈ (runA1 V c n hn h).2.1, y ∈ pc.1.set :=
  View.cover_of_tiledL (runA1 V c n hn h).2.1 S1024x1.size (by sl_kernel_rfl) y
/-- What an even point leaves in scratch 1. -/
def sA1_1 (c : Dev nD) (n : ℕ) (hn : n < cfg1.N) (h : n % 2 = 0) : Vec F S1024x1 .f32 :=
  VS1_1.read (Elt F) (VS1_1.writes (Elt F) VS1_1.junk (runA1 V c n hn h).2.1)
theorem scoverA1_2 (c : Dev nD) (n : ℕ) (hn : n < cfg1.N) (h : n % 2 = 0) (y : S1024x1024.Idx) :
    ∃ pc ∈ (runA1 V c n hn h).2.2.1, y ∈ pc.1.set :=
  View.cover_of_tiledL (runA1 V c n hn h).2.2.1 S1024x1024.size (by sl_kernel_rfl) y
/-- What an even point leaves in scratch 2. -/
def sA1_2 (c : Dev nD) (n : ℕ) (hn : n < cfg1.N) (h : n % 2 = 0) : Vec F S1024x1024 .f32 :=
  VS1_2.read (Elt F) (VS1_2.writes (Elt F) VS1_2.junk (runA1 V c n hn h).2.2.1)

/-- The body's run at an odd point. -/
def runB1 (c : Dev nD) (n : ℕ) (hn : n < cfg1.N) (h : n % 2 = 1) :=
  kernelRun1_B (F := F) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) scM1_0 (Memref.isWhole_whole _) scM1_1 (Memref.isWhole_whole _) scM1_2 (Memref.isWhole_whole _) (fun h' => by have := (hcond1_0 ⟨n, hn⟩).mp h'; (try dsimp only at this); omega) ((hcond1_1 ⟨n, hn⟩).mpr h) (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩) (sA1_0 V c (n - 1) (by omega) (by omega)) (sA1_1 V c (n - 1) (by omega) (by omega)) (sA1_2 V c (n - 1) (by omega) (by omega))

theorem coverB1_6 (c : Dev nD) (n : ℕ) (hn : n < cfg1.N) (h : n % 2 = 1) (y : S1x1024x1024.Idx) :
    ∃ pc ∈ (runB1 V c n hn h).1, y ∈ pc.1.set :=
  View.cover_of_tiledL (runB1 V c n hn h).1 S1x1024x1024.size (by sl_kernel_rfl) y

/-- The output block an odd point leaves in the staging buffer. -/
def outOdd1 (c : Dev nD) (n : ℕ) (hn : n < cfg1.N) (h : n % 2 = 1) : Vec F S1x1024x1024 .f32 :=
  VO1_6.read (Elt F) (VO1_6.writes (Elt F) VO1_6.junk (runB1 V c n hn h).1)

/-- The invariant before position n: after an even point the three scratch buffers at what it left; otherwise anything. -/
def PhiS1 (c : Dev nD) (n : ℕ) (hn : n ≤ cfg1.N) : sProp 𝕄 :=
  if h : n % 2 = 1 then
    iprop(iprop(owns (c : Thread nD τ) scM1_0 fullShare (sA1_0 V c (n - 1) (by omega) (by omega)) ∗ owns (c : Thread nD τ) scM1_1 fullShare (sA1_1 V c (n - 1) (by omega) (by omega)) ∗ owns (c : Thread nD τ) scM1_2 fullShare (sA1_2 V c (n - 1) (by omega) (by omega)))
      ∗ Pipeline.scopedRestBut (Ix := Unit) (Name := ℕ) (U := UR sig nD τ) (Lvl := ℕ) (Val := Elt F) spec1 c [cc1_scratch0, cc1_scratch1, cc1_scratch2] ∗ (∃ r, prngReg c r))
  else Pipeline.ΦA spec1 c

theorem PhiS1_even (c : Dev nD) (n : ℕ) (hn : n ≤ cfg1.N) (h : n % 2 = 0) : PhiS1 V c n hn = Pipeline.ΦA spec1 c := by
  unfold PhiS1; rw [dif_neg (by omega)]
theorem PhiS1_odd (c : Dev nD) (n : ℕ) (hn : n ≤ cfg1.N) (h : n % 2 = 1) : PhiS1 V c n hn =
    iprop(iprop(owns (c : Thread nD τ) scM1_0 fullShare (sA1_0 V c (n - 1) (by omega) (by omega)) ∗ owns (c : Thread nD τ) scM1_1 fullShare (sA1_1 V c (n - 1) (by omega) (by omega)) ∗ owns (c : Thread nD τ) scM1_2 fullShare (sA1_2 V c (n - 1) (by omega) (by omega)))
      ∗ Pipeline.scopedRestBut (Ix := Unit) (Name := ℕ) (U := UR sig nD τ) (Lvl := ℕ) (Val := Elt F) spec1 c [cc1_scratch0, cc1_scratch1, cc1_scratch2] ∗ (∃ r, prngReg c r)) := by
  unfold PhiS1; rw [dif_pos h]

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d))
          ∗ Pipeline.scopedRestBut (Ix := Unit) (Name := ℕ) (U := UR sig nD τ) (Lvl := ℕ) (Val := Elt F) spec1 c [cc1_scratch0, cc1_scratch1, cc1_scratch2]) ∗ (∃ r, prngReg c r)) := by
  unfold Pipeline.ΦA; rw [scopedRest1_split]; simp only [scM1_0, scM1_1, scM1_2, owns_whole]
  rfl

/-- The proof data: arrays as found; inputs left in place; the output at an odd point's block (an arbitrary value at even
    points, where the window is idle and not written back); the running state carried inside each pair of points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => if h : t.val % 2 = 1 then outOdd1 V c t.val t.isLt h else VO1_6.read (Elt F) VO1_6.junk
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) (h : t.val % 2 = 1) : (dat1 V c).after 6 t = outOdd1 V c t.val t.isLt h := by
  dsimp only [dat1]; rw [dif_pos h]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem PhiS1_castSucc (c : Dev nD) (t : Fin cfg1.N) :
    (dat1 V c).Φ t.castSucc = PhiS1 V c t.val (Nat.le_of_lt t.isLt) := by
  dsimp only [dat1]; simp only [Fin.coe_castSucc]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

end Cert.KernelIdeal.KF

end
-- ==== Proof.K1.lean ====
/-
  The memory-attention kernel's body meets its obligation at every grid point, pair by pair.
-/
import proofs.«167660_j22771916603726_2_alg».proof.Proof.K1a

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 8000000 in
/-- The body at any point: an even point finds the scratch at anything and leaves it at the named state, the output buffer
    untouched; an odd point finds the named state and leaves the output block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_castSucc V c t]
  rw [show (dat1 V c).leavesExact 0 t = owns (c : Thread nD τ) (ms1_0 t) fullShare ((dat1 V c).after 0 t) from by
    unfold Dat.leavesExact; rw [liveAt1_in 0 (by decide) t], after1_0]
  rw [show (dat1 V c).leavesExact 1 t = owns (c : Thread nD τ) (ms1_1 t) fullShare ((dat1 V c).after 1 t) from by
    unfold Dat.leavesExact; rw [liveAt1_in 1 (by decide) t], after1_1]
  rw [show (dat1 V c).leavesExact 2 t = owns (c : Thread nD τ) (ms1_2 t) fullShare ((dat1 V c).after 2 t) from by
    unfold Dat.leavesExact; rw [liveAt1_in 2 (by decide) t], after1_2]
  rw [show (dat1 V c).leavesExact 3 t = owns (c : Thread nD τ) (ms1_3 t) fullShare ((dat1 V c).after 3 t) from by
    unfold Dat.leavesExact; rw [liveAt1_in 3 (by decide) t], after1_3]
  rw [show (dat1 V c).leavesExact 4 t = owns (c : Thread nD τ) (ms1_4 t) fullShare ((dat1 V c).after 4 t) from by
    unfold Dat.leavesExact; rw [liveAt1_in 4 (by decide) t], after1_4]
  rw [show (dat1 V c).leavesExact 5 t = owns (c : Thread nD τ) (ms1_5 t) fullShare ((dat1 V c).after 5 t) from by
    unfold Dat.leavesExact; rw [liveAt1_in 5 (by decide) t], after1_5]
  by_cases h0 : t.val % 2 = 0
  · rw [Dat.leavesExact_idle (dat1 V c) 6 t (idleAt1_6 t h0) (noFlush1_6 t h0)]
    rw [PhiS1_even V c _ _ h0, PhiA1_eq, PhiS1_odd V c _ _ (by omega)]
    iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((runA1 V c t.val t.isLt h0).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, ⟨%es0, HS0⟩, ⟨%es1, HS1⟩, ⟨%es2, HS2⟩⟩
    isplitl [HS0 HS1 HS2 Hrest Hg]
    · isplitl [HS0 HS1 HS2]
      · isplitl [HS0]
        · unfold owns; iexists _; isplitr
          swap; · iexact HS0
          ipureintro; exact View.read_writes_of_cover _ _ _ _ _ (scoverA1_0 V c _ _ _)
        isplitl [HS1]
        · unfold owns; iexists _; isplitr
          swap; · iexact HS1
          ipureintro; exact View.read_writes_of_cover _ _ _ _ _ (scoverA1_1 V c _ _ _)
        unfold owns; iexists _; isplitr
        swap; · iexact HS2
        ipureintro; exact View.read_writes_of_cover _ _ _ _ _ (scoverA1_2 V c _ _ _)
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  ·
    have h1 : t.val % 2 = 1 := by omega
    rw [show (dat1 V c).leavesExact 6 t = owns (c : Thread nD τ) (ms1_6 t) fullShare ((dat1 V c).after 6 t) from by
      unfold Dat.leavesExact; rw [liveAt1_6 t h1], after1_6 V c t h1]
    rw [PhiS1_odd V c _ _ h1, PhiS1_even V c _ _ (by omega), PhiA1_eq]
    unfold outOdd1
    iintro ⟨⟨⟨HS0, HS1, HS2⟩, Hrest, Hg⟩, Ho, ⟨%d0, H0⟩, ⟨%d1, H1⟩, ⟨%d2, H2⟩, ⟨%d3, H3⟩, ⟨%d4, H4⟩, ⟨%d5, H5⟩, ⟨%d6, H6⟩⟩
    iapply ((runB1 V c t.val t.isLt h1).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, ⟨%e6, H6⟩, ⟨%es0, HS0⟩, ⟨%es1, HS1⟩, ⟨%es2, HS2⟩⟩
    isplitl [HS0 HS1 HS2 Hrest Hg]
    · isplitl [HS0 HS1 HS2 Hrest]
      · isplitl [HS0 HS1 HS2]
        · isplitl [HS0]
          · iexists _; unfold owns; iexists _; isplitr
            swap; · iexact HS0
            ipureintro; rfl
          isplitl [HS1]
          · iexists _; unfold owns; iexists _; isplitr
            swap; · iexact HS1
            ipureintro; rfl
          iexists _; unfold owns; iexists _; isplitr
          swap; · iexact HS2
          ipureintro; rfl
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverB1_6 V c _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_even V c 0 _ rfl]

theorem hout1 (c : Dev nD) : (dat1 V c).Φ (Fin.last cfg1.N) ⊢ Pipeline.ΦA spec1 c := by
  rw [show (dat1 V c).Φ (Fin.last cfg1.N) = PhiS1 V c cfg1.N (Nat.le_refl _) from rfl, PhiS1_even V c _ _ (by rw [show cfg1.N = 16 from N_1])]

end Cert.KernelIdeal.KF

end
-- ==== Proof.K2Run.lean ====
/-
  The feed-forward kernel's body run symbolically on whole buffers: from the seven input buffers at given contents it
  terminates without a fault, leaves the inputs as they were and the output buffer with the body's stores written.
-/
import proofs.«167660_j22771916603726_2_alg».proof.Proof.Gen.KernelIdeal.Launch
import proofs.«167660_j22771916603726_2_alg».proof.Proof.Gen.KernelIdeal.Skeleton
import proofs.«167660_j22771916603726_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The third kernel (feed-forward and normalisation): its body on whole staging buffers -/

set_option maxHeartbeats 4000000 in
/-- The body on whole staging buffers — the seven inputs at contents x0 … x6, the output's at anything — runs to the
    continuation holding the inputs as they were and the output's buffer with the body's pieces written. -/
noncomputable def kernelRun2 (c : Dev nD) (i : grid2.Coords) (arg1 : Memref sig .tc .vmem S512x1024 .f32) (harg1 : arg1.IsWhole) (arg2 : Memref sig .tc .vmem S1024x4096 .bf16) (harg2 : arg2.IsWhole) (arg3 : Memref sig .tc .vmem S4096 .f32) (harg3 : arg3.IsWhole) (arg4 : Memref sig .tc .vmem S4096x1024 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S512x1024 .f32) (harg8 : arg8.IsWhole)
    (x0 : Vec F S512x1024 .f32) (x1 : Vec F S1024x4096 .bf16) (x2 : Vec F S4096 .f32) (x3 : Vec F S4096x1024 .bf16) (x4 : Vec F S1024 .f32) (x5 : Vec F S1024 .f32) (x6 : Vec F S1024 .f32) :
    { L7 : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)) -∗ K ⟨⟩))
          ⊢ wp frame (wpE (defs₀ (F := F)) Variants.none c none) E (cc2__ffn_ln_kernel i arg1 harg1 arg2 harg2 arg3 harg3 arg4 harg4 arg5 harg5 arg6 harg6 arg7 harg7 arg8 harg8) K } := by
  refine ⟨?_, fun E K => ?run⟩
  case run =>
    simp only [cc2__ffn_ln_kernel_eq_skeleton]; unfold cc2__ffn_ln_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

end Cert.KernelIdeal.KF

end
-- ==== Proof.K2.lean ====
/-
  The feed-forward kernel as a pipelined region: every point reads a block of 512 rows and the whole weights and writes
  the block's result; nothing is carried between points.
-/
import proofs.«167660_j22771916603726_2_alg».proof.Proof.K2Run

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The third kernel as a region: proof data and body obligation at the entry contents V -/

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

abbrev ms2_0 (t : Fin cfg2.N) : Memref sig .tc .vmem S512x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x4096 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S512x1024 .f32 := win2_7.stage (cfg2.slots t 7)
abbrev hs2_7 (t : Fin cfg2.N) : (ms2_7 t).IsWhole := hstage2_7 ((cfg2.slots t 7).cast nbuf2_7)

/-- One staging buffer of the output window, through which its contents are stated. -/
abbrev VO2_7 : View sig .tc .vmem S512x1024 .f32 := (Memref.whole cc2_stg7_0 : Memref sig .tc .vmem S512x1024 .f32).view

/-- The body's pieces for the output tile its block, so they cover it. -/
theorem cover2_7 (c : Dev nD) (i : grid2.Coords) (arg1 : Memref sig .tc .vmem S512x1024 .f32) (harg1 : arg1.IsWhole) (arg2 : Memref sig .tc .vmem S1024x4096 .bf16) (harg2 : arg2.IsWhole) (arg3 : Memref sig .tc .vmem S4096 .f32) (harg3 : arg3.IsWhole) (arg4 : Memref sig .tc .vmem S4096x1024 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S512x1024 .f32) (harg8 : arg8.IsWhole) (x0 : Vec F S512x1024 .f32) (x1 : Vec F S1024x4096 .bf16) (x2 : Vec F S4096 .f32) (x3 : Vec F S4096x1024 .bf16) (x4 : Vec F S1024 .f32) (x5 : Vec F S1024 .f32) (x6 : Vec F S1024 .f32) (y : S512x1024.Idx) :
    ∃ pc ∈ (kernelRun2 c i arg1 harg1 arg2 harg2 arg3 harg3 arg4 harg4 arg5 harg5 arg6 harg6 arg7 harg7 arg8 harg8 x0 x1 x2 x3 x4 x5 x6).1, y ∈ pc.1.set :=
  View.cover_of_tiledL (kernelRun2 c i arg1 harg1 arg2 harg2 arg3 harg3 arg4 harg4 arg5 harg5 arg6 harg6 arg7 harg7 arg8 harg8 x0 x1 x2 x3 x4 x5 x6).1 S512x1024.size (by sl_kernel_rfl) y

/-- What the body leaves in the output's staging buffer: its pieces read back. -/
def out2_7 (c : Dev nD) (i : grid2.Coords) (arg1 : Memref sig .tc .vmem S512x1024 .f32) (harg1 : arg1.IsWhole) (arg2 : Memref sig .tc .vmem S1024x4096 .bf16) (harg2 : arg2.IsWhole) (arg3 : Memref sig .tc .vmem S4096 .f32) (harg3 : arg3.IsWhole) (arg4 : Memref sig .tc .vmem S4096x1024 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S512x1024 .f32) (harg8 : arg8.IsWhole) (x0 : Vec F S512x1024 .f32) (x1 : Vec F S1024x4096 .bf16) (x2 : Vec F S4096 .f32) (x3 : Vec F S4096x1024 .bf16) (x4 : Vec F S1024 .f32) (x5 : Vec F S1024 .f32) (x6 : Vec F S1024 .f32) : Vec F S512x1024 .f32 :=
  VO2_7.read (Elt F) (VO2_7.writes (Elt F) VO2_7.junk (kernelRun2 c i arg1 harg1 arg2 harg2 arg3 harg3 arg4 harg4 arg5 harg5 arg6 harg6 arg7 harg7 arg8 harg8 x0 x1 x2 x3 x4 x5 x6).1)

/-- The output block of point t. -/
def outAt2 (c : Dev nD) (t : Fin cfg2.N) : Vec F S512x1024 .f32 :=
  out2_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t) (iblk2 V c 5 t) (iblk2 V c 6 t)

/-- The proof data: arrays as found, inputs left in place, the output at the body's result, nothing carried. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  unfold outAt2 out2_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t) (iblk2 V c 5 t) (iblk2 V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover2_7 c _ _ _ _ _ _ _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

end Cert.KernelIdeal.KF

end
-- ==== Proof.KRunCond.lean ====
/-
  The whole program's run from one record per kernel region: the host operations between the regions are run as they
  stand, and the result buffer and the arguments are read off the last valuation of the buffers.
-/
import proofs.«167660_j22771916603726_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F] [Named F]

/-! # The whole program's run from its regions' records, with the result buffer read at the end -/

set_option backward.isDefEq.respectTransparency.types false in
/-- The run of the whole program given the three regions' records: every weakly fair execution terminates, the result
    buffer ends at the last valuation's contents and every argument as launched. -/
theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      r.2.mem ((c.tc : Thread nD τ).loc main_v9) = V7 m outs c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, hpre0 c, hpost0 c, hpre1 c, hpost1 c, hpre2 c, hpost2 c, sep_mono .rfl (hE3 c)⟩)
    (hinit := ?_) (QY := fun c s => s.mem ((c.tc : Thread nD τ).loc main_v9) = V7 m outs c main_v9 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact ⟨h (Proc.devRef .tc main_v9) (Finset.mem_filter.mpr ⟨StableHlo.devRef_mem_tcRefs main_v9, by decide⟩),
        (h (Proc.devRef .tc main_arg0) (Finset.mem_filter.mpr ⟨StableHlo.devRef_mem_tcRefs main_arg0, by decide⟩)).trans (V7_main_arg0 m outs c),
        (h (Proc.devRef .tc main_arg1) (Finset.mem_filter.mpr ⟨StableHlo.devRef_mem_tcRefs main_arg1, by decide⟩)).trans (V7_main_arg1 m outs c),
        (h (Proc.devRef .tc main_arg2) (Finset.mem_filter.mpr ⟨StableHlo.devRef_mem_tcRefs main_arg2, by decide⟩)).trans (V7_main_arg2 m outs c),
        (h (Proc.devRef .tc main_arg3) (Finset.mem_filter.mpr ⟨StableHlo.devRef_mem_tcRefs main_arg3, by decide⟩)).trans (V7_main_arg3 m outs c),
        (h (Proc.devRef .tc main_arg4) (Finset.mem_filter.mpr ⟨StableHlo.devRef_mem_tcRefs main_arg4, by decide⟩)).trans (V7_main_arg4 m outs c),
        (h (Proc.devRef .tc main_arg5) (Finset.mem_filter.mpr ⟨StableHlo.devRef_mem_tcRefs main_arg5, by decide⟩)).trans (V7_main_arg5 m outs c),
        (h (Proc.devRef .tc main_arg6) (Finset.mem_filter.mpr ⟨StableHlo.devRef_mem_tcRefs main_arg6, by decide⟩)).trans (V7_main_arg6 m outs c),
        (h (Proc.devRef .tc main_arg7) (Finset.mem_filter.mpr ⟨StableHlo.devRef_mem_tcRefs main_arg7, by decide⟩)).trans (V7_main_arg7 m outs c),
        (h (Proc.devRef .tc main_arg8) (Finset.mem_filter.mpr ⟨StableHlo.devRef_mem_tcRefs main_arg8, by decide⟩)).trans (V7_main_arg8 m outs c),
        (h (Proc.devRef .tc main_arg9) (Finset.mem_filter.mpr ⟨StableHlo.devRef_mem_tcRefs main_arg9, by decide⟩)).trans (V7_main_arg9 m outs c),
        (h (Proc.devRef .tc main_arg10) (Finset.mem_filter.mpr ⟨StableHlo.devRef_mem_tcRefs main_arg10, by decide⟩)).trans (V7_main_arg10 m outs c),
        (h (Proc.devRef .tc main_arg11) (Finset.mem_filter.mpr ⟨StableHlo.devRef_mem_tcRefs main_arg11, by decide⟩)).trans (V7_main_arg11 m outs c)⟩
    · iexact HSI

end Cert.KernelIdeal.KF

end
-- ==== Proof.KFrame.lean ====
/-
  The three kernels as segments of the program. A region's arrays are split out of the unscoped buffers at its entry —
  the array several input windows read is shared among them, each window holding a part of the full share — and put
  back at its exit; what a region leaves in its result is chosen region by region, each choice reading only the earlier
  ones. From these the program runs to the end, keeps its arguments and ends with the named result.
-/
import proofs.«167660_j22771916603726_2_alg».proof.Proof.K0
import proofs.«167660_j22771916603726_2_alg».proof.Proof.K1
import proofs.«167660_j22771916603726_2_alg».proof.Proof.K2
import proofs.«167660_j22771916603726_2_alg».proof.Proof.KRunCond

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F] [Named F]

local notation "𝕄" => MT nD τ sig Unit (Elt F) ℕ (UR sig nD τ) ℕ

/-! # The three regions as segments of the program, and the program's run -/

set_option maxHeartbeats 4000000 in
/-- The distinct buffers behind region 0's arrays, each whole at the full share, are its windows' arrays at their shares:
    the array several input windows read is split among them, and joined again, along the share. -/
theorem arrays_split0 {c : Dev nD} (dat : Dat τ (Elt F) Unit ℕ (UR sig nD τ) ℕ cfg0 c)
    (hq0 : dat.q 0 = fullShare.left) (hq1 : dat.q 1 = fullShare.right.left) (hq2 : dat.q 2 = fullShare.right.right) (hq3 : dat.q 3 = fullShare) (hq4 : dat.q 4 = fullShare) (hq5 : dat.q 5 = fullShare)
    (W : (b : Ref sig .tc) → Buf (Elt F) ((c : Thread nD τ).loc b))
    (F' : (w : Fin cfg0.W) → Buf (Elt F) ((cfg0.win w).arr.view.loc (c : Thread nD τ)))
    (hF : ∀ w, F' w = W (Pipeline.arrRef spec0 w)) :
    (Pipeline.arrBufs (Ix := Unit) (Name := ℕ) (U := UR sig nD τ) (Lvl := ℕ) spec0 c W : sProp 𝕄) ⊣⊢ dat.arrays F' := by
  unfold Pipeline.arrBufs Dat.arrays
  have eL : (bigSep (Finset.univ.image (Pipeline.arrRef spec0)) fun b => (((c : Thread nD τ).loc b) ↦{fullShare} W b : sProp 𝕄))
      = iprop((((c : Thread nD τ).loc main_v0) ↦{fullShare} W main_v0) ∗ (((c : Thread nD τ).loc main_arg0) ↦{fullShare} W main_arg0) ∗ (((c : Thread nD τ).loc main_arg6) ↦{fullShare} W main_arg6) ∗ (((c : Thread nD τ).loc main_arg7) ↦{fullShare} W main_arg7) ∗ (((c : Thread nD τ).loc main_v1) ↦{fullShare} W main_v1)) :=
    Idealize.SL.BI.bigSep_eq_bigSepL_of_eq [main_v0, main_arg0, main_arg6, main_arg7, main_v1] (by decide) (by decide) _
  rw [eL, bigSep_W0]
  have e0 : ((cfg0.win 0).arr.view.loc (c : Thread nD τ) ↦[(cfg0.win 0).arr.view.set]{dat.share 0} F' 0 : sProp 𝕄)
      = (((c : Thread nD τ).loc main_v0) ↦{fullShare.left} W main_v0) := by
    have hs : dat.share 0 = fullShare.left := by unfold Dat.share; rw [if_neg (by decide), hq0]
    rw [hF 0, (arr_whole0 0).set_eq_univ, hs]
  have e1 : ((cfg0.win 1).arr.view.loc (c : Thread nD τ) ↦[(cfg0.win 1).arr.view.set]{dat.share 1} F' 1 : sProp 𝕄)
      = (((c : Thread nD τ).loc main_v0) ↦{fullShare.right.left} W main_v0) := by
    have hs : dat.share 1 = fullShare.right.left := by unfold Dat.share; rw [if_neg (by decide), hq1]
    rw [hF 1, (arr_whole0 1).set_eq_univ, hs]
  have e2 : ((cfg0.win 2).arr.view.loc (c : Thread nD τ) ↦[(cfg0.win 2).arr.view.set]{dat.share 2} F' 2 : sProp 𝕄)
      = (((c : Thread nD τ).loc main_v0) ↦{fullShare.right.right} W main_v0) := by
    have hs : dat.share 2 = fullShare.right.right := by unfold Dat.share; rw [if_neg (by decide), hq2]
    rw [hF 2, (arr_whole0 2).set_eq_univ, hs]
  have e3 : ((cfg0.win 3).arr.view.loc (c : Thread nD τ) ↦[(cfg0.win 3).arr.view.set]{dat.share 3} F' 3 : sProp 𝕄)
      = (((c : Thread nD τ).loc main_arg0) ↦{fullShare} W main_arg0) := by
    have hs : dat.share 3 = fullShare := by unfold Dat.share; rw [if_neg (by decide), hq3]
    rw [hF 3, (arr_whole0 3).set_eq_univ, hs]
  have e4 : ((cfg0.win 4).arr.view.loc (c : Thread nD τ) ↦[(cfg0.win 4).arr.view.set]{dat.share 4} F' 4 : sProp 𝕄)
      = (((c : Thread nD τ).loc main_arg6) ↦{fullShare} W main_arg6) := by
    have hs : dat.share 4 = fullShare := by unfold Dat.share; rw [if_neg (by decide), hq4]
    rw [hF 4, (arr_whole0 4).set_eq_univ, hs]
  have e5 : ((cfg0.win 5).arr.view.loc (c : Thread nD τ) ↦[(cfg0.win 5).arr.view.set]{dat.share 5} F' 5 : sProp 𝕄)
      = (((c : Thread nD τ).loc main_arg7) ↦{fullShare} W main_arg7) := by
    have hs : dat.share 5 = fullShare := by unfold Dat.share; rw [if_neg (by decide), hq5]
    rw [hF 5, (arr_whole0 5).set_eq_univ, hs]
  have e6 : ((cfg0.win 6).arr.view.loc (c : Thread nD τ) ↦[(cfg0.win 6).arr.view.set]{dat.share 6} F' 6 : sProp 𝕄)
      = (((c : Thread nD τ).loc main_v1) ↦{fullShare} W main_v1) := by
    have hs : dat.share 6 = fullShare := by unfold Dat.share; rw [if_pos (by decide)]
    rw [hF 6, (arr_whole0 6).set_eq_univ, hs]
  rw [e0, e1, e2, e3, e4, e5, e6]
  constructor
  ·
    iintro ⟨Hv, Ha0, Ha6, Ha7, Hv1⟩
    ihave H := (pointsTo_share (PosShare.mem_left_op_right fullShare)).1 $$ Hv
    icases H with ⟨H0, Hr⟩
    ihave H := (pointsTo_share (PosShare.mem_left_op_right fullShare.right)).1 $$ Hr
    icases H with ⟨H1, H2⟩
    isplitl [H0]; · iexact H0
    isplitl [H1]; · iexact H1
    isplitl [H2]; · iexact H2
    isplitl [Ha0]; · iexact Ha0
    isplitl [Ha6]; · iexact Ha6
    isplitl [Ha7]; · iexact Ha7
    iexact Hv1
  ·
    iintro ⟨H0, H1, H2, Ha0, Ha6, Ha7, Hv1⟩
    isplitl [H0 H1 H2]
    · iapply (pointsTo_share (PosShare.mem_left_op_right fullShare)).2
      isplitl [H0]; · iexact H0
      iapply (pointsTo_share (PosShare.mem_left_op_right fullShare.right)).2
      isplitl [H1]; · iexact H1
      iexact H2
    isplitl [Ha0]; · iexact Ha0
    isplitl [Ha6]; · iexact Ha6
    isplitl [Ha7]; · iexact Ha7
    iexact Hv1

set_option maxHeartbeats 4000000 in
/-- The distinct buffers behind region 1's arrays, each whole at the full share, are its windows' arrays at their shares:
    the array several input windows read is split among them, and joined again, along the share. -/
theorem arrays_split1 {c : Dev nD} (dat : Dat τ (Elt F) Unit ℕ (UR sig nD τ) ℕ cfg1 c)
    (hq0 : dat.q 0 = fullShare) (hq1 : dat.q 1 = fullShare.left) (hq2 : dat.q 2 = fullShare.right) (hq3 : dat.q 3 = fullShare) (hq4 : dat.q 4 = fullShare) (hq5 : dat.q 5 = fullShare)
    (W : (b : Ref sig .tc) → Buf (Elt F) ((c : Thread nD τ).loc b))
    (F' : (w : Fin cfg1.W) → Buf (Elt F) ((cfg1.win w).arr.view.loc (c : Thread nD τ)))
    (hF : ∀ w, F' w = W (Pipeline.arrRef spec1 w)) :
    (Pipeline.arrBufs (Ix := Unit) (Name := ℕ) (U := UR sig nD τ) (Lvl := ℕ) spec1 c W : sProp 𝕄) ⊣⊢ dat.arrays F' := by
  unfold Pipeline.arrBufs Dat.arrays
  have eL : (bigSep (Finset.univ.image (Pipeline.arrRef spec1)) fun b => (((c : Thread nD τ).loc b) ↦{fullShare} W b : sProp 𝕄))
      = iprop((((c : Thread nD τ).loc main_v2) ↦{fullShare} W main_v2) ∗ (((c : Thread nD τ).loc main_v3) ↦{fullShare} W main_v3) ∗ (((c : Thread nD τ).loc main_v1) ↦{fullShare} W main_v1) ∗ (((c : Thread nD τ).loc main_arg8) ↦{fullShare} W main_arg8) ∗ (((c : Thread nD τ).loc main_arg9) ↦{fullShare} W main_arg9) ∗ (((c : Thread nD τ).loc main_v4) ↦{fullShare} W main_v4)) :=
    Idealize.SL.BI.bigSep_eq_bigSepL_of_eq [main_v2, main_v3, main_v1, main_arg8, main_arg9, main_v4] (by decide) (by decide) _
  rw [eL, bigSep_W1]
  have e0 : ((cfg1.win 0).arr.view.loc (c : Thread nD τ) ↦[(cfg1.win 0).arr.view.set]{dat.share 0} F' 0 : sProp 𝕄)
      = (((c : Thread nD τ).loc main_v2) ↦{fullShare} W main_v2) := by
    have hs : dat.share 0 = fullShare := by unfold Dat.share; rw [if_neg (by decide), hq0]
    rw [hF 0, (arr_whole1 0).set_eq_univ, hs]
  have e1 : ((cfg1.win 1).arr.view.loc (c : Thread nD τ) ↦[(cfg1.win 1).arr.view.set]{dat.share 1} F' 1 : sProp 𝕄)
      = (((c : Thread nD τ).loc main_v3) ↦{fullShare.left} W main_v3) := by
    have hs : dat.share 1 = fullShare.left := by unfold Dat.share; rw [if_neg (by decide), hq1]
    rw [hF 1, (arr_whole1 1).set_eq_univ, hs]
  have e2 : ((cfg1.win 2).arr.view.loc (c : Thread nD τ) ↦[(cfg1.win 2).arr.view.set]{dat.share 2} F' 2 : sProp 𝕄)
      = (((c : Thread nD τ).loc main_v3) ↦{fullShare.right} W main_v3) := by
    have hs : dat.share 2 = fullShare.right := by unfold Dat.share; rw [if_neg (by decide), hq2]
    rw [hF 2, (arr_whole1 2).set_eq_univ, hs]
  have e3 : ((cfg1.win 3).arr.view.loc (c : Thread nD τ) ↦[(cfg1.win 3).arr.view.set]{dat.share 3} F' 3 : sProp 𝕄)
      = (((c : Thread nD τ).loc main_v1) ↦{fullShare} W main_v1) := by
    have hs : dat.share 3 = fullShare := by unfold Dat.share; rw [if_neg (by decide), hq3]
    rw [hF 3, (arr_whole1 3).set_eq_univ, hs]
  have e4 : ((cfg1.win 4).arr.view.loc (c : Thread nD τ) ↦[(cfg1.win 4).arr.view.set]{dat.share 4} F' 4 : sProp 𝕄)
      = (((c : Thread nD τ).loc main_arg8) ↦{fullShare} W main_arg8) := by
    have hs : dat.share 4 = fullShare := by unfold Dat.share; rw [if_neg (by decide), hq4]
    rw [hF 4, (arr_whole1 4).set_eq_univ, hs]
  have e5 : ((cfg1.win 5).arr.view.loc (c : Thread nD τ) ↦[(cfg1.win 5).arr.view.set]{dat.share 5} F' 5 : sProp 𝕄)
      = (((c : Thread nD τ).loc main_arg9) ↦{fullShare} W main_arg9) := by
    have hs : dat.share 5 = fullShare := by unfold Dat.share; rw [if_neg (by decide), hq5]
    rw [hF 5, (arr_whole1 5).set_eq_univ, hs]
  have e6 : ((cfg1.win 6).arr.view.loc (c : Thread nD τ) ↦[(cfg1.win 6).arr.view.set]{dat.share 6} F' 6 : sProp 𝕄)
      = (((c : Thread nD τ).loc main_v4) ↦{fullShare} W main_v4) := by
    have hs : dat.share 6 = fullShare := by unfold Dat.share; rw [if_pos (by decide)]
    rw [hF 6, (arr_whole1 6).set_eq_univ, hs]
  rw [e0, e1, e2, e3, e4, e5, e6]
  constructor
  ·
    iintro ⟨Hv2, Hv, Hv1, Ha8, Ha9, Hv4⟩
    ihave H := (pointsTo_share (PosShare.mem_left_op_right fullShare)).1 $$ Hv
    icases H with ⟨H1, H2⟩
    isplitl [Hv2]; · iexact Hv2
    isplitl [H1]; · iexact H1
    isplitl [H2]; · iexact H2
    isplitl [Hv1]; · iexact Hv1
    isplitl [Ha8]; · iexact Ha8
    isplitl [Ha9]; · iexact Ha9
    iexact Hv4
  ·
    iintro ⟨Hv2, H1, H2, Hv1, Ha8, Ha9, Hv4⟩
    isplitl [Hv2]; · iexact Hv2
    isplitl [H1 H2]
    · iapply (pointsTo_share (PosShare.mem_left_op_right fullShare)).2
      isplitl [H1]; · iexact H1
      iexact H2
    isplitl [Hv1]; · iexact Hv1
    isplitl [Ha8]; · iexact Ha8
    isplitl [Ha9]; · iexact Ha9
    iexact Hv4

abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev Rr (c : Dev nD) : sProp 𝕄 := iprop((∃ r, prngReg c r) ∗ ∃ W, owes (c : Thread nD τ) (0 : CellTallies nD τ sig Unit) W)

variable (m : (ℓ : Loc nD τ sig) → Buf (Elt F) ℓ) (outs : Outs (F := F))

/-- The buffers' contents at each region's entry and exit, read at the TensorCore's references. -/
abbrev Vr1 : (c : Dev nD) → (b : Ref sig .tc) → Buf (Elt F) ((c : Thread nD τ).loc b) := fun c b => V1 m c b
abbrev Vr2 : (c : Dev nD) → (b : Ref sig .tc) → Buf (Elt F) ((c : Thread nD τ).loc b) := fun c b => V2 m outs c b
abbrev Vr3 : (c : Dev nD) → (b : Ref sig .tc) → Buf (Elt F) ((c : Thread nD τ).loc b) := fun c b => V3 m outs c b
abbrev Vr4 : (c : Dev nD) → (b : Ref sig .tc) → Buf (Elt F) ((c : Thread nD τ).loc b) := fun c b => V4 m outs c b
abbrev Vr5 : (c : Dev nD) → (b : Ref sig .tc) → Buf (Elt F) ((c : Thread nD τ).loc b) := fun c b => V5 m outs c b
abbrev Vr6 : (c : Dev nD) → (b : Ref sig .tc) → Buf (Elt F) ((c : Thread nD τ).loc b) := fun c b => V6 m outs c b

/-- Every pipeline's proof data, each at its region's entry contents. -/
def pdats : (p : Fin 3) → (c : Dev nD) → Dat τ (Elt F) Unit ℕ (UR sig nD τ) ℕ (cfgs p) c
  | ⟨0, _⟩ => fun c => dat0 (Vr1 m) c
  | ⟨1, _⟩ => fun c => dat1 (Vr3 m outs) c
  | ⟨2, _⟩ => fun c => dat2 (Vr5 m outs) c

/-! ## Region 0: what its arrays hold at the exit, and its record -/

theorem hF0 (hO : ∀ c, outs 2 main_v1 c = (dat0 (Vr1 m) c).arrAt 6 cfg0.N) (c : Dev nD) (w : Fin cfg0.W) :
    (pdats m outs 0 c).arrAt w cfg0.N = (Vr2 m outs c) (Pipeline.arrRef spec0 w) := by
  have h1 : ∀ w : Fin cfg0.W, w.val < 6 → (cfg0.win w).isOut = false := by decide
  have h2 : ∀ w : Fin cfg0.W, w.val < 6 → Pipeline.arrRef spec0 w ∉ ([main_v1] : List (Ref sig .tc)) := by decide
  by_cases hw : w.val < 6
  · have e1 : (pdats m outs 0 c).arrAt w cfg0.N = (pdats m outs 0 c).A w :=
      (pdats m outs 0 c).arrAt_in w (h1 w hw) _
    rw [e1, show (pdats m outs 0 c).A w = (Vr1 m) c (Pipeline.arrRef spec0 w) from A_eq0 (Vr1 m) c w]
    exact (V2_of m outs c (Pipeline.arrRef spec0 w) (h2 w hw)).symm
  · have : w = ⟨6, by decide⟩ := Fin.ext (by have := (show w.val < 7 from w.isLt); show w.val = 6; omega)
    subst this
    show (dat0 (Vr1 m) c).arrAt 6 cfg0.N = Function.update (V1 m c) (Proc.devRef .tc main_v1) (outs 2 main_v1 c) (Proc.devRef .tc main_v1)
    rw [Function.update_self, hO c]

theorem hrest0 (c : Dev nD) : ∀ b, b ∉ Finset.univ.image (Pipeline.arrRef spec0) → (Vr2 m outs c) b = (Vr1 m) c b :=
  fun b hb => V2_of m outs c b (fun h => hb (by
    rw [List.mem_singleton] at h; subst h
    exact Finset.mem_image.mpr ⟨⟨6, by decide⟩, Finset.mem_univ _, rfl⟩))

set_option backward.isDefEq.respectTransparency.types false in
/-- Region 0 over the thread state "every unscoped buffer at the boundary's contents, the generator register at some
    state, nothing owed": its arrays split out of the unscoped buffers at entry and put back at exit. -/
def reg0 (hO : ∀ c, outs 2 main_v1 c = (dat0 (Vr1 m) c).arrAt 6 cfg0.N) :
    Pipeline.RegionSeg (pcfgs (F := F)) adm (pdats m outs) () defs₀ 𝒱₀ L lv 0 where
  win := winFacts₀0
  block_pos := block_pos0
  stage_whole := stage_whole0
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (V2 m outs c) ∗ Rr c)
  X c := iprop(∃ r, prngReg c r)
  Y c := iprop(∃ r, prngReg c r)
  Z c := Pipeline.unscopedRest (Ix := Unit) (Name := ℕ) (U := UR sig nD τ) (Lvl := ℕ) spec0 c ((Vr1 m) c)
  hentry c := by
    rw [Pipeline.ownSems0_none]
    have hsplit : (unscopedBufs (Ix := Unit) (Name := ℕ) (U := UR sig nD τ) (Lvl := ℕ) c ((Vr1 m) c) : sProp 𝕄)
        ⊢ iprop((pdats m outs 0 c).arrays ((pdats m outs 0 c).arrAt · 0) ∗ Pipeline.unscopedRest (Ix := Unit) (Name := ℕ) (U := UR sig nD τ) (Lvl := ℕ) spec0 c ((Vr1 m) c)) := by
      rw [Pipeline.unscopedBufs_split₀ cfgs 0 winFacts₀0.arr_unscoped c ((Vr1 m) c)]
      exact sep_mono (arrays_split0 (dat0 (Vr1 m) c) (by dsimp only [dat0]) (by dsimp only [dat0]) (by dsimp only [dat0]) (by dsimp only [dat0]) (by dsimp only [dat0]) (by dsimp only [dat0]) ((Vr1 m) c) _ (fun w => A_eq0 (Vr1 m) c w)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vr1 m) c)
    unfold Pipeline.ΦA
    iintro ⟨Hp, -, Hr⟩
    isplitl [Hr]; · iexact Hr
    iexact Hp
  hout c := by
    rw [Pipeline.ownSems0_none]
    refine BIBase.Entails.trans (hout0 (Vr1 m) c) ?_
    unfold Pipeline.ΦA
    iintro ⟨Hr, Hp⟩
    isplitl [Hp]; · iexact Hp
    isplitr; · iempintro
    iexact Hr
  hexit c := by
    have hjoin : iprop((pdats m outs 0 c).arrays ((pdats m outs 0 c).arrAt · cfg0.N) ∗ Pipeline.unscopedRest (Ix := Unit) (Name := ℕ) (U := UR sig nD τ) (Lvl := ℕ) spec0 c ((Vr1 m) c))
        ⊢ (unscopedBufs (Ix := Unit) (Name := ℕ) (U := UR sig nD τ) (Lvl := ℕ) c (Vr2 m outs c) : sProp 𝕄) := by
      rw [Pipeline.unscopedBufs_split₀ cfgs 0 winFacts₀0.arr_unscoped c (Vr2 m outs c)]
      refine sep_mono (arrays_split0 (dat0 (Vr1 m) c) (by dsimp only [dat0]) (by dsimp only [dat0]) (by dsimp only [dat0]) (by dsimp only [dat0]) (by dsimp only [dat0]) (by dsimp only [dat0]) (Vr2 m outs c) _ (hF0 m outs hO c)).2 (Entails.of_eq ?_)
      unfold Pipeline.unscopedRest
      exact bigSep_congr fun b hb => by rw [hrest0 m outs c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: what its arrays hold at the exit, and its record -/

theorem hF1 (hO : ∀ c, outs 4 main_v4 c = (dat1 (Vr3 m outs) c).arrAt 6 cfg1.N) (c : Dev nD) (w : Fin cfg1.W) :
    (pdats m outs 1 c).arrAt w cfg1.N = (Vr4 m outs c) (Pipeline.arrRef spec1 w) := by
  have h1 : ∀ w : Fin cfg1.W, w.val < 6 → (cfg1.win w).isOut = false := by decide
  have h2 : ∀ w : Fin cfg1.W, w.val < 6 → Pipeline.arrRef spec1 w ∉ ([main_v4] : List (Ref sig .tc)) := by decide
  by_cases hw : w.val < 6
  · have e1 : (pdats m outs 1 c).arrAt w cfg1.N = (pdats m outs 1 c).A w :=
      (pdats m outs 1 c).arrAt_in w (h1 w hw) _
    rw [e1, show (pdats m outs 1 c).A w = (Vr3 m outs) c (Pipeline.arrRef spec1 w) from A_eq1 (Vr3 m outs) c w]
    exact (V4_of m outs c (Pipeline.arrRef spec1 w) (h2 w hw)).symm
  · have : w = ⟨6, by decide⟩ := Fin.ext (by have := (show w.val < 7 from w.isLt); show w.val = 6; omega)
    subst this
    show (dat1 (Vr3 m outs) c).arrAt 6 cfg1.N = Function.update (V3 m outs c) (Proc.devRef .tc main_v4) (outs 4 main_v4 c) (Proc.devRef .tc main_v4)
    rw [Function.update_self, hO c]

theorem hrest1 (c : Dev nD) : ∀ b, b ∉ Finset.univ.image (Pipeline.arrRef spec1) → (Vr4 m outs c) b = (Vr3 m outs) c b :=
  fun b hb => V4_of m outs c b (fun h => hb (by
    rw [List.mem_singleton] at h; subst h
    exact Finset.mem_image.mpr ⟨⟨6, by decide⟩, Finset.mem_univ _, rfl⟩))

set_option backward.isDefEq.respectTransparency.types false in
/-- Region 1 over the thread state "every unscoped buffer at the boundary's contents, the generator register at some
    state, nothing owed": its arrays split out of the unscoped buffers at entry and put back at exit. -/
def reg1 (hO : ∀ c, outs 4 main_v4 c = (dat1 (Vr3 m outs) c).arrAt 6 cfg1.N) :
    Pipeline.RegionSeg (pcfgs (F := F)) adm (pdats m outs) () defs₀ 𝒱₀ L lv 1 where
  win := winFacts₀1
  block_pos := block_pos1
  stage_whole := stage_whole1
  K := PEmpty
  osem k := k.elim
  ho := Pipeline.OwnSemFacts.none _
  hbody c := (body_obligation1 (Vr3 m outs) c).loose
  hwaits := Pipeline.hwaits_of_owed_zero _ _ _ _ L lv 1 fun _ _ => rfl
  pre c := iprop(StableHlo.held (c : Thread nD τ) (Pipeline.ucRefs τ sig) (V3 m outs c) ∗ Rr c)
  post c := iprop(StableHlo.held (c : Thread nD τ) (Pipeline.ucRefs τ sig) (V4 m outs c) ∗ Rr c)
  X c := iprop(∃ r, prngReg c r)
  Y c := iprop(∃ r, prngReg c r)
  Z c := Pipeline.unscopedRest (Ix := Unit) (Name := ℕ) (U := UR sig nD τ) (Lvl := ℕ) spec1 c ((Vr3 m outs) c)
  hentry c := by
    rw [Pipeline.ownSems0_none]
    have hsplit : (unscopedBufs (Ix := Unit) (Name := ℕ) (U := UR sig nD τ) (Lvl := ℕ) c ((Vr3 m outs) c) : sProp 𝕄)
        ⊢ iprop((pdats m outs 1 c).arrays ((pdats m outs 1 c).arrAt · 0) ∗ Pipeline.unscopedRest (Ix := Unit) (Name := ℕ) (U := UR sig nD τ) (Lvl := ℕ) spec1 c ((Vr3 m outs) c)) := by
      rw [Pipeline.unscopedBufs_split₀ cfgs 1 winFacts₀1.arr_unscoped c ((Vr3 m outs) c)]
      exact sep_mono (arrays_split1 (dat1 (Vr3 m outs) c) (by dsimp only [dat1]) (by dsimp only [dat1]) (by dsimp only [dat1]) (by dsimp only [dat1]) (by dsimp only [dat1]) (by dsimp only [dat1]) ((Vr3 m outs) c) _ (fun w => A_eq1 (Vr3 m outs) c w)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr3 m outs) c)
    unfold Pipeline.ΦA
    iintro ⟨Hp, -, Hr⟩
    isplitl [Hr]; · iexact Hr
    iexact Hp
  hout c := by
    rw [Pipeline.ownSems0_none]
    refine BIBase.Entails.trans (hout1 (Vr3 m outs) c) ?_
    unfold Pipeline.ΦA
    iintro ⟨Hr, Hp⟩
    isplitl [Hp]; · iexact Hp
    isplitr; · iempintro
    iexact Hr
  hexit c := by
    have hjoin : iprop((pdats m outs 1 c).arrays ((pdats m outs 1 c).arrAt · cfg1.N) ∗ Pipeline.unscopedRest (Ix := Unit) (Name := ℕ) (U := UR sig nD τ) (Lvl := ℕ) spec1 c ((Vr3 m outs) c))
        ⊢ (unscopedBufs (Ix := Unit) (Name := ℕ) (U := UR sig nD τ) (Lvl := ℕ) c (Vr4 m outs c) : sProp 𝕄) := by
      rw [Pipeline.unscopedBufs_split₀ cfgs 1 winFacts₀1.arr_unscoped c (Vr4 m outs c)]
      refine sep_mono (arrays_split1 (dat1 (Vr3 m outs) c) (by dsimp only [dat1]) (by dsimp only [dat1]) (by dsimp only [dat1]) (by dsimp only [dat1]) (by dsimp only [dat1]) (by dsimp only [dat1]) (Vr4 m outs c) _ (hF1 m outs hO c)).2 (Entails.of_eq ?_)
      unfold Pipeline.unscopedRest
      exact bigSep_congr fun b hb => by rw [hrest1 m outs c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2: what its arrays hold at the exit, and its record -/

theorem hF2 (hO : ∀ c, outs 6 main_v8 c = (dat2 (Vr5 m outs) c).arrAt 7 cfg2.N) (c : Dev nD) (w : Fin cfg2.W) :
    (pdats m outs 2 c).arrAt w cfg2.N = (Vr6 m outs c) (Pipeline.arrRef spec2 w) := by
  have h1 : ∀ w : Fin cfg2.W, w.val < 7 → (cfg2.win w).isOut = false := by decide
  have h2 : ∀ w : Fin cfg2.W, w.val < 7 → Pipeline.arrRef spec2 w ∉ ([main_v8] : List (Ref sig .tc)) := by decide
  by_cases hw : w.val < 7
  · have e1 : (pdats m outs 2 c).arrAt w cfg2.N = (pdats m outs 2 c).A w :=
      (pdats m outs 2 c).arrAt_in w (h1 w hw) _
    rw [e1, show (pdats m outs 2 c).A w = (Vr5 m outs) c (Pipeline.arrRef spec2 w) from A_eq2 (Vr5 m outs) c w]
    exact (V6_of m outs c (Pipeline.arrRef spec2 w) (h2 w hw)).symm
  · have : w = ⟨7, by decide⟩ := Fin.ext (by have := (show w.val < 8 from w.isLt); show w.val = 7; omega)
    subst this
    show (dat2 (Vr5 m outs) c).arrAt 7 cfg2.N = Function.update (V5 m outs c) (Proc.devRef .tc main_v8) (outs 6 main_v8 c) (Proc.devRef .tc main_v8)
    rw [Function.update_self, hO c]

theorem hrest2 (c : Dev nD) : ∀ b, b ∉ Finset.univ.image (Pipeline.arrRef spec2) → (Vr6 m outs c) b = (Vr5 m outs) c b :=
  fun b hb => V6_of m outs c b (fun h => hb (by
    rw [List.mem_singleton] at h; subst h
    exact Finset.mem_image.mpr ⟨⟨7, by decide⟩, Finset.mem_univ _, rfl⟩))

set_option backward.isDefEq.respectTransparency.types false in
/-- Region 2 over the thread state "every unscoped buffer at the boundary's contents, the generator register at some
    state, nothing owed": its arrays split out of the unscoped buffers at entry and put back at exit. -/
def reg2 (hO : ∀ c, outs 6 main_v8 c = (dat2 (Vr5 m outs) c).arrAt 7 cfg2.N) :
    Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr5 m outs) c).loose
  hwaits := Pipeline.hwaits_of_owed_zero _ _ _ _ L lv 2 fun _ _ => rfl
  pre c := iprop(StableHlo.held (c : Thread nD τ) (Pipeline.ucRefs τ sig) (V5 m outs c) ∗ Rr c)
  post c := iprop(StableHlo.held (c : Thread nD τ) (Pipeline.ucRefs τ sig) (V6 m outs c) ∗ Rr c)
  X c := iprop(∃ r, prngReg c r)
  Y c := iprop(∃ r, prngReg c r)
  Z c := Pipeline.unscopedRest (Ix := Unit) (Name := ℕ) (U := UR sig nD τ) (Lvl := ℕ) spec2 c ((Vr5 m outs) c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (Vr5 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (Vr5 m outs c) (Vr6 m outs c) ((pdats m outs 2 c).arrAt · cfg2.N) (hF2 m outs hO c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The contents the regions leave, chosen stage by stage -/

/-- A family of region results with one entry set. -/
def setOut (o : Outs (F := F)) (J : ℕ) (r : Ref sig .tc) (x : (c : Dev nD) → Buf (Elt F) ((c : Thread nD τ).loc r)) : Outs (F := F) :=
  fun J' r' c => if h : J' = J ∧ r' = r then h.2 ▸ x c else o J' r' c
theorem setOut_same (o : Outs (F := F)) (J : ℕ) (r : Ref sig .tc) (x : (c : Dev nD) → Buf (Elt F) ((c : Thread nD τ).loc r)) (c : Dev nD) :
    setOut o J r x J r c = x c := by unfold setOut; rw [dif_pos ⟨rfl, rfl⟩]
theorem setOut_ne (o : Outs (F := F)) (J : ℕ) (r : Ref sig .tc) (x : (c : Dev nD) → Buf (Elt F) ((c : Thread nD τ).loc r)) (J' : ℕ) (r' : Ref sig .tc) (c : Dev nD) (h : J' ≠ J) :
    setOut o J r x J' r' c = o J' r' c := by unfold setOut; rw [dif_neg (fun h' => h h'.1)]

theorem Vr3_congr (o o' : Outs (F := F)) (h : ∀ c, o 2 main_v1 c = o' 2 main_v1 c) : Vr3 m o = Vr3 m o' := by
  funext c b
  show StableHlo.after hostOps1 (Function.update (V1 m c) (Proc.devRef .tc main_v1) (o 2 main_v1 c)) b = StableHlo.after hostOps1 (Function.update (V1 m c) (Proc.devRef .tc main_v1) (o' 2 main_v1 c)) b
  rw [h c]
theorem Vr5_congr (o o' : Outs (F := F)) (h : ∀ c, o 2 main_v1 c = o' 2 main_v1 c) (h' : ∀ c, o 4 main_v4 c = o' 4 main_v4 c) : Vr5 m o = Vr5 m o' := by
  funext c b
  show StableHlo.after hostOps2 (Function.update (StableHlo.after hostOps1 (Function.update (V1 m c) (Proc.devRef .tc main_v1) (o 2 main_v1 c))) (Proc.devRef .tc main_v4) (o 4 main_v4 c)) b
    = StableHlo.after hostOps2 (Function.update (StableHlo.after hostOps1 (Function.update (V1 m c) (Proc.devRef .tc main_v1) (o' 2 main_v1 c))) (Proc.devRef .tc main_v4) (o' 4 main_v4 c)) b
  rw [h c, h' c]

/-- Before any region: the launch contents. -/
def o0 : Outs (F := F) := fun _ r c => m ((c : Thread nD τ).loc r)
/-- What region 0 leaves in its result. -/
def X2 (c : Dev nD) := (dat0 (Vr1 m) c).arrAt 6 cfg0.N
def o1 : Outs (F := F) := setOut (o0 m) 2 main_v1 (X2 m)
/-- What region 1 leaves in its result. -/
def X4 (c : Dev nD) := (dat1 (Vr3 m (o1 m)) c).arrAt 6 cfg1.N
def o2 : Outs (F := F) := setOut (o1 m) 4 main_v4 (X4 m)
/-- What region 2 leaves in its result. -/
def X6 (c : Dev nD) := (dat2 (Vr5 m (o2 m)) c).arrAt 7 cfg2.N
def o3 : Outs (F := F) := setOut (o2 m) 6 main_v8 (X6 m)

theorem o3_2 (c : Dev nD) : o3 m 2 main_v1 c = X2 m c := by
  unfold o3 o2; rw [setOut_ne _ _ _ _ _ _ _ (by decide), setOut_ne _ _ _ _ _ _ _ (by decide)]; unfold o1; rw [setOut_same]
theorem o1_2 (c : Dev nD) : o1 m 2 main_v1 c = X2 m c := by unfold o1; rw [setOut_same]
theorem o2_2 (c : Dev nD) : o2 m 2 main_v1 c = X2 m c := by unfold o2; rw [setOut_ne _ _ _ _ _ _ _ (by decide)]; exact o1_2 m c
theorem o3_4 (c : Dev nD) : o3 m 4 main_v4 c = X4 m c := by
  unfold o3; rw [setOut_ne _ _ _ _ _ _ _ (by decide)]; unfold o2; rw [setOut_same]
theorem o2_4 (c : Dev nD) : o2 m 4 main_v4 c = X4 m c := by unfold o2; rw [setOut_same]
theorem o3_6 (c : Dev nD) : o3 m 6 main_v8 c = X6 m c := by unfold o3; rw [setOut_same]

theorem Vr3_o3 : Vr3 m (o3 m) = Vr3 m (o1 m) := Vr3_congr m _ _ fun c => (o3_2 m c).trans (o1_2 m c).symm
theorem Vr5_o3 : Vr5 m (o3 m) = Vr5 m (o2 m) := Vr5_congr m _ _ (fun c => (o3_2 m c).trans (o2_2 m c).symm) (fun c => (o3_4 m c).trans (o2_4 m c).symm)

theorem hO2 (c : Dev nD) : o3 m 2 main_v1 c = (dat0 (Vr1 m) c).arrAt 6 cfg0.N := o3_2 m c
theorem hO4 (c : Dev nD) : o3 m 4 main_v4 c = (dat1 (Vr3 m (o3 m)) c).arrAt 6 cfg1.N := by rw [Vr3_o3]; exact o3_4 m c
theorem hO6 (c : Dev nD) : o3 m 6 main_v8 c = (dat2 (Vr5 m (o3 m)) c).arrAt 7 cfg2.N := by rw [Vr5_o3]; exact o3_6 m c

/-! ## The run -/

set_option backward.isDefEq.respectTransparency.types false in
/-- Every weakly fair execution of the program terminates without a fault; the result buffer ends at what the last host
    operation makes of region 2's result, and every argument as launched. -/
theorem run (ρ : Dev nD → PrngReg) : θ_run defs (onTc (τ := τ) (main (F := F))) ⟨m, fun _ => 0, ρ⟩ (fun r => ∀ c : Dev nD,
      r.2.mem ((c.tc : Thread nD τ).loc main_v9) = V7 m (o3 m) c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_cond m emb₁ () 𝒱₀ L lv (fun _ _ => rfl) ρ (o3 m) (pdats m (o3 m)) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => Rr)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (reg0 m (o3 m) (hO2 m)) (fun _ => .rfl) (fun _ => .rfl)
    (reg1 m (o3 m) (hO4 m)) (fun _ => .rfl) (fun _ => .rfl)
    (reg2 m (o3 m) (hO6 m)) (fun _ => .rfl) (fun _ => .rfl)

end Cert.KernelIdeal.KF

end
-- ==== Proof.LibRowStack.lean ====
/-
  Layout steps read at an index, for any extents and any element type.

  * A matrix of `a · b` rows re-laid as a stack of `a` matrices of `b` rows, `[n, c] → [a, b, c]` with `n = a · b`,
    and back: row `p · b + q` of the matrix is row `q` of the `p`-th matrix of the stack.
  * A vector laid as a row and repeated along the rows of a matrix, `[b] → [1, b] → [a, b]`: the entry `(p, q)` is
    the vector's entry `q`.
  * A sum over `G · B` positions as the sum over `G` strips of `B` positions.
-/
import Idealize.ShloMosaic.Lib.Pipeline.Value
import Idealize.ShloMosaic.Lib.ValueIdx
import Idealize.ShloMosaic.Lib.ValueLayout

namespace Cert.LibRowStack

open Idealize.ShloMosaic Idealize.ShloMosaic.ValueIdx

variable {α : Type}

/-- A matrix cut into a stack: the entry `(p, q, r)` of the stack is the matrix's entry `(m, r)`, `m = p · b + q`. -/
theorem shapeCast_stack_apply {n a b c : ℕ} (x : (⟨2, ![n, c]⟩ : Shape).Idx → α)
    (h : (⟨2, ![n, c]⟩ : Shape).ShapeCasts ⟨3, ![a, b, c]⟩) (p : Fin a) (q : Fin b) (r : Fin c) (m : Fin n)
    (hm : m.val = p.val * b + q.val) :
    shapeCast ⟨3, ![a, b, c]⟩ x h (ix3 p q r) = x (ix2 m r) :=
  shapeCast_apply x h _ _ (by
    rw [Shape.rowMajor_val_two, Shape.rowMajor_val_three]
    show m.val * c + r.val = (p.val * b + q.val) * c + r.val
    rw [hm])

/-- A stack flattened to a matrix: the entry `(m, r)` with `m = p · b + q` is the stack's entry `(p, q, r)`. -/
theorem shapeCast_flat_apply {n a b c : ℕ} (x : (⟨3, ![a, b, c]⟩ : Shape).Idx → α)
    (h : (⟨3, ![a, b, c]⟩ : Shape).ShapeCasts ⟨2, ![n, c]⟩) (p : Fin a) (q : Fin b) (r : Fin c) (m : Fin n)
    (hm : m.val = p.val * b + q.val) :
    shapeCast ⟨2, ![n, c]⟩ x h (ix2 m r) = x (ix3 p q r) :=
  shapeCast_apply x h _ _ (by
    rw [Shape.rowMajor_val_three, Shape.rowMajor_val_two]
    show (p.val * b + q.val) * c + r.val = m.val * c + r.val
    rw [hm])

/-- A vector `[b]` laid as a row and repeated along the rows of an `[a, b]` matrix reads, at `(p, q)`, the vector at `q`. -/
theorem rowSpread_apply {a b : ℕ} (x : (⟨1, ![b]⟩ : Shape).Idx → α) (hc : (⟨1, ![b]⟩ : Shape).ShapeCasts ⟨2, ![1, b]⟩)
    (hb : (⟨2, ![1, b]⟩ : Shape).Broadcasts ⟨2, ![a, b]⟩) (p : Fin a) (q : Fin b) :
    broadcastTo ⟨2, ![a, b]⟩ (shapeCast ⟨2, ![1, b]⟩ x hc) hb (ix2 p q) = x (ix1 q) :=
  (broadcastTo_1b_ab_apply _ hb p q).trans (shapeCast_a_1a_apply x hc 0 q)

/-- A sum over `G * B` positions is the sum over the `G` strips of the sums over the `B` positions of each strip
    (position `b` of strip `g` is `b + B * g`). -/
theorem sum_strips {R : Type} [AddCommMonoid R] (G B : Nat) (f : Fin (G * B) → R) :
    ∑ k : Fin (G * B), f k = ∑ g : Fin G, ∑ b : Fin B, f (finProdFinEquiv (g, b)) := by
  rw [← Equiv.sum_comp finProdFinEquiv f, Fintype.sum_prod_type]

end Cert.LibRowStack
-- ==== Proof.KHost.lean ====
/-
  What the host operations between the kernels make of their operands, on the extended reals: a change of float format
  is the identity, and a reshape between [4, 2048, 1024] and [8192, 1024] keeps the row-major order.
-/
import proofs.«167660_j22771916603726_2_alg».proof.Proof.Gen.KernelIdeal.Regions
import proofs.«167660_j22771916603726_2_alg».proof.Proof.LibRowStack
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.KH

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (outs : Outs (F := Ideal))

/-- Before the first kernel: the input in the narrower format is the input. -/
theorem V1_v0 (c : Dev nD) (i : S4x2048x1024.Idx) : (V1 m c main_v0 : S4x2048x1024.Idx → EReal) i = (m ((c : Thread nD τ).loc main_arg0) : S4x2048x1024.Idx → EReal) i := by
  have e : (V1 m c main_v0 : S4x2048x1024.Idx → EReal) = (truncf (F := Ideal) .bf16 · bitsLt_bf16_f32) (m ((c : Thread nD τ).loc main_arg0)) := by
    dsimp only [V1, V0, hostOps0]; after_results
  rw [e]; rfl

/-- Before the second kernel: the first kernel's result in the narrower format is that result. -/
theorem V3_v2 (c : Dev nD) (i : S4x2048x1024.Idx) : (V3 m outs c main_v2 : S4x2048x1024.Idx → EReal) i = (outs 2 main_v1 c : S4x2048x1024.Idx → EReal) i := by
  have e : (V3 m outs c main_v2 : S4x2048x1024.Idx → EReal) = (truncf (F := Ideal) .bf16 · bitsLt_bf16_f32) (V2 m outs c main_v1) := by
    dsimp only [V3, hostOps1]; after_results
  rw [e]; show (Function.update (V1 m c) (Proc.devRef .tc main_v1) (outs 2 main_v1 c) (Proc.devRef .tc main_v1) : S4x2048x1024.Idx → EReal) i = _
  rw [Function.update_self]
/-- and the memory in the narrower format is the memory. -/
theorem V3_v3 (c : Dev nD) (i : S4x2048x1024.Idx) : (V3 m outs c main_v3 : S4x2048x1024.Idx → EReal) i = (m ((c : Thread nD τ).loc main_arg1) : S4x2048x1024.Idx → EReal) i := by
  have e : (V3 m outs c main_v3 : S4x2048x1024.Idx → EReal) = (truncf (F := Ideal) .bf16 · bitsLt_bf16_f32) (V2 m outs c main_arg1) := by
    dsimp only [V3, hostOps1]; after_results
  rw [e]
  show (V2 m outs c main_arg1 : S4x2048x1024.Idx → EReal) i = _
  rw [V2_of m outs c main_arg1 (by decide), V1_of m c main_arg1 (by decide)]
theorem V3_v1 (c : Dev nD) : V3 m outs c main_v1 = outs 2 main_v1 c := by
  rw [V3_of m outs c main_v1 (by decide)]; show Function.update (V1 m c) (Proc.devRef .tc main_v1) (outs 2 main_v1 c) (Proc.devRef .tc main_v1) = _
  rw [Function.update_self]

/-- Before the third kernel: the second kernel's result as 8192 rows, and the weights in the narrower format. -/
theorem V5_v5 (c : Dev nD) (b : Fin 4) (q : Fin 2048) (d : Fin 1024) (r : Fin 8192) (hr : r.val = b.val * 2048 + q.val) :
    (V5 m outs c main_v5 : S8192x1024.Idx → EReal) (ix2 r d) = (outs 4 main_v4 c : S4x2048x1024.Idx → EReal) (ix3 b q d) := by
  have e : (V5 m outs c main_v5 : S8192x1024.Idx → EReal) = shapeCast S8192x1024 (V4 m outs c main_v4 : S4x2048x1024.Idx → EReal) shapeCasts_S4x2048x1024_S8192x1024 := by
    dsimp only [V5, hostOps2]; after_results; rfl
  rw [e, Cert.LibRowStack.shapeCast_flat_apply _ _ b q d r hr]
  show (Function.update (V3 m outs c) (Proc.devRef .tc main_v4) (outs 4 main_v4 c) (Proc.devRef .tc main_v4) : S4x2048x1024.Idx → EReal) (ix3 b q d) = _
  rw [Function.update_self]
theorem V5_v6 (c : Dev nD) (i : S1024x4096.Idx) : (V5 m outs c main_v6 : S1024x4096.Idx → EReal) i = (m ((c : Thread nD τ).loc main_arg2) : S1024x4096.Idx → EReal) i := by
  have e : (V5 m outs c main_v6 : S1024x4096.Idx → EReal) = (truncf (F := Ideal) .bf16 · bitsLt_bf16_f32) (V4 m outs c main_arg2) := by
    dsimp only [V5, hostOps2]; after_results
  rw [e]
  show (V4 m outs c main_arg2 : S1024x4096.Idx → EReal) i = _
  rw [V4_of m outs c main_arg2 (by decide), V3_of m outs c main_arg2 (by decide), V2_of m outs c main_arg2 (by decide), V1_of m c main_arg2 (by decide)]
theorem V5_v7 (c : Dev nD) (i : S4096x1024.Idx) : (V5 m outs c main_v7 : S4096x1024.Idx → EReal) i = (m ((c : Thread nD τ).loc main_arg4) : S4096x1024.Idx → EReal) i := by
  have e : (V5 m outs c main_v7 : S4096x1024.Idx → EReal) = (truncf (F := Ideal) .bf16 · bitsLt_bf16_f32) (V4 m outs c main_arg4) := by
    dsimp only [V5, hostOps2]; after_results
  rw [e]
  show (V4 m outs c main_arg4 : S4096x1024.Idx → EReal) i = _
  rw [V4_of m outs c main_arg4 (by decide), V3_of m outs c main_arg4 (by decide), V2_of m outs c main_arg4 (by decide), V1_of m c main_arg4 (by decide)]

/-- After the third kernel: its result as a stack of four matrices. -/
theorem V7_v9 (c : Dev nD) (b : Fin 4) (q : Fin 2048) (d : Fin 1024) (r : Fin 8192) (hr : r.val = b.val * 2048 + q.val) :
    (V7 m outs c main_v9 : S4x2048x1024.Idx → EReal) (ix3 b q d) = (outs 6 main_v8 c : S8192x1024.Idx → EReal) (ix2 r d) := by
  have e : (V7 m outs c main_v9 : S4x2048x1024.Idx → EReal) = shapeCast S4x2048x1024 (V6 m outs c main_v8 : S8192x1024.Idx → EReal) shapeCasts_S8192x1024_S4x2048x1024 := by
    dsimp only [V7, hostOps3]; after_results; rfl
  rw [e, Cert.LibRowStack.shapeCast_stack_apply _ _ b q d r hr]
  show (Function.update (V5 m outs c) (Proc.devRef .tc main_v8) (outs 6 main_v8 c) (Proc.devRef .tc main_v8) : S8192x1024.Idx → EReal) (ix2 r d) = _
  rw [Function.update_self]

/-- An argument no host operation writes and no kernel changes is found as launched at every region's entry. -/
theorem V1_arg (c : Dev nD) (r : Ref sig .tc) (h : r ∉ hostOps0_W) : V1 m c r = m ((c : Thread nD τ).loc r) := V1_of m c r h
theorem V3_arg (c : Dev nD) (r : Ref sig .tc) (h1 : r ∉ hostOps1_W) (h2 : r ∉ ([main_v1] : List (Ref sig .tc))) (h0 : r ∉ hostOps0_W) :
    V3 m outs c r = m ((c : Thread nD τ).loc r) :=
  (V3_of m outs c r h1).trans ((V2_of m outs c r h2).trans (V1_of m c r h0))
theorem V5_arg (c : Dev nD) (r : Ref sig .tc) (h2' : r ∉ hostOps2_W) (h4 : r ∉ ([main_v4] : List (Ref sig .tc))) (h1 : r ∉ hostOps1_W) (h2 : r ∉ ([main_v1] : List (Ref sig .tc))) (h0 : r ∉ hostOps0_W) :
    V5 m outs c r = m ((c : Thread nD τ).loc r) :=
  (V5_of m outs c r h2').trans ((V4_of m outs c r h4).trans (V3_arg m outs c r h1 h2 h0))

end Cert.KernelIdeal.KH

end
-- ==== Proof.KPieces01.lean ====
/-
  What each case of the two attention kernels' bodies leaves in the running state and in the output tile, as the
  payloads of the blocks it loads: the pieces the body's run found, read back through any view of the buffer.
  At any float instance.
-/
import proofs.«167660_j22771916603726_2_alg».proof.Proof.K1RunB
import Idealize.ShloMosaic.Lib.Pipeline.Value

set_option maxRecDepth 16384

noncomputable section

namespace Cert.KernelIdeal.KV

open Idealize.ShloMosaic Idealize.ShloMosaic.TcCoe Idealize.ShloMosaic.Tactic
open Idealize.SL Idealize.SL.Sem
open Cert.KernelIdeal Cert.KernelIdeal.Gen Cert.KernelIdeal.KF

variable {F : FTy → Type} [FloatOps F] [Named F]

theorem hz3 : (![0, 0, 0] : Fin 3 → Nat) = fun _ => 0 := funext fun a => by fin_cases a <;> rfl
theorem hz2' : (![0, 0] : Fin 2 → Nat) = fun _ => 0 := funext fun a => by fin_cases a <;> rfl
theorem hz1' : (![0] : Fin 1 → Nat) = fun _ => 0 := funext fun a => by fin_cases a <;> rfl

/-! ## The first kernel: what each case leaves, as the payloads of the blocks it loads -/

set_option maxHeartbeats 4000000 in
/-- The running maximum after the reset and the first key tile. -/
theorem pieceA0_0 (W : View sig .tc .vmem S1024x1 .f32) (f : W.ty.Contents (Elt F)) (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond0_0 i) (hc1 : cond0_1 i) (hc2 : ¬cond0_2 i) (x0 : Vec F S1x1024x1024 .bf16) (x1 : Vec F S1x1024x1024 .bf16) (x2 : Vec F S1x1024x1024 .bf16) (x3 : Vec F S1x1024x1024 .f32) (x4 : Vec F S1024 .f32) (x5 : Vec F S1024 .f32) :
    W.read (Elt F) (W.writes (Elt F) f (kernelRun0_A c i arg3 harg3 arg4 harg4 arg5 harg5 arg6 harg6 arg7 harg7 arg8 harg8 arg9 harg9 arg10 harg10 arg11 harg11 arg12 harg12 hc0 hc1 hc2 x0 x1 x2 x3 x4 x5).1)
      = k0_pay5 (k0_pay9 (BitVec.ofNat 32 (i 1).val) (BitVec.ofNat 32 (i 2).val) x0 x1 k0_pay1) := by
  rw [View.read_writes_eq_canon _ _ _ (View.cover_of_tiledL _ S1024x1.size (by sl_kernel_rfl))]
  unfold kernelRun0_A
  dsimp only
  try sl_unfold_words
  first
    | rw [View.canon_cons_unit_zero hz2']
    | rw [View.canon_unit_zero hz2']
  simp only [View.readAt_eq_ld, harg3.read_unread, harg4.read_unread, harg5.read_unread, harg6.read_unread, harg7.read_unread, harg8.read_unread,
    harg10.read_unread, harg11.read_unread, harg12.read_unread,
    View.ld_unit_zero (S := S1x1024x1024) hz3, View.ld_unit_zero (S := S1024x1) hz2', View.ld_unit_zero (S := S1024x1024) hz2',
    View.ld_unit_zero (S := S1024) hz1', View.readCov_unit_zero (S := S1024x1) _ hz2', View.readCov_unit_zero (S := S1024x1024) _ hz2']
  try rfl

set_option maxHeartbeats 4000000 in
/-- The running normaliser after the reset and the first key tile. -/
theorem pieceA0_1 (W : View sig .tc .vmem S1024x1 .f32) (f : W.ty.Contents (Elt F)) (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond0_0 i) (hc1 : cond0_1 i) (hc2 : ¬cond0_2 i) (x0 : Vec F S1x1024x1024 .bf16) (x1 : Vec F S1x1024x1024 .bf16) (x2 : Vec F S1x1024x1024 .bf16) (x3 : Vec F S1x1024x1024 .f32) (x4 : Vec F S1024 .f32) (x5 : Vec F S1024 .f32) :
    W.read (Elt F) (W.writes (Elt F) f (kernelRun0_A c i arg3 harg3 arg4 harg4 arg5 harg5 arg6 harg6 arg7 harg7 arg8 harg8 arg9 harg9 arg10 harg10 arg11 harg11 arg12 harg12 hc0 hc1 hc2 x0 x1 x2 x3 x4 x5).2.1)
      = k0_pay12 (BitVec.ofNat 32 (i 1).val) (BitVec.ofNat 32 (i 2).val) x0 x1 k0_pay1 k0_pay2 := by
  rw [View.read_writes_eq_canon _ _ _ (View.cover_of_tiledL _ S1024x1.size (by sl_kernel_rfl))]
  unfold kernelRun0_A
  dsimp only
  try sl_unfold_words
  first
    | rw [View.canon_cons_unit_zero hz2']
    | rw [View.canon_unit_zero hz2']
  simp only [View.readAt_eq_ld, harg3.read_unread, harg4.read_unread, harg5.read_unread, harg6.read_unread, harg7.read_unread, harg8.read_unread,
    harg10.read_unread, harg11.read_unread, harg12.read_unread,
    View.ld_unit_zero (S := S1x1024x1024) hz3, View.ld_unit_zero (S := S1024x1) hz2', View.ld_unit_zero (S := S1024x1024) hz2',
    View.ld_unit_zero (S := S1024) hz1', View.readCov_unit_zero (S := S1024x1) _ hz2', View.readCov_unit_zero (S := S1024x1024) _ hz2']
  try rfl

set_option maxHeartbeats 4000000 in
/-- The running weighted sum after the reset and the first key tile. -/
theorem pieceA0_2 (W : View sig .tc .vmem S1024x1024 .f32) (f : W.ty.Contents (Elt F)) (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond0_0 i) (hc1 : cond0_1 i) (hc2 : ¬cond0_2 i) (x0 : Vec F S1x1024x1024 .bf16) (x1 : Vec F S1x1024x1024 .bf16) (x2 : Vec F S1x1024x1024 .bf16) (x3 : Vec F S1x1024x1024 .f32) (x4 : Vec F S1024 .f32) (x5 : Vec F S1024 .f32) :
    W.read (Elt F) (W.writes (Elt F) f (kernelRun0_A c i arg3 harg3 arg4 harg4 arg5 harg5 arg6 harg6 arg7 harg7 arg8 harg8 arg9 harg9 arg10 harg10 arg11 harg11 arg12 harg12 hc0 hc1 hc2 x0 x1 x2 x3 x4 x5).2.2.1)
      = k0_pay4 (k0_pay7 x2) (k0_pay10 (BitVec.ofNat 32 (i 1).val) (BitVec.ofNat 32 (i 2).val) x0 x1 k0_pay1) (k0_pay11 (BitVec.ofNat 32 (i 1).val) (BitVec.ofNat 32 (i 2).val) x0 x1 k0_pay1) k0_pay3 := by
  rw [View.read_writes_eq_canon _ _ _ (View.cover_of_tiledL _ S1024x1024.size (by sl_kernel_rfl))]
  unfold kernelRun0_A
  dsimp only
  try sl_unfold_words
  first
    | rw [View.canon_cons_unit_zero hz2']
    | rw [View.canon_unit_zero hz2']
  simp only [View.readAt_eq_ld, harg3.read_unread, harg4.read_unread, harg5.read_unread, harg6.read_unread, harg7.read_unread, harg8.read_unread,
    harg10.read_unread, harg11.read_unread, harg12.read_unread,
    View.ld_unit_zero (S := S1x1024x1024) hz3, View.ld_unit_zero (S := S1024x1) hz2', View.ld_unit_zero (S := S1024x1024) hz2',
    View.ld_unit_zero (S := S1024) hz1', View.readCov_unit_zero (S := S1024x1) _ hz2', View.readCov_unit_zero (S := S1024x1024) _ hz2']
  try rfl

set_option maxHeartbeats 4000000 in
/-- The output tile when the last key tile is skipped: the carried state normalised. -/
theorem pieceB0_out (W : View sig .tc .vmem S1x1024x1024 .f32) (f : W.ty.Contents (Elt F)) (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond0_0 i) (hc1 : ¬cond0_1 i) (hc2 : cond0_2 i) (x0 : Vec F S1x1024x1024 .bf16) (x1 : Vec F S1x1024x1024 .bf16) (x2 : Vec F S1x1024x1024 .bf16) (x3 : Vec F S1x1024x1024 .f32) (x4 : Vec F S1024 .f32) (x5 : Vec F S1024 .f32) (xs0 : Vec F S1024x1 .f32) (xs1 : Vec F S1024x1 .f32) (xs2 : Vec F S1024x1024 .f32) :
    W.read (Elt F) (W.writes (Elt F) f (kernelRun0_B c i arg3 harg3 arg4 harg4 arg5 harg5 arg6 harg6 arg7 harg7 arg8 harg8 arg9 harg9 arg10 harg10 arg11 harg11 arg12 harg12 hc0 hc1 hc2 x0 x1 x2 x3 x4 x5 xs0 xs1 xs2).1)
      = k0_pay6 xs2 xs1 x3 x4 x5 := by
  rw [View.read_writes_eq_canon _ _ _ (View.cover_of_tiledL _ S1x1024x1024.size (by sl_kernel_rfl))]
  unfold kernelRun0_B
  dsimp only
  try sl_unfold_words
  first
    | rw [View.canon_cons_unit_zero hz3]
    | rw [View.canon_unit_zero hz3]
  simp only [View.readAt_eq_ld, harg3.read_unread, harg4.read_unread, harg5.read_unread, harg6.read_unread, harg7.read_unread, harg8.read_unread,
    harg10.read_unread, harg11.read_unread, harg12.read_unread,
    View.ld_unit_zero (S := S1x1024x1024) hz3, View.ld_unit_zero (S := S1024x1) hz2', View.ld_unit_zero (S := S1024x1024) hz2',
    View.ld_unit_zero (S := S1024) hz1', View.readCov_unit_zero (S := S1024x1) _ hz2', View.readCov_unit_zero (S := S1024x1024) _ hz2']
  try rfl

set_option maxHeartbeats 4000000 in
/-- The output tile when the last key tile is processed: one more tile onto the carried state, then normalised. -/
theorem pieceC0_out (W : View sig .tc .vmem S1x1024x1024 .f32) (f : W.ty.Contents (Elt F)) (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond0_0 i) (hc1 : cond0_1 i) (hc2 : cond0_2 i) (x0 : Vec F S1x1024x1024 .bf16) (x1 : Vec F S1x1024x1024 .bf16) (x2 : Vec F S1x1024x1024 .bf16) (x3 : Vec F S1x1024x1024 .f32) (x4 : Vec F S1024 .f32) (x5 : Vec F S1024 .f32) (xs0 : Vec F S1024x1 .f32) (xs1 : Vec F S1024x1 .f32) (xs2 : Vec F S1024x1024 .f32) :
    W.read (Elt F) (W.writes (Elt F) f (kernelRun0_C c i arg3 harg3 arg4 harg4 arg5 harg5 arg6 harg6 arg7 harg7 arg8 harg8 arg9 harg9 arg10 harg10 arg11 harg11 arg12 harg12 hc0 hc1 hc2 x0 x1 x2 x3 x4 x5 xs0 xs1 xs2).1)
      = k0_pay6 (k0_pay4 (k0_pay7 x2) (k0_pay10 (BitVec.ofNat 32 (i 1).val) (BitVec.ofNat 32 (i 2).val) x0 x1 xs0) (k0_pay11 (BitVec.ofNat 32 (i 1).val) (BitVec.ofNat 32 (i 2).val) x0 x1 xs0) xs2) (k0_pay12 (BitVec.ofNat 32 (i 1).val) (BitVec.ofNat 32 (i 2).val) x0 x1 xs0 xs1) x3 x4 x5 := by
  rw [View.read_writes_eq_canon _ _ _ (View.cover_of_tiledL _ S1x1024x1024.size (by sl_kernel_rfl))]
  unfold kernelRun0_C
  dsimp only
  try sl_unfold_words
  first
    | rw [View.canon_cons_unit_zero hz3]
    | rw [View.canon_unit_zero hz3]
  simp only [View.readAt_eq_ld, harg3.read_unread, harg4.read_unread, harg5.read_unread, harg6.read_unread, harg7.read_unread, harg8.read_unread,
    harg10.read_unread, harg11.read_unread, harg12.read_unread,
    View.ld_unit_zero (S := S1x1024x1024) hz3, View.ld_unit_zero (S := S1024x1) hz2', View.ld_unit_zero (S := S1024x1024) hz2',
    View.ld_unit_zero (S := S1024) hz1', View.readCov_unit_zero (S := S1024x1) _ hz2', View.readCov_unit_zero (S := S1024x1024) _ hz2']
  try rfl

/-! ## The second kernel -/

set_option maxHeartbeats 4000000 in
/-- The running maximum after the reset and the first key tile. -/
theorem pieceA1_0 (W : View sig .tc .vmem S1024x1 .f32) (f : W.ty.Contents (Elt F)) (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond1_0 i) (hc1 : ¬cond1_1 i) (x0 : Vec F S1x1024x1024 .bf16) (x1 : Vec F S1x1024x1024 .bf16) (x2 : Vec F S1x1024x1024 .bf16) (x3 : Vec F S1x1024x1024 .f32) (x4 : Vec F S1024 .f32) (x5 : Vec F S1024 .f32) :
    W.read (Elt F) (W.writes (Elt F) f (kernelRun1_A c i arg3 harg3 arg4 harg4 arg5 harg5 arg6 harg6 arg7 harg7 arg8 harg8 arg9 harg9 arg10 harg10 arg11 harg11 arg12 harg12 hc0 hc1 x0 x1 x2 x3 x4 x5).1)
      = k1_pay2 (k1_pay9 x0 x1 k1_pay4) := by
  rw [View.read_writes_eq_canon _ _ _ (View.cover_of_tiledL _ S1024x1.size (by sl_kernel_rfl))]
  unfold kernelRun1_A
  dsimp only
  try sl_unfold_words
  first
    | rw [View.canon_cons_unit_zero hz2']
    | rw [View.canon_unit_zero hz2']
  simp only [View.readAt_eq_ld, harg3.read_unread, harg4.read_unread, harg5.read_unread, harg6.read_unread, harg7.read_unread, harg8.read_unread,
    harg10.read_unread, harg11.read_unread, harg12.read_unread,
    View.ld_unit_zero (S := S1x1024x1024) hz3, View.ld_unit_zero (S := S1024x1) hz2', View.ld_unit_zero (S := S1024x1024) hz2',
    View.ld_unit_zero (S := S1024) hz1', View.readCov_unit_zero (S := S1024x1) _ hz2', View.readCov_unit_zero (S := S1024x1024) _ hz2']
  try rfl

set_option maxHeartbeats 4000000 in
/-- The running normaliser after the reset and the first key tile. -/
theorem pieceA1_1 (W : View sig .tc .vmem S1024x1 .f32) (f : W.ty.Contents (Elt F)) (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond1_0 i) (hc1 : ¬cond1_1 i) (x0 : Vec F S1x1024x1024 .bf16) (x1 : Vec F S1x1024x1024 .bf16) (x2 : Vec F S1x1024x1024 .bf16) (x3 : Vec F S1x1024x1024 .f32) (x4 : Vec F S1024 .f32) (x5 : Vec F S1024 .f32) :
    W.read (Elt F) (W.writes (Elt F) f (kernelRun1_A c i arg3 harg3 arg4 harg4 arg5 harg5 arg6 harg6 arg7 harg7 arg8 harg8 arg9 harg9 arg10 harg10 arg11 harg11 arg12 harg12 hc0 hc1 x0 x1 x2 x3 x4 x5).2.1)
      = k1_pay12 x0 x1 k1_pay4 k1_pay5 := by
  rw [View.read_writes_eq_canon _ _ _ (View.cover_of_tiledL _ S1024x1.size (by sl_kernel_rfl))]
  unfold kernelRun1_A
  dsimp only
  try sl_unfold_words
  first
    | rw [View.canon_cons_unit_zero hz2']
    | rw [View.canon_unit_zero hz2']
  simp only [View.readAt_eq_ld, harg3.read_unread, harg4.read_unread, harg5.read_unread, harg6.read_unread, harg7.read_unread, harg8.read_unread,
    harg10.read_unread, harg11.read_unread, harg12.read_unread,
    View.ld_unit_zero (S := S1x1024x1024) hz3, View.ld_unit_zero (S := S1024x1) hz2', View.ld_unit_zero (S := S1024x1024) hz2',
    View.ld_unit_zero (S := S1024) hz1', View.readCov_unit_zero (S := S1024x1) _ hz2', View.readCov_unit_zero (S := S1024x1024) _ hz2']
  try rfl

set_option maxHeartbeats 4000000 in
/-- The running weighted sum after the reset and the first key tile. -/
theorem pieceA1_2 (W : View sig .tc .vmem S1024x1024 .f32) (f : W.ty.Contents (Elt F)) (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond1_0 i) (hc1 : ¬cond1_1 i) (x0 : Vec F S1x1024x1024 .bf16) (x1 : Vec F S1x1024x1024 .bf16) (x2 : Vec F S1x1024x1024 .bf16) (x3 : Vec F S1x1024x1024 .f32) (x4 : Vec F S1024 .f32) (x5 : Vec F S1024 .f32) :
    W.read (Elt F) (W.writes (Elt F) f (kernelRun1_A c i arg3 harg3 arg4 harg4 arg5 harg5 arg6 harg6 arg7 harg7 arg8 harg8 arg9 harg9 arg10 harg10 arg11 harg11 arg12 harg12 hc0 hc1 x0 x1 x2 x3 x4 x5).2.2.1)
      = k1_pay1 (k1_pay7 x2) (k1_pay11 x0 x1 k1_pay4) k1_pay6 (k1_pay13 x0 x1 k1_pay4) := by
  rw [View.read_writes_eq_canon _ _ _ (View.cover_of_tiledL _ S1024x1024.size (by sl_kernel_rfl))]
  unfold kernelRun1_A
  dsimp only
  try sl_unfold_words
  first
    | rw [View.canon_cons_unit_zero hz2']
    | rw [View.canon_unit_zero hz2']
  simp only [View.readAt_eq_ld, harg3.read_unread, harg4.read_unread, harg5.read_unread, harg6.read_unread, harg7.read_unread, harg8.read_unread,
    harg10.read_unread, harg11.read_unread, harg12.read_unread,
    View.ld_unit_zero (S := S1x1024x1024) hz3, View.ld_unit_zero (S := S1024x1) hz2', View.ld_unit_zero (S := S1024x1024) hz2',
    View.ld_unit_zero (S := S1024) hz1', View.readCov_unit_zero (S := S1024x1) _ hz2', View.readCov_unit_zero (S := S1024x1024) _ hz2']
  try rfl

set_option maxHeartbeats 4000000 in
/-- The output tile at the last key tile: one more tile onto the carried state, then normalised. -/
theorem pieceB1_out (W : View sig .tc .vmem S1x1024x1024 .f32) (f : W.ty.Contents (Elt F)) (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : cond1_1 i) (x0 : Vec F S1x1024x1024 .bf16) (x1 : Vec F S1x1024x1024 .bf16) (x2 : Vec F S1x1024x1024 .bf16) (x3 : Vec F S1x1024x1024 .f32) (x4 : Vec F S1024 .f32) (x5 : Vec F S1024 .f32) (xs0 : Vec F S1024x1 .f32) (xs1 : Vec F S1024x1 .f32) (xs2 : Vec F S1024x1024 .f32) :
    W.read (Elt F) (W.writes (Elt F) f (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).1)
      = k1_pay3 (k1_pay1 (k1_pay7 x2) (k1_pay11 x0 x1 xs0) xs2 (k1_pay13 x0 x1 xs0)) (k1_pay12 x0 x1 xs0 xs1) x3 x4 x5 := by
  rw [View.read_writes_eq_canon _ _ _ (View.cover_of_tiledL _ S1x1024x1024.size (by sl_kernel_rfl))]
  unfold kernelRun1_B
  dsimp only
  try sl_unfold_words
  first
    | rw [View.canon_cons_unit_zero hz3]
    | rw [View.canon_unit_zero hz3]
  simp only [View.readAt_eq_ld, harg3.read_unread, harg4.read_unread, harg5.read_unread, harg6.read_unread, harg7.read_unread, harg8.read_unread,
    harg10.read_unread, harg11.read_unread, harg12.read_unread,
    View.ld_unit_zero (S := S1x1024x1024) hz3, View.ld_unit_zero (S := S1024x1) hz2', View.ld_unit_zero (S := S1024x1024) hz2',
    View.ld_unit_zero (S := S1024) hz1', View.readCov_unit_zero (S := S1024x1) _ hz2', View.readCov_unit_zero (S := S1024x1024) _ hz2']
  try rfl

end Cert.KernelIdeal.KV

end
-- ==== Proof.Spec.lean ====
/-
  One decoder block on the extended reals, row by row: what both programs compute.

  For a query row with scores σ k (k over the 2048 key positions, −∞ where a position is masked) and value rows v k,
  attention is  Σ_k (exp(σ k − M) / Σ_j exp(σ j − M)) · v k d  with M the largest score; the scores are
  (Σ_d Q d · K d) / √1024. A row x is normalised to (x d − μ) · (var + ε)^(−1/2) · g d + β d with μ the mean of the row
  and var the mean of (x − μ)². The block is: causal self-attention added to the input and normalised; attention of
  that over the memory Z added and normalised; a two-layer perceptron with ReLU added and normalised.
-/
import Idealize.ShloMosaic.PureOps.Ideal
import Idealize.ShloMosaic.Lib.ValueIdx

noncomputable section

namespace Cert.Spec

open Idealize.ShloMosaic Idealize.ShloMosaic.ValueIdx
open scoped BigOperators

/-- The row length 1024 as a float. -/
def c1024 : EReal := Ideal.ofBits .f32 0x44800000#32
/-- The variance offset ε. -/
def eps : EReal := Ideal.ofBits .f32 0x3727C5AC#32

/-- A row's mean. -/
def mean (x : Fin 1024 → EReal) : EReal := Ideal.div (∑ j, x j) c1024
/-- A row's variance: the mean of the squared deviations. -/
def var (x : Fin 1024 → EReal) : EReal := Ideal.div (∑ j, (x j - mean x) * (x j - mean x)) c1024
/-- Layer normalisation of a row with gain g and offset β. -/
def ln (x g β : Fin 1024 → EReal) (d : Fin 1024) : EReal :=
  (x d - mean x) * Ideal.rsqrt (var x + eps) * g d + β d

/-- The score of a query row Q against a key row K. -/
def score (Q K : Fin 1024 → EReal) : EReal := Ideal.div (∑ d, Q d * K d) (Ideal.sqrt c1024)

/-- The largest score of a row (−∞ for none). -/
def rowMax (σ : Fin 2048 → EReal) : EReal := Finset.univ.sup σ

/-- Softmax-weighted sum of the value rows. -/
def attnRow (σ : Fin 2048 → EReal) (v : Fin 2048 → Fin 1024 → EReal) (d : Fin 1024) : EReal :=
  ∑ k, Ideal.div (Ideal.exp (σ k - rowMax σ)) (∑ j, Ideal.exp (σ j - rowMax σ)) * v k d

/-- Causal scores of query position q: key positions after q are masked. -/
def causalScores (y : Fin 2048 → Fin 1024 → EReal) (q : Fin 2048) (k : Fin 2048) : EReal :=
  if k.val ≤ q.val then score (y q) (y k) else ⊥

/-- Stage 1 for one batch entry: causal self-attention, residual, normalisation. -/
def stage1 (y : Fin 2048 → Fin 1024 → EReal) (g β : Fin 1024 → EReal) (q : Fin 2048) : Fin 1024 → EReal :=
  ln (fun d => y q d + attnRow (causalScores y q) y d) g β

/-- Stage 2 for one batch entry: attention over the memory z, residual, normalisation. -/
def stage2 (h z : Fin 2048 → Fin 1024 → EReal) (g β : Fin 1024 → EReal) (q : Fin 2048) : Fin 1024 → EReal :=
  ln (fun d => h q d + attnRow (fun k => score (h q) (z k)) z d) g β

/-- The hidden layer of the perceptron on one row. -/
def hidden (x : Fin 1024 → EReal) (w1 : Fin 1024 → Fin 4096 → EReal) (b1 : Fin 4096 → EReal) (f : Fin 4096) : EReal :=
  max ((∑ j, x j * w1 j f) + b1 f) 0

/-- Stage 3 on one row: the perceptron, residual, normalisation. -/
def stage3 (x : Fin 1024 → EReal) (w1 : Fin 1024 → Fin 4096 → EReal) (b1 : Fin 4096 → EReal)
    (w2 : Fin 4096 → Fin 1024 → EReal) (b2 g β : Fin 1024 → EReal) : Fin 1024 → EReal :=
  ln (fun d => x d + ((∑ f, hidden x w1 b1 f * w2 f d) + b2 d)) g β

/-- The whole block on curried arrays. -/
def block (y z : Fin 4 → Fin 2048 → Fin 1024 → EReal) (w1 : Fin 1024 → Fin 4096 → EReal) (b1 : Fin 4096 → EReal)
    (w2 : Fin 4096 → Fin 1024 → EReal) (b2 g1 β1 g2 β2 g3 β3 : Fin 1024 → EReal)
    (b : Fin 4) (q : Fin 2048) : Fin 1024 → EReal :=
  stage3 (stage2 (stage1 (y b) g1 β1) (z b) g2 β2 q) w1 b1 w2 b2 g3 β3

/-- The whole block on the programs' arrays. -/
def out (Y Z : (⟨3, ![4, 2048, 1024]⟩ : Shape).Idx → EReal) (W1 : (⟨2, ![1024, 4096]⟩ : Shape).Idx → EReal)
    (B1 : (⟨1, ![4096]⟩ : Shape).Idx → EReal) (W2 : (⟨2, ![4096, 1024]⟩ : Shape).Idx → EReal)
    (B2 G1 Be1 G2 Be2 G3 Be3 : (⟨1, ![1024]⟩ : Shape).Idx → EReal) :
    (⟨3, ![4, 2048, 1024]⟩ : Shape).Idx → EReal := fun i =>
  block (fun b q d => Y (ix3 b q d)) (fun b q d => Z (ix3 b q d)) (fun j f => W1 (ix2 j f)) (fun f => B1 (ix1 f))
    (fun f d => W2 (ix2 f d)) (fun d => B2 (ix1 d)) (fun d => G1 (ix1 d)) (fun d => Be1 (ix1 d)) (fun d => G2 (ix1 d))
    (fun d => Be2 (ix1 d)) (fun d => G3 (ix1 d)) (fun d => Be3 (ix1 d)) (i 0) (i 1) (i 2)

end Cert.Spec

end
-- ==== Proof.MathAttn.lean ====
/-
  Attention for one query row on the extended reals, with masked positions.

  A row of scores σ k is a real s k where the position is kept and −∞ where it is masked; the values v k d are real.
  With w_M k = exp(s k − M) at a kept position and 0 at a masked one (`wt`):
  • exp(σ k − M) = w_M k for every real M (exp(−∞) = 0), and exp(M − M')·w_M k = w_M' k;
  • the largest score is real as soon as one position is kept;
  • so the two-pass form  Σ_k (exp(σ k − max) / Σ_j exp(σ j − max))·v k d  is the real quotient
      (Σ_kept exp(s k)·v k d) / (Σ_kept exp(s k))   (`quot`; the shift cancels), and
  • the one-pass form, which carries a running maximum m, a running denominator l and a running numerator a over two
    tiles of 1024 positions and rescales both by exp(m − m') when the maximum moves, ends at the same quotient
    a·(1/l) — whether the second tile is processed or (when it is wholly masked) skipped.
-/
import Idealize.ShloMosaic.PureOps.Ideal.Laws
import proofs.«167660_j22771916603726_2_alg».proof.Proof.Spec

noncomputable section

namespace Cert.MathAttn

open Idealize.ShloMosaic
open scoped BigOperators

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section generic

variable {K : Type*} [Fintype K] {D : Type*}

/-- The softmax-weighted mean of the kept value rows, on the reals. -/
def quot (keep : K → Prop) [DecidablePred keep] (sr : K → ℝ) (vr : K → D → ℝ) (d : D) : ℝ :=
  (∑ k, if keep k then Real.exp (sr k) * vr k d else 0) / (∑ k, if keep k then Real.exp (sr k) else 0)

/-- The weight of position k at shift M: exp(s k − M) where kept, 0 where masked. -/
def wt (keep : K → Prop) [DecidablePred keep] (sr : K → ℝ) (M : ℝ) (k : K) : ℝ :=
  if keep k then Real.exp (sr k - M) else 0

variable (keep : K → Prop) [DecidablePred keep] (sr : K → ℝ) (vr : K → D → ℝ)

theorem wt_nonneg (M : ℝ) (k : K) : 0 ≤ wt keep sr M k := by
  unfold wt; split_ifs
  · exact (Real.exp_pos _).le
  · exact le_rfl

/-- Moving the shift. -/
theorem wt_rescale (M M' : ℝ) (k : K) : Real.exp (M - M') * wt keep sr M k = wt keep sr M' k := by
  unfold wt; split_ifs
  · rw [← Real.exp_add]; congr 1; ring
  · exact mul_zero _

theorem sum_wt_pos (h : ∃ k, keep k) (M : ℝ) : 0 < ∑ k, wt keep sr M k := by
  obtain ⟨k0, hk0⟩ := h
  refine Finset.sum_pos' (fun k _ => wt_nonneg keep sr M k) ⟨k0, Finset.mem_univ _, ?_⟩
  unfold wt; rw [if_pos hk0]; exact Real.exp_pos _

/-- The quotient at any shift is the quotient at shift 0. -/
theorem quot_eq (h : ∃ k, keep k) (M : ℝ) (d : D) :
    quot keep sr vr d = (∑ k, wt keep sr M k * vr k d) / (∑ k, wt keep sr M k) := by
  have e0 : ∀ k, (if keep k then Real.exp (sr k) else 0) = wt keep sr 0 k := fun k => by
    unfold wt; rw [sub_zero]
  have e1 : ∀ k, (if keep k then Real.exp (sr k) * vr k d else 0) = wt keep sr 0 k * vr k d := fun k => by
    unfold wt; rw [sub_zero]; split_ifs
    · rfl
    · exact (zero_mul _).symm
  have eM : ∀ k, wt keep sr M k = Real.exp (0 - M) * wt keep sr 0 k := fun k => (wt_rescale keep sr 0 M k).symm
  unfold quot
  simp only [e0, e1, eM, mul_assoc, ← Finset.mul_sum]
  rw [mul_div_mul_left _ _ (Real.exp_pos _).ne']

/-- Numerator times the reciprocal of the denominator, at any shift, is the quotient. -/
theorem finish (h : ∃ k, keep k) (M : ℝ) (d : D) :
    ((∑ k, wt keep sr M k * vr k d : ℝ) : EReal) * Ideal.div 1 ((∑ k, wt keep sr M k : ℝ) : EReal)
      = ((quot keep sr vr d : ℝ) : EReal) := by
  have hZ := sum_wt_pos keep sr h M
  rw [Ideal.div_coe hZ.ne', one_mul, ← EReal.coe_mul, quot_eq keep sr vr h M d, mul_one_div]

variable {keep sr vr}
variable {σ : K → EReal} (hσ : ∀ k, σ k = if keep k then (sr k : EReal) else ⊥)
variable {v : K → D → EReal} (hv : ∀ k d, v k d = (vr k d : EReal))

include hσ in
/-- exp(σ k − M) is the weight at shift M. -/
theorem exp_sub (M : ℝ) (k : K) : Ideal.exp (σ k - (M : EReal)) = ((wt keep sr M k : ℝ) : EReal) := by
  rw [hσ, wt]
  split_ifs
  · rw [← EReal.coe_sub, Ideal.exp_coe]
  · rw [EReal.bot_sub, Ideal.exp_bot, EReal.coe_zero]

include hσ in
theorem sup_lt_top : Finset.univ.sup σ < ⊤ := by
  rw [Finset.sup_lt_iff bot_lt_top]
  intro k _; rw [hσ]; split_ifs
  · exact EReal.coe_lt_top _
  · exact bot_lt_top

include hσ in
/-- The largest score is real when some position is kept. -/
theorem sup_real (h : ∃ k, keep k) : ∃ M : ℝ, Finset.univ.sup σ = (M : EReal) := by
  obtain ⟨k0, hk0⟩ := h
  have h1 : (sr k0 : EReal) ≤ Finset.univ.sup σ := by
    have := Finset.le_sup (f := σ) (Finset.mem_univ k0); rwa [hσ, if_pos hk0] at this
  have hb : Finset.univ.sup σ ≠ ⊥ := ne_bot_of_le_ne_bot (EReal.coe_ne_bot _) h1
  exact ⟨_, (EReal.coe_toReal (sup_lt_top hσ).ne hb).symm⟩

include hσ hv in
/-- The first update, from the empty state (−∞, 0, 0), over positions of which one is kept. -/
theorem step_first (h : ∃ k, keep k) {m0 l0 tm m1 l1 : EReal} {a0 a1 : D → EReal}
    (hm0 : m0 = ⊥) (hl0 : l0 = 0) (ha0 : ∀ d, a0 d = 0)
    (htm : tm = Finset.univ.sup σ) (hm1 : m1 = max m0 tm)
    (hl1 : l1 = Ideal.exp (m0 - m1) * l0 + ∑ k, Ideal.exp (σ k - m1))
    (ha1 : ∀ d, a1 d = Ideal.exp (m0 - m1) * a0 d + ∑ k, Ideal.exp (σ k - m1) * v k d) :
    ∃ M : ℝ, m1 = (M : EReal) ∧ l1 = ((∑ k, wt keep sr M k : ℝ) : EReal)
      ∧ ∀ d, a1 d = ((∑ k, wt keep sr M k * vr k d : ℝ) : EReal) := by
  obtain ⟨M, hM⟩ := sup_real hσ h
  have e1 : m1 = (M : EReal) := by rw [hm1, hm0, htm, hM]; exact max_bot_left _
  refine ⟨M, e1, ?_, fun d => ?_⟩
  · rw [hl1, hl0, mul_zero, zero_add, e1, coe_sum]
    exact Finset.sum_congr rfl fun k _ => exp_sub hσ M k
  · rw [ha1, ha0, mul_zero, zero_add, e1, coe_sum]
    refine Finset.sum_congr rfl fun k _ => ?_
    rw [exp_sub hσ M k, hv, EReal.coe_mul]

include hσ hv in
/-- An update from a real state (M, L, A): the new maximum M' is real, and l, a are rescaled by exp(M − M'). -/
theorem step_next {M L : ℝ} {A : D → ℝ} {m l tm m' l' : EReal} {a a' : D → EReal}
    (hm : m = (M : EReal)) (hl : l = (L : EReal)) (ha : ∀ d, a d = (A d : EReal))
    (htm : tm = Finset.univ.sup σ) (hm' : m' = max m tm)
    (hl' : l' = Ideal.exp (m - m') * l + ∑ k, Ideal.exp (σ k - m'))
    (ha' : ∀ d, a' d = Ideal.exp (m - m') * a d + ∑ k, Ideal.exp (σ k - m') * v k d) :
    ∃ M' : ℝ, m' = (M' : EReal) ∧ l' = ((Real.exp (M - M') * L + ∑ k, wt keep sr M' k : ℝ) : EReal)
      ∧ ∀ d, a' d = ((Real.exp (M - M') * A d + ∑ k, wt keep sr M' k * vr k d : ℝ) : EReal) := by
  have hb : m' ≠ ⊥ := by
    rw [hm', hm]; exact ne_bot_of_le_ne_bot (EReal.coe_ne_bot M) (le_max_left _ _)
  have ht : m' ≠ ⊤ := by
    rw [hm', hm, htm]; exact (max_lt (EReal.coe_lt_top M) (sup_lt_top hσ)).ne
  obtain ⟨M', e⟩ : ∃ M' : ℝ, m' = (M' : EReal) := ⟨_, (EReal.coe_toReal ht hb).symm⟩
  refine ⟨M', e, ?_, fun d => ?_⟩
  · rw [hl', hl, hm, e, ← EReal.coe_sub, Ideal.exp_coe, EReal.coe_add, EReal.coe_mul, coe_sum]
    congr 1
    exact Finset.sum_congr rfl fun k _ => exp_sub hσ M' k
  · rw [ha', ha, hm, e, ← EReal.coe_sub, Ideal.exp_coe, EReal.coe_add, EReal.coe_mul, coe_sum]
    congr 1
    refine Finset.sum_congr rfl fun k _ => ?_
    rw [exp_sub hσ M' k, hv, EReal.coe_mul]

end generic

end Cert.MathAttn

end
-- ==== Proof.MathAttn2.lean ====
/-
  Attention for one query row over 2048 key positions, split into two tiles of 1024 (position j·1024 + r):
  the two-pass form of the specification is the real quotient of the kept positions, and the one-pass form with a running
  maximum — over the first tile alone when the second is wholly masked, or over both — is the same value.
-/
import proofs.«167660_j22771916603726_2_alg».proof.Proof.MathAttn

noncomputable section

namespace Cert.MathAttn

open Idealize.ShloMosaic
open scoped BigOperators

/-- A sum over the 2048 positions is the sum over the first tile plus the sum over the second. -/
theorem sum_tiles {α : Type*} [AddCommMonoid α] (pos : Fin 2 → Fin 1024 → Fin 2048)
    (hpos : ∀ j r, (pos j r).val = j.val * 1024 + r.val) (f : Fin 2048 → α) :
    ∑ k, f k = ∑ r, f (pos 0 r) + ∑ r, f (pos 1 r) := by
  have h0 : ∀ r, pos 0 r = Fin.castAdd 1024 r := fun r => Fin.ext (by rw [hpos]; simp)
  have h1 : ∀ r, pos 1 r = Fin.natAdd 1024 r := fun r => Fin.ext (by rw [hpos]; simp; omega)
  simp only [h0, h1]
  exact Fin.sum_univ_add (a := 1024) (b := 1024) f

variable (keep : Fin 2048 → Prop) [DecidablePred keep] (sr : Fin 2048 → ℝ) (vr : Fin 2048 → Fin 1024 → ℝ)
  (σ : Fin 2048 → EReal) (hσ : ∀ k, σ k = if keep k then (sr k : EReal) else ⊥)
  (v : Fin 2048 → Fin 1024 → EReal) (hv : ∀ k d, v k d = (vr k d : EReal))

include hσ hv in
/-- The two-pass form is the real quotient. -/
theorem attnRow_eq (hk : ∃ k, keep k) (d : Fin 1024) :
    Cert.Spec.attnRow σ v d = ((quot keep sr vr d : ℝ) : EReal) := by
  obtain ⟨M, hM⟩ := sup_real hσ hk
  have hZ := sum_wt_pos keep sr hk M
  unfold Cert.Spec.attnRow Cert.Spec.rowMax
  rw [hM]
  simp only [exp_sub hσ M, hv]
  rw [← coe_sum]
  simp only [Ideal.div_coe hZ.ne', ← EReal.coe_mul]
  rw [← coe_sum, quot_eq keep sr vr hk M d, Finset.sum_div]
  congr 1
  exact Finset.sum_congr rfl fun k _ => by ring

include hσ hv in
/-- A real number plus the attention row is real. -/
theorem resid_attn_real (hk : ∃ k, keep k) (y : ℝ) (d : Fin 1024) :
    (y : EReal) + Cert.Spec.attnRow σ v d = ((y + quot keep sr vr d : ℝ) : EReal) := by
  rw [attnRow_eq keep sr vr σ hσ v hv hk d, ← EReal.coe_add]

variable (pos : Fin 2 → Fin 1024 → Fin 2048) (hpos : ∀ j r, (pos j r).val = j.val * 1024 + r.val)
  (h0 : ∃ r, keep (pos 0 r))
  (m0 l0 tm0 m1 l1 : EReal) (a0 a1 : Fin 1024 → EReal)
  (hm0 : m0 = ⊥) (hl0 : l0 = 0) (ha0 : ∀ d, a0 d = 0)
  (htm0 : tm0 = Finset.univ.sup fun r => σ (pos 0 r))
  (hm1 : m1 = max m0 tm0)
  (hl1 : l1 = Ideal.exp (m0 - m1) * l0 + ∑ r, Ideal.exp (σ (pos 0 r) - m1))
  (ha1 : ∀ d, a1 d = Ideal.exp (m0 - m1) * a0 d + ∑ r, Ideal.exp (σ (pos 0 r) - m1) * v (pos 0 r) d)

include hσ hv hpos h0 hm0 hl0 ha0 htm0 hm1 hl1 ha1 in
/-- The one-pass form over the first tile alone, when every kept position lies in it. -/
theorem onepass_tile0 (hskip : ∀ k, keep k → k.val < 1024) (d : Fin 1024) :
    a1 d * Ideal.div 1 l1 = Cert.Spec.attnRow σ v d := by
  have hk : ∃ k, keep k := h0.imp' (pos 0) fun _ h => h
  obtain ⟨M, -, hL, hA⟩ := step_first (keep := fun r => keep (pos 0 r)) (sr := fun r => sr (pos 0 r))
    (vr := fun r d => vr (pos 0 r) d) (σ := fun r => σ (pos 0 r)) (v := fun r d => v (pos 0 r) d)
    (fun r => hσ (pos 0 r)) (fun r d => hv (pos 0 r) d) h0 hm0 hl0 ha0 htm0 hm1 hl1 ha1
  have z : ∀ r, wt keep sr M (pos 1 r) = 0 := fun r => by
    unfold wt; rw [if_neg]; intro hkeep
    have := hskip _ hkeep; rw [hpos] at this; simp at this
  have eL : (∑ k, wt keep sr M k) = ∑ r, wt (fun r => keep (pos 0 r)) (fun r => sr (pos 0 r)) M r := by
    rw [sum_tiles pos hpos]; simp only [z, Finset.sum_const_zero, add_zero]; rfl
  have eA : (∑ k, wt keep sr M k * vr k d)
      = ∑ r, wt (fun r => keep (pos 0 r)) (fun r => sr (pos 0 r)) M r * vr (pos 0 r) d := by
    rw [sum_tiles pos hpos]; simp only [z, zero_mul, Finset.sum_const_zero, add_zero]; rfl
  rw [attnRow_eq keep sr vr σ hσ v hv hk d, hA d, hL, ← eL, ← eA]
  exact finish keep sr vr hk M d

variable (tm1 m2 l2 : EReal) (a2 : Fin 1024 → EReal)
  (htm1 : tm1 = Finset.univ.sup fun r => σ (pos 1 r))
  (hm2 : m2 = max m1 tm1)
  (hl2 : l2 = Ideal.exp (m1 - m2) * l1 + ∑ r, Ideal.exp (σ (pos 1 r) - m2))
  (ha2 : ∀ d, a2 d = Ideal.exp (m1 - m2) * a1 d + ∑ r, Ideal.exp (σ (pos 1 r) - m2) * v (pos 1 r) d)

include hσ hv hpos h0 hm0 hl0 ha0 htm0 hm1 hl1 ha1 htm1 hm2 hl2 ha2 in
/-- The one-pass form over both tiles (the second may hold masked positions, or only masked ones). -/
theorem onepass_tiles01 (d : Fin 1024) :
    a2 d * Ideal.div 1 l2 = Cert.Spec.attnRow σ v d := by
  have hk : ∃ k, keep k := h0.imp' (pos 0) fun _ h => h
  obtain ⟨M1, hM1, hL1, hA1⟩ := step_first (keep := fun r => keep (pos 0 r)) (sr := fun r => sr (pos 0 r))
    (vr := fun r d => vr (pos 0 r) d) (σ := fun r => σ (pos 0 r)) (v := fun r d => v (pos 0 r) d)
    (fun r => hσ (pos 0 r)) (fun r d => hv (pos 0 r) d) h0 hm0 hl0 ha0 htm0 hm1 hl1 ha1
  obtain ⟨M, -, hL, hA⟩ := step_next (keep := fun r => keep (pos 1 r)) (sr := fun r => sr (pos 1 r))
    (vr := fun r d => vr (pos 1 r) d) (σ := fun r => σ (pos 1 r)) (v := fun r d => v (pos 1 r) d)
    (fun r => hσ (pos 1 r)) (fun r d => hv (pos 1 r) d) hM1 hL1 hA1 htm1 hm2 hl2 ha2
  have eL : (∑ k, wt keep sr M k) = Real.exp (M1 - M) * (∑ r, wt (fun r => keep (pos 0 r)) (fun r => sr (pos 0 r)) M1 r)
      + ∑ r, wt (fun r => keep (pos 1 r)) (fun r => sr (pos 1 r)) M r := by
    rw [sum_tiles pos hpos, Finset.mul_sum]
    refine congrArg₂ (· + ·) (Finset.sum_congr rfl fun r _ => ?_) rfl
    exact (wt_rescale (fun r => keep (pos 0 r)) (fun r => sr (pos 0 r)) M1 M r).symm
  have eA : (∑ k, wt keep sr M k * vr k d)
      = Real.exp (M1 - M) * (∑ r, wt (fun r => keep (pos 0 r)) (fun r => sr (pos 0 r)) M1 r * vr (pos 0 r) d)
        + ∑ r, wt (fun r => keep (pos 1 r)) (fun r => sr (pos 1 r)) M r * vr (pos 1 r) d := by
    rw [sum_tiles pos hpos, Finset.mul_sum]
    refine congrArg₂ (· + ·) (Finset.sum_congr rfl fun r _ => ?_) rfl
    rw [← mul_assoc, wt_rescale (fun r => keep (pos 0 r)) (fun r => sr (pos 0 r)) M1 M r]; rfl
  rw [attnRow_eq keep sr vr σ hσ v hv hk d, hA d, hL, ← eL, ← eA]
  exact finish keep sr vr hk M d

end Cert.MathAttn

end
-- ==== Proof.MathAttn3.lean ====
/-
  Real rows stay real through the block's row operations.

  The row length constant is the real 1024 and the variance offset a positive real (read off their bit patterns), so for a
  real row the mean and the variance are real, the variance is nonnegative, var + ε > 0, and the reciprocal square root is
  the real (√(var + ε))⁻¹: layer normalisation of a real row with real gain and offset is real. The score of two real rows
  is (Σ Q·K)/32 (√1024 = 32), and multiplying the dot product by the float 2⁻⁵ gives the same real. The perceptron's
  hidden layer max(·, 0) and the residual row of the third stage are real as well.
-/
import proofs.«167660_j22771916603726_2_alg».proof.Proof.MathAttn

noncomputable section

namespace Cert.MathAttn

open Idealize.ShloMosaic
open scoped BigOperators

/-- The row length constant is the real 1024. -/
theorem c1024_eq : Cert.Spec.c1024 = ((1024 : ℝ) : EReal) := by
  unfold Cert.Spec.c1024; simp [Ideal.ofBits, Ideal.ieee, -EReal.coe_mul]; norm_num

/-- The float 2⁻⁵. -/
theorem inv32_eq : Ideal.ofBits .f32 0x3D000000#32 = ((1 / 32 : ℝ) : EReal) := by
  simp [Ideal.ofBits, Ideal.ieee, -EReal.coe_mul]; norm_num

/-- The variance offset is the real 10995116 · 2⁻⁴⁰ (about 10⁻⁵). -/
theorem eps_eq : Cert.Spec.eps = ((10995116 / 2 ^ 40 : ℝ) : EReal) := by
  unfold Cert.Spec.eps; simp [Ideal.ofBits, Ideal.ieee, -EReal.coe_mul]; norm_num

theorem eps_pos : ∃ e : ℝ, 0 < e ∧ Cert.Spec.eps = (e : EReal) := ⟨_, by positivity, eps_eq⟩

theorem sqrt_c1024 : Ideal.sqrt Cert.Spec.c1024 = ((32 : ℝ) : EReal) := by
  rw [c1024_eq, Ideal.sqrt_coe, if_neg (by norm_num), show (1024 : ℝ) = 32 ^ 2 by norm_num,
    Real.sqrt_sq (by norm_num)]

/-- The mean of a real row. -/
theorem mean_real (x : Fin 1024 → ℝ) :
    Cert.Spec.mean (fun j => (x j : EReal)) = (((∑ j, x j) / 1024 : ℝ) : EReal) := by
  unfold Cert.Spec.mean
  rw [c1024_eq, ← coe_sum, Ideal.div_coe (by norm_num), ← EReal.coe_mul, mul_one_div]

/-- The variance of a real row is a nonnegative real. -/
theorem var_real (x : Fin 1024 → ℝ) : ∃ s : ℝ, 0 ≤ s ∧ Cert.Spec.var (fun j => (x j : EReal)) = (s : EReal) := by
  refine ⟨(∑ j, (x j - (∑ j, x j) / 1024) * (x j - (∑ j, x j) / 1024)) / 1024,
    div_nonneg (Finset.sum_nonneg fun j _ => mul_self_nonneg _) (by norm_num), ?_⟩
  unfold Cert.Spec.var
  rw [mean_real, c1024_eq]
  simp only [← EReal.coe_sub, ← EReal.coe_mul]
  rw [← coe_sum, Ideal.div_coe (by norm_num), ← EReal.coe_mul, mul_one_div]

/-- Layer normalisation of a real row with real gain and offset is real. -/
theorem ln_real (x g β : Fin 1024 → ℝ) (d : Fin 1024) :
    ∃ r : ℝ, Cert.Spec.ln (fun j => (x j : EReal)) (fun j => (g j : EReal)) (fun j => (β j : EReal)) d = (r : EReal) := by
  obtain ⟨s, hs, hvar⟩ := var_real x
  obtain ⟨e, he, heps⟩ := eps_pos
  have hpos : 0 < s + e := by linarith
  unfold Cert.Spec.ln
  rw [hvar, heps, mean_real, ← EReal.coe_add, Ideal.rsqrt_coe, if_neg (not_lt.mpr hpos.le), if_neg hpos.ne',
    ← EReal.coe_sub, ← EReal.coe_mul, ← EReal.coe_mul, ← EReal.coe_add]
  exact ⟨_, rfl⟩

/-- The same with rows that are known to be real entry by entry. -/
theorem ln_real' (X G B : Fin 1024 → EReal) (hX : ∀ j, ∃ r : ℝ, X j = (r : EReal)) (hG : ∀ j, ∃ r : ℝ, G j = (r : EReal))
    (hB : ∀ j, ∃ r : ℝ, B j = (r : EReal)) (d : Fin 1024) : ∃ r : ℝ, Cert.Spec.ln X G B d = (r : EReal) := by
  choose x hx using hX
  choose g hg using hG
  choose β hβ using hB
  obtain rfl : X = fun j => (x j : EReal) := funext hx
  obtain rfl : G = fun j => (g j : EReal) := funext hg
  obtain rfl : B = fun j => (β j : EReal) := funext hβ
  exact ln_real x g β d

/-- The score of two real rows. -/
theorem score_real (Q K : Fin 1024 → ℝ) :
    Cert.Spec.score (fun d => (Q d : EReal)) (fun d => (K d : EReal)) = (((∑ d, Q d * K d) / 32 : ℝ) : EReal) := by
  unfold Cert.Spec.score
  rw [sqrt_c1024]
  simp only [← EReal.coe_mul]
  rw [← coe_sum, Ideal.div_coe (by norm_num), ← EReal.coe_mul, mul_one_div]

/-- The dot product times the float 2⁻⁵ is the same real. -/
theorem score_kernel (Q K : Fin 1024 → ℝ) :
    (∑ d, (Q d : EReal) * (K d : EReal)) * Ideal.ofBits .f32 0x3D000000#32 = (((∑ d, Q d * K d) / 32 : ℝ) : EReal) := by
  rw [inv32_eq]
  simp only [← EReal.coe_mul]
  rw [← coe_sum, ← EReal.coe_mul, mul_one_div]

/-- The hidden layer on real data. -/
theorem hidden_real (x : Fin 1024 → ℝ) (w1 : Fin 1024 → Fin 4096 → ℝ) (b1 : Fin 4096 → ℝ) (f : Fin 4096) :
    Cert.Spec.hidden (fun j => (x j : EReal)) (fun j f => (w1 j f : EReal)) (fun f => (b1 f : EReal)) f
      = ((max ((∑ j, x j * w1 j f) + b1 f) 0 : ℝ) : EReal) := by
  unfold Cert.Spec.hidden
  simp only [← EReal.coe_mul]
  rw [← coe_sum, ← EReal.coe_add, Monotone.map_max EReal.coe_strictMono.monotone, EReal.coe_zero]

/-- The residual row of the third stage on real data. -/
theorem stage3_row_real (x : Fin 1024 → ℝ) (w1 : Fin 1024 → Fin 4096 → ℝ) (b1 : Fin 4096 → ℝ)
    (w2 : Fin 4096 → Fin 1024 → ℝ) (b2 : Fin 1024 → ℝ) (d : Fin 1024) :
    ∃ r : ℝ, (x d : EReal) + ((∑ f, Cert.Spec.hidden (fun j => (x j : EReal)) (fun j f => (w1 j f : EReal))
      (fun f => (b1 f : EReal)) f * (w2 f d : EReal)) + (b2 d : EReal)) = (r : EReal) := by
  simp only [hidden_real, ← EReal.coe_mul]
  rw [← coe_sum, ← EReal.coe_add, ← EReal.coe_add]
  exact ⟨_, rfl⟩

/-- The third stage on real data is real. -/
theorem stage3_real (x : Fin 1024 → ℝ) (w1 : Fin 1024 → Fin 4096 → ℝ) (b1 : Fin 4096 → ℝ)
    (w2 : Fin 4096 → Fin 1024 → ℝ) (b2 g β : Fin 1024 → ℝ) (d : Fin 1024) :
    ∃ r : ℝ, Cert.Spec.stage3 (fun j => (x j : EReal)) (fun j f => (w1 j f : EReal)) (fun f => (b1 f : EReal))
      (fun f d => (w2 f d : EReal)) (fun d => (b2 d : EReal)) (fun d => (g d : EReal)) (fun d => (β d : EReal)) d
      = (r : EReal) := by
  unfold Cert.Spec.stage3
  exact ln_real' _ _ _ (fun j => stage3_row_real x w1 b1 w2 b2 j) (fun j => ⟨_, rfl⟩) (fun j => ⟨_, rfl⟩) d

end Cert.MathAttn

end
-- ==== Proof.MathAttn4.lean ====
/-
  Every stage of the block maps real arrays to real arrays: the causal scores of real rows are real where kept and −∞
  where masked (the query's own position is always kept), the memory scores are all real, attention over them is a real
  quotient, and the residual rows, their normalisations and the perceptron are real.
-/
import proofs.«167660_j22771916603726_2_alg».proof.Proof.MathAttn2
import proofs.«167660_j22771916603726_2_alg».proof.Proof.MathAttn3

noncomputable section

namespace Cert.MathAttn

open Idealize.ShloMosaic
open scoped BigOperators

/-- A real-valued array of extended reals is the coercion of a real array. -/
theorem exists_real2 {A B : Type*} (X : A → B → EReal) (h : ∀ a b, ∃ r : ℝ, X a b = (r : EReal)) :
    ∃ x : A → B → ℝ, X = fun a b => (x a b : EReal) := by
  choose x hx using h
  exact ⟨x, funext fun a => funext (hx a)⟩

theorem exists_real1 {A : Type*} (X : A → EReal) (h : ∀ a, ∃ r : ℝ, X a = (r : EReal)) :
    ∃ x : A → ℝ, X = fun a => (x a : EReal) := by
  choose x hx using h
  exact ⟨x, funext hx⟩

/-- Causal scores of real rows: the real score up to the query's position, −∞ after it. -/
theorem causalScores_real (y : Fin 2048 → Fin 1024 → ℝ) (q k : Fin 2048) :
    Cert.Spec.causalScores (fun k d => (y k d : EReal)) q k
      = if k.val ≤ q.val then (((∑ d, y q d * y k d) / 32 : ℝ) : EReal) else ⊥ := by
  unfold Cert.Spec.causalScores
  split_ifs
  · exact score_real (y q) (y k)
  · rfl

theorem stage1_real (y : Fin 2048 → Fin 1024 → ℝ) (g β : Fin 1024 → ℝ) (q : Fin 2048) (d : Fin 1024) :
    ∃ r : ℝ, Cert.Spec.stage1 (fun k d => (y k d : EReal)) (fun d => (g d : EReal)) (fun d => (β d : EReal)) q d
      = (r : EReal) := by
  unfold Cert.Spec.stage1
  refine ln_real' _ _ _ (fun j => ?_) (fun j => ⟨_, rfl⟩) (fun j => ⟨_, rfl⟩) d
  exact ⟨_, resid_attn_real (fun k : Fin 2048 => k.val ≤ q.val) (fun k => (∑ d, y q d * y k d) / 32) y _
    (causalScores_real y q) _ (fun _ _ => rfl) ⟨q, le_rfl⟩ (y q j) j⟩

theorem stage2_real (h z : Fin 2048 → Fin 1024 → ℝ) (g β : Fin 1024 → ℝ) (q : Fin 2048) (d : Fin 1024) :
    ∃ r : ℝ, Cert.Spec.stage2 (fun k d => (h k d : EReal)) (fun k d => (z k d : EReal)) (fun d => (g d : EReal))
      (fun d => (β d : EReal)) q d = (r : EReal) := by
  unfold Cert.Spec.stage2
  refine ln_real' _ _ _ (fun j => ?_) (fun j => ⟨_, rfl⟩) (fun j => ⟨_, rfl⟩) d
  exact ⟨_, resid_attn_real (fun _ : Fin 2048 => True) (fun k => (∑ d, h q d * z k d) / 32) z _
    (fun k => (score_real (h q) (z k)).trans (if_pos trivial).symm) _ (fun _ _ => rfl) ⟨q, trivial⟩ (h q j) j⟩

/-- The whole block on real data is real. -/
theorem block_real (y z : Fin 4 → Fin 2048 → Fin 1024 → ℝ) (w1 : Fin 1024 → Fin 4096 → ℝ) (b1 : Fin 4096 → ℝ)
    (w2 : Fin 4096 → Fin 1024 → ℝ) (b2 g1 β1 g2 β2 g3 β3 : Fin 1024 → ℝ) (b : Fin 4) (q : Fin 2048) (d : Fin 1024) :
    ∃ r : ℝ, Cert.Spec.block (fun b k d => (y b k d : EReal)) (fun b k d => (z b k d : EReal))
      (fun j f => (w1 j f : EReal)) (fun f => (b1 f : EReal)) (fun f d => (w2 f d : EReal)) (fun d => (b2 d : EReal))
      (fun d => (g1 d : EReal)) (fun d => (β1 d : EReal)) (fun d => (g2 d : EReal)) (fun d => (β2 d : EReal))
      (fun d => (g3 d : EReal)) (fun d => (β3 d : EReal)) b q d = (r : EReal) := by
  unfold Cert.Spec.block
  obtain ⟨h1, e1⟩ := exists_real2 _ (fun k d => stage1_real (y b) g1 β1 k d)
  rw [e1]
  obtain ⟨h2, e2⟩ := exists_real1 _ (fun d => stage2_real h1 (z b) g2 β2 q d)
  rw [e2]
  exact stage3_real h2 w1 b1 w2 b2 g3 β3 d

end Cert.MathAttn

end
-- ==== Proof.KRows.lean ====
/-
  One query row of each attention kernel, at the ideal values, for real data: the running-softmax state the body
  carries from the first key tile to the last, then normalised and layer-normalised with the residual row, is the
  specification's layer normalisation of the residual row plus its attention row over all 2048 key positions
  (position j·1024 + s is row s of key tile j). The payloads enter through their values at an index.
-/
import proofs.«167660_j22771916603726_2_alg».proof.Proof.Gen.KernelIdeal.Skeleton
import proofs.«167660_j22771916603726_2_alg».proof.Proof.MathAttn4
import proofs.«167660_j22771916603726_2_alg».proof.Proof.Spec
import Idealize.ShloMosaic.Lib.ValueIdx

set_option maxRecDepth 16384

noncomputable section

namespace Cert.KernelIdeal.KV

open Idealize.ShloMosaic Idealize.ShloMosaic.ValueIdx
open Cert.KernelIdeal Cert.KernelIdeal.Gen
open scoped BigOperators

/-- Key position j·1024 + s: row s of key tile j. -/
def pos (j : Fin 2) (s : Fin 1024) : Fin 2048 := ⟨j.val * 1024 + s.val, by have := j.isLt; have := s.isLt; omega⟩

theorem pos_val (j : Fin 2) (s : Fin 1024) : (pos j s).val = j.val * 1024 + s.val := rfl

/-- Two tiles of 1024 rows as one array of 2048 rows. -/
def rows2 (A0 A1 : S1x1024x1024.Idx → EReal) (k : Fin 2048) (d : Fin 1024) : EReal :=
  if h : k.val < 1024 then A0 (ix3 0 ⟨k.val, h⟩ d) else A1 (ix3 0 ⟨k.val - 1024, by have := k.isLt; omega⟩ d)

theorem rows2_pos0 (A0 A1 : S1x1024x1024.Idx → EReal) (s : Fin 1024) (d : Fin 1024) : rows2 A0 A1 (pos 0 s) d = A0 (ix3 0 s d) := by
  unfold rows2
  have h : (pos 0 s).val < 1024 := by rw [pos_val]; have := s.isLt; simp
  rw [dif_pos h]
  congr 2
  apply Fin.ext; show (pos 0 s).val = s.val; rw [pos_val]; simp

theorem rows2_pos1 (A0 A1 : S1x1024x1024.Idx → EReal) (s : Fin 1024) (d : Fin 1024) : rows2 A0 A1 (pos 1 s) d = A1 (ix3 0 s d) := by
  unfold rows2
  have h : ¬ (pos 1 s).val < 1024 := by rw [pos_val]; simp
  rw [dif_neg h]
  congr 2
  apply Fin.ext; show (pos 1 s).val - 1024 = s.val; rw [pos_val]; simp

/-- The second kernel's payloads at an index, at the ideal values. -/
structure Pay1Spec : Prop where
  reset_m : ∀ r : Fin 1024, k1_pay4 (F := Ideal) (ix2 r 0) = ⊥
  reset_l : ∀ r : Fin 1024, k1_pay5 (F := Ideal) (ix2 r 0) = 0
  reset_acc : ∀ r d : Fin 1024, k1_pay6 (F := Ideal) (ix2 r d) = 0
  scores : ∀ (v3 v5 : Vec Ideal S1x1024x1024 .bf16) (r s : Fin 1024),
    k1_pay8 v3 v5 (ix2 r s) = (∑ d : Fin 1024, v3 (ix3 0 r d) * v5 (ix3 0 s d)) * Ideal.ofBits .f32 0x3D000000#32
  newMax : ∀ (v3 v5 : Vec Ideal S1x1024x1024 .bf16) (v13 : Vec Ideal S1024x1 .f32) (r : Fin 1024),
    k1_pay9 v3 v5 v13 (ix2 r 0) = max (v13 (ix2 r 0)) (Finset.univ.sup fun s : Fin 1024 => k1_pay8 v3 v5 (ix2 r s))
  alpha : ∀ (v3 v5 : Vec Ideal S1x1024x1024 .bf16) (v13 : Vec Ideal S1024x1 .f32) (r : Fin 1024),
    k1_pay10 v3 v5 v13 (ix2 r 0) = Ideal.exp (v13 (ix2 r 0) - k1_pay9 v3 v5 v13 (ix2 r 0))
  probs : ∀ (v3 v5 : Vec Ideal S1x1024x1024 .bf16) (v13 : Vec Ideal S1024x1 .f32) (r s : Fin 1024),
    k1_pay11 v3 v5 v13 (ix2 r s) = Ideal.exp (k1_pay8 v3 v5 (ix2 r s) - k1_pay9 v3 v5 v13 (ix2 r 0))
  newL : ∀ (v3 v5 : Vec Ideal S1x1024x1024 .bf16) (v13 v22 : Vec Ideal S1024x1 .f32) (r : Fin 1024),
    k1_pay12 v3 v5 v13 v22 (ix2 r 0) = k1_pay10 v3 v5 v13 (ix2 r 0) * v22 (ix2 r 0) + ∑ s : Fin 1024, k1_pay11 v3 v5 v13 (ix2 r s)
  alphaB : ∀ (v3 v5 : Vec Ideal S1x1024x1024 .bf16) (v13 : Vec Ideal S1024x1 .f32) (r d : Fin 1024), k1_pay13 v3 v5 v13 (ix2 r d) = k1_pay10 v3 v5 v13 (ix2 r 0)
  newAcc : ∀ (v8 : FVec Ideal S1024x1024 .bf16) (v21 : FVec Ideal S1024x1024 .f32) (v30 : Vec Ideal S1024x1024 .f32) (v31 : FVec Ideal S1024x1024 .f32) (r d : Fin 1024),
    k1_pay1 v8 v21 v30 v31 (ix2 r d) = v31 (ix2 r d) * v30 (ix2 r d) + ∑ s : Fin 1024, v21 (ix2 r s) * v8 (ix2 s d)
  vcast : ∀ (v7 : Vec Ideal S1x1024x1024 .bf16) (r d : Fin 1024), k1_pay7 v7 (ix2 r d) = v7 (ix3 0 r d)
  keepMax : ∀ (v16 : FVec Ideal S1024x1 .f32), k1_pay2 v16 = v16
  final : ∀ (v45 : Vec Ideal S1024x1024 .f32) (v46 : Vec Ideal S1024x1 .f32) (v51 : Vec Ideal S1x1024x1024 .f32) (v54 v55 : Vec Ideal S1024 .f32) (r d : Fin 1024),
    k1_pay3 v45 v46 v51 v54 v55 (ix3 0 r d)
      = Cert.Spec.ln (fun j => v51 (ix3 0 r j) + v45 (ix2 r j) * Ideal.div 1 (v46 (ix2 r 0))) (fun j => v54 (ix1 j)) (fun j => v55 (ix1 j)) d

/-- One query row of the second kernel: the state after the first key tile (from the reset state), one more tile onto
    it, then the normalisation, is the layer normalisation of the residual row plus the attention row over all 2048
    key positions (tile 0 then tile 1), for real data. -/
theorem cross_row (hpay : Pay1Spec) (Q K0 K1 V0 V1 : Vec Ideal S1x1024x1024 .bf16) (R : Vec Ideal S1x1024x1024 .f32) (g β : Vec Ideal S1024 .f32)
    (hQ : ∀ i, ∃ x : ℝ, Q i = (x : EReal)) (hK0 : ∀ i, ∃ x : ℝ, K0 i = (x : EReal)) (hK1 : ∀ i, ∃ x : ℝ, K1 i = (x : EReal))
    (hV0 : ∀ i, ∃ x : ℝ, V0 i = (x : EReal)) (hV1 : ∀ i, ∃ x : ℝ, V1 i = (x : EReal)) (r d : Fin 1024) :
    k1_pay3 (F := Ideal)
        (k1_pay1 (k1_pay7 V1) (k1_pay11 Q K1 (k1_pay2 (k1_pay9 Q K0 (k1_pay4 (F := Ideal)))))
          (k1_pay1 (k1_pay7 V0) (k1_pay11 Q K0 (k1_pay4 (F := Ideal))) (k1_pay6 (F := Ideal)) (k1_pay13 Q K0 (k1_pay4 (F := Ideal))))
          (k1_pay13 Q K1 (k1_pay2 (k1_pay9 Q K0 (k1_pay4 (F := Ideal))))))
        (k1_pay12 Q K1 (k1_pay2 (k1_pay9 Q K0 (k1_pay4 (F := Ideal)))) (k1_pay12 Q K0 (k1_pay4 (F := Ideal)) (k1_pay5 (F := Ideal)))) R g β (ix3 0 r d)
      = Cert.Spec.ln (fun j => R (ix3 0 r j)
          + Cert.Spec.attnRow (fun k => Cert.Spec.score (fun d => Q (ix3 0 r d)) (fun d => rows2 K0 K1 k d)) (rows2 V0 V1) j)
          (fun j => g (ix1 j)) (fun j => β (ix1 j)) d := by
  -- real witnesses
  obtain ⟨qr, hqr⟩ := Cert.MathAttn.exists_real1 (fun d : Fin 1024 => Q (ix3 0 r d)) (fun d => hQ _)
  obtain ⟨kr, hkr⟩ := Cert.MathAttn.exists_real2 (rows2 K0 K1) (fun k d => by
    unfold rows2; split
    · exact hK0 _
    · exact hK1 _)
  obtain ⟨vr, hvr⟩ := Cert.MathAttn.exists_real2 (rows2 V0 V1) (fun k d => by
    unfold rows2; split
    · exact hV0 _
    · exact hV1 _)
  let sr : Fin 2048 → ℝ := fun k => (∑ d, qr d * kr k d) / 32
  let σ : Fin 2048 → EReal := fun k => Cert.Spec.score (fun d => Q (ix3 0 r d)) (fun d => rows2 K0 K1 k d)
  have hσr : ∀ k, σ k = (sr k : EReal) := fun k => by
    show Cert.Spec.score (fun d => Q (ix3 0 r d)) (fun d => rows2 K0 K1 k d) = _
    rw [hqr, show (fun d => rows2 K0 K1 k d) = fun d => (kr k d : EReal) from funext fun d => congrFun (congrFun hkr k) d]
    exact Cert.MathAttn.score_real qr (kr k)
  have hσ : ∀ k, σ k = if (fun _ : Fin 2048 => True) k then (sr k : EReal) else ⊥ := fun k => by rw [if_pos trivial]; exact hσr k
  have hv : ∀ k d, rows2 V0 V1 k d = (vr k d : EReal) := fun k d => congrFun (congrFun hvr k) d
  -- the kernel's scores on each tile are the row's scores at the tile's positions
  have hS0 : ∀ s, k1_pay8 (F := Ideal) Q K0 (ix2 r s) = σ (pos 0 s) := fun s => by
    rw [hpay.scores, hσr]
    have e1 : (fun d => Q (ix3 0 r d)) = fun d => (qr d : EReal) := hqr
    have e2 : ∀ d, K0 (ix3 0 s d) = (kr (pos 0 s) d : EReal) := fun d => by rw [← rows2_pos0 K0 K1 s d]; exact congrFun (congrFun hkr _) d
    simp only [e2, fun d => congrFun e1 d]
    exact Cert.MathAttn.score_kernel qr (kr (pos 0 s))
  have hS1 : ∀ s, k1_pay8 (F := Ideal) Q K1 (ix2 r s) = σ (pos 1 s) := fun s => by
    rw [hpay.scores, hσr]
    have e1 : (fun d => Q (ix3 0 r d)) = fun d => (qr d : EReal) := hqr
    have e2 : ∀ d, K1 (ix3 0 s d) = (kr (pos 1 s) d : EReal) := fun d => by rw [← rows2_pos1 K0 K1 s d]; exact congrFun (congrFun hkr _) d
    simp only [e2, fun d => congrFun e1 d]
    exact Cert.MathAttn.score_kernel qr (kr (pos 1 s))
  rw [hpay.final]
  unfold Cert.Spec.ln
  have key : ∀ j : Fin 1024,
      k1_pay1 (F := Ideal) (k1_pay7 V1) (k1_pay11 Q K1 (k1_pay2 (k1_pay9 Q K0 (k1_pay4 (F := Ideal)))))
          (k1_pay1 (k1_pay7 V0) (k1_pay11 Q K0 (k1_pay4 (F := Ideal))) (k1_pay6 (F := Ideal)) (k1_pay13 Q K0 (k1_pay4 (F := Ideal))))
          (k1_pay13 Q K1 (k1_pay2 (k1_pay9 Q K0 (k1_pay4 (F := Ideal))))) (ix2 r j)
        * Ideal.div 1 (k1_pay12 (F := Ideal) Q K1 (k1_pay2 (k1_pay9 Q K0 (k1_pay4 (F := Ideal)))) (k1_pay12 Q K0 (k1_pay4 (F := Ideal)) (k1_pay5 (F := Ideal))) (ix2 r 0))
      = Cert.Spec.attnRow σ (rows2 V0 V1) j := fun j =>
    Cert.MathAttn.onepass_tiles01 (fun _ => True) sr vr σ hσ (rows2 V0 V1) hv pos pos_val ⟨0, trivial⟩
      ((k1_pay4 (F := Ideal)) (ix2 r 0)) ((k1_pay5 (F := Ideal)) (ix2 r 0)) (Finset.univ.sup fun s => σ (pos 0 s))
      (k1_pay9 (F := Ideal) Q K0 (k1_pay4 (F := Ideal)) (ix2 r 0)) (k1_pay12 (F := Ideal) Q K0 (k1_pay4 (F := Ideal)) (k1_pay5 (F := Ideal)) (ix2 r 0))
      (fun d => (k1_pay6 (F := Ideal)) (ix2 r d))
      (fun d => k1_pay1 (F := Ideal) (k1_pay7 V0) (k1_pay11 Q K0 (k1_pay4 (F := Ideal))) (k1_pay6 (F := Ideal)) (k1_pay13 Q K0 (k1_pay4 (F := Ideal))) (ix2 r d))
      (hpay.reset_m r) (hpay.reset_l r) (fun d => hpay.reset_acc r d) rfl
      (by rw [hpay.newMax]; simp only [hS0])
      (by rw [hpay.newL, hpay.alpha]; simp only [hpay.probs, hS0])
      (fun d => by rw [hpay.newAcc, hpay.alphaB, hpay.alpha]; simp only [hpay.probs, hS0, hpay.vcast, rows2_pos0])
      (Finset.univ.sup fun s => σ (pos 1 s))
      (k1_pay9 (F := Ideal) Q K1 (k1_pay2 (k1_pay9 Q K0 (k1_pay4 (F := Ideal)))) (ix2 r 0))
      (k1_pay12 (F := Ideal) Q K1 (k1_pay2 (k1_pay9 Q K0 (k1_pay4 (F := Ideal)))) (k1_pay12 Q K0 (k1_pay4 (F := Ideal)) (k1_pay5 (F := Ideal))) (ix2 r 0))
      (fun d => k1_pay1 (F := Ideal) (k1_pay7 V1) (k1_pay11 Q K1 (k1_pay2 (k1_pay9 Q K0 (k1_pay4 (F := Ideal)))))
          (k1_pay1 (k1_pay7 V0) (k1_pay11 Q K0 (k1_pay4 (F := Ideal))) (k1_pay6 (F := Ideal)) (k1_pay13 Q K0 (k1_pay4 (F := Ideal))))
          (k1_pay13 Q K1 (k1_pay2 (k1_pay9 Q K0 (k1_pay4 (F := Ideal))))) (ix2 r d))
      rfl
      (by rw [hpay.newMax, hpay.keepMax]; simp only [hS1])
      (by rw [hpay.newL, hpay.alpha, hpay.keepMax]; simp only [hpay.probs, hS1])
      (fun d => by rw [hpay.newAcc, hpay.alphaB, hpay.alpha, hpay.keepMax]; simp only [hpay.probs, hS1, hpay.vcast, rows2_pos1])
      j
  simp only [key]
  rfl

/-- The first kernel's payloads at an index, at the ideal values. -/
structure Pay0Spec : Prop where
  reset_m : ∀ r : Fin 1024, k0_pay1 (F := Ideal) (ix2 r 0) = ⊥
  reset_l : ∀ r : Fin 1024, k0_pay2 (F := Ideal) (ix2 r 0) = 0
  reset_acc : ∀ r d : Fin 1024, k0_pay3 (F := Ideal) (ix2 r d) = 0
  scores : ∀ (qi kv : Fin 2) (v9 v11 : Vec Ideal S1x1024x1024 .bf16) (r s : Fin 1024),
    k0_pay8 (BitVec.ofNat 32 qi.val) (BitVec.ofNat 32 kv.val) v9 v11 (ix2 r s)
      = if kv.val * 1024 + s.val ≤ qi.val * 1024 + r.val then (∑ d : Fin 1024, v9 (ix3 0 r d) * v11 (ix3 0 s d)) * Ideal.ofBits .f32 0x3D000000#32 else ⊥
  newMax : ∀ (a1 a2 : BitVec 32) (v9 v11 : Vec Ideal S1x1024x1024 .bf16) (v30 : Vec Ideal S1024x1 .f32) (r : Fin 1024),
    k0_pay9 a1 a2 v9 v11 v30 (ix2 r 0) = max (v30 (ix2 r 0)) (Finset.univ.sup fun s : Fin 1024 => k0_pay8 a1 a2 v9 v11 (ix2 r s))
  alpha : ∀ (a1 a2 : BitVec 32) (v9 v11 : Vec Ideal S1x1024x1024 .bf16) (v30 : Vec Ideal S1024x1 .f32) (r : Fin 1024),
    k0_pay10 a1 a2 v9 v11 v30 (ix2 r 0) = Ideal.exp (v30 (ix2 r 0) - k0_pay9 a1 a2 v9 v11 v30 (ix2 r 0))
  probs : ∀ (a1 a2 : BitVec 32) (v9 v11 : Vec Ideal S1x1024x1024 .bf16) (v30 : Vec Ideal S1024x1 .f32) (r s : Fin 1024),
    k0_pay11 a1 a2 v9 v11 v30 (ix2 r s) = Ideal.exp (k0_pay8 a1 a2 v9 v11 (ix2 r s) - k0_pay9 a1 a2 v9 v11 v30 (ix2 r 0))
  newL : ∀ (a1 a2 : BitVec 32) (v9 v11 : Vec Ideal S1x1024x1024 .bf16) (v30 v39 : Vec Ideal S1024x1 .f32) (r : Fin 1024),
    k0_pay12 a1 a2 v9 v11 v30 v39 (ix2 r 0)
      = k0_pay10 a1 a2 v9 v11 v30 (ix2 r 0) * v39 (ix2 r 0) + ∑ s : Fin 1024, k0_pay11 a1 a2 v9 v11 v30 (ix2 r s)
  newAcc : ∀ (v14 : FVec Ideal S1024x1024 .bf16) (v35 : FVec Ideal S1024x1 .f32) (v38 : FVec Ideal S1024x1024 .f32) (v47 : Vec Ideal S1024x1024 .f32) (r d : Fin 1024),
    k0_pay4 v14 v35 v38 v47 (ix2 r d) = v35 (ix2 r 0) * v47 (ix2 r d) + ∑ s : Fin 1024, v38 (ix2 r s) * v14 (ix2 s d)
  vcast : ∀ (v13 : Vec Ideal S1x1024x1024 .bf16) (r d : Fin 1024), k0_pay7 v13 (ix2 r d) = v13 (ix3 0 r d)
  keepMax : ∀ (v33 : FVec Ideal S1024x1 .f32), k0_pay5 v33 = v33
  final : ∀ (v9 : Vec Ideal S1024x1024 .f32) (v10 : Vec Ideal S1024x1 .f32) (v15 : Vec Ideal S1x1024x1024 .f32) (v18 v19 : Vec Ideal S1024 .f32) (r d : Fin 1024),
    k0_pay6 v9 v10 v15 v18 v19 (ix3 0 r d)
      = Cert.Spec.ln (fun j => v15 (ix3 0 r j) + v9 (ix2 r j) * Ideal.div 1 (v10 (ix2 r 0))) (fun j => v18 (ix1 j)) (fun j => v19 (ix1 j)) d

/-- The kernel's masked scores of a tile are the row's causal scores at the tile's positions, for real rows: the
    query is row qi·1024 + r of the key array. -/
theorem causal_scores_tile (hpay : Pay0Spec) (qi kv : Fin 2) (Q K : Vec Ideal S1x1024x1024 .bf16) (yr : Fin 2048 → Fin 1024 → ℝ) (r : Fin 1024)
    (hQ : ∀ d, Q (ix3 0 r d) = (yr (pos qi r) d : EReal)) (hK : ∀ s d, K (ix3 0 s d) = (yr (pos kv s) d : EReal)) (s : Fin 1024) :
    k0_pay8 (F := Ideal) (BitVec.ofNat 32 qi.val) (BitVec.ofNat 32 kv.val) Q K (ix2 r s)
      = Cert.Spec.causalScores (fun k d => (yr k d : EReal)) (pos qi r) (pos kv s) := by
  rw [hpay.scores, Cert.MathAttn.causalScores_real]
  by_cases h : kv.val * 1024 + s.val ≤ qi.val * 1024 + r.val
  · rw [if_pos h, if_pos (show (pos kv s).val ≤ (pos qi r).val from h)]
    simp only [hQ, hK]
    exact Cert.MathAttn.score_kernel (yr (pos qi r)) (yr (pos kv s))
  · rw [if_neg h, if_neg (show ¬ (pos kv s).val ≤ (pos qi r).val from h)]

/-- One query row of the first kernel in the first query tile: the state after the first key tile (from the reset
    state), normalised (the second key tile lies wholly after the row and is skipped), is the layer normalisation of
    the residual row plus the causal attention row, for real data. -/
theorem causal_row_skip (hpay : Pay0Spec) (Q K0 K1 V0 V1 : Vec Ideal S1x1024x1024 .bf16) (R : Vec Ideal S1x1024x1024 .f32) (g β : Vec Ideal S1024 .f32)
    (hK0 : ∀ i, ∃ x : ℝ, K0 i = (x : EReal)) (hK1 : ∀ i, ∃ x : ℝ, K1 i = (x : EReal))
    (hV0 : ∀ i, ∃ x : ℝ, V0 i = (x : EReal)) (hV1 : ∀ i, ∃ x : ℝ, V1 i = (x : EReal))
    (hQK : ∀ r d, Q (ix3 0 r d) = rows2 K0 K1 (pos 0 r) d) (r d : Fin 1024) :
    k0_pay6 (F := Ideal)
        (k0_pay4 (k0_pay7 V0) (k0_pay10 (BitVec.ofNat 32 (0 : Fin 2).val) (BitVec.ofNat 32 (0 : Fin 2).val) Q K0 (k0_pay1 (F := Ideal))) (k0_pay11 (BitVec.ofNat 32 (0 : Fin 2).val) (BitVec.ofNat 32 (0 : Fin 2).val) Q K0 (k0_pay1 (F := Ideal))) (k0_pay3 (F := Ideal)))
        (k0_pay12 (BitVec.ofNat 32 (0 : Fin 2).val) (BitVec.ofNat 32 (0 : Fin 2).val) Q K0 (k0_pay1 (F := Ideal)) (k0_pay2 (F := Ideal))) R g β (ix3 0 r d)
      = Cert.Spec.ln (fun j => R (ix3 0 r j)
          + Cert.Spec.attnRow (Cert.Spec.causalScores (rows2 K0 K1) (pos 0 r)) (rows2 V0 V1) j)
          (fun j => g (ix1 j)) (fun j => β (ix1 j)) d := by
  obtain ⟨yr, hyr⟩ := Cert.MathAttn.exists_real2 (rows2 K0 K1) (fun k d => by
    unfold rows2; split
    · exact hK0 _
    · exact hK1 _)
  obtain ⟨vr, hvr⟩ := Cert.MathAttn.exists_real2 (rows2 V0 V1) (fun k d => by
    unfold rows2; split
    · exact hV0 _
    · exact hV1 _)
  let q : Fin 2048 := pos 0 r
  let sr : Fin 2048 → ℝ := fun k => (∑ d, yr q d * yr k d) / 32
  let σ : Fin 2048 → EReal := Cert.Spec.causalScores (rows2 K0 K1) q
  have hσ : ∀ k, σ k = if (fun k : Fin 2048 => k.val ≤ q.val) k then (sr k : EReal) else ⊥ := fun k => by
    show Cert.Spec.causalScores (rows2 K0 K1) q k = _
    rw [hyr]; exact Cert.MathAttn.causalScores_real yr q k
  have hv : ∀ k d, rows2 V0 V1 k d = (vr k d : EReal) := fun k d => congrFun (congrFun hvr k) d
  have hQr : ∀ d, Q (ix3 0 r d) = (yr (pos 0 r) d : EReal) := fun d => by rw [hQK]; exact congrFun (congrFun hyr _) d
  have hK0r : ∀ s d, K0 (ix3 0 s d) = (yr (pos 0 s) d : EReal) := fun s d => by
    rw [← rows2_pos0 K0 K1 s d]; exact congrFun (congrFun hyr _) d
  have hS0 : ∀ s, k0_pay8 (F := Ideal) (BitVec.ofNat 32 (0 : Fin 2).val) (BitVec.ofNat 32 (0 : Fin 2).val) Q K0 (ix2 r s) = σ (pos 0 s) := fun s => by
    rw [causal_scores_tile hpay 0 0 Q K0 yr r hQr hK0r s]
    show _ = Cert.Spec.causalScores (rows2 K0 K1) q (pos 0 s)
    rw [hyr]
  rw [hpay.final]
  unfold Cert.Spec.ln
  have key : ∀ j : Fin 1024,
      k0_pay4 (F := Ideal) (k0_pay7 V0) (k0_pay10 (BitVec.ofNat 32 (0 : Fin 2).val) (BitVec.ofNat 32 (0 : Fin 2).val) Q K0 (k0_pay1 (F := Ideal))) (k0_pay11 (BitVec.ofNat 32 (0 : Fin 2).val) (BitVec.ofNat 32 (0 : Fin 2).val) Q K0 (k0_pay1 (F := Ideal))) (k0_pay3 (F := Ideal)) (ix2 r j)
        * Ideal.div 1 (k0_pay12 (F := Ideal) (BitVec.ofNat 32 (0 : Fin 2).val) (BitVec.ofNat 32 (0 : Fin 2).val) Q K0 (k0_pay1 (F := Ideal)) (k0_pay2 (F := Ideal)) (ix2 r 0))
      = Cert.Spec.attnRow σ (rows2 V0 V1) j := fun j =>
    Cert.MathAttn.onepass_tile0 (fun k : Fin 2048 => k.val ≤ q.val) sr vr σ hσ (rows2 V0 V1) hv pos pos_val
      ⟨0, by show (pos 0 0).val ≤ (pos 0 r).val; rw [pos_val, pos_val]; simp⟩
      (k0_pay1 (F := Ideal) (ix2 r 0)) (k0_pay2 (F := Ideal) (ix2 r 0)) (Finset.univ.sup fun s => σ (pos 0 s))
      (k0_pay9 (F := Ideal) (BitVec.ofNat 32 (0 : Fin 2).val) (BitVec.ofNat 32 (0 : Fin 2).val) Q K0 (k0_pay1 (F := Ideal)) (ix2 r 0))
      (k0_pay12 (F := Ideal) (BitVec.ofNat 32 (0 : Fin 2).val) (BitVec.ofNat 32 (0 : Fin 2).val) Q K0 (k0_pay1 (F := Ideal)) (k0_pay2 (F := Ideal)) (ix2 r 0))
      (fun d => k0_pay3 (F := Ideal) (ix2 r d))
      (fun d => k0_pay4 (F := Ideal) (k0_pay7 V0) (k0_pay10 (BitVec.ofNat 32 (0 : Fin 2).val) (BitVec.ofNat 32 (0 : Fin 2).val) Q K0 (k0_pay1 (F := Ideal))) (k0_pay11 (BitVec.ofNat 32 (0 : Fin 2).val) (BitVec.ofNat 32 (0 : Fin 2).val) Q K0 (k0_pay1 (F := Ideal))) (k0_pay3 (F := Ideal)) (ix2 r d))
      (hpay.reset_m r) (hpay.reset_l r) (fun d => hpay.reset_acc r d) rfl
      (by rw [hpay.newMax]; simp only [hS0])
      (by rw [hpay.newL, hpay.alpha]; simp only [hpay.probs, hS0])
      (fun d => by rw [hpay.newAcc, hpay.alpha]; simp only [hpay.probs, hS0, hpay.vcast, rows2_pos0])
      (fun k hk => by
        have h1 : k.val ≤ (pos 0 r).val := hk
        rw [pos_val] at h1; have := r.isLt; simp at h1; omega)
      j
  simp only [key]
  rfl

/-- One query row of the first kernel in the second query tile: the state after the first key tile (wholly kept), one
    more tile onto it (kept up to the row's own position), then the normalisation, is the layer normalisation of the
    residual row plus the causal attention row, for real data. -/
theorem causal_row_full (hpay : Pay0Spec) (Q K0 K1 V0 V1 : Vec Ideal S1x1024x1024 .bf16) (R : Vec Ideal S1x1024x1024 .f32) (g β : Vec Ideal S1024 .f32)
    (hK0 : ∀ i, ∃ x : ℝ, K0 i = (x : EReal)) (hK1 : ∀ i, ∃ x : ℝ, K1 i = (x : EReal))
    (hV0 : ∀ i, ∃ x : ℝ, V0 i = (x : EReal)) (hV1 : ∀ i, ∃ x : ℝ, V1 i = (x : EReal))
    (hQK : ∀ r d, Q (ix3 0 r d) = rows2 K0 K1 (pos 1 r) d) (r d : Fin 1024) :
    k0_pay6 (F := Ideal) (k0_pay4 (k0_pay7 V1) (k0_pay10 (BitVec.ofNat 32 (1 : Fin 2).val) (BitVec.ofNat 32 (1 : Fin 2).val) Q K1 (k0_pay5 (k0_pay9 (BitVec.ofNat 32 (1 : Fin 2).val) (BitVec.ofNat 32 (0 : Fin 2).val) Q K0 (k0_pay1 (F := Ideal))))) (k0_pay11 (BitVec.ofNat 32 (1 : Fin 2).val) (BitVec.ofNat 32 (1 : Fin 2).val) Q K1 (k0_pay5 (k0_pay9 (BitVec.ofNat 32 (1 : Fin 2).val) (BitVec.ofNat 32 (0 : Fin 2).val) Q K0 (k0_pay1 (F := Ideal))))) (k0_pay4 (k0_pay7 V0) (k0_pay10 (BitVec.ofNat 32 (1 : Fin 2).val) (BitVec.ofNat 32 (0 : Fin 2).val) Q K0 (k0_pay1 (F := Ideal))) (k0_pay11 (BitVec.ofNat 32 (1 : Fin 2).val) (BitVec.ofNat 32 (0 : Fin 2).val) Q K0 (k0_pay1 (F := Ideal))) (k0_pay3 (F := Ideal)))) (k0_pay12 (BitVec.ofNat 32 (1 : Fin 2).val) (BitVec.ofNat 32 (1 : Fin 2).val) Q K1 (k0_pay5 (k0_pay9 (BitVec.ofNat 32 (1 : Fin 2).val) (BitVec.ofNat 32 (0 : Fin 2).val) Q K0 (k0_pay1 (F := Ideal)))) (k0_pay12 (BitVec.ofNat 32 (1 : Fin 2).val) (BitVec.ofNat 32 (0 : Fin 2).val) Q K0 (k0_pay1 (F := Ideal)) (k0_pay2 (F := Ideal)))) R g β (ix3 0 r d)
      = Cert.Spec.ln (fun j => R (ix3 0 r j)
          + Cert.Spec.attnRow (Cert.Spec.causalScores (rows2 K0 K1) (pos 1 r)) (rows2 V0 V1) j)
          (fun j => g (ix1 j)) (fun j => β (ix1 j)) d := by
  obtain ⟨yr, hyr⟩ := Cert.MathAttn.exists_real2 (rows2 K0 K1) (fun k d => by
    unfold rows2; split
    · exact hK0 _
    · exact hK1 _)
  obtain ⟨vr, hvr⟩ := Cert.MathAttn.exists_real2 (rows2 V0 V1) (fun k d => by
    unfold rows2; split
    · exact hV0 _
    · exact hV1 _)
  let q : Fin 2048 := pos 1 r
  let sr : Fin 2048 → ℝ := fun k => (∑ d, yr q d * yr k d) / 32
  let σ : Fin 2048 → EReal := Cert.Spec.causalScores (rows2 K0 K1) q
  have hσ : ∀ k, σ k = if (fun k : Fin 2048 => k.val ≤ q.val) k then (sr k : EReal) else ⊥ := fun k => by
    show Cert.Spec.causalScores (rows2 K0 K1) q k = _
    rw [hyr]; exact Cert.MathAttn.causalScores_real yr q k
  have hv : ∀ k d, rows2 V0 V1 k d = (vr k d : EReal) := fun k d => congrFun (congrFun hvr k) d
  have hQr : ∀ d, Q (ix3 0 r d) = (yr (pos 1 r) d : EReal) := fun d => by rw [hQK]; exact congrFun (congrFun hyr _) d
  have hK0r : ∀ s d, K0 (ix3 0 s d) = (yr (pos 0 s) d : EReal) := fun s d => by
    rw [← rows2_pos0 K0 K1 s d]; exact congrFun (congrFun hyr _) d
  have hK1r : ∀ s d, K1 (ix3 0 s d) = (yr (pos 1 s) d : EReal) := fun s d => by
    rw [← rows2_pos1 K0 K1 s d]; exact congrFun (congrFun hyr _) d
  have hS0 : ∀ s, k0_pay8 (F := Ideal) (BitVec.ofNat 32 (1 : Fin 2).val) (BitVec.ofNat 32 (0 : Fin 2).val) Q K0 (ix2 r s) = σ (pos 0 s) := fun s => by
    rw [causal_scores_tile hpay 1 0 Q K0 yr r hQr hK0r s]
    show _ = Cert.Spec.causalScores (rows2 K0 K1) q (pos 0 s)
    rw [hyr]
  have hS1 : ∀ s, k0_pay8 (F := Ideal) (BitVec.ofNat 32 (1 : Fin 2).val) (BitVec.ofNat 32 (1 : Fin 2).val) Q K1 (ix2 r s) = σ (pos 1 s) := fun s => by
    rw [causal_scores_tile hpay 1 1 Q K1 yr r hQr hK1r s]
    show _ = Cert.Spec.causalScores (rows2 K0 K1) q (pos 1 s)
    rw [hyr]
  rw [hpay.final]
  unfold Cert.Spec.ln
  have key : ∀ j : Fin 1024,
      k0_pay4 (F := Ideal) (k0_pay7 V1) (k0_pay10 (BitVec.ofNat 32 (1 : Fin 2).val) (BitVec.ofNat 32 (1 : Fin 2).val) Q K1 (k0_pay5 (k0_pay9 (BitVec.ofNat 32 (1 : Fin 2).val) (BitVec.ofNat 32 (0 : Fin 2).val) Q K0 (k0_pay1 (F := Ideal))))) (k0_pay11 (BitVec.ofNat 32 (1 : Fin 2).val) (BitVec.ofNat 32 (1 : Fin 2).val) Q K1 (k0_pay5 (k0_pay9 (BitVec.ofNat 32 (1 : Fin 2).val) (BitVec.ofNat 32 (0 : Fin 2).val) Q K0 (k0_pay1 (F := Ideal))))) (k0_pay4 (k0_pay7 V0) (k0_pay10 (BitVec.ofNat 32 (1 : Fin 2).val) (BitVec.ofNat 32 (0 : Fin 2).val) Q K0 (k0_pay1 (F := Ideal))) (k0_pay11 (BitVec.ofNat 32 (1 : Fin 2).val) (BitVec.ofNat 32 (0 : Fin 2).val) Q K0 (k0_pay1 (F := Ideal))) (k0_pay3 (F := Ideal))) (ix2 r j)
        * Ideal.div 1 (k0_pay12 (F := Ideal) (BitVec.ofNat 32 (1 : Fin 2).val) (BitVec.ofNat 32 (1 : Fin 2).val) Q K1 (k0_pay5 (k0_pay9 (BitVec.ofNat 32 (1 : Fin 2).val) (BitVec.ofNat 32 (0 : Fin 2).val) Q K0 (k0_pay1 (F := Ideal)))) (k0_pay12 (BitVec.ofNat 32 (1 : Fin 2).val) (BitVec.ofNat 32 (0 : Fin 2).val) Q K0 (k0_pay1 (F := Ideal)) (k0_pay2 (F := Ideal))) (ix2 r 0))
      = Cert.Spec.attnRow σ (rows2 V0 V1) j := fun j =>
    Cert.MathAttn.onepass_tiles01 (fun k : Fin 2048 => k.val ≤ q.val) sr vr σ hσ (rows2 V0 V1) hv pos pos_val
      ⟨0, by show (pos 0 0).val ≤ (pos 1 r).val; rw [pos_val, pos_val]; simp⟩
      (k0_pay1 (F := Ideal) (ix2 r 0)) (k0_pay2 (F := Ideal) (ix2 r 0)) (Finset.univ.sup fun s => σ (pos 0 s))
      (k0_pay9 (F := Ideal) (BitVec.ofNat 32 (1 : Fin 2).val) (BitVec.ofNat 32 (0 : Fin 2).val) Q K0 (k0_pay1 (F := Ideal)) (ix2 r 0))
      (k0_pay12 (F := Ideal) (BitVec.ofNat 32 (1 : Fin 2).val) (BitVec.ofNat 32 (0 : Fin 2).val) Q K0 (k0_pay1 (F := Ideal)) (k0_pay2 (F := Ideal)) (ix2 r 0))
      (fun d => k0_pay3 (F := Ideal) (ix2 r d))
      (fun d => k0_pay4 (F := Ideal) (k0_pay7 V0) (k0_pay10 (BitVec.ofNat 32 (1 : Fin 2).val) (BitVec.ofNat 32 (0 : Fin 2).val) Q K0 (k0_pay1 (F := Ideal))) (k0_pay11 (BitVec.ofNat 32 (1 : Fin 2).val) (BitVec.ofNat 32 (0 : Fin 2).val) Q K0 (k0_pay1 (F := Ideal))) (k0_pay3 (F := Ideal)) (ix2 r d))
      (hpay.reset_m r) (hpay.reset_l r) (fun d => hpay.reset_acc r d) rfl
      (by rw [hpay.newMax]; simp only [hS0])
      (by rw [hpay.newL, hpay.alpha]; simp only [hpay.probs, hS0])
      (fun d => by rw [hpay.newAcc, hpay.alpha]; simp only [hpay.probs, hS0, hpay.vcast, rows2_pos0])
      (Finset.univ.sup fun s => σ (pos 1 s))
      (k0_pay9 (F := Ideal) (BitVec.ofNat 32 (1 : Fin 2).val) (BitVec.ofNat 32 (1 : Fin 2).val) Q K1 (k0_pay5 (k0_pay9 (BitVec.ofNat 32 (1 : Fin 2).val) (BitVec.ofNat 32 (0 : Fin 2).val) Q K0 (k0_pay1 (F := Ideal)))) (ix2 r 0))
      (k0_pay12 (F := Ideal) (BitVec.ofNat 32 (1 : Fin 2).val) (BitVec.ofNat 32 (1 : Fin 2).val) Q K1 (k0_pay5 (k0_pay9 (BitVec.ofNat 32 (1 : Fin 2).val) (BitVec.ofNat 32 (0 : Fin 2).val) Q K0 (k0_pay1 (F := Ideal)))) (k0_pay12 (BitVec.ofNat 32 (1 : Fin 2).val) (BitVec.ofNat 32 (0 : Fin 2).val) Q K0 (k0_pay1 (F := Ideal)) (k0_pay2 (F := Ideal))) (ix2 r 0))
      (fun d => k0_pay4 (F := Ideal) (k0_pay7 V1) (k0_pay10 (BitVec.ofNat 32 (1 : Fin 2).val) (BitVec.ofNat 32 (1 : Fin 2).val) Q K1 (k0_pay5 (k0_pay9 (BitVec.ofNat 32 (1 : Fin 2).val) (BitVec.ofNat 32 (0 : Fin 2).val) Q K0 (k0_pay1 (F := Ideal))))) (k0_pay11 (BitVec.ofNat 32 (1 : Fin 2).val) (BitVec.ofNat 32 (1 : Fin 2).val) Q K1 (k0_pay5 (k0_pay9 (BitVec.ofNat 32 (1 : Fin 2).val) (BitVec.ofNat 32 (0 : Fin 2).val) Q K0 (k0_pay1 (F := Ideal))))) (k0_pay4 (k0_pay7 V0) (k0_pay10 (BitVec.ofNat 32 (1 : Fin 2).val) (BitVec.ofNat 32 (0 : Fin 2).val) Q K0 (k0_pay1 (F := Ideal))) (k0_pay11 (BitVec.ofNat 32 (1 : Fin 2).val) (BitVec.ofNat 32 (0 : Fin 2).val) Q K0 (k0_pay1 (F := Ideal))) (k0_pay3 (F := Ideal))) (ix2 r d))
      rfl
      (by rw [hpay.newMax, hpay.keepMax]; simp only [hS1])
      (by rw [hpay.newL, hpay.alpha, hpay.keepMax]; simp only [hpay.probs, hS1])
      (fun d => by rw [hpay.newAcc, hpay.alpha, hpay.keepMax]; simp only [hpay.probs, hS1, hpay.vcast, rows2_pos1])
      j
  simp only [key]
  rfl

end Cert.KernelIdeal.KV

end
-- ==== Proof.KVal0.lean ====
/-
  The causal-attention kernel's value: each case's pieces as payloads of the blocks it loads; at the ideal values,
  given the payloads at an index, the output tile an odd grid point leaves is, row by row, the specification's first
  stage of the entry contents — in the first query tile the later key tile is wholly masked and skipped, in the
  second both key tiles are processed, the first wholly kept —, so what each odd point writes back is its block of
  one whole-array function G0, the odd points' blocks cover the array, and the output array ends holding G0.
-/
import proofs.«167660_j22771916603726_2_alg».proof.Proof.K0a
import proofs.«167660_j22771916603726_2_alg».proof.Proof.KPieces01
import proofs.«167660_j22771916603726_2_alg».proof.Proof.KRows
import Idealize.ShloMosaic.Lib.Pipeline.Value

set_option maxRecDepth 16384

noncomputable section

namespace Cert.KernelIdeal.KV

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.KF
open scoped BigOperators

section Pieces
variable {F : FTy → Type} [FloatOps F] [Named F] (V : (c : Dev nD) → (b : Ref sig .tc) → Buf (Elt F) ((c : Thread nD τ).loc b))

/-- What an even point leaves in the running state, as payloads of the blocks it loads; qi and kv are the point's
    query-tile and key-tile numbers. -/
theorem sA0_0_eq (c : Dev nD) (n : ℕ) (hn : n < cfg0.N) (h : n % 2 = 0) (qi kv : Fin 2)
    (hqi : ((grid0.coords ⟨n, hn⟩) 1).val = qi.val) (hkv : ((grid0.coords ⟨n, hn⟩) 2).val = kv.val) :
    sA0_0 V c n hn h = k0_pay5 (k0_pay9 (BitVec.ofNat 32 qi.val) (BitVec.ofNat 32 kv.val) (iblk0 V c 0 ⟨n, hn⟩) (iblk0 V c 1 ⟨n, hn⟩) k0_pay1) := by
  unfold sA0_0 runA0
  rw [← hqi, ← hkv]
  exact pieceA0_0 VS0_0 VS0_0.junk c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) scM0_0 (Memref.isWhole_whole _) scM0_1 (Memref.isWhole_whole _) scM0_2 (Memref.isWhole_whole _) _ _ _ (iblk0 V c 0 ⟨n, hn⟩) (iblk0 V c 1 ⟨n, hn⟩) (iblk0 V c 2 ⟨n, hn⟩) (iblk0 V c 3 ⟨n, hn⟩) (iblk0 V c 4 ⟨n, hn⟩) (iblk0 V c 5 ⟨n, hn⟩)

theorem sA0_1_eq (c : Dev nD) (n : ℕ) (hn : n < cfg0.N) (h : n % 2 = 0) (qi kv : Fin 2)
    (hqi : ((grid0.coords ⟨n, hn⟩) 1).val = qi.val) (hkv : ((grid0.coords ⟨n, hn⟩) 2).val = kv.val) :
    sA0_1 V c n hn h = k0_pay12 (BitVec.ofNat 32 qi.val) (BitVec.ofNat 32 kv.val) (iblk0 V c 0 ⟨n, hn⟩) (iblk0 V c 1 ⟨n, hn⟩) k0_pay1 k0_pay2 := by
  unfold sA0_1 runA0
  rw [← hqi, ← hkv]
  exact pieceA0_1 VS0_1 VS0_1.junk c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) scM0_0 (Memref.isWhole_whole _) scM0_1 (Memref.isWhole_whole _) scM0_2 (Memref.isWhole_whole _) _ _ _ (iblk0 V c 0 ⟨n, hn⟩) (iblk0 V c 1 ⟨n, hn⟩) (iblk0 V c 2 ⟨n, hn⟩) (iblk0 V c 3 ⟨n, hn⟩) (iblk0 V c 4 ⟨n, hn⟩) (iblk0 V c 5 ⟨n, hn⟩)

theorem sA0_2_eq (c : Dev nD) (n : ℕ) (hn : n < cfg0.N) (h : n % 2 = 0) (qi kv : Fin 2)
    (hqi : ((grid0.coords ⟨n, hn⟩) 1).val = qi.val) (hkv : ((grid0.coords ⟨n, hn⟩) 2).val = kv.val) :
    sA0_2 V c n hn h = k0_pay4 (k0_pay7 (iblk0 V c 2 ⟨n, hn⟩)) (k0_pay10 (BitVec.ofNat 32 qi.val) (BitVec.ofNat 32 kv.val) (iblk0 V c 0 ⟨n, hn⟩) (iblk0 V c 1 ⟨n, hn⟩) k0_pay1)
      (k0_pay11 (BitVec.ofNat 32 qi.val) (BitVec.ofNat 32 kv.val) (iblk0 V c 0 ⟨n, hn⟩) (iblk0 V c 1 ⟨n, hn⟩) k0_pay1) k0_pay3 := by
  unfold sA0_2 runA0
  rw [← hqi, ← hkv]
  exact pieceA0_2 VS0_2 VS0_2.junk c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) scM0_0 (Memref.isWhole_whole _) scM0_1 (Memref.isWhole_whole _) scM0_2 (Memref.isWhole_whole _) _ _ _ (iblk0 V c 0 ⟨n, hn⟩) (iblk0 V c 1 ⟨n, hn⟩) (iblk0 V c 2 ⟨n, hn⟩) (iblk0 V c 3 ⟨n, hn⟩) (iblk0 V c 4 ⟨n, hn⟩) (iblk0 V c 5 ⟨n, hn⟩)

/-- What an odd point leaves in the output tile when its key tile is skipped: the carried state normalised. -/
theorem outOdd0_B_eq (c : Dev nD) (n : ℕ) (hn : n < cfg0.N) (h : n % 2 = 1) (h4 : n % 4 = 1) :
    outOdd0 V c n hn h = k0_pay6 (sA0_2 V c (n - 1) (by omega) (by omega)) (sA0_1 V c (n - 1) (by omega) (by omega))
      (iblk0 V c 3 ⟨n, hn⟩) (iblk0 V c 4 ⟨n, hn⟩) (iblk0 V c 5 ⟨n, hn⟩) := by
  rw [outOdd0_B V c n hn h h4]
  unfold runB0
  exact pieceB0_out VO0_6 VO0_6.junk c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) scM0_0 (Memref.isWhole_whole _) scM0_1 (Memref.isWhole_whole _) scM0_2 (Memref.isWhole_whole _) _ _ _ (iblk0 V c 0 ⟨n, hn⟩) (iblk0 V c 1 ⟨n, hn⟩) (iblk0 V c 2 ⟨n, hn⟩) (iblk0 V c 3 ⟨n, hn⟩) (iblk0 V c 4 ⟨n, hn⟩) (iblk0 V c 5 ⟨n, hn⟩) (sA0_0 V c (n - 1) (by omega) (by omega)) (sA0_1 V c (n - 1) (by omega) (by omega)) (sA0_2 V c (n - 1) (by omega) (by omega))

/-- What an odd point leaves in the output tile when its key tile is processed. -/
theorem outOdd0_C_eq (c : Dev nD) (n : ℕ) (hn : n < cfg0.N) (h : n % 2 = 1) (h4 : ¬ n % 4 = 1) (qi kv : Fin 2)
    (hqi : ((grid0.coords ⟨n, hn⟩) 1).val = qi.val) (hkv : ((grid0.coords ⟨n, hn⟩) 2).val = kv.val) :
    outOdd0 V c n hn h
      = k0_pay6 (k0_pay4 (k0_pay7 (iblk0 V c 2 ⟨n, hn⟩)) (k0_pay10 (BitVec.ofNat 32 qi.val) (BitVec.ofNat 32 kv.val) (iblk0 V c 0 ⟨n, hn⟩) (iblk0 V c 1 ⟨n, hn⟩) (sA0_0 V c (n - 1) (by omega) (by omega)))
            (k0_pay11 (BitVec.ofNat 32 qi.val) (BitVec.ofNat 32 kv.val) (iblk0 V c 0 ⟨n, hn⟩) (iblk0 V c 1 ⟨n, hn⟩) (sA0_0 V c (n - 1) (by omega) (by omega))) (sA0_2 V c (n - 1) (by omega) (by omega)))
          (k0_pay12 (BitVec.ofNat 32 qi.val) (BitVec.ofNat 32 kv.val) (iblk0 V c 0 ⟨n, hn⟩) (iblk0 V c 1 ⟨n, hn⟩) (sA0_0 V c (n - 1) (by omega) (by omega)) (sA0_1 V c (n - 1) (by omega) (by omega)))
          (iblk0 V c 3 ⟨n, hn⟩) (iblk0 V c 4 ⟨n, hn⟩) (iblk0 V c 5 ⟨n, hn⟩) := by
  rw [outOdd0_C V c n hn h h4]
  unfold runC0
  rw [← hqi, ← hkv]
  exact pieceC0_out VO0_6 VO0_6.junk c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) scM0_0 (Memref.isWhole_whole _) scM0_1 (Memref.isWhole_whole _) scM0_2 (Memref.isWhole_whole _) _ _ _ (iblk0 V c 0 ⟨n, hn⟩) (iblk0 V c 1 ⟨n, hn⟩) (iblk0 V c 2 ⟨n, hn⟩) (iblk0 V c 3 ⟨n, hn⟩) (iblk0 V c 4 ⟨n, hn⟩) (iblk0 V c 5 ⟨n, hn⟩) (sA0_0 V c (n - 1) (by omega) (by omega)) (sA0_1 V c (n - 1) (by omega) (by omega)) (sA0_2 V c (n - 1) (by omega) (by omega))

end Pieces

/-! ## From the blocks to the array, at the ideal values -/

variable (V : (c : Dev nD) → (b : Ref sig .tc) → Buf (Elt Ideal) ((c : Thread nD τ).loc b))

/-- What the output array ends holding: the first stage of each row of the entry contents. -/
def G0 (c : Dev nD) : S4x2048x1024.Idx → EReal := fun i =>
  Cert.Spec.stage1 (fun k d => V c main_arg0 (ix3 (i 0) k d)) (fun d => V c main_arg6 (ix1 d)) (fun d => V c main_arg7 (ix1 d)) (i 1) (i 2)

/-- The printed index maps, decided over the grid: point t = b·4 + qi·2 + kv reads query and residual rows of block
    (b, qi), key and value rows of block (b, kv), and writes block (b, qi). -/
theorem idx_facts0 : ∀ t : Fin cfg0.N,
    (win0_0.index t (0 : Fin 3) = t.val / 4 ∧ win0_0.index t (1 : Fin 3) = t.val / 2 % 2 ∧ win0_0.index t (2 : Fin 3) = 0)
    ∧ (win0_1.index t (0 : Fin 3) = t.val / 4 ∧ win0_1.index t (1 : Fin 3) = t.val % 2 ∧ win0_1.index t (2 : Fin 3) = 0)
    ∧ (win0_2.index t (0 : Fin 3) = t.val / 4 ∧ win0_2.index t (1 : Fin 3) = t.val % 2 ∧ win0_2.index t (2 : Fin 3) = 0)
    ∧ (win0_3.index t (0 : Fin 3) = t.val / 4 ∧ win0_3.index t (1 : Fin 3) = t.val / 2 % 2 ∧ win0_3.index t (2 : Fin 3) = 0)
    ∧ (win0_4.index t (0 : Fin 1) = 0 ∧ win0_5.index t (0 : Fin 1) = 0)
    ∧ (win0_6.index t (0 : Fin 3) = t.val / 4 ∧ win0_6.index t (1 : Fin 3) = t.val / 2 % 2 ∧ win0_6.index t (2 : Fin 3) = 0) :=
  (by decide +kernel : ∀ t : Fin grid0.N, _)

/-- The query-tile and key-tile numbers of a point. -/
theorem coords0 : ∀ t : Fin cfg0.N, ((grid0.coords t) 1).val = t.val / 2 % 2 ∧ ((grid0.coords t) 2).val = t.val % 2 :=
  (by decide +kernel : ∀ t : Fin grid0.N, _)

theorem iblk0_0_apply (c : Dev nD) (t : Fin cfg0.N) (r d : Fin 1024) (k : S4x2048x1024.Idx)
    (hk0 : (k 0).val = t.val / 4) (hk1 : (k 1).val = t.val / 2 % 2 * 1024 + r.val) (hk2 : (k 2).val = d.val) :
    (iblk0 (F := Ideal) V c 0 t : S1x1024x1024.Idx → EReal) (ix3 0 r d) = (V c main_v0 : S4x2048x1024.Idx → EReal) k := by
  obtain ⟨⟨e0, e1, e2⟩, -⟩ := idx_facts0 t
  unfold iblk0
  rw [View.read_apply]
  show (V c main_v0 : S4x2048x1024.Idx → EReal) _ = _
  refine congrArg _ (funext fun a => Fin.ext ?_)
  match a with
  | ⟨0, _⟩ => show win0_0.index t (0 : Fin 3) * 1 + 1 * 0 = (k 0).val; omega
  | ⟨1, _⟩ => show win0_0.index t (1 : Fin 3) * 1024 + 1 * r.val = (k 1).val; omega
  | ⟨2, _⟩ => show win0_0.index t (2 : Fin 3) * 1024 + 1 * d.val = (k 2).val; omega

theorem iblk0_1_apply (c : Dev nD) (t : Fin cfg0.N) (r d : Fin 1024) (k : S4x2048x1024.Idx)
    (hk0 : (k 0).val = t.val / 4) (hk1 : (k 1).val = t.val % 2 * 1024 + r.val) (hk2 : (k 2).val = d.val) :
    (iblk0 (F := Ideal) V c 1 t : S1x1024x1024.Idx → EReal) (ix3 0 r d) = (V c main_v0 : S4x2048x1024.Idx → EReal) k := by
  obtain ⟨-, ⟨e0, e1, e2⟩, -⟩ := idx_facts0 t
  unfold iblk0
  rw [View.read_apply]
  show (V c main_v0 : S4x2048x1024.Idx → EReal) _ = _
  refine congrArg _ (funext fun a => Fin.ext ?_)
  match a with
  | ⟨0, _⟩ => show win0_1.index t (0 : Fin 3) * 1 + 1 * 0 = (k 0).val; omega
  | ⟨1, _⟩ => show win0_1.index t (1 : Fin 3) * 1024 + 1 * r.val = (k 1).val; omega
  | ⟨2, _⟩ => show win0_1.index t (2 : Fin 3) * 1024 + 1 * d.val = (k 2).val; omega

theorem iblk0_2_apply (c : Dev nD) (t : Fin cfg0.N) (r d : Fin 1024) (k : S4x2048x1024.Idx)
    (hk0 : (k 0).val = t.val / 4) (hk1 : (k 1).val = t.val % 2 * 1024 + r.val) (hk2 : (k 2).val = d.val) :
    (iblk0 (F := Ideal) V c 2 t : S1x1024x1024.Idx → EReal) (ix3 0 r d) = (V c main_v0 : S4x2048x1024.Idx → EReal) k := by
  obtain ⟨-, -, ⟨e0, e1, e2⟩, -⟩ := idx_facts0 t
  unfold iblk0
  rw [View.read_apply]
  show (V c main_v0 : S4x2048x1024.Idx → EReal) _ = _
  refine congrArg _ (funext fun a => Fin.ext ?_)
  match a with
  | ⟨0, _⟩ => show win0_2.index t (0 : Fin 3) * 1 + 1 * 0 = (k 0).val; omega
  | ⟨1, _⟩ => show win0_2.index t (1 : Fin 3) * 1024 + 1 * r.val = (k 1).val; omega
  | ⟨2, _⟩ => show win0_2.index t (2 : Fin 3) * 1024 + 1 * d.val = (k 2).val; omega

theorem iblk0_3_apply (c : Dev nD) (t : Fin cfg0.N) (r d : Fin 1024) (k : S4x2048x1024.Idx)
    (hk0 : (k 0).val = t.val / 4) (hk1 : (k 1).val = t.val / 2 % 2 * 1024 + r.val) (hk2 : (k 2).val = d.val) :
    (iblk0 (F := Ideal) V c 3 t : S1x1024x1024.Idx → EReal) (ix3 0 r d) = (V c main_arg0 : S4x2048x1024.Idx → EReal) k := by
  obtain ⟨-, -, -, ⟨e0, e1, e2⟩, -⟩ := idx_facts0 t
  unfold iblk0
  rw [View.read_apply]
  show (V c main_arg0 : S4x2048x1024.Idx → EReal) _ = _
  refine congrArg _ (funext fun a => Fin.ext ?_)
  match a with
  | ⟨0, _⟩ => show win0_3.index t (0 : Fin 3) * 1 + 1 * 0 = (k 0).val; omega
  | ⟨1, _⟩ => show win0_3.index t (1 : Fin 3) * 1024 + 1 * r.val = (k 1).val; omega
  | ⟨2, _⟩ => show win0_3.index t (2 : Fin 3) * 1024 + 1 * d.val = (k 2).val; omega

theorem iblk0_4_apply (c : Dev nD) (t : Fin cfg0.N) (j : Fin 1024) :
    (iblk0 (F := Ideal) V c 4 t : S1024.Idx → EReal) (ix1 j) = (V c main_arg6 : S1024.Idx → EReal) (ix1 j) := by
  obtain ⟨-, -, -, -, ⟨e4, e5⟩, -⟩ := idx_facts0 t
  unfold iblk0
  rw [View.read_apply]
  show (V c main_arg6 : S1024.Idx → EReal) _ = _
  refine congrArg _ (funext fun a => Fin.ext ?_)
  match a with
  | ⟨0, _⟩ => show win0_4.index t (0 : Fin 1) * 1024 + 1 * j.val = j.val; omega

theorem iblk0_5_apply (c : Dev nD) (t : Fin cfg0.N) (j : Fin 1024) :
    (iblk0 (F := Ideal) V c 5 t : S1024.Idx → EReal) (ix1 j) = (V c main_arg7 : S1024.Idx → EReal) (ix1 j) := by
  obtain ⟨-, -, -, -, ⟨e4, e5⟩, -⟩ := idx_facts0 t
  unfold iblk0
  rw [View.read_apply]
  show (V c main_arg7 : S1024.Idx → EReal) _ = _
  refine congrArg _ (funext fun a => Fin.ext ?_)
  match a with
  | ⟨0, _⟩ => show win0_5.index t (0 : Fin 1) * 1024 + 1 * j.val = j.val; omega

theorem iblk0_1_real (c : Dev nD) (hq : ∀ i, (V c main_v0 : S4x2048x1024.Idx → EReal) i = (V c main_arg0 : S4x2048x1024.Idx → EReal) i) (hy : ∀ i, ∃ x : ℝ, (V c main_arg0 : S4x2048x1024.Idx → EReal) i = (x : EReal)) (t : Fin cfg0.N) (y : S1x1024x1024.Idx) :
    ∃ x : ℝ, (iblk0 (F := Ideal) V c 1 t : S1x1024x1024.Idx → EReal) y = (x : EReal) := by
  have hN : cfg0.N = 16 := N_0
  have ht : t.val < 16 := hN ▸ t.isLt
  obtain ⟨u, r, d, rfl⟩ : ∃ (u : Fin 1) (r : Fin 1024) (d : Fin 1024), y = ix3 u r d := ⟨y 0, y 1, y 2, eq_ix3 y⟩
  obtain rfl : u = 0 := Subsingleton.elim _ _
  rw [iblk0_1_apply V c t r d (ix3 ⟨t.val / 4, by omega⟩ ⟨t.val % 2 * 1024 + r.val, by have := r.isLt; omega⟩ d) rfl rfl rfl, hq]
  exact hy _

theorem iblk0_2_real (c : Dev nD) (hq : ∀ i, (V c main_v0 : S4x2048x1024.Idx → EReal) i = (V c main_arg0 : S4x2048x1024.Idx → EReal) i) (hy : ∀ i, ∃ x : ℝ, (V c main_arg0 : S4x2048x1024.Idx → EReal) i = (x : EReal)) (t : Fin cfg0.N) (y : S1x1024x1024.Idx) :
    ∃ x : ℝ, (iblk0 (F := Ideal) V c 2 t : S1x1024x1024.Idx → EReal) y = (x : EReal) := by
  have hN : cfg0.N = 16 := N_0
  have ht : t.val < 16 := hN ▸ t.isLt
  obtain ⟨u, r, d, rfl⟩ : ∃ (u : Fin 1) (r : Fin 1024) (d : Fin 1024), y = ix3 u r d := ⟨y 0, y 1, y 2, eq_ix3 y⟩
  obtain rfl : u = 0 := Subsingleton.elim _ _
  rw [iblk0_2_apply V c t r d (ix3 ⟨t.val / 4, by omega⟩ ⟨t.val % 2 * 1024 + r.val, by have := r.isLt; omega⟩ d) rfl rfl rfl, hq]
  exact hy _

theorem rows2_iblk0_1 (c : Dev nD) (hq : ∀ i, (V c main_v0 : S4x2048x1024.Idx → EReal) i = (V c main_arg0 : S4x2048x1024.Idx → EReal) i)
    (n : ℕ) (hn : n < cfg0.N) (h : n % 2 = 1) (hn1 : n - 1 < cfg0.N) (b : Fin 4) (hb : b.val = n / 4) :
    rows2 (iblk0 (F := Ideal) V c 1 ⟨n - 1, hn1⟩) (iblk0 (F := Ideal) V c 1 ⟨n, hn⟩) = fun k d => (V c main_arg0 : S4x2048x1024.Idx → EReal) (ix3 b k d) := by
  funext k d
  unfold rows2
  split
  · rename_i hk
    rw [← hq]
    exact iblk0_1_apply V c ⟨n - 1, hn1⟩ ⟨k.val, hk⟩ d (ix3 b k d) (by show b.val = (n - 1) / 4; omega)
      (by show k.val = (n - 1) % 2 * 1024 + k.val; omega) rfl
  · rename_i hk
    rw [← hq]
    exact iblk0_1_apply V c ⟨n, hn⟩ ⟨k.val - 1024, by have := k.isLt; omega⟩ d (ix3 b k d) (by show b.val = n / 4; omega)
      (by show k.val = n % 2 * 1024 + (k.val - 1024); omega) rfl

theorem rows2_iblk0_2 (c : Dev nD) (hq : ∀ i, (V c main_v0 : S4x2048x1024.Idx → EReal) i = (V c main_arg0 : S4x2048x1024.Idx → EReal) i)
    (n : ℕ) (hn : n < cfg0.N) (h : n % 2 = 1) (hn1 : n - 1 < cfg0.N) (b : Fin 4) (hb : b.val = n / 4) :
    rows2 (iblk0 (F := Ideal) V c 2 ⟨n - 1, hn1⟩) (iblk0 (F := Ideal) V c 2 ⟨n, hn⟩) = fun k d => (V c main_arg0 : S4x2048x1024.Idx → EReal) (ix3 b k d) := by
  funext k d
  unfold rows2
  split
  · rename_i hk
    rw [← hq]
    exact iblk0_2_apply V c ⟨n - 1, hn1⟩ ⟨k.val, hk⟩ d (ix3 b k d) (by show b.val = (n - 1) / 4; omega)
      (by show k.val = (n - 1) % 2 * 1024 + k.val; omega) rfl
  · rename_i hk
    rw [← hq]
    exact iblk0_2_apply V c ⟨n, hn⟩ ⟨k.val - 1024, by have := k.isLt; omega⟩ d (ix3 b k d) (by show b.val = n / 4; omega)
      (by show k.val = n % 2 * 1024 + (k.val - 1024); omega) rfl

/-- An odd point's output tile, row by row, is the first stage of the entry contents at the tile's rows. -/
theorem outOdd0_apply (hpay : Pay0Spec) (c : Dev nD) (hq : ∀ i, (V c main_v0 : S4x2048x1024.Idx → EReal) i = (V c main_arg0 : S4x2048x1024.Idx → EReal) i) (hy : ∀ i, ∃ x : ℝ, (V c main_arg0 : S4x2048x1024.Idx → EReal) i = (x : EReal))
    (n : ℕ) (hn : n < cfg0.N) (h : n % 2 = 1) (r d : Fin 1024) (i : S4x2048x1024.Idx)
    (hi0 : (i 0).val = n / 4) (hi1 : (i 1).val = n / 2 % 2 * 1024 + r.val) (hi2 : (i 2).val = d.val) :
    (outOdd0 (F := Ideal) V c n hn h : S1x1024x1024.Idx → EReal) (ix3 0 r d) = G0 V c i := by
  have hN : cfg0.N = 16 := N_0
  have hn1 : n - 1 < cfg0.N := by omega
  have hr := r.isLt
  obtain ⟨cq1, ck1⟩ := coords0 ⟨n - 1, hn1⟩
  obtain ⟨cq, ck⟩ := coords0 ⟨n, hn⟩
  by_cases h4 : n % 4 = 1
  · -- the first query tile: the key tile of this point lies wholly after it
    rw [outOdd0_B_eq V c n hn h h4,
      sA0_1_eq V c (n - 1) _ _ 0 0 (by rw [cq1]; show (n - 1) / 2 % 2 = 0; omega) (by rw [ck1]; show (n - 1) % 2 = 0; omega),
      sA0_2_eq V c (n - 1) _ _ 0 0 (by rw [cq1]; show (n - 1) / 2 % 2 = 0; omega) (by rw [ck1]; show (n - 1) % 2 = 0; omega)]
    refine (causal_row_skip hpay (iblk0 (F := Ideal) V c 0 ⟨n - 1, hn1⟩) (iblk0 (F := Ideal) V c 1 ⟨n - 1, hn1⟩) (iblk0 (F := Ideal) V c 1 ⟨n, hn⟩) (iblk0 (F := Ideal) V c 2 ⟨n - 1, hn1⟩) (iblk0 (F := Ideal) V c 2 ⟨n, hn⟩) (iblk0 (F := Ideal) V c 3 ⟨n, hn⟩) (iblk0 (F := Ideal) V c 4 ⟨n, hn⟩) (iblk0 (F := Ideal) V c 5 ⟨n, hn⟩)
      (iblk0_1_real V c hq hy ⟨n - 1, hn1⟩) (iblk0_1_real V c hq hy ⟨n, hn⟩)
      (iblk0_2_real V c hq hy ⟨n - 1, hn1⟩) (iblk0_2_real V c hq hy ⟨n, hn⟩)
      (fun r' d' => by
        have hr' := r'.isLt
        rw [rows2_pos0,
          iblk0_0_apply V c ⟨n - 1, hn1⟩ r' d' (ix3 ⟨n / 4, by omega⟩ ⟨r'.val, by omega⟩ d')
            (by show n / 4 = (n - 1) / 4; omega) (by show r'.val = (n - 1) / 2 % 2 * 1024 + r'.val; omega) rfl,
          iblk0_1_apply V c ⟨n - 1, hn1⟩ r' d' (ix3 ⟨n / 4, by omega⟩ ⟨r'.val, by omega⟩ d')
            (by show n / 4 = (n - 1) / 4; omega) (by show r'.val = (n - 1) % 2 * 1024 + r'.val; omega) rfl])
      r d).trans ?_
    have hb : (i 0).val < 4 := (i 0).isLt
    rw [rows2_iblk0_1 V c hq n hn h hn1 ⟨(i 0).val, hb⟩ hi0, rows2_iblk0_2 V c hq n hn h hn1 ⟨(i 0).val, hb⟩ hi0]
    have hR : ∀ j : Fin 1024, (iblk0 (F := Ideal) V c 3 ⟨n, hn⟩) (ix3 0 r j) = (V c main_arg0 : S4x2048x1024.Idx → EReal) (ix3 (i 0) (i 1) j) := fun j =>
      iblk0_3_apply V c ⟨n, hn⟩ r j (ix3 (i 0) (i 1) j) hi0 hi1 rfl
    have hg : ∀ j : Fin 1024, (iblk0 (F := Ideal) V c 4 ⟨n, hn⟩) (ix1 j) = (V c main_arg6 : S1024.Idx → EReal) (ix1 j) := fun j => iblk0_4_apply V c ⟨n, hn⟩ j
    have hβ : ∀ j : Fin 1024, (iblk0 (F := Ideal) V c 5 ⟨n, hn⟩) (ix1 j) = (V c main_arg7 : S1024.Idx → EReal) (ix1 j) := fun j => iblk0_5_apply V c ⟨n, hn⟩ j
    have hd : d = i 2 := Fin.ext hi2.symm
    have hpq : pos 0 r = i 1 := Fin.ext (by rw [pos_val]; show (0 : Fin 2).val * 1024 + r.val = (i 1).val; rw [hi1]; simp; omega)
    simp only [hR, hg, hβ]
    unfold G0 Cert.Spec.stage1
    rw [← hd, hpq]
    rfl
  · -- the second query tile: both key tiles are processed
    have hX0 : (iblk0 (F := Ideal) V c 0 ⟨n - 1, hn1⟩) = (iblk0 (F := Ideal) V c 0 ⟨n, hn⟩) := by
      funext y
      obtain ⟨u, r', d', rfl⟩ : ∃ (u : Fin 1) (r' : Fin 1024) (d' : Fin 1024), y = ix3 u r' d' := ⟨y 0, y 1, y 2, eq_ix3 y⟩
      obtain rfl : u = 0 := Subsingleton.elim _ _
      have hr' := r'.isLt
      rw [iblk0_0_apply V c ⟨n - 1, hn1⟩ r' d' (ix3 ⟨n / 4, by omega⟩ ⟨n / 2 % 2 * 1024 + r'.val, by omega⟩ d')
          (by show n / 4 = (n - 1) / 4; omega) (by show n / 2 % 2 * 1024 + r'.val = (n - 1) / 2 % 2 * 1024 + r'.val; omega) rfl,
        iblk0_0_apply V c ⟨n, hn⟩ r' d' (ix3 ⟨n / 4, by omega⟩ ⟨n / 2 % 2 * 1024 + r'.val, by omega⟩ d') rfl rfl rfl]
    rw [outOdd0_C_eq V c n hn h h4 1 1 (by rw [cq]; show n / 2 % 2 = 1; omega) (by rw [ck]; show n % 2 = 1; omega),
      sA0_0_eq V c (n - 1) _ _ 1 0 (by rw [cq1]; show (n - 1) / 2 % 2 = 1; omega) (by rw [ck1]; show (n - 1) % 2 = 0; omega),
      sA0_1_eq V c (n - 1) _ _ 1 0 (by rw [cq1]; show (n - 1) / 2 % 2 = 1; omega) (by rw [ck1]; show (n - 1) % 2 = 0; omega),
      sA0_2_eq V c (n - 1) _ _ 1 0 (by rw [cq1]; show (n - 1) / 2 % 2 = 1; omega) (by rw [ck1]; show (n - 1) % 2 = 0; omega), hX0]
    refine (causal_row_full hpay (iblk0 (F := Ideal) V c 0 ⟨n, hn⟩) (iblk0 (F := Ideal) V c 1 ⟨n - 1, hn1⟩) (iblk0 (F := Ideal) V c 1 ⟨n, hn⟩) (iblk0 (F := Ideal) V c 2 ⟨n - 1, hn1⟩) (iblk0 (F := Ideal) V c 2 ⟨n, hn⟩) (iblk0 (F := Ideal) V c 3 ⟨n, hn⟩) (iblk0 (F := Ideal) V c 4 ⟨n, hn⟩) (iblk0 (F := Ideal) V c 5 ⟨n, hn⟩)
      (iblk0_1_real V c hq hy ⟨n - 1, hn1⟩) (iblk0_1_real V c hq hy ⟨n, hn⟩)
      (iblk0_2_real V c hq hy ⟨n - 1, hn1⟩) (iblk0_2_real V c hq hy ⟨n, hn⟩)
      (fun r' d' => by
        have hr' := r'.isLt
        rw [rows2_pos1,
          iblk0_0_apply V c ⟨n, hn⟩ r' d' (ix3 ⟨n / 4, by omega⟩ ⟨1024 + r'.val, by omega⟩ d')
            rfl (by show 1024 + r'.val = n / 2 % 2 * 1024 + r'.val; omega) rfl,
          iblk0_1_apply V c ⟨n, hn⟩ r' d' (ix3 ⟨n / 4, by omega⟩ ⟨1024 + r'.val, by omega⟩ d')
            rfl (by show 1024 + r'.val = n % 2 * 1024 + r'.val; omega) rfl])
      r d).trans ?_
    have hb : (i 0).val < 4 := (i 0).isLt
    rw [rows2_iblk0_1 V c hq n hn h hn1 ⟨(i 0).val, hb⟩ hi0, rows2_iblk0_2 V c hq n hn h hn1 ⟨(i 0).val, hb⟩ hi0]
    have hR : ∀ j : Fin 1024, (iblk0 (F := Ideal) V c 3 ⟨n, hn⟩) (ix3 0 r j) = (V c main_arg0 : S4x2048x1024.Idx → EReal) (ix3 (i 0) (i 1) j) := fun j =>
      iblk0_3_apply V c ⟨n, hn⟩ r j (ix3 (i 0) (i 1) j) hi0 hi1 rfl
    have hg : ∀ j : Fin 1024, (iblk0 (F := Ideal) V c 4 ⟨n, hn⟩) (ix1 j) = (V c main_arg6 : S1024.Idx → EReal) (ix1 j) := fun j => iblk0_4_apply V c ⟨n, hn⟩ j
    have hβ : ∀ j : Fin 1024, (iblk0 (F := Ideal) V c 5 ⟨n, hn⟩) (ix1 j) = (V c main_arg7 : S1024.Idx → EReal) (ix1 j) := fun j => iblk0_5_apply V c ⟨n, hn⟩ j
    have hd : d = i 2 := Fin.ext hi2.symm
    have hpq : pos 1 r = i 1 := Fin.ext (by rw [pos_val]; show (1 : Fin 2).val * 1024 + r.val = (i 1).val; rw [hi1]; simp; omega)
    simp only [hR, hg, hβ]
    unfold G0 Cert.Spec.stage1
    rw [← hd, hpq]
    rfl

/-- What an odd point writes back is its block of G0. -/
theorem flushed0_eq (hpay : Pay0Spec) (c : Dev nD) (hq : ∀ i, (V c main_v0 : S4x2048x1024.Idx → EReal) i = (V c main_arg0 : S4x2048x1024.Idx → EReal) i) (hy : ∀ i, ∃ x : ℝ, (V c main_arg0 : S4x2048x1024.Idx → EReal) i = (x : EReal))
    (t : Fin cfg0.N) (hf : (cfg0.win 6).flush t = true) :
    (dat0 (F := Ideal) V c).flushed 6 t = ((cfg0.win 6).blk t).view.read (Elt Ideal) (G0 V c) := by
  have h1 : t.val % 2 = 1 := (flush0_6 t).mp hf
  show (cfg0.win 6).cut (grid0.coords t) ((dat0 (F := Ideal) V c).after 6 t) = _
  rw [after0_6 V c t h1]
  obtain ⟨-, -, -, -, -, ⟨e0, e1, e2⟩⟩ := idx_facts0 t
  funext j
  obtain ⟨u, r, d, rfl⟩ : ∃ (u : Fin 1) (r : Fin 1024) (d : Fin 1024), j = ix3 u r d := ⟨j 0, j 1, j 2, eq_ix3 j⟩
  obtain rfl : u = 0 := Subsingleton.elim _ _
  show (outOdd0 (F := Ideal) V c t.val t.isLt h1 : S1x1024x1024.Idx → EReal) (ix3 0 r d) = G0 V c (((cfg0.win 6).blk t).view.emb (ix3 0 r d))
  exact outOdd0_apply V hpay c hq hy t.val t.isLt h1 r d _
    (by show win0_6.index t (0 : Fin 3) * 1 + 1 * 0 = t.val / 4; omega)
    (by show win0_6.index t (1 : Fin 3) * 1024 + 1 * r.val = t.val / 2 % 2 * 1024 + r.val; omega)
    (by show win0_6.index t (2 : Fin 3) * 1024 + 1 * d.val = d.val; omega)

/-- An index of the array is in point t's block iff each coordinate is in the block's range on its axis. -/
theorem mem_blk0 (t : Fin cfg0.N) (i : S4x2048x1024.Idx) :
    i ∈ ((cfg0.win 6).blk t).view.set ↔ ∀ a : Fin 3, win0_6.index t a * S1x1024x1024.size a ≤ (i a).val ∧ (i a).val < win0_6.index t a * S1x1024x1024.size a + S1x1024x1024.size a := by
  show i ∈ ((View.whole main_v1).slice (win0_6.rect t)).set ↔ _
  rw [View.set_slice_whole, Rect.mem_set_unit]
  exact Iff.rfl

/-- Every index is in the block of an odd point: row q of batch entry b is written at point b·4 + (q / 1024)·2 + 1. -/
theorem cover0 (i : S4x2048x1024.Idx) : ∃ t : Fin cfg0.N, (cfg0.win 6).flush t = true ∧ i ∈ ((cfg0.win 6).blk t).view.set := by
  have hi0 : (i 0).val < 4 := (i 0).isLt
  have hi1 : (i 1).val < 2048 := (i 1).isLt
  have hi2 : (i 2).val < 1024 := (i 2).isLt
  have hN : cfg0.N = 16 := N_0
  have ht : (i 0).val * 4 + (i 1).val / 1024 * 2 + 1 < cfg0.N := by rw [hN]; omega
  refine ⟨⟨(i 0).val * 4 + (i 1).val / 1024 * 2 + 1, ht⟩, (flush0_6 _).mpr (by show ((i 0).val * 4 + (i 1).val / 1024 * 2 + 1) % 2 = 1; omega), ?_⟩
  rw [mem_blk0]
  obtain ⟨-, -, -, -, -, ⟨e0, e1, e2⟩⟩ := idx_facts0 ⟨(i 0).val * 4 + (i 1).val / 1024 * 2 + 1, ht⟩
  intro a
  match a with
  | ⟨0, _⟩ =>
    show win0_6.index _ (0 : Fin 3) * 1 ≤ (i 0).val ∧ (i 0).val < win0_6.index _ (0 : Fin 3) * 1 + 1
    rw [e0]; show ((i 0).val * 4 + (i 1).val / 1024 * 2 + 1) / 4 * 1 ≤ (i 0).val ∧ (i 0).val < ((i 0).val * 4 + (i 1).val / 1024 * 2 + 1) / 4 * 1 + 1; omega
  | ⟨1, _⟩ =>
    show win0_6.index _ (1 : Fin 3) * 1024 ≤ (i 1).val ∧ (i 1).val < win0_6.index _ (1 : Fin 3) * 1024 + 1024
    rw [e1]; show ((i 0).val * 4 + (i 1).val / 1024 * 2 + 1) / 2 % 2 * 1024 ≤ (i 1).val ∧ (i 1).val < ((i 0).val * 4 + (i 1).val / 1024 * 2 + 1) / 2 % 2 * 1024 + 1024; omega
  | ⟨2, _⟩ =>
    show win0_6.index _ (2 : Fin 3) * 1024 ≤ (i 2).val ∧ (i 2).val < win0_6.index _ (2 : Fin 3) * 1024 + 1024
    rw [e2]; omega

/-- The output array after the region is G0 of the entry contents. -/
theorem final0 (hpay : Pay0Spec) (c : Dev nD) (hq : ∀ i, (V c main_v0 : S4x2048x1024.Idx → EReal) i = (V c main_arg0 : S4x2048x1024.Idx → EReal) i) (hy : ∀ i, ∃ x : ℝ, (V c main_arg0 : S4x2048x1024.Idx → EReal) i = (x : EReal))
    (hg : ∀ i, ∃ x : ℝ, (V c main_arg6 : S1024.Idx → EReal) i = (x : EReal)) (hb : ∀ i, ∃ x : ℝ, (V c main_arg7 : S1024.Idx → EReal) i = (x : EReal)) :
    (dat0 (F := Ideal) V c).arrAt 6 cfg0.N = G0 V c :=
  (dat0 (F := Ideal) V c).arrAt_eq_of_cover 6 (G0 V c) (fun t hf => flushed0_eq V hpay c hq hy t hf) cover0

end Cert.KernelIdeal.KV

end
-- ==== Proof.KVal1.lean ====
/-
  The cross-attention kernel's value: each case's pieces as payloads of the blocks it loads; at the ideal values,
  given the payloads at an index, the output tile an odd grid point leaves is, row by row, the specification's second
  stage of the entry contents (the even point before it carries the first key tile's running state), so what each
  odd point writes back is its block of one whole-array function G1, the odd points' blocks cover the array, and
  the output array ends holding G1.
-/
import proofs.«167660_j22771916603726_2_alg».proof.Proof.K1a
import proofs.«167660_j22771916603726_2_alg».proof.Proof.KPieces01
import proofs.«167660_j22771916603726_2_alg».proof.Proof.KRows
import Idealize.ShloMosaic.Lib.Pipeline.Value

set_option maxRecDepth 16384

noncomputable section

namespace Cert.KernelIdeal.KV

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.KF
open scoped BigOperators

section Pieces
variable {F : FTy → Type} [FloatOps F] [Named F] (V : (c : Dev nD) → (b : Ref sig .tc) → Buf (Elt F) ((c : Thread nD τ).loc b))

/-- What an even point leaves in the running state, as payloads of the blocks it loads. -/
theorem sA1_0_eq (c : Dev nD) (n : ℕ) (hn : n < cfg1.N) (h : n % 2 = 0) :
    sA1_0 V c n hn h = k1_pay2 (k1_pay9 (iblk1 V c 0 ⟨n, hn⟩) (iblk1 V c 1 ⟨n, hn⟩) k1_pay4) := by
  unfold sA1_0 runA1
  exact pieceA1_0 VS1_0 VS1_0.junk c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) scM1_0 (Memref.isWhole_whole _) scM1_1 (Memref.isWhole_whole _) scM1_2 (Memref.isWhole_whole _) _ _ (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩)

theorem sA1_1_eq (c : Dev nD) (n : ℕ) (hn : n < cfg1.N) (h : n % 2 = 0) :
    sA1_1 V c n hn h = k1_pay12 (iblk1 V c 0 ⟨n, hn⟩) (iblk1 V c 1 ⟨n, hn⟩) k1_pay4 k1_pay5 := by
  unfold sA1_1 runA1
  exact pieceA1_1 VS1_1 VS1_1.junk c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) scM1_0 (Memref.isWhole_whole _) scM1_1 (Memref.isWhole_whole _) scM1_2 (Memref.isWhole_whole _) _ _ (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩)

theorem sA1_2_eq (c : Dev nD) (n : ℕ) (hn : n < cfg1.N) (h : n % 2 = 0) :
    sA1_2 V c n hn h = k1_pay1 (k1_pay7 (iblk1 V c 2 ⟨n, hn⟩)) (k1_pay11 (iblk1 V c 0 ⟨n, hn⟩) (iblk1 V c 1 ⟨n, hn⟩) k1_pay4) k1_pay6
      (k1_pay13 (iblk1 V c 0 ⟨n, hn⟩) (iblk1 V c 1 ⟨n, hn⟩) k1_pay4) := by
  unfold sA1_2 runA1
  exact pieceA1_2 VS1_2 VS1_2.junk c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) scM1_0 (Memref.isWhole_whole _) scM1_1 (Memref.isWhole_whole _) scM1_2 (Memref.isWhole_whole _) _ _ (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩)

/-- What an odd point leaves in the output tile, from its blocks and the state the even point before it left. -/
theorem outOdd1_eq (c : Dev nD) (n : ℕ) (hn : n < cfg1.N) (h : n % 2 = 1) :
    outOdd1 V c n hn h
      = k1_pay3 (k1_pay1 (k1_pay7 (iblk1 V c 2 ⟨n, hn⟩)) (k1_pay11 (iblk1 V c 0 ⟨n, hn⟩) (iblk1 V c 1 ⟨n, hn⟩) (sA1_0 V c (n - 1) (by omega) (by omega)))
            (sA1_2 V c (n - 1) (by omega) (by omega)) (k1_pay13 (iblk1 V c 0 ⟨n, hn⟩) (iblk1 V c 1 ⟨n, hn⟩) (sA1_0 V c (n - 1) (by omega) (by omega))))
          (k1_pay12 (iblk1 V c 0 ⟨n, hn⟩) (iblk1 V c 1 ⟨n, hn⟩) (sA1_0 V c (n - 1) (by omega) (by omega)) (sA1_1 V c (n - 1) (by omega) (by omega)))
          (iblk1 V c 3 ⟨n, hn⟩) (iblk1 V c 4 ⟨n, hn⟩) (iblk1 V c 5 ⟨n, hn⟩) := by
  unfold outOdd1 runB1
  exact pieceB1_out VO1_6 VO1_6.junk c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) scM1_0 (Memref.isWhole_whole _) scM1_1 (Memref.isWhole_whole _) scM1_2 (Memref.isWhole_whole _) _ _ (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩)
    (sA1_0 V c (n - 1) (by omega) (by omega)) (sA1_1 V c (n - 1) (by omega) (by omega)) (sA1_2 V c (n - 1) (by omega) (by omega))

end Pieces

/-! ## From the blocks to the array, at the ideal values -/

variable (V : (c : Dev nD) → (b : Ref sig .tc) → Buf (Elt Ideal) ((c : Thread nD τ).loc b))

/-- What the output array ends holding: the second stage of each row of the entry contents. -/
def G1 (c : Dev nD) : S4x2048x1024.Idx → EReal := fun i =>
  Cert.Spec.stage2 (fun k d => V c main_v1 (ix3 (i 0) k d)) (fun k d => V c main_v3 (ix3 (i 0) k d))
    (fun d => V c main_arg8 (ix1 d)) (fun d => V c main_arg9 (ix1 d)) (i 1) (i 2)

/-- The printed index maps, decided over the grid: point t = b·4 + qi·2 + kv reads query and residual rows of block
    (b, qi), key and value rows of block (b, kv), and writes block (b, qi). -/
theorem idx_facts1 : ∀ t : Fin cfg1.N,
    (win1_0.index t (0 : Fin 3) = t.val / 4 ∧ win1_0.index t (1 : Fin 3) = t.val / 2 % 2 ∧ win1_0.index t (2 : Fin 3) = 0)
    ∧ (win1_1.index t (0 : Fin 3) = t.val / 4 ∧ win1_1.index t (1 : Fin 3) = t.val % 2 ∧ win1_1.index t (2 : Fin 3) = 0)
    ∧ (win1_2.index t (0 : Fin 3) = t.val / 4 ∧ win1_2.index t (1 : Fin 3) = t.val % 2 ∧ win1_2.index t (2 : Fin 3) = 0)
    ∧ (win1_3.index t (0 : Fin 3) = t.val / 4 ∧ win1_3.index t (1 : Fin 3) = t.val / 2 % 2 ∧ win1_3.index t (2 : Fin 3) = 0)
    ∧ (win1_4.index t (0 : Fin 1) = 0 ∧ win1_5.index t (0 : Fin 1) = 0)
    ∧ (win1_6.index t (0 : Fin 3) = t.val / 4 ∧ win1_6.index t (1 : Fin 3) = t.val / 2 % 2 ∧ win1_6.index t (2 : Fin 3) = 0) :=
  (by decide +kernel : ∀ t : Fin grid1.N, _)

/-- A block of window w ∈ {0, 1, 2, 3} read at (0, r, d) is the window's array at the block's row. -/
theorem iblk1_0_apply (c : Dev nD) (t : Fin cfg1.N) (r d : Fin 1024) (k : S4x2048x1024.Idx)
    (hk0 : (k 0).val = t.val / 4) (hk1 : (k 1).val = t.val / 2 % 2 * 1024 + r.val) (hk2 : (k 2).val = d.val) :
    (iblk1 (F := Ideal) V c 0 t : S1x1024x1024.Idx → EReal) (ix3 0 r d) = (V c main_v2 : S4x2048x1024.Idx → EReal) k := by
  obtain ⟨⟨e0, e1, e2⟩, -⟩ := idx_facts1 t
  unfold iblk1
  rw [View.read_apply]
  show (V c main_v2 : S4x2048x1024.Idx → EReal) _ = _
  refine congrArg _ (funext fun a => Fin.ext ?_)
  match a with
  | ⟨0, _⟩ => show win1_0.index t (0 : Fin 3) * 1 + 1 * 0 = (k 0).val; omega
  | ⟨1, _⟩ => show win1_0.index t (1 : Fin 3) * 1024 + 1 * r.val = (k 1).val; omega
  | ⟨2, _⟩ => show win1_0.index t (2 : Fin 3) * 1024 + 1 * d.val = (k 2).val; omega

theorem iblk1_1_apply (c : Dev nD) (t : Fin cfg1.N) (r d : Fin 1024) (k : S4x2048x1024.Idx)
    (hk0 : (k 0).val = t.val / 4) (hk1 : (k 1).val = t.val % 2 * 1024 + r.val) (hk2 : (k 2).val = d.val) :
    (iblk1 (F := Ideal) V c 1 t : S1x1024x1024.Idx → EReal) (ix3 0 r d) = (V c main_v3 : S4x2048x1024.Idx → EReal) k := by
  obtain ⟨-, ⟨e0, e1, e2⟩, -⟩ := idx_facts1 t
  unfold iblk1
  rw [View.read_apply]
  show (V c main_v3 : S4x2048x1024.Idx → EReal) _ = _
  refine congrArg _ (funext fun a => Fin.ext ?_)
  match a with
  | ⟨0, _⟩ => show win1_1.index t (0 : Fin 3) * 1 + 1 * 0 = (k 0).val; omega
  | ⟨1, _⟩ => show win1_1.index t (1 : Fin 3) * 1024 + 1 * r.val = (k 1).val; omega
  | ⟨2, _⟩ => show win1_1.index t (2 : Fin 3) * 1024 + 1 * d.val = (k 2).val; omega

theorem iblk1_2_apply (c : Dev nD) (t : Fin cfg1.N) (r d : Fin 1024) (k : S4x2048x1024.Idx)
    (hk0 : (k 0).val = t.val / 4) (hk1 : (k 1).val = t.val % 2 * 1024 + r.val) (hk2 : (k 2).val = d.val) :
    (iblk1 (F := Ideal) V c 2 t : S1x1024x1024.Idx → EReal) (ix3 0 r d) = (V c main_v3 : S4x2048x1024.Idx → EReal) k := by
  obtain ⟨-, -, ⟨e0, e1, e2⟩, -⟩ := idx_facts1 t
  unfold iblk1
  rw [View.read_apply]
  show (V c main_v3 : S4x2048x1024.Idx → EReal) _ = _
  refine congrArg _ (funext fun a => Fin.ext ?_)
  match a with
  | ⟨0, _⟩ => show win1_2.index t (0 : Fin 3) * 1 + 1 * 0 = (k 0).val; omega
  | ⟨1, _⟩ => show win1_2.index t (1 : Fin 3) * 1024 + 1 * r.val = (k 1).val; omega
  | ⟨2, _⟩ => show win1_2.index t (2 : Fin 3) * 1024 + 1 * d.val = (k 2).val; omega

theorem iblk1_3_apply (c : Dev nD) (t : Fin cfg1.N) (r d : Fin 1024) (k : S4x2048x1024.Idx)
    (hk0 : (k 0).val = t.val / 4) (hk1 : (k 1).val = t.val / 2 % 2 * 1024 + r.val) (hk2 : (k 2).val = d.val) :
    (iblk1 (F := Ideal) V c 3 t : S1x1024x1024.Idx → EReal) (ix3 0 r d) = (V c main_v1 : S4x2048x1024.Idx → EReal) k := by
  obtain ⟨-, -, -, ⟨e0, e1, e2⟩, -⟩ := idx_facts1 t
  unfold iblk1
  rw [View.read_apply]
  show (V c main_v1 : S4x2048x1024.Idx → EReal) _ = _
  refine congrArg _ (funext fun a => Fin.ext ?_)
  match a with
  | ⟨0, _⟩ => show win1_3.index t (0 : Fin 3) * 1 + 1 * 0 = (k 0).val; omega
  | ⟨1, _⟩ => show win1_3.index t (1 : Fin 3) * 1024 + 1 * r.val = (k 1).val; omega
  | ⟨2, _⟩ => show win1_3.index t (2 : Fin 3) * 1024 + 1 * d.val = (k 2).val; omega

theorem iblk1_4_apply (c : Dev nD) (t : Fin cfg1.N) (j : Fin 1024) :
    (iblk1 (F := Ideal) V c 4 t : S1024.Idx → EReal) (ix1 j) = (V c main_arg8 : S1024.Idx → EReal) (ix1 j) := by
  obtain ⟨-, -, -, -, ⟨e4, e5⟩, -⟩ := idx_facts1 t
  unfold iblk1
  rw [View.read_apply]
  show (V c main_arg8 : S1024.Idx → EReal) _ = _
  refine congrArg _ (funext fun a => Fin.ext ?_)
  match a with
  | ⟨0, _⟩ => show win1_4.index t (0 : Fin 1) * 1024 + 1 * j.val = j.val; omega

theorem iblk1_5_apply (c : Dev nD) (t : Fin cfg1.N) (j : Fin 1024) :
    (iblk1 (F := Ideal) V c 5 t : S1024.Idx → EReal) (ix1 j) = (V c main_arg9 : S1024.Idx → EReal) (ix1 j) := by
  obtain ⟨-, -, -, -, ⟨e4, e5⟩, -⟩ := idx_facts1 t
  unfold iblk1
  rw [View.read_apply]
  show (V c main_arg9 : S1024.Idx → EReal) _ = _
  refine congrArg _ (funext fun a => Fin.ext ?_)
  match a with
  | ⟨0, _⟩ => show win1_5.index t (0 : Fin 1) * 1024 + 1 * j.val = j.val; omega

theorem iblk1_0_real (c : Dev nD) (hq : ∀ i, (V c main_v2 : S4x2048x1024.Idx → EReal) i = (V c main_v1 : S4x2048x1024.Idx → EReal) i)
    (hh : ∀ i, ∃ x : ℝ, (V c main_v1 : S4x2048x1024.Idx → EReal) i = (x : EReal)) (t : Fin cfg1.N) (y : S1x1024x1024.Idx) :
    ∃ x : ℝ, (iblk1 (F := Ideal) V c 0 t : S1x1024x1024.Idx → EReal) y = (x : EReal) := by
  have hN : cfg1.N = 16 := N_1
  have ht : t.val < 16 := hN ▸ t.isLt
  obtain ⟨u, r, d, rfl⟩ : ∃ (u : Fin 1) (r : Fin 1024) (d : Fin 1024), y = ix3 u r d := ⟨y 0, y 1, y 2, eq_ix3 y⟩
  obtain rfl : u = 0 := Subsingleton.elim _ _
  rw [iblk1_0_apply V c t r d (ix3 ⟨t.val / 4, by omega⟩ ⟨t.val / 2 % 2 * 1024 + r.val, by have := r.isLt; omega⟩ d) rfl rfl rfl, hq]
  exact hh _

theorem iblk1_1_real (c : Dev nD) (hz : ∀ i, ∃ x : ℝ, (V c main_v3 : S4x2048x1024.Idx → EReal) i = (x : EReal)) (t : Fin cfg1.N) (y : S1x1024x1024.Idx) :
    ∃ x : ℝ, (iblk1 (F := Ideal) V c 1 t : S1x1024x1024.Idx → EReal) y = (x : EReal) := by
  have hN : cfg1.N = 16 := N_1
  have ht : t.val < 16 := hN ▸ t.isLt
  obtain ⟨u, r, d, rfl⟩ : ∃ (u : Fin 1) (r : Fin 1024) (d : Fin 1024), y = ix3 u r d := ⟨y 0, y 1, y 2, eq_ix3 y⟩
  obtain rfl : u = 0 := Subsingleton.elim _ _
  rw [iblk1_1_apply V c t r d (ix3 ⟨t.val / 4, by omega⟩ ⟨t.val % 2 * 1024 + r.val, by have := r.isLt; omega⟩ d) rfl rfl rfl]
  exact hz _

theorem iblk1_2_real (c : Dev nD) (hz : ∀ i, ∃ x : ℝ, (V c main_v3 : S4x2048x1024.Idx → EReal) i = (x : EReal)) (t : Fin cfg1.N) (y : S1x1024x1024.Idx) :
    ∃ x : ℝ, (iblk1 (F := Ideal) V c 2 t : S1x1024x1024.Idx → EReal) y = (x : EReal) := by
  have hN : cfg1.N = 16 := N_1
  have ht : t.val < 16 := hN ▸ t.isLt
  obtain ⟨u, r, d, rfl⟩ : ∃ (u : Fin 1) (r : Fin 1024) (d : Fin 1024), y = ix3 u r d := ⟨y 0, y 1, y 2, eq_ix3 y⟩
  obtain rfl : u = 0 := Subsingleton.elim _ _
  rw [iblk1_2_apply V c t r d (ix3 ⟨t.val / 4, by omega⟩ ⟨t.val % 2 * 1024 + r.val, by have := r.isLt; omega⟩ d) rfl rfl rfl]
  exact hz _

/-- Two consecutive key (or value) tiles of one batch entry, side by side, are the entry's 2048 rows. -/
theorem rows2_iblk1_1 (c : Dev nD) (n : ℕ) (hn : n < cfg1.N) (h : n % 2 = 1) (hn1 : n - 1 < cfg1.N) (b : Fin 4) (hb : b.val = n / 4) :
    rows2 (iblk1 (F := Ideal) V c 1 ⟨n - 1, hn1⟩) (iblk1 (F := Ideal) V c 1 ⟨n, hn⟩) = fun k d => (V c main_v3 : S4x2048x1024.Idx → EReal) (ix3 b k d) := by
  funext k d
  unfold rows2
  split
  · rename_i hk
    exact iblk1_1_apply V c ⟨n - 1, hn1⟩ ⟨k.val, hk⟩ d (ix3 b k d) (by show b.val = (n - 1) / 4; omega)
      (by show k.val = (n - 1) % 2 * 1024 + k.val; omega) rfl
  · rename_i hk
    exact iblk1_1_apply V c ⟨n, hn⟩ ⟨k.val - 1024, by have := k.isLt; omega⟩ d (ix3 b k d) (by show b.val = n / 4; omega)
      (by show k.val = n % 2 * 1024 + (k.val - 1024); omega) rfl

theorem rows2_iblk1_2 (c : Dev nD) (n : ℕ) (hn : n < cfg1.N) (h : n % 2 = 1) (hn1 : n - 1 < cfg1.N) (b : Fin 4) (hb : b.val = n / 4) :
    rows2 (iblk1 (F := Ideal) V c 2 ⟨n - 1, hn1⟩) (iblk1 (F := Ideal) V c 2 ⟨n, hn⟩) = fun k d => (V c main_v3 : S4x2048x1024.Idx → EReal) (ix3 b k d) := by
  funext k d
  unfold rows2
  split
  · rename_i hk
    exact iblk1_2_apply V c ⟨n - 1, hn1⟩ ⟨k.val, hk⟩ d (ix3 b k d) (by show b.val = (n - 1) / 4; omega)
      (by show k.val = (n - 1) % 2 * 1024 + k.val; omega) rfl
  · rename_i hk
    exact iblk1_2_apply V c ⟨n, hn⟩ ⟨k.val - 1024, by have := k.isLt; omega⟩ d (ix3 b k d) (by show b.val = n / 4; omega)
      (by show k.val = n % 2 * 1024 + (k.val - 1024); omega) rfl

/-- An odd point's output tile, row by row, is the second stage of the entry contents at the tile's rows. -/
theorem outOdd1_apply (hpay : Pay1Spec) (c : Dev nD) (hq : ∀ i, (V c main_v2 : S4x2048x1024.Idx → EReal) i = (V c main_v1 : S4x2048x1024.Idx → EReal) i)
    (hh : ∀ i, ∃ x : ℝ, (V c main_v1 : S4x2048x1024.Idx → EReal) i = (x : EReal)) (hz : ∀ i, ∃ x : ℝ, (V c main_v3 : S4x2048x1024.Idx → EReal) i = (x : EReal))
    (n : ℕ) (hn : n < cfg1.N) (h : n % 2 = 1) (r d : Fin 1024) (i : S4x2048x1024.Idx)
    (hi0 : (i 0).val = n / 4) (hi1 : (i 1).val = n / 2 % 2 * 1024 + r.val) (hi2 : (i 2).val = d.val) :
    (outOdd1 (F := Ideal) V c n hn h : S1x1024x1024.Idx → EReal) (ix3 0 r d) = G1 V c i := by
  have hN : cfg1.N = 16 := N_1
  have hn1 : n - 1 < cfg1.N := by omega
  have hX0 : (iblk1 (F := Ideal) V c 0 ⟨n - 1, hn1⟩) = (iblk1 (F := Ideal) V c 0 ⟨n, hn⟩) := by
    funext y
    obtain ⟨u, r', d', rfl⟩ : ∃ (u : Fin 1) (r' : Fin 1024) (d' : Fin 1024), y = ix3 u r' d' := ⟨y 0, y 1, y 2, eq_ix3 y⟩
    obtain rfl : u = 0 := Subsingleton.elim _ _
    have hr := r'.isLt
    rw [iblk1_0_apply V c ⟨n - 1, hn1⟩ r' d' (ix3 ⟨n / 4, by omega⟩ ⟨n / 2 % 2 * 1024 + r'.val, by omega⟩ d')
        (by show n / 4 = (n - 1) / 4; omega) (by show n / 2 % 2 * 1024 + r'.val = (n - 1) / 2 % 2 * 1024 + r'.val; omega) rfl,
      iblk1_0_apply V c ⟨n, hn⟩ r' d' (ix3 ⟨n / 4, by omega⟩ ⟨n / 2 % 2 * 1024 + r'.val, by omega⟩ d') rfl rfl rfl]
  rw [outOdd1_eq V c n hn h, sA1_0_eq V c (n - 1) _ _, sA1_1_eq V c (n - 1) _ _, sA1_2_eq V c (n - 1) _ _, hX0]
  refine (cross_row hpay (iblk1 (F := Ideal) V c 0 ⟨n, hn⟩) (iblk1 (F := Ideal) V c 1 ⟨n - 1, hn1⟩) (iblk1 (F := Ideal) V c 1 ⟨n, hn⟩) (iblk1 (F := Ideal) V c 2 ⟨n - 1, hn1⟩) (iblk1 (F := Ideal) V c 2 ⟨n, hn⟩) (iblk1 (F := Ideal) V c 3 ⟨n, hn⟩) (iblk1 (F := Ideal) V c 4 ⟨n, hn⟩) (iblk1 (F := Ideal) V c 5 ⟨n, hn⟩)
    (iblk1_0_real V c hq hh ⟨n, hn⟩) (iblk1_1_real V c hz ⟨n - 1, hn1⟩) (iblk1_1_real V c hz ⟨n, hn⟩)
    (iblk1_2_real V c hz ⟨n - 1, hn1⟩) (iblk1_2_real V c hz ⟨n, hn⟩) r d).trans ?_
  have hb : (i 0).val < 4 := (i 0).isLt
  rw [rows2_iblk1_1 V c n hn h hn1 ⟨(i 0).val, hb⟩ hi0, rows2_iblk1_2 V c n hn h hn1 ⟨(i 0).val, hb⟩ hi0]
  have hR : ∀ j : Fin 1024, (iblk1 (F := Ideal) V c 3 ⟨n, hn⟩) (ix3 0 r j) = (V c main_v1 : S4x2048x1024.Idx → EReal) (ix3 (i 0) (i 1) j) := fun j =>
    iblk1_3_apply V c ⟨n, hn⟩ r j (ix3 (i 0) (i 1) j) hi0 hi1 rfl
  have hQr : ∀ j : Fin 1024, (iblk1 (F := Ideal) V c 0 ⟨n, hn⟩) (ix3 0 r j) = (V c main_v1 : S4x2048x1024.Idx → EReal) (ix3 (i 0) (i 1) j) := fun j => by
    rw [iblk1_0_apply V c ⟨n, hn⟩ r j (ix3 (i 0) (i 1) j) hi0 hi1 rfl, hq]
  have hg : ∀ j : Fin 1024, (iblk1 (F := Ideal) V c 4 ⟨n, hn⟩) (ix1 j) = (V c main_arg8 : S1024.Idx → EReal) (ix1 j) := fun j => iblk1_4_apply V c ⟨n, hn⟩ j
  have hβ : ∀ j : Fin 1024, (iblk1 (F := Ideal) V c 5 ⟨n, hn⟩) (ix1 j) = (V c main_arg9 : S1024.Idx → EReal) (ix1 j) := fun j => iblk1_5_apply V c ⟨n, hn⟩ j
  have hd : d = i 2 := Fin.ext hi2.symm
  simp only [hR, hQr, hg, hβ]
  unfold G1 Cert.Spec.stage2
  rw [← hd]
  rfl

/-- What an odd point writes back is its block of G1. -/
theorem flushed1_eq (hpay : Pay1Spec) (c : Dev nD) (hq : ∀ i, (V c main_v2 : S4x2048x1024.Idx → EReal) i = (V c main_v1 : S4x2048x1024.Idx → EReal) i)
    (hh : ∀ i, ∃ x : ℝ, (V c main_v1 : S4x2048x1024.Idx → EReal) i = (x : EReal)) (hz : ∀ i, ∃ x : ℝ, (V c main_v3 : S4x2048x1024.Idx → EReal) i = (x : EReal))
    (t : Fin cfg1.N) (hf : (cfg1.win 6).flush t = true) :
    (dat1 (F := Ideal) V c).flushed 6 t = ((cfg1.win 6).blk t).view.read (Elt Ideal) (G1 V c) := by
  have h1 : t.val % 2 = 1 := (flush1_6 t).mp hf
  show (cfg1.win 6).cut (grid1.coords t) ((dat1 (F := Ideal) V c).after 6 t) = _
  rw [after1_6 V c t h1]
  obtain ⟨-, -, -, -, -, ⟨e0, e1, e2⟩⟩ := idx_facts1 t
  funext j
  obtain ⟨u, r, d, rfl⟩ : ∃ (u : Fin 1) (r : Fin 1024) (d : Fin 1024), j = ix3 u r d := ⟨j 0, j 1, j 2, eq_ix3 j⟩
  obtain rfl : u = 0 := Subsingleton.elim _ _
  show (outOdd1 (F := Ideal) V c t.val t.isLt h1 : S1x1024x1024.Idx → EReal) (ix3 0 r d) = G1 V c (((cfg1.win 6).blk t).view.emb (ix3 0 r d))
  exact outOdd1_apply V hpay c hq hh hz t.val t.isLt h1 r d _
    (by show win1_6.index t (0 : Fin 3) * 1 + 1 * 0 = t.val / 4; omega)
    (by show win1_6.index t (1 : Fin 3) * 1024 + 1 * r.val = t.val / 2 % 2 * 1024 + r.val; omega)
    (by show win1_6.index t (2 : Fin 3) * 1024 + 1 * d.val = d.val; omega)

/-- An index of the array is in point t's block iff each coordinate is in the block's range on its axis. -/
theorem mem_blk1 (t : Fin cfg1.N) (i : S4x2048x1024.Idx) :
    i ∈ ((cfg1.win 6).blk t).view.set ↔ ∀ a : Fin 3, win1_6.index t a * S1x1024x1024.size a ≤ (i a).val ∧ (i a).val < win1_6.index t a * S1x1024x1024.size a + S1x1024x1024.size a := by
  show i ∈ ((View.whole main_v4).slice (win1_6.rect t)).set ↔ _
  rw [View.set_slice_whole, Rect.mem_set_unit]
  exact Iff.rfl

/-- Every index is in the block of an odd point: row q of batch entry b is written at point b·4 + (q / 1024)·2 + 1. -/
theorem cover1 (i : S4x2048x1024.Idx) : ∃ t : Fin cfg1.N, (cfg1.win 6).flush t = true ∧ i ∈ ((cfg1.win 6).blk t).view.set := by
  have hi0 : (i 0).val < 4 := (i 0).isLt
  have hi1 : (i 1).val < 2048 := (i 1).isLt
  have hi2 : (i 2).val < 1024 := (i 2).isLt
  have hN : cfg1.N = 16 := N_1
  have ht : (i 0).val * 4 + (i 1).val / 1024 * 2 + 1 < cfg1.N := by rw [hN]; omega
  refine ⟨⟨(i 0).val * 4 + (i 1).val / 1024 * 2 + 1, ht⟩, (flush1_6 _).mpr (by show ((i 0).val * 4 + (i 1).val / 1024 * 2 + 1) % 2 = 1; omega), ?_⟩
  rw [mem_blk1]
  obtain ⟨-, -, -, -, -, ⟨e0, e1, e2⟩⟩ := idx_facts1 ⟨(i 0).val * 4 + (i 1).val / 1024 * 2 + 1, ht⟩
  intro a
  match a with
  | ⟨0, _⟩ =>
    show win1_6.index _ (0 : Fin 3) * 1 ≤ (i 0).val ∧ (i 0).val < win1_6.index _ (0 : Fin 3) * 1 + 1
    rw [e0]; show ((i 0).val * 4 + (i 1).val / 1024 * 2 + 1) / 4 * 1 ≤ (i 0).val ∧ (i 0).val < ((i 0).val * 4 + (i 1).val / 1024 * 2 + 1) / 4 * 1 + 1; omega
  | ⟨1, _⟩ =>
    show win1_6.index _ (1 : Fin 3) * 1024 ≤ (i 1).val ∧ (i 1).val < win1_6.index _ (1 : Fin 3) * 1024 + 1024
    rw [e1]; show ((i 0).val * 4 + (i 1).val / 1024 * 2 + 1) / 2 % 2 * 1024 ≤ (i 1).val ∧ (i 1).val < ((i 0).val * 4 + (i 1).val / 1024 * 2 + 1) / 2 % 2 * 1024 + 1024; omega
  | ⟨2, _⟩ =>
    show win1_6.index _ (2 : Fin 3) * 1024 ≤ (i 2).val ∧ (i 2).val < win1_6.index _ (2 : Fin 3) * 1024 + 1024
    rw [e2]; omega

/-- The output array after the region is G1 of the entry contents. -/
theorem final1 (hpay : Pay1Spec) (c : Dev nD) (hq : ∀ i, (V c main_v2 : S4x2048x1024.Idx → EReal) i = (V c main_v1 : S4x2048x1024.Idx → EReal) i)
    (hh : ∀ i, ∃ x : ℝ, (V c main_v1 : S4x2048x1024.Idx → EReal) i = (x : EReal)) (hz : ∀ i, ∃ x : ℝ, (V c main_v3 : S4x2048x1024.Idx → EReal) i = (x : EReal)) :
    (dat1 (F := Ideal) V c).arrAt 6 cfg1.N = G1 V c :=
  (dat1 (F := Ideal) V c).arrAt_eq_of_cover 6 (G1 V c) (fun t hf => flushed1_eq V hpay c hq hh hz t hf) cover1

end Cert.KernelIdeal.KV

end
-- ==== Proof.KVal2.lean ====
/-
  The feed-forward kernel's value: what its body leaves in the output tile is its payload of the seven loaded
  blocks; at the ideal values, given the payload at an index as the specification's third stage of the rows it
  reads, what each grid point writes back is its block of one whole-array function G2 of the entry contents
  (row r of the output is the third stage of row r of the input; the point r / 512 covers row r), so the
  output array ends holding G2.
-/
import proofs.«167660_j22771916603726_2_alg».proof.Proof.K2
import proofs.«167660_j22771916603726_2_alg».proof.Proof.Spec
import Idealize.ShloMosaic.Lib.Pipeline.Value
import Idealize.ShloMosaic.Lib.ValueIdx

set_option maxRecDepth 16384

noncomputable section

namespace Cert.KernelIdeal.KV

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.KF

section Piece
variable {F : FTy → Type} [FloatOps F] [Named F]

theorem hz2 : (![0, 0] : Fin 2 → Nat) = fun _ => 0 := funext fun a => by fin_cases a <;> rfl
theorem hz1 : (![0] : Fin 1 → Nat) = fun _ => 0 := funext fun a => by fin_cases a <;> rfl

set_option maxHeartbeats 2000000 in
/-- What the body leaves in the output's staging buffer is its payload of the seven loaded blocks. -/
theorem out2_7_eq (c : Dev nD) (i : grid2.Coords) (arg1 : Memref sig .tc .vmem S512x1024 .f32) (harg1 : arg1.IsWhole) (arg2 : Memref sig .tc .vmem S1024x4096 .bf16) (harg2 : arg2.IsWhole) (arg3 : Memref sig .tc .vmem S4096 .f32) (harg3 : arg3.IsWhole) (arg4 : Memref sig .tc .vmem S4096x1024 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S512x1024 .f32) (harg8 : arg8.IsWhole) (x0 : Vec F S512x1024 .f32) (x1 : Vec F S1024x4096 .bf16) (x2 : Vec F S4096 .f32) (x3 : Vec F S4096x1024 .bf16) (x4 : Vec F S1024 .f32) (x5 : Vec F S1024 .f32) (x6 : Vec F S1024 .f32) :
    out2_7 c i arg1 harg1 arg2 harg2 arg3 harg3 arg4 harg4 arg5 harg5 arg6 harg6 arg7 harg7 arg8 harg8 x0 x1 x2 x3 x4 x5 x6 = k2_pay1 x5 x6 (k2_pay2 x0 x1 x2 x3 x4) := by
  unfold out2_7
  rw [View.read_writes_eq_canon _ _ _ (cover2_7 c i arg1 harg1 arg2 harg2 arg3 harg3 arg4 harg4 arg5 harg5 arg6 harg6 arg7 harg7 arg8 harg8 x0 x1 x2 x3 x4 x5 x6)]
  unfold kernelRun2
  dsimp only
  try sl_unfold_words
  rw [View.canon_unit_zero hz2]
  simp only [View.readAt_eq_ld, harg1.read_unread, harg2.read_unread, harg3.read_unread, harg4.read_unread, harg5.read_unread,
    harg6.read_unread, harg7.read_unread, View.ld_unit_zero (S := S512x1024) hz2, View.ld_unit_zero (S := S1024x4096) hz2,
    View.ld_unit_zero (S := S4096) hz1, View.ld_unit_zero (S := S4096x1024) hz2, View.ld_unit_zero (S := S1024) hz1]
  rfl

end Piece

/-! ## From the blocks to the array, at the ideal values -/

/-- The payload at an index is the specification's third stage of the rows it reads. -/
def Pay2Spec : Prop :=
  ∀ (v0 : Vec Ideal S512x1024 .f32) (v3 : Vec Ideal S1024x4096 .bf16) (v6 : Vec Ideal S4096 .f32) (v13 : Vec Ideal S4096x1024 .bf16)
    (v16 v21 v22 : Vec Ideal S1024 .f32) (r : Fin 512) (d : Fin 1024),
    k2_pay1 (F := Ideal) v21 v22 (k2_pay2 v0 v3 v6 v13 v16) (ix2 r d)
      = Cert.Spec.stage3 (fun j => v0 (ix2 r j)) (fun j f => v3 (ix2 j f)) (fun f => v6 (ix1 f)) (fun f d => v13 (ix2 f d))
          (fun d => v16 (ix1 d)) (fun d => v21 (ix1 d)) (fun d => v22 (ix1 d)) d

variable (V : (c : Dev nD) → (b : Ref sig .tc) → Buf (Elt Ideal) ((c : Thread nD τ).loc b))

/-- What the output array ends holding: the third stage of each row of the entry contents. -/
def G2 (c : Dev nD) : S8192x1024.Idx → EReal := fun i =>
  Cert.Spec.stage3 (fun j => V c main_v5 (ix2 (i 0) j)) (fun j f => V c main_v6 (ix2 j f)) (fun f => V c main_arg3 (ix1 f))
    (fun f d => V c main_v7 (ix2 f d)) (fun d => V c main_arg5 (ix1 d)) (fun d => V c main_arg10 (ix1 d))
    (fun d => V c main_arg11 (ix1 d)) (i 1)

/-- The printed index maps, decided over the grid: the row blocks move with the point, every other window stays. -/
theorem idx_facts2 : ∀ t : Fin cfg2.N, win2_7.index t (0 : Fin 2) = t.val ∧ win2_7.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0 ∧ win2_5.index t (0 : Fin 1) = 0 ∧ win2_6.index t (0 : Fin 1) = 0 :=
  (by decide +kernel : ∀ t : Fin grid2.N, _)

theorem stage3_congr {x x' : Fin 1024 → EReal} {w1 w1' : Fin 1024 → Fin 4096 → EReal} {b1 b1' : Fin 4096 → EReal}
    {w2 w2' : Fin 4096 → Fin 1024 → EReal} {b2 b2' g g' β β' : Fin 1024 → EReal} {d d' : Fin 1024}
    (hx : x = x') (hw1 : w1 = w1') (hb1 : b1 = b1') (hw2 : w2 = w2') (hb2 : b2 = b2') (hg : g = g') (hβ : β = β') (hd : d = d') :
    Cert.Spec.stage3 x w1 b1 w2 b2 g β d = Cert.Spec.stage3 x' w1' b1' w2' b2' g' β' d' := by
  rw [hx, hw1, hb1, hw2, hb2, hg, hβ, hd]

/-- What point t writes back is block t of G2. -/
theorem flushed2_eq (hpay : Pay2Spec) (c : Dev nD) (t : Fin cfg2.N) :
    (dat2 (F := Ideal) V c).flushed 7 t = ((cfg2.win 7).blk t).view.read (Elt Ideal) (G2 V c) := by
  show (cfg2.win 7).cut (grid2.coords t) ((dat2 (F := Ideal) V c).after 7 t) = _
  rw [after2_7]
  unfold outAt2
  rw [out2_7_eq]
  obtain ⟨e70, e71, e00, e01, e10, e11, e20, e30, e31, e40, e50, e60⟩ := idx_facts2 t
  funext j
  obtain ⟨r, d, rfl⟩ : ∃ (r : Fin 512) (d : Fin 1024), j = ix2 r d := ⟨j 0, j 1, eq_ix2 j⟩
  refine (hpay (iblk2 V c 0 t) (iblk2 V c 1 t) (iblk2 V c 2 t) (iblk2 V c 3 t) (iblk2 V c 4 t) (iblk2 V c 5 t) (iblk2 V c 6 t) r d).trans ?_
  show _ = G2 V c (((cfg2.win 7).blk t).view.emb (ix2 r d))
  unfold G2
  refine stage3_congr ?_ ?_ ?_ ?_ ?_ ?_ ?_ ?_
  · funext j
    show V c main_v5 (((cfg2.win 0).blk t).view.emb (ix2 r j)) = V c main_v5 _
    refine congrArg _ (funext fun a => Fin.ext ?_)
    match a with
    | ⟨0, _⟩ => show win2_0.index t (0 : Fin 2) * 512 + 1 * r.val = win2_7.index t (0 : Fin 2) * 512 + 1 * r.val; omega
    | ⟨1, _⟩ => show win2_0.index t (1 : Fin 2) * 1024 + 1 * j.val = j.val; omega
  · funext j f
    show V c main_v6 (((cfg2.win 1).blk t).view.emb (ix2 j f)) = V c main_v6 _
    refine congrArg _ (funext fun a => Fin.ext ?_)
    match a with
    | ⟨0, _⟩ => show win2_1.index t (0 : Fin 2) * 1024 + 1 * j.val = j.val; omega
    | ⟨1, _⟩ => show win2_1.index t (1 : Fin 2) * 4096 + 1 * f.val = f.val; omega
  · funext f
    show V c main_arg3 (((cfg2.win 2).blk t).view.emb (ix1 f)) = V c main_arg3 _
    refine congrArg _ (funext fun a => Fin.ext ?_)
    match a with
    | ⟨0, _⟩ => show win2_2.index t (0 : Fin 1) * 4096 + 1 * f.val = f.val; omega
  · funext f d'
    show V c main_v7 (((cfg2.win 3).blk t).view.emb (ix2 f d')) = V c main_v7 _
    refine congrArg _ (funext fun a => Fin.ext ?_)
    match a with
    | ⟨0, _⟩ => show win2_3.index t (0 : Fin 2) * 4096 + 1 * f.val = f.val; omega
    | ⟨1, _⟩ => show win2_3.index t (1 : Fin 2) * 1024 + 1 * d'.val = d'.val; omega
  · funext d'
    show V c main_arg5 (((cfg2.win 4).blk t).view.emb (ix1 d')) = V c main_arg5 _
    refine congrArg _ (funext fun a => Fin.ext ?_)
    match a with
    | ⟨0, _⟩ => show win2_4.index t (0 : Fin 1) * 1024 + 1 * d'.val = d'.val; omega
  · funext d'
    show V c main_arg10 (((cfg2.win 5).blk t).view.emb (ix1 d')) = V c main_arg10 _
    refine congrArg _ (funext fun a => Fin.ext ?_)
    match a with
    | ⟨0, _⟩ => show win2_5.index t (0 : Fin 1) * 1024 + 1 * d'.val = d'.val; omega
  · funext d'
    show V c main_arg11 (((cfg2.win 6).blk t).view.emb (ix1 d')) = V c main_arg11 _
    refine congrArg _ (funext fun a => Fin.ext ?_)
    match a with
    | ⟨0, _⟩ => show win2_6.index t (0 : Fin 1) * 1024 + 1 * d'.val = d'.val; omega
  · apply Fin.ext
    show d.val = win2_7.index t (1 : Fin 2) * 1024 + 1 * d.val
    omega

/-- An index of the array is in point t's block iff each coordinate is in the block's range on its axis. -/
theorem mem_blk2 (t : Fin cfg2.N) (i : S8192x1024.Idx) :
    i ∈ ((cfg2.win 7).blk t).view.set ↔ ∀ a : Fin 2, win2_7.index t a * S512x1024.size a ≤ (i a).val ∧ (i a).val < win2_7.index t a * S512x1024.size a + S512x1024.size a := by
  show i ∈ ((View.whole main_v8).slice (win2_7.rect t)).set ↔ _
  rw [View.set_slice_whole, Rect.mem_set_unit]
  exact Iff.rfl

/-- Every index is in some point's block: row r is in the block of point r / 512. -/
theorem cover2 (i : S8192x1024.Idx) : ∃ t : Fin cfg2.N, (cfg2.win 7).flush t = true ∧ i ∈ ((cfg2.win 7).blk t).view.set := by
  have hi0 : (i 0).val < 8192 := (i 0).isLt
  have hi1 : (i 1).val < 1024 := (i 1).isLt
  have hN : cfg2.N = 16 := N_2
  refine ⟨⟨(i 0).val / 512, by rw [hN]; omega⟩, flush2_7 _, ?_⟩
  rw [mem_blk2]
  obtain ⟨e70, e71, -⟩ := idx_facts2 ⟨(i 0).val / 512, by rw [hN]; omega⟩
  intro a
  match a with
  | ⟨0, _⟩ =>
    show win2_7.index _ (0 : Fin 2) * 512 ≤ (i 0).val ∧ (i 0).val < win2_7.index _ (0 : Fin 2) * 512 + 512
    rw [e70]; show (i 0).val / 512 * 512 ≤ (i 0).val ∧ (i 0).val < (i 0).val / 512 * 512 + 512; omega
  | ⟨1, _⟩ =>
    show win2_7.index _ (1 : Fin 2) * 1024 ≤ (i 1).val ∧ (i 1).val < win2_7.index _ (1 : Fin 2) * 1024 + 1024
    rw [e71]; omega

/-- The output array after the region is G2 of the entry contents. -/
theorem final2 (hpay : Pay2Spec) (c : Dev nD) : (dat2 (F := Ideal) V c).arrAt 7 cfg2.N = G2 V c :=
  (dat2 (F := Ideal) V c).arrAt_eq_of_cover 7 (G2 V c) (fun t _ => flushed2_eq V hpay c t) (cover2)

end Cert.KernelIdeal.KV

end
-- ==== Proof.KPayLib.lean ====
/-
  Vector operations read at an index given by coordinates, at the ideal values: the keepdims column forms of a shape cast
  and a broadcast ([a] → [a,1], [a,1] → [a,b]), a lane sum and a lane maximum of a matrix, and a plain matrix product
  into a zero accumulator, each as the textbook expression in the entries.
-/
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StackMember

noncomputable section

namespace Cert.KPay

open Idealize.ShloMosaic Idealize.ShloMosaic.ValueIdx
open scoped BigOperators

section Layout
variable {α : Type}

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The reciprocal square root and the exponential of a vector, at an index. -/
theorem rsqrt_apply {s : Shape} {φ : FTy} (a : FVec Ideal s φ) (i : s.Idx) : rsqrt a i = Ideal.rsqrt (a i) := rfl
theorem exp_apply {s : Shape} {φ : FTy} (a : FVec Ideal s φ) (i : s.Idx) : exp a i = Ideal.exp (a i) := rfl

/-- A lane sum of an [a, b] matrix, at row p, is the sum of the row's entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec (FTy.bits .f32)) = 0x00000000#32) (p : Fin a) :
    multiReduction (F := Ideal) .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun ax => Fin.ext (by
      match ax with
      | ⟨0, _⟩ => rfl
      | ⟨1, _⟩ => rfl)))

/-- A plain [m, k] × [k, n] matrix product into the zero accumulator, at (a, b), is the sum over the contracted
    coordinate of the products of the entries. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply]
  exact (Ideal.dotGeneral_apply (DotDims.plain m k n) prec _ A B (ix2 a b)).symm.trans
    (StackMember.dotGeneral_plain_apply prec A B a b)

end Cert.KPay

end
-- ==== Proof.KPayConsts.lean ====
/-
  Three more float constants of the kernels as extended reals: 1, −∞, and the masked score, which the certificate's
  table of named constants reads as −∞.
-/
import Idealize.ShloMosaic.PureOps.IdealRules
import proofs.«167660_j22771916603726_2_alg».proof.Proof.Gen.KernelIdeal.Skeleton

noncomputable section

namespace Cert.KPay

open Idealize.ShloMosaic

/-- The float 1. -/
theorem one_eq : Ideal.ofBits .f32 0x3F800000#32 = 1 := by
  simp [Ideal.ofBits, Ideal.ieee, -EReal.coe_mul]; norm_num

/-- The float −∞. -/
theorem neg_inf_eq : Ideal.ofBits .f32 0xFF800000#32 = ⊥ := by
  simp [Ideal.ofBits, Ideal.ieee]

/-- The masked score is −∞ by the table of named constants. -/
theorem neg_big_eq : Named.named (F := Ideal) Cert.KernelIdeal.κ "neg_big" (φ := .f32) 0xF149F2CA#32 = ⊥ :=
  IdealRules.named_const.ideal_named_scalar _ _ _ _ rfl

end Cert.KPay

end
-- ==== Proof.KPay0.lean ====
/-
  The causal-attention kernel's payloads read at an index: the scores of a tile (dot products times 2⁻⁵, −∞ above the
  diagonal), the running maximum, the rescaling factor exp(m − m'), the weights exp(s − m'), the running denominator and
  numerator, and the final normalisation of the residual row.
-/
import proofs.«167660_j22771916603726_2_alg».proof.Proof.Gen.KernelIdeal.Skeleton
import proofs.«167660_j22771916603726_2_alg».proof.Proof.Spec
import proofs.«167660_j22771916603726_2_alg».proof.Proof.KPayLib
import proofs.«167660_j22771916603726_2_alg».proof.Proof.KPayConsts

noncomputable section

namespace Cert.KPay

open Idealize.ShloMosaic Idealize.ShloMosaic.ValueIdx Cert.KernelIdeal Cert.KernelIdeal.Gen
open scoped BigOperators

theorem dot_1024 : dot_S1024x1024_S1024x1024_S1024x1024_1_0_0_1_n_n = DotDims.plain 1024 1024 1024 := rfl

/-- The reset values of the running maximum, denominator and numerator. -/
theorem k0_pay1_apply (r : Fin 1024) : k0_pay1 (F := Ideal) (ix2 r (0 : Fin 1)) = ⊥ := by
  unfold k0_pay1
  simp only [shapeCast_self, broadcast_apply, Ideal.ofBits_def, neg_inf_eq]

theorem k0_pay2_apply (r : Fin 1024) : k0_pay2 (F := Ideal) (ix2 r (0 : Fin 1)) = 0 := by
  unfold k0_pay2
  simp only [shapeCast_self, broadcast_apply, Ideal.ofBits_def, Ideal.ofBits_zero_f32]

theorem k0_pay3_apply (r d : Fin 1024) : k0_pay3 (F := Ideal) (ix2 r d) = 0 := by
  unfold k0_pay3
  simp only [shapeCast_self, broadcast_apply, Ideal.ofBits_def, Ideal.ofBits_zero_f32]

/-- The new numerator: the old one rescaled plus the weights times the value rows. -/
theorem k0_pay4_apply (v14 : FVec Ideal S1024x1024 .bf16) (v35 : FVec Ideal S1024x1 .f32) (v38 : FVec Ideal S1024x1024 .f32)
    (v47 : Vec Ideal S1024x1024 .f32) (r d : Fin 1024) :
    k0_pay4 (F := Ideal) v14 v35 v38 v47 (ix2 r d)
      = v35 (ix2 r (0 : Fin 1)) * v47 (ix2 r d) + ∑ s : Fin 1024, v38 (ix2 r s) * v14 (ix2 s d) := by
  unfold k0_pay4
  simp only [dot_1024, shapeCast_self, addf_apply, mulf_apply, truncf_apply, broadcastTo_a1_ab_apply, matmul_plain_zero_apply]

theorem k0_pay5_eq (v33 : FVec Ideal S1024x1 .f32) : k0_pay5 (F := Ideal) v33 = v33 := by
  unfold k0_pay5
  simp only [shapeCast_self]

theorem k0_pay7_apply (v13 : Vec Ideal S1x1024x1024 .bf16) (r d : Fin 1024) :
    k0_pay7 (F := Ideal) v13 (ix2 r d) = v13 (ix3 (0 : Fin 1) r d) := by
  unfold k0_pay7
  simp only [shapeCast_1ab_ab_apply]

set_option maxHeartbeats 1000000 in
/-- The stored block: the residual row plus numerator times the reciprocal of the denominator, normalised. -/
theorem k0_pay6_apply (v9 : Vec Ideal S1024x1024 .f32) (v10 : Vec Ideal S1024x1 .f32) (v15 : Vec Ideal S1x1024x1024 .f32)
    (v18 v19 : Vec Ideal S1024 .f32) (r d : Fin 1024) :
    k0_pay6 (F := Ideal) v9 v10 v15 v18 v19 (ix3 (0 : Fin 1) r d)
      = Cert.Spec.ln (fun j => v15 (ix3 (0 : Fin 1) r j) + v9 (ix2 r j) * Ideal.div 1 (v10 (ix2 r (0 : Fin 1))))
          (fun j => v18 (ix1 j)) (fun j => v19 (ix1 j)) d := by
  unfold k0_pay6 Cert.Spec.ln Cert.Spec.var Cert.Spec.mean Cert.Spec.c1024 Cert.Spec.eps
  simp only [addf_apply, mulf_apply, subf_apply, divf_apply, broadcast_apply, rsqrt_apply, shapeCast_self,
    broadcastTo_a1_ab_apply, broadcastTo_1b_ab_apply, shapeCast_a_a1_apply, shapeCast_a_1a_apply, shapeCast_1ab_ab_apply,
    shapeCast_ab_1ab_apply, laneSum_apply (a := 1024) (b := 1024), Ideal.ofBits_def, one_eq]

end Cert.KPay

end
-- ==== Proof.KPayLib2.lean ====
/-
  More vector operations read at an index: a lane maximum of a matrix as the supremum of the row, the coordinate iotas,
  the integer operations, and the causal comparison "key position ≤ query position" on 32-bit words for positions
  below 2048.
-/
import proofs.«167660_j22771916603726_2_alg».proof.Proof.KPayLib
import proofs.«167660_j22771916603726_2_alg».proof.Proof.KPayConsts

noncomputable section

namespace Cert.KPay

open Idealize.ShloMosaic Idealize.ShloMosaic.ValueIdx
open scoped BigOperators

/-- A lane maximum of an [a, b] matrix from −∞, at row p, is the supremum of the row's entries. -/
theorem laneMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec (FTy.bits .f32)) = 0xFF800000#32) (p : Fin a) :
    multiReduction (F := Ideal) .maximumf [1] ⟨1, ![a]⟩ src 0xFF800000#32 h hφ hacc (ix1 p)
      = Finset.univ.sup fun k : Fin b => src (ix2 p k) := by
  refine (Ideal.multiReduction_maximumf_single src 0xFF800000#32 h hφ hacc (ix1 p)).trans ?_
  have e : (src ∘ h.lift (ix1 p)) = fun k : Fin b => src (ix2 p k) := funext fun k => congrArg src (funext fun ax => Fin.ext (by
    match ax with
    | ⟨0, _⟩ => rfl
    | ⟨1, _⟩ => rfl))
  rw [e, Ideal.ofBits_def, neg_inf_eq]
  rfl

theorem cmpi_apply {s : Shape} {w : ℕ} (p : CmpIPredicate) (x y : IVec s w) (i : s.Idx) :
    cmpi p x y i = IntOp.cmpi p (x i) (y i) := rfl
theorem addi_apply {s : Shape} {w : ℕ} (x y : IVec s w) (i : s.Idx) : addi x y i = IntOp.addi (x i) (y i) := rfl

/-- The row and column iotas of a matrix read the coordinates. -/
theorem iota0_apply {a b : ℕ} (h : (⟨2, ![a, b]⟩ : Shape).Iotas .tc 32 [0]) (r : Fin a) (s : Fin b) :
    iota .tc ⟨2, ![a, b]⟩ 32 [0] h (ix2 r s) = BitVec.ofNat 32 r.val := iota_single_apply _ _ _ _ h _
theorem iota1_apply {a b : ℕ} (h : (⟨2, ![a, b]⟩ : Shape).Iotas .tc 32 [1]) (r : Fin a) (s : Fin b) :
    iota .tc ⟨2, ![a, b]⟩ 32 [1] h (ix2 r s) = BitVec.ofNat 32 s.val := iota_single_apply _ _ _ _ h _

theorem small_toInt (m : ℕ) (hm : m < 2048) : (BitVec.ofNat 32 m).toInt = (m : ℤ) := by
  have h1 : (BitVec.ofNat 32 m).toNat = m := by rw [BitVec.toNat_ofNat]; omega
  rw [BitVec.toInt_eq_toNat_of_lt (by rw [h1]; omega), h1]

theorem small_sle (m n : ℕ) (hm : m < 2048) (hn : n < 2048) :
    (BitVec.ofNat 32 m).sle (BitVec.ofNat 32 n) = decide (m ≤ n) := by
  rw [BitVec.sle_eq_decide, small_toInt m hm, small_toInt n hn]
  congr 1
  apply propext
  omega

/-- The causal comparison: tile qi, row r against tile kv, column s — signed "≥" on the words is "≤" on the positions. -/
theorem causal_bit (qi kv : ℕ) (hq : qi < 2) (hk : kv < 2) (r s : Fin 1024) :
    IntOp.cmpi .sge (IntOp.addi (Scalar.muli (BitVec.ofNat 32 qi) 1024#32) (BitVec.ofNat 32 r.val))
                    (IntOp.addi (Scalar.muli (BitVec.ofNat 32 kv) 1024#32) (BitVec.ofNat 32 s.val))
      = if kv * 1024 + s.val ≤ qi * 1024 + r.val then 1#1 else 0#1 := by
  have hr := r.isLt
  have hs := s.isLt
  unfold IntOp.cmpi IntOp.addi Scalar.muli IntOp.muli
  show BitVec.ofBool ((BitVec.ofNat 32 kv * BitVec.ofNat 32 1024 + BitVec.ofNat 32 s.val).sle
    (BitVec.ofNat 32 qi * BitVec.ofNat 32 1024 + BitVec.ofNat 32 r.val)) = _
  rw [← BitVec.ofNat_mul, ← BitVec.ofNat_mul, ← BitVec.ofNat_add, ← BitVec.ofNat_add,
    small_sle _ _ (by omega) (by omega)]
  by_cases h : kv * 1024 + s.val ≤ qi * 1024 + r.val
  · rw [if_pos h, decide_eq_true h]; rfl
  · rw [if_neg h, decide_eq_false h]; rfl

end Cert.KPay

end
-- ==== Proof.KPay0S.lean ====
/-
  The causal-attention kernel's softmax payloads read at an index: the scores of a tile (dot products times 2⁻⁵, −∞ where
  the key position is after the query position), the new running maximum, the rescaling factor exp(m − m'), the weights
  exp(s − m') and the new running denominator.
-/
import proofs.«167660_j22771916603726_2_alg».proof.Proof.Gen.KernelIdeal.Skeleton
import proofs.«167660_j22771916603726_2_alg».proof.Proof.KPayLib2

noncomputable section

namespace Cert.KPay

open Idealize.ShloMosaic Idealize.ShloMosaic.ValueIdx Cert.KernelIdeal Cert.KernelIdeal.Gen
open scoped BigOperators

theorem dot_1024s : dot_S1024x1024_S1024x1024_S1024x1024_1_0_0_1_n_n = DotDims.plain 1024 1024 1024 := rfl

/-- The scores of query tile qi against key tile kv at (r, s). -/
theorem k0_pay8_apply (qi kv : ℕ) (hq : qi < 2) (hk : kv < 2) (arg1 arg2 : BitVec 32) (h1 : arg1 = BitVec.ofNat 32 qi)
    (h2 : arg2 = BitVec.ofNat 32 kv) (v9 v11 : Vec Ideal S1x1024x1024 .bf16) (r s : Fin 1024) :
    k0_pay8 (F := Ideal) arg1 arg2 v9 v11 (ix2 r s)
      = if kv * 1024 + s.val ≤ qi * 1024 + r.val then
          (∑ d : Fin 1024, v9 (ix3 (0 : Fin 1) r d) * v11 (ix3 (0 : Fin 1) s d)) * Ideal.ofBits .f32 0x3D000000#32
        else ⊥ := by
  subst h1 h2
  unfold k0_pay8
  simp only [dot_1024s, select_apply, cmpi_apply, addi_apply, broadcast_apply, iota0_apply (a := 1024) (b := 1024),
    iota1_apply (a := 1024) (b := 1024), mulf_apply,
    shapeCast_1ab_ab_apply, transpose_ix2_apply (a := 1024) (b := 1024), matmul_plain_zero_apply, Ideal.ofBits_def,
    neg_big_eq,
    causal_bit qi kv hq hk]
  split_ifs with h
  · exact select_one _ _
  · exact select_zero _ _

/-- The new running maximum. -/
theorem k0_pay9_apply (arg1 arg2 : BitVec 32) (v9 v11 : Vec Ideal S1x1024x1024 .bf16) (v30 : Vec Ideal S1024x1 .f32)
    (r : Fin 1024) :
    k0_pay9 (F := Ideal) arg1 arg2 v9 v11 v30 (ix2 r (0 : Fin 1))
      = max (v30 (ix2 r (0 : Fin 1)))
          (Finset.univ.sup fun s : Fin 1024 => k0_pay8 (F := Ideal) arg1 arg2 v9 v11 (ix2 r s)) :=
  congrArg (max (v30 (ix2 r (0 : Fin 1))))
    ((shapeCast_a_a1_apply _ shapeCasts_S1024_S1024x1 r (0 : Fin 1)).trans
      (laneMax_apply (k0_pay8 (F := Ideal) arg1 arg2 v9 v11) reduces_S1024x1024_S1024 _ _ r))

/-- The rescaling factor. -/
theorem k0_pay10_apply (arg1 arg2 : BitVec 32) (v9 v11 : Vec Ideal S1x1024x1024 .bf16) (v30 : Vec Ideal S1024x1 .f32)
    (r : Fin 1024) :
    k0_pay10 (F := Ideal) arg1 arg2 v9 v11 v30 (ix2 r (0 : Fin 1))
      = Ideal.exp (v30 (ix2 r (0 : Fin 1)) - k0_pay9 (F := Ideal) arg1 arg2 v9 v11 v30 (ix2 r (0 : Fin 1))) := by
  unfold k0_pay10
  simp only [exp_apply, subf_apply]

/-- The weights. -/
theorem k0_pay11_apply (arg1 arg2 : BitVec 32) (v9 v11 : Vec Ideal S1x1024x1024 .bf16) (v30 : Vec Ideal S1024x1 .f32)
    (r s : Fin 1024) :
    k0_pay11 (F := Ideal) arg1 arg2 v9 v11 v30 (ix2 r s)
      = Ideal.exp (k0_pay8 (F := Ideal) arg1 arg2 v9 v11 (ix2 r s)
          - k0_pay9 (F := Ideal) arg1 arg2 v9 v11 v30 (ix2 r (0 : Fin 1))) := by
  unfold k0_pay11
  simp only [exp_apply, subf_apply, broadcastTo_a1_ab_apply]

/-- The new running denominator. -/
theorem k0_pay12_apply (arg1 arg2 : BitVec 32) (v9 v11 : Vec Ideal S1x1024x1024 .bf16) (v30 v39 : Vec Ideal S1024x1 .f32)
    (r : Fin 1024) :
    k0_pay12 (F := Ideal) arg1 arg2 v9 v11 v30 v39 (ix2 r (0 : Fin 1))
      = k0_pay10 (F := Ideal) arg1 arg2 v9 v11 v30 (ix2 r (0 : Fin 1)) * v39 (ix2 r (0 : Fin 1))
        + ∑ s : Fin 1024, k0_pay11 (F := Ideal) arg1 arg2 v9 v11 v30 (ix2 r s) := by
  unfold k0_pay12
  simp only [shapeCast_self, addf_apply, mulf_apply, shapeCast_a_a1_apply, laneSum_apply (a := 1024) (b := 1024)]

end Cert.KPay

end
-- ==== Proof.KPay1.lean ====
/-
  The cross-attention kernel's payloads read at an index: the reset values, the value rows, the new numerator, and the
  final normalisation of the residual row.
-/
import proofs.«167660_j22771916603726_2_alg».proof.Proof.Gen.KernelIdeal.Skeleton
import proofs.«167660_j22771916603726_2_alg».proof.Proof.Spec
import proofs.«167660_j22771916603726_2_alg».proof.Proof.KPayLib
import proofs.«167660_j22771916603726_2_alg».proof.Proof.KPayConsts

noncomputable section

namespace Cert.KPay

open Idealize.ShloMosaic Idealize.ShloMosaic.ValueIdx Cert.KernelIdeal Cert.KernelIdeal.Gen
open scoped BigOperators

theorem dot_1024' : dot_S1024x1024_S1024x1024_S1024x1024_1_0_0_1_n_n = DotDims.plain 1024 1024 1024 := rfl

/-- The new numerator: the old one rescaled plus the weights times the value rows. -/
theorem k1_pay1_apply (v8 : FVec Ideal S1024x1024 .bf16) (v21 : FVec Ideal S1024x1024 .f32) (v30 : Vec Ideal S1024x1024 .f32)
    (v31 : FVec Ideal S1024x1024 .f32) (r d : Fin 1024) :
    k1_pay1 (F := Ideal) v8 v21 v30 v31 (ix2 r d)
      = v31 (ix2 r d) * v30 (ix2 r d) + ∑ s : Fin 1024, v21 (ix2 r s) * v8 (ix2 s d) := by
  unfold k1_pay1
  simp only [dot_1024', shapeCast_self, addf_apply, mulf_apply, truncf_apply, matmul_plain_zero_apply]

theorem k1_pay2_eq (v16 : FVec Ideal S1024x1 .f32) : k1_pay2 (F := Ideal) v16 = v16 := by
  unfold k1_pay2
  simp only [shapeCast_self]

/-- The reset values of the running maximum, denominator and numerator. -/
theorem k1_pay4_apply (r : Fin 1024) : k1_pay4 (F := Ideal) (ix2 r (0 : Fin 1)) = ⊥ := by
  unfold k1_pay4
  simp only [shapeCast_self, broadcast_apply, Ideal.ofBits_def, neg_inf_eq]

theorem k1_pay5_apply (r : Fin 1024) : k1_pay5 (F := Ideal) (ix2 r (0 : Fin 1)) = 0 := by
  unfold k1_pay5
  simp only [shapeCast_self, broadcast_apply, Ideal.ofBits_def, Ideal.ofBits_zero_f32]

theorem k1_pay6_apply (r d : Fin 1024) : k1_pay6 (F := Ideal) (ix2 r d) = 0 := by
  unfold k1_pay6
  simp only [shapeCast_self, broadcast_apply, Ideal.ofBits_def, Ideal.ofBits_zero_f32]

theorem k1_pay7_apply (v7 : Vec Ideal S1x1024x1024 .bf16) (r d : Fin 1024) :
    k1_pay7 (F := Ideal) v7 (ix2 r d) = v7 (ix3 (0 : Fin 1) r d) := by
  unfold k1_pay7
  simp only [shapeCast_1ab_ab_apply]

set_option maxHeartbeats 1000000 in
/-- The stored block: the residual row plus numerator times the reciprocal of the denominator, normalised. -/
theorem k1_pay3_apply (v45 : Vec Ideal S1024x1024 .f32) (v46 : Vec Ideal S1024x1 .f32) (v51 : Vec Ideal S1x1024x1024 .f32)
    (v54 v55 : Vec Ideal S1024 .f32) (r d : Fin 1024) :
    k1_pay3 (F := Ideal) v45 v46 v51 v54 v55 (ix3 (0 : Fin 1) r d)
      = Cert.Spec.ln (fun j => v51 (ix3 (0 : Fin 1) r j) + v45 (ix2 r j) * Ideal.div 1 (v46 (ix2 r (0 : Fin 1))))
          (fun j => v54 (ix1 j)) (fun j => v55 (ix1 j)) d := by
  unfold k1_pay3 Cert.Spec.ln Cert.Spec.var Cert.Spec.mean Cert.Spec.c1024 Cert.Spec.eps
  simp only [addf_apply, mulf_apply, subf_apply, divf_apply, broadcast_apply, rsqrt_apply, shapeCast_self,
    broadcastTo_a1_ab_apply, broadcastTo_1b_ab_apply, shapeCast_a_a1_apply, shapeCast_a_1a_apply, shapeCast_1ab_ab_apply,
    shapeCast_ab_1ab_apply, laneSum_apply (a := 1024) (b := 1024), Ideal.ofBits_def, one_eq]

end Cert.KPay

end
-- ==== Proof.KPay1S.lean ====
/-
  The cross-attention kernel's softmax payloads read at an index: the scores of a tile (dot products times 2⁻⁵), the new
  running maximum, the rescaling factor exp(m − m'), the weights exp(s − m'), the new running denominator, and the
  rescaling factor spread over the row.
-/
import proofs.«167660_j22771916603726_2_alg».proof.Proof.Gen.KernelIdeal.Skeleton
import proofs.«167660_j22771916603726_2_alg».proof.Proof.KPayLib2

noncomputable section

namespace Cert.KPay

open Idealize.ShloMosaic Idealize.ShloMosaic.ValueIdx Cert.KernelIdeal Cert.KernelIdeal.Gen
open scoped BigOperators

theorem dot_1024s' : dot_S1024x1024_S1024x1024_S1024x1024_1_0_0_1_n_n = DotDims.plain 1024 1024 1024 := rfl

/-- The scores of the query rows against a memory tile at (r, s). -/
theorem k1_pay8_apply (v3 v5 : Vec Ideal S1x1024x1024 .bf16) (r s : Fin 1024) :
    k1_pay8 (F := Ideal) v3 v5 (ix2 r s)
      = (∑ d : Fin 1024, v3 (ix3 (0 : Fin 1) r d) * v5 (ix3 (0 : Fin 1) s d)) * Ideal.ofBits .f32 0x3D000000#32 := by
  unfold k1_pay8
  simp only [dot_1024s', broadcast_apply, mulf_apply, shapeCast_1ab_ab_apply,
    transpose_ix2_apply (a := 1024) (b := 1024), matmul_plain_zero_apply, Ideal.ofBits_def]

/-- The new running maximum. -/
theorem k1_pay9_apply (v3 v5 : Vec Ideal S1x1024x1024 .bf16) (v13 : Vec Ideal S1024x1 .f32) (r : Fin 1024) :
    k1_pay9 (F := Ideal) v3 v5 v13 (ix2 r (0 : Fin 1))
      = max (v13 (ix2 r (0 : Fin 1))) (Finset.univ.sup fun s : Fin 1024 => k1_pay8 (F := Ideal) v3 v5 (ix2 r s)) :=
  congrArg (max (v13 (ix2 r (0 : Fin 1))))
    ((shapeCast_a_a1_apply _ shapeCasts_S1024_S1024x1 r (0 : Fin 1)).trans
      (laneMax_apply (k1_pay8 (F := Ideal) v3 v5) reduces_S1024x1024_S1024 _ _ r))

/-- The rescaling factor. -/
theorem k1_pay10_apply (v3 v5 : Vec Ideal S1x1024x1024 .bf16) (v13 : Vec Ideal S1024x1 .f32) (r : Fin 1024) :
    k1_pay10 (F := Ideal) v3 v5 v13 (ix2 r (0 : Fin 1))
      = Ideal.exp (v13 (ix2 r (0 : Fin 1)) - k1_pay9 (F := Ideal) v3 v5 v13 (ix2 r (0 : Fin 1))) := by
  unfold k1_pay10
  simp only [exp_apply, subf_apply]

/-- The weights. -/
theorem k1_pay11_apply (v3 v5 : Vec Ideal S1x1024x1024 .bf16) (v13 : Vec Ideal S1024x1 .f32) (r s : Fin 1024) :
    k1_pay11 (F := Ideal) v3 v5 v13 (ix2 r s)
      = Ideal.exp (k1_pay8 (F := Ideal) v3 v5 (ix2 r s) - k1_pay9 (F := Ideal) v3 v5 v13 (ix2 r (0 : Fin 1))) := by
  unfold k1_pay11
  simp only [exp_apply, subf_apply, broadcastTo_a1_ab_apply]

/-- The new running denominator. -/
theorem k1_pay12_apply (v3 v5 : Vec Ideal S1x1024x1024 .bf16) (v13 v22 : Vec Ideal S1024x1 .f32) (r : Fin 1024) :
    k1_pay12 (F := Ideal) v3 v5 v13 v22 (ix2 r (0 : Fin 1))
      = k1_pay10 (F := Ideal) v3 v5 v13 (ix2 r (0 : Fin 1)) * v22 (ix2 r (0 : Fin 1))
        + ∑ s : Fin 1024, k1_pay11 (F := Ideal) v3 v5 v13 (ix2 r s) := by
  unfold k1_pay12
  simp only [shapeCast_self, addf_apply, mulf_apply, shapeCast_a_a1_apply, laneSum_apply (a := 1024) (b := 1024)]

/-- The rescaling factor spread over the row. -/
theorem k1_pay13_apply (v3 v5 : Vec Ideal S1x1024x1024 .bf16) (v13 : Vec Ideal S1024x1 .f32) (r d : Fin 1024) :
    k1_pay13 (F := Ideal) v3 v5 v13 (ix2 r d) = k1_pay10 (F := Ideal) v3 v5 v13 (ix2 r (0 : Fin 1)) := by
  unfold k1_pay13
  simp only [broadcastTo_a1_ab_apply]

end Cert.KPay

end
-- ==== Proof.KPay2.lean ====
/-
  The feed-forward kernel's two payloads, read at an index, are the specification's third stage on the row:
  the residual row x + ((Σ_f max(Σ_j x_j·w1_jf + b1_f, 0)·w2_fd) + b2_d), its mean and variance by lane sums divided by the
  row length, and (X − mean)·(var + ε)^(−1/2)·g + β.
-/
import proofs.«167660_j22771916603726_2_alg».proof.Proof.Gen.KernelIdeal.Skeleton
import proofs.«167660_j22771916603726_2_alg».proof.Proof.Spec
import proofs.«167660_j22771916603726_2_alg».proof.Proof.KPayLib

noncomputable section

namespace Cert.KPay

open Idealize.ShloMosaic Idealize.ShloMosaic.ValueIdx Cert.KernelIdeal Cert.KernelIdeal.Gen
open scoped BigOperators

theorem dot_512_1024_4096 : dot_S512x1024_S1024x4096_S512x4096_1_0_0_1_n_n = DotDims.plain 512 1024 4096 := rfl
theorem dot_512_4096_1024 : dot_S512x4096_S4096x1024_S512x1024_1_0_0_1_n_n = DotDims.plain 512 4096 1024 := rfl

set_option maxHeartbeats 1000000 in
/-- The stored block of the feed-forward kernel at (r, d). -/
theorem k2_pay (v0 : Vec Ideal S512x1024 .f32) (v3 : Vec Ideal S1024x4096 .bf16) (v6 : Vec Ideal S4096 .f32)
    (v13 : Vec Ideal S4096x1024 .bf16) (v16 v21 v22 : Vec Ideal S1024 .f32) (r : Fin 512) (d : Fin 1024) :
    k2_pay1 (F := Ideal) v21 v22 (k2_pay2 (F := Ideal) v0 v3 v6 v13 v16) (ix2 r d)
      = Cert.Spec.stage3 (fun j => v0 (ix2 r j)) (fun j f => v3 (ix2 j f)) (fun f => v6 (ix1 f)) (fun f d => v13 (ix2 f d))
          (fun d => v16 (ix1 d)) (fun d => v21 (ix1 d)) (fun d => v22 (ix1 d)) d := by
  unfold k2_pay1 k2_pay2 Cert.Spec.stage3 Cert.Spec.ln Cert.Spec.var Cert.Spec.mean Cert.Spec.hidden Cert.Spec.c1024 Cert.Spec.eps
  simp only [dot_512_1024_4096, dot_512_4096_1024, addf_apply, mulf_apply, subf_apply, divf_apply, maximumf_apply,
    truncf_apply, broadcast_apply, rsqrt_apply, shapeCast_self, broadcastTo_a1_ab_apply, broadcastTo_1b_ab_apply,
    shapeCast_a_a1_apply, shapeCast_a_1a_apply, laneSum_apply (a := 512) (b := 1024), matmul_plain_zero_apply, Ideal.ofBits_def,
    Ideal.ofBits_zero_f32]

end Cert.KPay

end
-- ==== Proof.KPaySpecs.lean ====
/-
  The three kernels' payloads at an index, at the ideal values, gathered: the facts the row theorems and the
  feed-forward kernel's value take.
-/
import proofs.«167660_j22771916603726_2_alg».proof.Proof.KRows
import proofs.«167660_j22771916603726_2_alg».proof.Proof.KPay0
import proofs.«167660_j22771916603726_2_alg».proof.Proof.KPay0S
import proofs.«167660_j22771916603726_2_alg».proof.Proof.KPay1
import proofs.«167660_j22771916603726_2_alg».proof.Proof.KPay1S
import proofs.«167660_j22771916603726_2_alg».proof.Proof.KPay2
import proofs.«167660_j22771916603726_2_alg».proof.Proof.KVal2

noncomputable section

namespace Cert.KernelIdeal.KV

open Idealize.ShloMosaic Idealize.ShloMosaic.ValueIdx
open Cert.KernelIdeal Cert.KernelIdeal.Gen

/-- The first kernel's payload facts. -/
theorem pay0 : Pay0Spec where
  reset_m := Cert.KPay.k0_pay1_apply
  reset_l := Cert.KPay.k0_pay2_apply
  reset_acc := Cert.KPay.k0_pay3_apply
  scores := fun qi kv v9 v11 r s => Cert.KPay.k0_pay8_apply qi.val kv.val qi.isLt kv.isLt _ _ rfl rfl v9 v11 r s
  newMax := Cert.KPay.k0_pay9_apply
  alpha := Cert.KPay.k0_pay10_apply
  probs := Cert.KPay.k0_pay11_apply
  newL := Cert.KPay.k0_pay12_apply
  newAcc := Cert.KPay.k0_pay4_apply
  vcast := Cert.KPay.k0_pay7_apply
  keepMax := Cert.KPay.k0_pay5_eq
  final := Cert.KPay.k0_pay6_apply

/-- The second kernel's payload facts. -/
theorem pay1 : Pay1Spec where
  reset_m := Cert.KPay.k1_pay4_apply
  reset_l := Cert.KPay.k1_pay5_apply
  reset_acc := Cert.KPay.k1_pay6_apply
  scores := Cert.KPay.k1_pay8_apply
  newMax := Cert.KPay.k1_pay9_apply
  alpha := Cert.KPay.k1_pay10_apply
  probs := Cert.KPay.k1_pay11_apply
  newL := Cert.KPay.k1_pay12_apply
  alphaB := Cert.KPay.k1_pay13_apply
  newAcc := Cert.KPay.k1_pay1_apply
  vcast := Cert.KPay.k1_pay7_apply
  keepMax := Cert.KPay.k1_pay2_eq
  final := Cert.KPay.k1_pay3_apply

/-- The third kernel's payload fact. -/
theorem pay2 : Pay2Spec := Cert.KPay.k2_pay

end Cert.KernelIdeal.KV

end
-- ==== Proof.KResult.lean ====
/-
  The kernels' result on the extended reals is the block of the argument arrays: region by region, the array each
  kernel leaves is the corresponding stage of the block applied to what the region found, the host operations between
  them change formats (the identity here) and re-lay 4 × 2048 rows as 8192 rows and back, and each stage keeps real
  rows real, which is what the next stage's running softmax needs.
-/
import proofs.«167660_j22771916603726_2_alg».proof.Proof.KFrame
import proofs.«167660_j22771916603726_2_alg».proof.Proof.KHost
import proofs.«167660_j22771916603726_2_alg».proof.Proof.KVal0
import proofs.«167660_j22771916603726_2_alg».proof.Proof.KVal1
import proofs.«167660_j22771916603726_2_alg».proof.Proof.KVal2
import proofs.«167660_j22771916603726_2_alg».proof.Proof.MathAttn4
import proofs.«167660_j22771916603726_2_alg».proof.Proof.KPaySpecs

set_option maxRecDepth 16384

noncomputable section

namespace Cert.KernelIdeal.KRes

open Idealize.ShloMosaic Idealize.ShloMosaic.TcCoe Idealize.ShloMosaic.ValueIdx
open Idealize.SL Idealize.SL.Sem
open Cert.KernelIdeal Cert.KernelIdeal.Gen Cert.KernelIdeal.KF Cert.KernelIdeal.KH Cert.KernelIdeal.KV

variable (m : (ℓ : Loc nD τ sig) → Buf (Elt Ideal) ℓ)

/-- What the first kernel leaves: stage 1 of the input. -/
theorem X2_eq (hp0 : Pay0Spec) (c : Dev nD) (hy : ∀ i, ∃ r : ℝ, ((m ((c.tc : Thread nD τ).loc main_arg0)) : S4x2048x1024.Idx → EReal) i = (r : EReal)) (hg : ∀ i, ∃ r : ℝ, ((m ((c.tc : Thread nD τ).loc main_arg6)) : S1024.Idx → EReal) i = (r : EReal)) (hb : ∀ i, ∃ r : ℝ, ((m ((c.tc : Thread nD τ).loc main_arg7)) : S1024.Idx → EReal) i = (r : EReal)) :
    X2 m c = G0 (Vr1 m) c :=
  final0 (Vr1 m) hp0 c
    (fun i => (V1_v0 m c i).trans (congrFun (V1_arg m c main_arg0 (by decide)) i).symm)
    (fun i => (hy i).imp fun r hr => (congrFun (V1_arg m c main_arg0 (by decide)) i).trans hr)
    (fun i => (hg i).imp fun r hr => (congrFun (V1_arg m c main_arg6 (by decide)) i).trans hr)
    (fun i => (hb i).imp fun r hr => (congrFun (V1_arg m c main_arg7 (by decide)) i).trans hr)

/-- Stage 1 read at an index of the launch arrays. -/
theorem X2_apply (hp0 : Pay0Spec) (c : Dev nD) (hy : ∀ i, ∃ r : ℝ, ((m ((c.tc : Thread nD τ).loc main_arg0)) : S4x2048x1024.Idx → EReal) i = (r : EReal)) (hg : ∀ i, ∃ r : ℝ, ((m ((c.tc : Thread nD τ).loc main_arg6)) : S1024.Idx → EReal) i = (r : EReal)) (hb : ∀ i, ∃ r : ℝ, ((m ((c.tc : Thread nD τ).loc main_arg7)) : S1024.Idx → EReal) i = (r : EReal)) (b : Fin 4) (k : Fin 2048) (d : Fin 1024) :
    (X2 m c : S4x2048x1024.Idx → EReal) (ix3 b k d) = Cert.Spec.stage1 (fun k d => ((m ((c.tc : Thread nD τ).loc main_arg0)) : S4x2048x1024.Idx → EReal) (ix3 b k d)) (fun d => ((m ((c.tc : Thread nD τ).loc main_arg6)) : S1024.Idx → EReal) (ix1 d)) (fun d => ((m ((c.tc : Thread nD τ).loc main_arg7)) : S1024.Idx → EReal) (ix1 d)) k d := by
  refine (congrFun (X2_eq m hp0 c hy hg hb) (ix3 b k d)).trans ?_
  show Cert.Spec.stage1 (fun k d => (V1 m c main_arg0 : S4x2048x1024.Idx → EReal) (ix3 b k d)) (fun d => (V1 m c main_arg6 : S1024.Idx → EReal) (ix1 d)) (fun d => (V1 m c main_arg7 : S1024.Idx → EReal) (ix1 d)) k d = _
  rw [V1_arg m c main_arg0 (by decide), V1_arg m c main_arg6 (by decide), V1_arg m c main_arg7 (by decide)]

/-- Stage 1 of real data is real. -/
theorem X2_real (hp0 : Pay0Spec) (c : Dev nD) (hy : ∀ i, ∃ r : ℝ, ((m ((c.tc : Thread nD τ).loc main_arg0)) : S4x2048x1024.Idx → EReal) i = (r : EReal)) (hg : ∀ i, ∃ r : ℝ, ((m ((c.tc : Thread nD τ).loc main_arg6)) : S1024.Idx → EReal) i = (r : EReal)) (hb : ∀ i, ∃ r : ℝ, ((m ((c.tc : Thread nD τ).loc main_arg7)) : S1024.Idx → EReal) i = (r : EReal)) (i : S4x2048x1024.Idx) :
    ∃ r : ℝ, (X2 m c : S4x2048x1024.Idx → EReal) i = (r : EReal) := by
  obtain ⟨y', e1⟩ := Cert.MathAttn.exists_real2 (fun k d => ((m ((c.tc : Thread nD τ).loc main_arg0)) : S4x2048x1024.Idx → EReal) (ix3 (i 0) k d)) (fun k d => hy _)
  obtain ⟨g', e2⟩ := Cert.MathAttn.exists_real1 (fun d => ((m ((c.tc : Thread nD τ).loc main_arg6)) : S1024.Idx → EReal) (ix1 d)) (fun d => hg _)
  obtain ⟨b', e3⟩ := Cert.MathAttn.exists_real1 (fun d => ((m ((c.tc : Thread nD τ).loc main_arg7)) : S1024.Idx → EReal) (ix1 d)) (fun d => hb _)
  obtain ⟨r, hr⟩ := Cert.MathAttn.stage1_real y' g' b' (i 1) (i 2)
  have h := X2_apply m hp0 c hy hg hb (i 0) (i 1) (i 2)
  rw [e1, e2, e3] at h
  exact ⟨r, ((congrArg (X2 m c : S4x2048x1024.Idx → EReal) (eq_ix3 i)).trans h).trans hr⟩

/-- What the second kernel leaves: stage 2 of the first kernel's result and the memory. -/
theorem X4_eq (hp0 : Pay0Spec) (hp1 : Pay1Spec) (c : Dev nD) (hy : ∀ i, ∃ r : ℝ, ((m ((c.tc : Thread nD τ).loc main_arg0)) : S4x2048x1024.Idx → EReal) i = (r : EReal)) (hz : ∀ i, ∃ r : ℝ, ((m ((c.tc : Thread nD τ).loc main_arg1)) : S4x2048x1024.Idx → EReal) i = (r : EReal)) (hg : ∀ i, ∃ r : ℝ, ((m ((c.tc : Thread nD τ).loc main_arg6)) : S1024.Idx → EReal) i = (r : EReal)) (hb : ∀ i, ∃ r : ℝ, ((m ((c.tc : Thread nD τ).loc main_arg7)) : S1024.Idx → EReal) i = (r : EReal)) :
    X4 m c = G1 (Vr3 m (o1 m)) c :=
  have hv1 : V3 m (o1 m) c main_v1 = X2 m c := (V3_v1 m (o1 m) c).trans (o1_2 m c)
  final1 (Vr3 m (o1 m)) hp1 c
    (fun i => (V3_v2 m (o1 m) c i).trans (congrFun (V3_v1 m (o1 m) c) i).symm)
    (fun i => (X2_real m hp0 c hy hg hb i).imp fun r hr => (congrFun hv1 i).trans hr)
    (fun i => (hz i).imp fun r hr => (V3_v3 m (o1 m) c i).trans hr)

theorem X4_apply (hp0 : Pay0Spec) (hp1 : Pay1Spec) (c : Dev nD) (hy : ∀ i, ∃ r : ℝ, ((m ((c.tc : Thread nD τ).loc main_arg0)) : S4x2048x1024.Idx → EReal) i = (r : EReal)) (hz : ∀ i, ∃ r : ℝ, ((m ((c.tc : Thread nD τ).loc main_arg1)) : S4x2048x1024.Idx → EReal) i = (r : EReal)) (hg : ∀ i, ∃ r : ℝ, ((m ((c.tc : Thread nD τ).loc main_arg6)) : S1024.Idx → EReal) i = (r : EReal)) (hb : ∀ i, ∃ r : ℝ, ((m ((c.tc : Thread nD τ).loc main_arg7)) : S1024.Idx → EReal) i = (r : EReal)) (b : Fin 4) (q : Fin 2048) (j : Fin 1024) :
    (X4 m c : S4x2048x1024.Idx → EReal) (ix3 b q j)
      = Cert.Spec.stage2 (Cert.Spec.stage1 (fun k d => ((m ((c.tc : Thread nD τ).loc main_arg0)) : S4x2048x1024.Idx → EReal) (ix3 b k d)) (fun d => ((m ((c.tc : Thread nD τ).loc main_arg6)) : S1024.Idx → EReal) (ix1 d)) (fun d => ((m ((c.tc : Thread nD τ).loc main_arg7)) : S1024.Idx → EReal) (ix1 d)))
          (fun k d => ((m ((c.tc : Thread nD τ).loc main_arg1)) : S4x2048x1024.Idx → EReal) (ix3 b k d)) (fun d => ((m ((c.tc : Thread nD τ).loc main_arg8)) : S1024.Idx → EReal) (ix1 d)) (fun d => ((m ((c.tc : Thread nD τ).loc main_arg9)) : S1024.Idx → EReal) (ix1 d)) q j := by
  have hv1 : V3 m (o1 m) c main_v1 = X2 m c := (V3_v1 m (o1 m) c).trans (o1_2 m c)
  refine (congrFun (X4_eq m hp0 hp1 c hy hz hg hb) (ix3 b q j)).trans ?_
  show Cert.Spec.stage2 (fun k d => (V3 m (o1 m) c main_v1 : S4x2048x1024.Idx → EReal) (ix3 b k d)) (fun k d => (V3 m (o1 m) c main_v3 : S4x2048x1024.Idx → EReal) (ix3 b k d))
      (fun d => (V3 m (o1 m) c main_arg8 : S1024.Idx → EReal) (ix1 d)) (fun d => (V3 m (o1 m) c main_arg9 : S1024.Idx → EReal) (ix1 d)) q j = _
  have e1 : (fun k d => (V3 m (o1 m) c main_v1 : S4x2048x1024.Idx → EReal) (ix3 b k d)) = Cert.Spec.stage1 (fun k d => ((m ((c.tc : Thread nD τ).loc main_arg0)) : S4x2048x1024.Idx → EReal) (ix3 b k d)) (fun d => ((m ((c.tc : Thread nD τ).loc main_arg6)) : S1024.Idx → EReal) (ix1 d)) (fun d => ((m ((c.tc : Thread nD τ).loc main_arg7)) : S1024.Idx → EReal) (ix1 d)) :=
    funext fun k => funext fun d => (congrFun hv1 (ix3 b k d)).trans (X2_apply m hp0 c hy hg hb b k d)
  have e2 : (fun k d => (V3 m (o1 m) c main_v3 : S4x2048x1024.Idx → EReal) (ix3 b k d)) = (fun k d => ((m ((c.tc : Thread nD τ).loc main_arg1)) : S4x2048x1024.Idx → EReal) (ix3 b k d)) :=
    funext fun k => funext fun d => V3_v3 m (o1 m) c _
  have e3 : (fun d => (V3 m (o1 m) c main_arg8 : S1024.Idx → EReal) (ix1 d)) = (fun d => ((m ((c.tc : Thread nD τ).loc main_arg8)) : S1024.Idx → EReal) (ix1 d)) :=
    funext fun d => congrFun (V3_arg m (o1 m) c main_arg8 (by decide) (by decide) (by decide)) (ix1 d)
  have e4 : (fun d => (V3 m (o1 m) c main_arg9 : S1024.Idx → EReal) (ix1 d)) = (fun d => ((m ((c.tc : Thread nD τ).loc main_arg9)) : S1024.Idx → EReal) (ix1 d)) :=
    funext fun d => congrFun (V3_arg m (o1 m) c main_arg9 (by decide) (by decide) (by decide)) (ix1 d)
  rw [e1, e2, e3, e4]

/-- The result buffer at the end, at an index: the block of the launch arrays. -/
theorem result_apply (hp0 : Pay0Spec) (hp1 : Pay1Spec) (hp2 : Pay2Spec) (c : Dev nD) (hy : ∀ i, ∃ r : ℝ, ((m ((c.tc : Thread nD τ).loc main_arg0)) : S4x2048x1024.Idx → EReal) i = (r : EReal)) (hz : ∀ i, ∃ r : ℝ, ((m ((c.tc : Thread nD τ).loc main_arg1)) : S4x2048x1024.Idx → EReal) i = (r : EReal)) (hg : ∀ i, ∃ r : ℝ, ((m ((c.tc : Thread nD τ).loc main_arg6)) : S1024.Idx → EReal) i = (r : EReal)) (hb : ∀ i, ∃ r : ℝ, ((m ((c.tc : Thread nD τ).loc main_arg7)) : S1024.Idx → EReal) i = (r : EReal)) (b : Fin 4) (q : Fin 2048) (d : Fin 1024) :
    (V7 m (o3 m) c main_v9 : S4x2048x1024.Idx → EReal) (ix3 b q d) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (ix3 b q d) := by
  have hr : b.val * 2048 + q.val < 8192 := by have := b.isLt; have := q.isLt; omega
  refine (V7_v9 m (o3 m) c b q d ⟨b.val * 2048 + q.val, hr⟩ rfl).trans ?_
  refine (congrFun (o3_6 m c) (ix2 ⟨b.val * 2048 + q.val, hr⟩ d)).trans ?_
  refine (congrFun (final2 (Vr5 m (o2 m)) pay2 c) (ix2 ⟨b.val * 2048 + q.val, hr⟩ d)).trans ?_
  show Cert.Spec.stage3 (fun j => (V5 m (o2 m) c main_v5 : S8192x1024.Idx → EReal) (ix2 ⟨b.val * 2048 + q.val, hr⟩ j)) (fun j f => (V5 m (o2 m) c main_v6 : S1024x4096.Idx → EReal) (ix2 j f))
      (fun f => (V5 m (o2 m) c main_arg3 : S4096.Idx → EReal) (ix1 f)) (fun f d => (V5 m (o2 m) c main_v7 : S4096x1024.Idx → EReal) (ix2 f d)) (fun d => (V5 m (o2 m) c main_arg5 : S1024.Idx → EReal) (ix1 d))
      (fun d => (V5 m (o2 m) c main_arg10 : S1024.Idx → EReal) (ix1 d)) (fun d => (V5 m (o2 m) c main_arg11 : S1024.Idx → EReal) (ix1 d)) d
    = Cert.Spec.stage3 (Cert.Spec.stage2 (Cert.Spec.stage1 (fun k d => ((m ((c.tc : Thread nD τ).loc main_arg0)) : S4x2048x1024.Idx → EReal) (ix3 b k d)) (fun d => ((m ((c.tc : Thread nD τ).loc main_arg6)) : S1024.Idx → EReal) (ix1 d)) (fun d => ((m ((c.tc : Thread nD τ).loc main_arg7)) : S1024.Idx → EReal) (ix1 d)))
          (fun k d => ((m ((c.tc : Thread nD τ).loc main_arg1)) : S4x2048x1024.Idx → EReal) (ix3 b k d)) (fun d => ((m ((c.tc : Thread nD τ).loc main_arg8)) : S1024.Idx → EReal) (ix1 d)) (fun d => ((m ((c.tc : Thread nD τ).loc main_arg9)) : S1024.Idx → EReal) (ix1 d)) q)
      (fun j f => ((m ((c.tc : Thread nD τ).loc main_arg2)) : S1024x4096.Idx → EReal) (ix2 j f)) (fun f => ((m ((c.tc : Thread nD τ).loc main_arg3)) : S4096.Idx → EReal) (ix1 f)) (fun f d => ((m ((c.tc : Thread nD τ).loc main_arg4)) : S4096x1024.Idx → EReal) (ix2 f d)) (fun d => ((m ((c.tc : Thread nD τ).loc main_arg5)) : S1024.Idx → EReal) (ix1 d))
      (fun d => ((m ((c.tc : Thread nD τ).loc main_arg10)) : S1024.Idx → EReal) (ix1 d)) (fun d => ((m ((c.tc : Thread nD τ).loc main_arg11)) : S1024.Idx → EReal) (ix1 d)) d
  have e1 : (fun j => (V5 m (o2 m) c main_v5 : S8192x1024.Idx → EReal) (ix2 ⟨b.val * 2048 + q.val, hr⟩ j)) = Cert.Spec.stage2 (Cert.Spec.stage1 (fun k d => ((m ((c.tc : Thread nD τ).loc main_arg0)) : S4x2048x1024.Idx → EReal) (ix3 b k d)) (fun d => ((m ((c.tc : Thread nD τ).loc main_arg6)) : S1024.Idx → EReal) (ix1 d)) (fun d => ((m ((c.tc : Thread nD τ).loc main_arg7)) : S1024.Idx → EReal) (ix1 d)))
          (fun k d => ((m ((c.tc : Thread nD τ).loc main_arg1)) : S4x2048x1024.Idx → EReal) (ix3 b k d)) (fun d => ((m ((c.tc : Thread nD τ).loc main_arg8)) : S1024.Idx → EReal) (ix1 d)) (fun d => ((m ((c.tc : Thread nD τ).loc main_arg9)) : S1024.Idx → EReal) (ix1 d)) q :=
    funext fun j => ((V5_v5 m (o2 m) c b q j ⟨b.val * 2048 + q.val, hr⟩ rfl).trans (congrFun (o2_4 m c) (ix3 b q j))).trans (X4_apply m hp0 hp1 c hy hz hg hb b q j)
  have e2 : (fun j f => (V5 m (o2 m) c main_v6 : S1024x4096.Idx → EReal) (ix2 j f)) = (fun j f => ((m ((c.tc : Thread nD τ).loc main_arg2)) : S1024x4096.Idx → EReal) (ix2 j f)) :=
    funext fun j => funext fun f => V5_v6 m (o2 m) c _
  have e3 : (fun f d => (V5 m (o2 m) c main_v7 : S4096x1024.Idx → EReal) (ix2 f d)) = (fun f d => ((m ((c.tc : Thread nD τ).loc main_arg4)) : S4096x1024.Idx → EReal) (ix2 f d)) :=
    funext fun f => funext fun d => V5_v7 m (o2 m) c _
  have e4 : (fun f => (V5 m (o2 m) c main_arg3 : S4096.Idx → EReal) (ix1 f)) = (fun f => ((m ((c.tc : Thread nD τ).loc main_arg3)) : S4096.Idx → EReal) (ix1 f)) :=
    funext fun f => congrFun (V5_arg m (o2 m) c main_arg3 (by decide) (by decide) (by decide) (by decide) (by decide)) (ix1 f)
  have e5 : (fun d => (V5 m (o2 m) c main_arg5 : S1024.Idx → EReal) (ix1 d)) = (fun d => ((m ((c.tc : Thread nD τ).loc main_arg5)) : S1024.Idx → EReal) (ix1 d)) :=
    funext fun d => congrFun (V5_arg m (o2 m) c main_arg5 (by decide) (by decide) (by decide) (by decide) (by decide)) (ix1 d)
  have e6 : (fun d => (V5 m (o2 m) c main_arg10 : S1024.Idx → EReal) (ix1 d)) = (fun d => ((m ((c.tc : Thread nD τ).loc main_arg10)) : S1024.Idx → EReal) (ix1 d)) :=
    funext fun d => congrFun (V5_arg m (o2 m) c main_arg10 (by decide) (by decide) (by decide) (by decide) (by decide)) (ix1 d)
  have e7 : (fun d => (V5 m (o2 m) c main_arg11 : S1024.Idx → EReal) (ix1 d)) = (fun d => ((m ((c.tc : Thread nD τ).loc main_arg11)) : S1024.Idx → EReal) (ix1 d)) :=
    funext fun d => congrFun (V5_arg m (o2 m) c main_arg11 (by decide) (by decide) (by decide) (by decide) (by decide)) (ix1 d)
  rw [e1, e2, e3, e4, e5, e6, e7]

/-- The result buffer at the end: the block of the launch arrays. -/
theorem result_eq (c : Dev nD) (hfin : (∀ i, ∃ r : ℝ, ((m ((c.tc : Thread nD τ).loc main_arg0)) : S4x2048x1024.Idx → EReal) i = (r : EReal)) ∧ (∀ i, ∃ r : ℝ, ((m ((c.tc : Thread nD τ).loc main_arg1)) : S4x2048x1024.Idx → EReal) i = (r : EReal)) ∧ (∀ i, ∃ r : ℝ, ((m ((c.tc : Thread nD τ).loc main_arg2)) : S1024x4096.Idx → EReal) i = (r : EReal)) ∧ (∀ i, ∃ r : ℝ, ((m ((c.tc : Thread nD τ).loc main_arg3)) : S4096.Idx → EReal) i = (r : EReal)) ∧ (∀ i, ∃ r : ℝ, ((m ((c.tc : Thread nD τ).loc main_arg4)) : S4096x1024.Idx → EReal) i = (r : EReal)) ∧ (∀ i, ∃ r : ℝ, ((m ((c.tc : Thread nD τ).loc main_arg5)) : S1024.Idx → EReal) i = (r : EReal)) ∧ (∀ i, ∃ r : ℝ, ((m ((c.tc : Thread nD τ).loc main_arg6)) : S1024.Idx → EReal) i = (r : EReal)) ∧ (∀ i, ∃ r : ℝ, ((m ((c.tc : Thread nD τ).loc main_arg7)) : S1024.Idx → EReal) i = (r : EReal)) ∧ (∀ i, ∃ r : ℝ, ((m ((c.tc : Thread nD τ).loc main_arg8)) : S1024.Idx → EReal) i = (r : EReal)) ∧ (∀ i, ∃ r : ℝ, ((m ((c.tc : Thread nD τ).loc main_arg9)) : S1024.Idx → EReal) i = (r : EReal)) ∧ (∀ i, ∃ r : ℝ, ((m ((c.tc : Thread nD τ).loc main_arg10)) : S1024.Idx → EReal) i = (r : EReal)) ∧ (∀ i, ∃ r : ℝ, ((m ((c.tc : Thread nD τ).loc main_arg11)) : S1024.Idx → EReal) i = (r : EReal))) :
    (V7 m (o3 m) c main_v9 : S4x2048x1024.Idx → EReal) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  obtain ⟨hy, hz, _, _, _, _, hg, hb, _, _, _, _⟩ := hfin
  exact funext fun (i : S4x2048x1024.Idx) =>
    ((congrArg (V7 m (o3 m) c main_v9 : S4x2048x1024.Idx → EReal) (eq_ix3 i)).trans (result_apply m pay0 pay1 pay2 c hy hz hg hb (i 0) (i 1) (i 2))).trans
      (congrArg (Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (eq_ix3 i)).symm

end Cert.KernelIdeal.KRes

end
-- ==== Proof.RefRun.lean ====
/-
  The reference program's @main as a list of its 202 host operations, the module-local functions it calls
  (the lower-triangle mask, the two selects, the variance, the rectifier) written out at their call sites over
  each call's own buffers. The list is cut into eleven consecutive stretches: one per stage of the block
  (attention scores and softmax, the mean and variance of a row, the normalisation, the perceptron), cut again
  where @main's own three parts end.
-/
import proofs.«167660_j22771916603726_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 37 of 202. -/
abbrev opsA : List (HloOp τ sig (Elt F)) :=
  [ binary main_arg0 main_arg0 main_v0 ((fun l r => Host.dotGeneral dot_S4x2048x1024_S4x2048x1024_S4x2048x2048_2_2_1_1_0_0 none l r) : (⟨S4x2048x1024, .f32⟩ : BufTy).Contents (Elt F) → (⟨S4x2048x1024, .f32⟩ : BufTy).Contents (Elt F) → (⟨S4x2048x2048, .f32⟩ : BufTy).Contents (Elt F)),
    nullary main_cst (constant S_ .f32 0x44800000#32),
    unary main_cst main_v1 (Host.sqrt : (⟨S_, .f32⟩ : BufTy).Contents (Elt F) → (⟨S_, .f32⟩ : BufTy).Contents (Elt F)),
    unary main_v1 main_v2 (broadcastInDim S4x2048x2048 ![] bcast_S_S4x2048x2048 : (⟨S_, .f32⟩ : BufTy).Contents (Elt F) → (⟨S4x2048x2048, .f32⟩ : BufTy).Contents (Elt F)),
    binary main_v0 main_v2 main_v3 (Host.divf : (⟨S4x2048x2048, .f32⟩ : BufTy).Contents (Elt F) → (⟨S4x2048x2048, .f32⟩ : BufTy).Contents (Elt F) → (⟨S4x2048x2048, .f32⟩ : BufTy).Contents (Elt F)),
    nullary main_c (constantI S_ 1 1#1),
    unary main_c main_v4 (broadcastInDim S2048x2048 ![] bcast_S_S2048x2048 : (⟨S_, .i1⟩ : BufTy).Contents (Elt F) → (⟨S2048x2048, .i1⟩ : BufTy).Contents (Elt F)),
    TRef.nullary main_call0.v0 (iotaInDim S2048x2048 32 0),
    TRef.nullary main_call0.c (constantI S_ 32 0#32),
    TRef.unary main_call0.c main_call0.v1 (broadcastInDim S2048x2048 ![] bcast_S_S2048x2048),
    TRef.binary main_call0.v0 main_call0.v1 main_call0.v2 addi,
    TRef.nullary main_call0.v3 (iotaInDim S2048x2048 32 1),
    TRef.binary main_call0.v2 main_call0.v3 main_call0.v4 (cmpi .sge),
    TRef.nullary main_call0.c_0 (constantI S_ 1 0#1),
    TRef.unary main_call0.c_0 main_call0.v5 (broadcastInDim S2048x2048 ![] bcast_S_S2048x2048),
    TRef.ternary main_call0.v4 (TRef.of main_v4 : TRef sig ⟨S2048x2048, .i1⟩) main_call0.v5 main_call0.v6 select,
    unary main_v5 main_v6 (broadcastInDim S1x2048x2048 ![1, 2] bcast_S2048x2048_S1x2048x2048_1_2 : (⟨S2048x2048, .i1⟩ : BufTy).Contents (Elt F) → (⟨S1x2048x2048, .i1⟩ : BufTy).Contents (Elt F)),
    nullary main_cst_0 (constant S_ .f32 0xFF800000#32),
    TRef.unary (TRef.of main_v6 : TRef sig ⟨S1x2048x2048, .i1⟩) main_call1.v0 (broadcastInDim S4x2048x2048 ![0, 1, 2] bcast_S1x2048x2048_S4x2048x2048_0_1_2),
    TRef.unary (TRef.of main_cst_0 : TRef sig ⟨S_, .f32⟩) main_call1.v1 (broadcastInDim S4x2048x2048 ![] bcast_S_S4x2048x2048),
    TRef.ternary main_call1.v0 (TRef.of main_v3 : TRef sig ⟨S4x2048x2048, .f32⟩) main_call1.v1 main_call1.v2 select,
    nullary main_cst_1 (constant S_ .f32 0xFF800000#32),
    binary main_v7 main_cst_1 main_v8 ((fun x v => Host.reduce FloatOps.maximumf x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)),
    nullary main_cst_2 (constant S_ .f32 0xFF800000#32),
    unary main_cst_2 main_v9 (broadcastInDim S4x2048 ![] bcast_S_S4x2048 : (⟨S_, .f32⟩ : BufTy).Contents (Elt F) → (⟨S4x2048, .f32⟩ : BufTy).Contents (Elt F)),
    binary main_v9 main_v8 main_v10 (maximumf : (⟨S4x2048, .f32⟩ : BufTy).Contents (Elt F) → (⟨S4x2048, .f32⟩ : BufTy).Contents (Elt F) → (⟨S4x2048, .f32⟩ : BufTy).Contents (Elt F)),
    unary main_v10 main_v11 (broadcastInDim S4x2048x1 ![0, 1] bcast_S4x2048_S4x2048x1_0_1 : (⟨S4x2048, .f32⟩ : BufTy).Contents (Elt F) → (⟨S4x2048x1, .f32⟩ : BufTy).Contents (Elt F)),
    unary main_v11 main_v12 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_v7 main_v12 main_v13 (subf : (⟨S4x2048x2048, .f32⟩ : BufTy).Contents (Elt F) → (⟨S4x2048x2048, .f32⟩ : BufTy).Contents (Elt F) → (⟨S4x2048x2048, .f32⟩ : BufTy).Contents (Elt F)),
    unary main_v13 main_v14 (Host.exp : (⟨S4x2048x2048, .f32⟩ : BufTy).Contents (Elt F) → (⟨S4x2048x2048, .f32⟩ : BufTy).Contents (Elt F)),
    nullary main_cst_3 (constant S_ .f32 0x00000000#32),
    binary main_v14 main_cst_3 main_v15 ((fun x v => Host.reduceAdd x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)),
    unary main_v15 main_v16 (broadcastInDim S4x2048x1 ![0, 1] bcast_S4x2048_S4x2048x1_0_1 : (⟨S4x2048, .f32⟩ : BufTy).Contents (Elt F) → (⟨S4x2048x1, .f32⟩ : BufTy).Contents (Elt F)),
    unary main_v16 main_v17 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_v14 main_v17 main_v18 (Host.divf : (⟨S4x2048x2048, .f32⟩ : BufTy).Contents (Elt F) → (⟨S4x2048x2048, .f32⟩ : BufTy).Contents (Elt F) → (⟨S4x2048x2048, .f32⟩ : BufTy).Contents (Elt F)),
    binary main_v18 main_arg0 main_v19 ((fun l r => Host.dotGeneral dot_S4x2048x2048_S4x2048x1024_S4x2048x1024_2_1_1_2_0_0 none l r) : (⟨S4x2048x2048, .f32⟩ : BufTy).Contents (Elt F) → (⟨S4x2048x1024, .f32⟩ : BufTy).Contents (Elt F) → (⟨S4x2048x1024, .f32⟩ : BufTy).Contents (Elt F)),
    binary main_arg0 main_v19 main_v20 (addf : (⟨S4x2048x1024, .f32⟩ : BufTy).Contents (Elt F) → (⟨S4x2048x1024, .f32⟩ : BufTy).Contents (Elt F) → (⟨S4x2048x1024, .f32⟩ : BufTy).Contents (Elt F)) ]

/-- @main's operations 38 … 67 of 202. -/
abbrev opsB1 : List (HloOp τ sig (Elt F)) :=
  [ nullary main_cst_4 (constant S_ .f32 0x00000000#32),
    binary main_v20 main_cst_4 main_v21 ((fun x v => Host.reduceAdd x v reducesTo_S4x2048x1024_S4x2048_d2 h_S_) : (⟨S4x2048x1024, .f32⟩ : BufTy).Contents (Elt F) → (⟨S_, .f32⟩ : BufTy).Contents (Elt F) → (⟨S4x2048, .f32⟩ : BufTy).Contents (Elt F)),
    unary main_v21 main_v22 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_5 (constant S_ .f32 0x44800000#32),
    unary main_cst_5 main_v23 (broadcastInDim S4x2048x1 ![] bcast_S_S4x2048x1 : (⟨S_, .f32⟩ : BufTy).Contents (Elt F) → (⟨S4x2048x1, .f32⟩ : BufTy).Contents (Elt F)),
    binary main_v22 main_v23 main_v24 (Host.divf : (⟨S4x2048x1, .f32⟩ : BufTy).Contents (Elt F) → (⟨S4x2048x1, .f32⟩ : BufTy).Contents (Elt F) → (⟨S4x2048x1, .f32⟩ : BufTy).Contents (Elt F)),
    nullary main_c_6 (constantI S_ 32 0#32),
    TRef.nullary main_call2.cst (constant S_ .f32 0x00000000#32),
    TRef.binary (TRef.of main_v20 : TRef sig ⟨S4x2048x1024, .f32⟩) main_call2.cst main_call2.v0 (fun x v => Host.reduceAdd x v reducesTo_S4x2048x1024_S4x2048_d2 h_S_),
    TRef.unary main_call2.v0 main_call2.v1 (broadcastInDim S4x2048x1 ![0, 1] bcast_S4x2048_S4x2048x1_0_1),
    TRef.nullary main_call2.cst_0 (constant S_ .f32 0x44800000#32),
    TRef.unary main_call2.cst_0 main_call2.v2 (broadcastInDim S4x2048x1 ![] bcast_S_S4x2048x1),
    TRef.binary main_call2.v1 main_call2.v2 main_call2.v3 Host.divf,
    TRef.unary main_call2.v3 main_call2.v4 (broadcastInDim S4x2048x1024 ![0, 1, 2] bcast_S4x2048x1_S4x2048x1024_0_1_2),
    TRef.binary (TRef.of main_v20 : TRef sig ⟨S4x2048x1024, .f32⟩) main_call2.v4 main_call2.v5 subf,
    TRef.binary main_call2.v5 main_call2.v5 main_call2.v6 mulf,
    TRef.unary (TRef.of main_c_6 : TRef sig ⟨S_, .i32⟩) main_call2.v7 (sitofp .f32),
    TRef.nullary main_call2.cst_1 (constant S_ .f32 0x44800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S4x2048x1024_S4x2048_d2 h_S_),
    TRef.unary main_call2.v9 main_call2.v10 (broadcastInDim S4x2048x1 ![0, 1] bcast_S4x2048_S4x2048x1_0_1),
    TRef.unary main_call2.v8 main_call2.v11 (broadcastInDim S4x2048x1 ![] bcast_S_S4x2048x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S4x2048x1 ![] bcast_S_S4x2048x1),
    TRef.ternary main_call2.v13 main_call2.v12 main_call2.call0.v1 main_call2.call0.v2 (fun p a b => select (broadcastInDim S4x2048x1 ![] bcast_S_S4x2048x1 p) a b) ]

/-- @main's operations 68 … 81 of 202. -/
abbrev opsB2 : List (HloOp τ sig (Elt F)) :=
  [ unary main_v24 main_v26 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v20 main_v26 main_v27 (subf : (⟨S4x2048x1024, .f32⟩ : BufTy).Contents (Elt F) → (⟨S4x2048x1024, .f32⟩ : BufTy).Contents (Elt F) → (⟨S4x2048x1024, .f32⟩ : BufTy).Contents (Elt F)),
    nullary main_cst_7 (constant S_ .f32 0x3727C5AC#32),
    unary main_cst_7 main_v28 (broadcastInDim S4x2048x1 ![] bcast_S_S4x2048x1 : (⟨S_, .f32⟩ : BufTy).Contents (Elt F) → (⟨S4x2048x1, .f32⟩ : BufTy).Contents (Elt F)),
    binary main_v25 main_v28 main_v29 (addf : (⟨S4x2048x1, .f32⟩ : BufTy).Contents (Elt F) → (⟨S4x2048x1, .f32⟩ : BufTy).Contents (Elt F) → (⟨S4x2048x1, .f32⟩ : BufTy).Contents (Elt F)),
    unary main_v29 main_v30 (Host.rsqrt : (⟨S4x2048x1, .f32⟩ : BufTy).Contents (Elt F) → (⟨S4x2048x1, .f32⟩ : BufTy).Contents (Elt F)),
    unary main_v30 main_v31 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v27 main_v31 main_v32 (mulf : (⟨S4x2048x1024, .f32⟩ : BufTy).Contents (Elt F) → (⟨S4x2048x1024, .f32⟩ : BufTy).Contents (Elt F) → (⟨S4x2048x1024, .f32⟩ : BufTy).Contents (Elt F)),
    unary main_arg6 main_v33 (broadcastInDim S1x1x1024 ![2] bcast_S1024_S1x1x1024_2 : (⟨S1024, .f32⟩ : BufTy).Contents (Elt F) → (⟨S1x1x1024, .f32⟩ : BufTy).Contents (Elt F)),
    unary main_v33 main_v34 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    binary main_v32 main_v34 main_v35 (mulf : (⟨S4x2048x1024, .f32⟩ : BufTy).Contents (Elt F) → (⟨S4x2048x1024, .f32⟩ : BufTy).Contents (Elt F) → (⟨S4x2048x1024, .f32⟩ : BufTy).Contents (Elt F)),
    unary main_arg7 main_v36 (broadcastInDim S1x1x1024 ![2] bcast_S1024_S1x1x1024_2 : (⟨S1024, .f32⟩ : BufTy).Contents (Elt F) → (⟨S1x1x1024, .f32⟩ : BufTy).Contents (Elt F)),
    unary main_v36 main_v37 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    binary main_v35 main_v37 main_v38 (addf : (⟨S4x2048x1024, .f32⟩ : BufTy).Contents (Elt F) → (⟨S4x2048x1024, .f32⟩ : BufTy).Contents (Elt F) → (⟨S4x2048x1024, .f32⟩ : BufTy).Contents (Elt F)) ]

/-- @main's operations 82 … 92 of 202. -/
abbrev opsC1 : List (HloOp τ sig (Elt F)) :=
  [ binary main_v38 main_arg1 main_v39 ((fun l r => Host.dotGeneral dot_S4x2048x1024_S4x2048x1024_S4x2048x2048_2_2_1_1_0_0 none l r) : (⟨S4x2048x1024, .f32⟩ : BufTy).Contents (Elt F) → (⟨S4x2048x1024, .f32⟩ : BufTy).Contents (Elt F) → (⟨S4x2048x2048, .f32⟩ : BufTy).Contents (Elt F)),
    nullary main_cst_8 (constant S_ .f32 0x44800000#32),
    unary main_cst_8 main_v40 (Host.sqrt : (⟨S_, .f32⟩ : BufTy).Contents (Elt F) → (⟨S_, .f32⟩ : BufTy).Contents (Elt F)),
    unary main_v40 main_v41 (broadcastInDim S4x2048x2048 ![] bcast_S_S4x2048x2048 : (⟨S_, .f32⟩ : BufTy).Contents (Elt F) → (⟨S4x2048x2048, .f32⟩ : BufTy).Contents (Elt F)),
    binary main_v39 main_v41 main_v42 (Host.divf : (⟨S4x2048x2048, .f32⟩ : BufTy).Contents (Elt F) → (⟨S4x2048x2048, .f32⟩ : BufTy).Contents (Elt F) → (⟨S4x2048x2048, .f32⟩ : BufTy).Contents (Elt F)),
    nullary main_cst_9 (constant S_ .f32 0xFF800000#32),
    binary main_v42 main_cst_9 main_v43 ((fun x v => Host.reduce FloatOps.maximumf x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)),
    nullary main_cst_10 (constant S_ .f32 0xFF800000#32),
    unary main_cst_10 main_v44 (broadcastInDim S4x2048 ![] bcast_S_S4x2048 : (⟨S_, .f32⟩ : BufTy).Contents (Elt F) → (⟨S4x2048, .f32⟩ : BufTy).Contents (Elt F)),
    binary main_v44 main_v43 main_v45 (maximumf : (⟨S4x2048, .f32⟩ : BufTy).Contents (Elt F) → (⟨S4x2048, .f32⟩ : BufTy).Contents (Elt F) → (⟨S4x2048, .f32⟩ : BufTy).Contents (Elt F)),
    unary main_v45 main_v46 (broadcastInDim S4x2048x1 ![0, 1] bcast_S4x2048_S4x2048x1_0_1 : (⟨S4x2048, .f32⟩ : BufTy).Contents (Elt F) → (⟨S4x2048x1, .f32⟩ : BufTy).Contents (Elt F)) ]

/-- @main's operations 93 … 102 of 202. -/
abbrev opsC2 : List (HloOp τ sig (Elt F)) :=
  [ unary main_v46 main_v47 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_v42 main_v47 main_v48 (subf : (⟨S4x2048x2048, .f32⟩ : BufTy).Contents (Elt F) → (⟨S4x2048x2048, .f32⟩ : BufTy).Contents (Elt F) → (⟨S4x2048x2048, .f32⟩ : BufTy).Contents (Elt F)),
    unary main_v48 main_v49 (Host.exp : (⟨S4x2048x2048, .f32⟩ : BufTy).Contents (Elt F) → (⟨S4x2048x2048, .f32⟩ : BufTy).Contents (Elt F)),
    nullary main_cst_11 (constant S_ .f32 0x00000000#32),
    binary main_v49 main_cst_11 main_v50 ((fun x v => Host.reduceAdd x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)),
    unary main_v50 main_v51 (broadcastInDim S4x2048x1 ![0, 1] bcast_S4x2048_S4x2048x1_0_1 : (⟨S4x2048, .f32⟩ : BufTy).Contents (Elt F) → (⟨S4x2048x1, .f32⟩ : BufTy).Contents (Elt F)),
    unary main_v51 main_v52 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_v49 main_v52 main_v53 (Host.divf : (⟨S4x2048x2048, .f32⟩ : BufTy).Contents (Elt F) → (⟨S4x2048x2048, .f32⟩ : BufTy).Contents (Elt F) → (⟨S4x2048x2048, .f32⟩ : BufTy).Contents (Elt F)),
    binary main_v53 main_arg1 main_v54 ((fun l r => Host.dotGeneral dot_S4x2048x2048_S4x2048x1024_S4x2048x1024_2_1_1_2_0_0 none l r) : (⟨S4x2048x2048, .f32⟩ : BufTy).Contents (Elt F) → (⟨S4x2048x1024, .f32⟩ : BufTy).Contents (Elt F) → (⟨S4x2048x1024, .f32⟩ : BufTy).Contents (Elt F)),
    binary main_v38 main_v54 main_v55 (addf : (⟨S4x2048x1024, .f32⟩ : BufTy).Contents (Elt F) → (⟨S4x2048x1024, .f32⟩ : BufTy).Contents (Elt F) → (⟨S4x2048x1024, .f32⟩ : BufTy).Contents (Elt F)) ]

/-- @main's operations 103 … 132 of 202. -/
abbrev opsD1 : List (HloOp τ sig (Elt F)) :=
  [ nullary main_cst_12 (constant S_ .f32 0x00000000#32),
    binary main_v55 main_cst_12 main_v56 ((fun x v => Host.reduceAdd x v reducesTo_S4x2048x1024_S4x2048_d2 h_S_) : (⟨S4x2048x1024, .f32⟩ : BufTy).Contents (Elt F) → (⟨S_, .f32⟩ : BufTy).Contents (Elt F) → (⟨S4x2048, .f32⟩ : BufTy).Contents (Elt F)),
    unary main_v56 main_v57 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_13 (constant S_ .f32 0x44800000#32),
    unary main_cst_13 main_v58 (broadcastInDim S4x2048x1 ![] bcast_S_S4x2048x1 : (⟨S_, .f32⟩ : BufTy).Contents (Elt F) → (⟨S4x2048x1, .f32⟩ : BufTy).Contents (Elt F)),
    binary main_v57 main_v58 main_v59 (Host.divf : (⟨S4x2048x1, .f32⟩ : BufTy).Contents (Elt F) → (⟨S4x2048x1, .f32⟩ : BufTy).Contents (Elt F) → (⟨S4x2048x1, .f32⟩ : BufTy).Contents (Elt F)),
    nullary main_c_14 (constantI S_ 32 0#32),
    TRef.nullary main_call3.cst (constant S_ .f32 0x00000000#32),
    TRef.binary (TRef.of main_v55 : TRef sig ⟨S4x2048x1024, .f32⟩) main_call3.cst main_call3.v0 (fun x v => Host.reduceAdd x v reducesTo_S4x2048x1024_S4x2048_d2 h_S_),
    TRef.unary main_call3.v0 main_call3.v1 (broadcastInDim S4x2048x1 ![0, 1] bcast_S4x2048_S4x2048x1_0_1),
    TRef.nullary main_call3.cst_0 (constant S_ .f32 0x44800000#32),
    TRef.unary main_call3.cst_0 main_call3.v2 (broadcastInDim S4x2048x1 ![] bcast_S_S4x2048x1),
    TRef.binary main_call3.v1 main_call3.v2 main_call3.v3 Host.divf,
    TRef.unary main_call3.v3 main_call3.v4 (broadcastInDim S4x2048x1024 ![0, 1, 2] bcast_S4x2048x1_S4x2048x1024_0_1_2),
    TRef.binary (TRef.of main_v55 : TRef sig ⟨S4x2048x1024, .f32⟩) main_call3.v4 main_call3.v5 subf,
    TRef.binary main_call3.v5 main_call3.v5 main_call3.v6 mulf,
    TRef.unary (TRef.of main_c_14 : TRef sig ⟨S_, .i32⟩) main_call3.v7 (sitofp .f32),
    TRef.nullary main_call3.cst_1 (constant S_ .f32 0x44800000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S4x2048x1024_S4x2048_d2 h_S_),
    TRef.unary main_call3.v9 main_call3.v10 (broadcastInDim S4x2048x1 ![0, 1] bcast_S4x2048_S4x2048x1_0_1),
    TRef.unary main_call3.v8 main_call3.v11 (broadcastInDim S4x2048x1 ![] bcast_S_S4x2048x1),
    TRef.binary main_call3.v10 main_call3.v11 main_call3.v12 Host.divf,
    TRef.nullary main_call3.cst_3 (constant S_ .f32 0x00000000#32),
    TRef.binary main_call3.v8 main_call3.cst_3 main_call3.v13 (cmpf .ogt),
    TRef.nullary main_call3.cst_4 (constant S_ .f32 0x7FC00000#32),
    TRef.unary main_call3.cst_4 main_call3.call0.v0 id,
    TRef.unary main_call3.call0.v0 main_call3.call0.v1 (broadcastInDim S4x2048x1 ![] bcast_S_S4x2048x1),
    TRef.ternary main_call3.v13 main_call3.v12 main_call3.call0.v1 main_call3.call0.v2 (fun p a b => select (broadcastInDim S4x2048x1 ![] bcast_S_S4x2048x1 p) a b) ]

/-- @main's operations 133 … 146 of 202. -/
abbrev opsD2 : List (HloOp τ sig (Elt F)) :=
  [ unary main_v59 main_v61 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v55 main_v61 main_v62 (subf : (⟨S4x2048x1024, .f32⟩ : BufTy).Contents (Elt F) → (⟨S4x2048x1024, .f32⟩ : BufTy).Contents (Elt F) → (⟨S4x2048x1024, .f32⟩ : BufTy).Contents (Elt F)),
    nullary main_cst_15 (constant S_ .f32 0x3727C5AC#32),
    unary main_cst_15 main_v63 (broadcastInDim S4x2048x1 ![] bcast_S_S4x2048x1 : (⟨S_, .f32⟩ : BufTy).Contents (Elt F) → (⟨S4x2048x1, .f32⟩ : BufTy).Contents (Elt F)),
    binary main_v60 main_v63 main_v64 (addf : (⟨S4x2048x1, .f32⟩ : BufTy).Contents (Elt F) → (⟨S4x2048x1, .f32⟩ : BufTy).Contents (Elt F) → (⟨S4x2048x1, .f32⟩ : BufTy).Contents (Elt F)),
    unary main_v64 main_v65 (Host.rsqrt : (⟨S4x2048x1, .f32⟩ : BufTy).Contents (Elt F) → (⟨S4x2048x1, .f32⟩ : BufTy).Contents (Elt F)),
    unary main_v65 main_v66 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v62 main_v66 main_v67 (mulf : (⟨S4x2048x1024, .f32⟩ : BufTy).Contents (Elt F) → (⟨S4x2048x1024, .f32⟩ : BufTy).Contents (Elt F) → (⟨S4x2048x1024, .f32⟩ : BufTy).Contents (Elt F)),
    unary main_arg8 main_v68 (broadcastInDim S1x1x1024 ![2] bcast_S1024_S1x1x1024_2 : (⟨S1024, .f32⟩ : BufTy).Contents (Elt F) → (⟨S1x1x1024, .f32⟩ : BufTy).Contents (Elt F)),
    unary main_v68 main_v69 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    binary main_v67 main_v69 main_v70 (mulf : (⟨S4x2048x1024, .f32⟩ : BufTy).Contents (Elt F) → (⟨S4x2048x1024, .f32⟩ : BufTy).Contents (Elt F) → (⟨S4x2048x1024, .f32⟩ : BufTy).Contents (Elt F)),
    unary main_arg9 main_v71 (broadcastInDim S1x1x1024 ![2] bcast_S1024_S1x1x1024_2 : (⟨S1024, .f32⟩ : BufTy).Contents (Elt F) → (⟨S1x1x1024, .f32⟩ : BufTy).Contents (Elt F)),
    unary main_v71 main_v72 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    binary main_v70 main_v72 main_v73 (addf : (⟨S4x2048x1024, .f32⟩ : BufTy).Contents (Elt F) → (⟨S4x2048x1024, .f32⟩ : BufTy).Contents (Elt F) → (⟨S4x2048x1024, .f32⟩ : BufTy).Contents (Elt F)) ]

/-- @main's operations 147 … 158 of 202. -/
abbrev opsE : List (HloOp τ sig (Elt F)) :=
  [ binary main_v73 main_arg2 main_v74 ((fun l r => Host.dotGeneral dot_S4x2048x1024_S1024x4096_S4x2048x4096_2_0_01_1_n_n none l r) : (⟨S4x2048x1024, .f32⟩ : BufTy).Contents (Elt F) → (⟨S1024x4096, .f32⟩ : BufTy).Contents (Elt F) → (⟨S4x2048x4096, .f32⟩ : BufTy).Contents (Elt F)),
    unary main_arg3 main_v75 (broadcastInDim S1x1x4096 ![2] bcast_S4096_S1x1x4096_2 : (⟨S4096, .f32⟩ : BufTy).Contents (Elt F) → (⟨S1x1x4096, .f32⟩ : BufTy).Contents (Elt F)),
    unary main_v75 main_v76 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v74 main_v76 main_v77 (addf : (⟨S4x2048x4096, .f32⟩ : BufTy).Contents (Elt F) → (⟨S4x2048x4096, .f32⟩ : BufTy).Contents (Elt F) → (⟨S4x2048x4096, .f32⟩ : BufTy).Contents (Elt F)),
    TRef.nullary main_call4.cst (constant S_ .f32 0x00000000#32),
    TRef.unary main_call4.cst main_call4.v0 (broadcastInDim S4x2048x4096 ![] bcast_S_S4x2048x4096),
    TRef.binary (TRef.of main_v77 : TRef sig ⟨S4x2048x4096, .f32⟩) main_call4.v0 main_call4.v1 maximumf,
    binary main_v78 main_arg4 main_v79 ((fun l r => Host.dotGeneral dot_S4x2048x4096_S4096x1024_S4x2048x1024_2_0_01_1_n_n none l r) : (⟨S4x2048x4096, .f32⟩ : BufTy).Contents (Elt F) → (⟨S4096x1024, .f32⟩ : BufTy).Contents (Elt F) → (⟨S4x2048x1024, .f32⟩ : BufTy).Contents (Elt F)),
    unary main_arg5 main_v80 (broadcastInDim S1x1x1024 ![2] bcast_S1024_S1x1x1024_2 : (⟨S1024, .f32⟩ : BufTy).Contents (Elt F) → (⟨S1x1x1024, .f32⟩ : BufTy).Contents (Elt F)),
    unary main_v80 main_v81 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    binary main_v79 main_v81 main_v82 (addf : (⟨S4x2048x1024, .f32⟩ : BufTy).Contents (Elt F) → (⟨S4x2048x1024, .f32⟩ : BufTy).Contents (Elt F) → (⟨S4x2048x1024, .f32⟩ : BufTy).Contents (Elt F)),
    binary main_v73 main_v82 main_v83 (addf : (⟨S4x2048x1024, .f32⟩ : BufTy).Contents (Elt F) → (⟨S4x2048x1024, .f32⟩ : BufTy).Contents (Elt F) → (⟨S4x2048x1024, .f32⟩ : BufTy).Contents (Elt F)) ]

/-- @main's operations 159 … 188 of 202. -/
abbrev opsF1 : List (HloOp τ sig (Elt F)) :=
  [ nullary main_cst_16 (constant S_ .f32 0x00000000#32),
    binary main_v83 main_cst_16 main_v84 ((fun x v => Host.reduceAdd x v reducesTo_S4x2048x1024_S4x2048_d2 h_S_) : (⟨S4x2048x1024, .f32⟩ : BufTy).Contents (Elt F) → (⟨S_, .f32⟩ : BufTy).Contents (Elt F) → (⟨S4x2048, .f32⟩ : BufTy).Contents (Elt F)),
    unary main_v84 main_v85 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_17 (constant S_ .f32 0x44800000#32),
    unary main_cst_17 main_v86 (broadcastInDim S4x2048x1 ![] bcast_S_S4x2048x1 : (⟨S_, .f32⟩ : BufTy).Contents (Elt F) → (⟨S4x2048x1, .f32⟩ : BufTy).Contents (Elt F)),
    binary main_v85 main_v86 main_v87 (Host.divf : (⟨S4x2048x1, .f32⟩ : BufTy).Contents (Elt F) → (⟨S4x2048x1, .f32⟩ : BufTy).Contents (Elt F) → (⟨S4x2048x1, .f32⟩ : BufTy).Contents (Elt F)),
    nullary main_c_18 (constantI S_ 32 0#32),
    TRef.nullary main_call5.cst (constant S_ .f32 0x00000000#32),
    TRef.binary (TRef.of main_v83 : TRef sig ⟨S4x2048x1024, .f32⟩) main_call5.cst main_call5.v0 (fun x v => Host.reduceAdd x v reducesTo_S4x2048x1024_S4x2048_d2 h_S_),
    TRef.unary main_call5.v0 main_call5.v1 (broadcastInDim S4x2048x1 ![0, 1] bcast_S4x2048_S4x2048x1_0_1),
    TRef.nullary main_call5.cst_0 (constant S_ .f32 0x44800000#32),
    TRef.unary main_call5.cst_0 main_call5.v2 (broadcastInDim S4x2048x1 ![] bcast_S_S4x2048x1),
    TRef.binary main_call5.v1 main_call5.v2 main_call5.v3 Host.divf,
    TRef.unary main_call5.v3 main_call5.v4 (broadcastInDim S4x2048x1024 ![0, 1, 2] bcast_S4x2048x1_S4x2048x1024_0_1_2),
    TRef.binary (TRef.of main_v83 : TRef sig ⟨S4x2048x1024, .f32⟩) main_call5.v4 main_call5.v5 subf,
    TRef.binary main_call5.v5 main_call5.v5 main_call5.v6 mulf,
    TRef.unary (TRef.of main_c_18 : TRef sig ⟨S_, .i32⟩) main_call5.v7 (sitofp .f32),
    TRef.nullary main_call5.cst_1 (constant S_ .f32 0x44800000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S4x2048x1024_S4x2048_d2 h_S_),
    TRef.unary main_call5.v9 main_call5.v10 (broadcastInDim S4x2048x1 ![0, 1] bcast_S4x2048_S4x2048x1_0_1),
    TRef.unary main_call5.v8 main_call5.v11 (broadcastInDim S4x2048x1 ![] bcast_S_S4x2048x1),
    TRef.binary main_call5.v10 main_call5.v11 main_call5.v12 Host.divf,
    TRef.nullary main_call5.cst_3 (constant S_ .f32 0x00000000#32),
    TRef.binary main_call5.v8 main_call5.cst_3 main_call5.v13 (cmpf .ogt),
    TRef.nullary main_call5.cst_4 (constant S_ .f32 0x7FC00000#32),
    TRef.unary main_call5.cst_4 main_call5.call0.v0 id,
    TRef.unary main_call5.call0.v0 main_call5.call0.v1 (broadcastInDim S4x2048x1 ![] bcast_S_S4x2048x1),
    TRef.ternary main_call5.v13 main_call5.v12 main_call5.call0.v1 main_call5.call0.v2 (fun p a b => select (broadcastInDim S4x2048x1 ![] bcast_S_S4x2048x1 p) a b) ]

/-- @main's operations 189 … 198 of 202. -/
abbrev opsF2 : List (HloOp τ sig (Elt F)) :=
  [ unary main_v87 main_v89 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v83 main_v89 main_v90 (subf : (⟨S4x2048x1024, .f32⟩ : BufTy).Contents (Elt F) → (⟨S4x2048x1024, .f32⟩ : BufTy).Contents (Elt F) → (⟨S4x2048x1024, .f32⟩ : BufTy).Contents (Elt F)),
    nullary main_cst_19 (constant S_ .f32 0x3727C5AC#32),
    unary main_cst_19 main_v91 (broadcastInDim S4x2048x1 ![] bcast_S_S4x2048x1 : (⟨S_, .f32⟩ : BufTy).Contents (Elt F) → (⟨S4x2048x1, .f32⟩ : BufTy).Contents (Elt F)),
    binary main_v88 main_v91 main_v92 (addf : (⟨S4x2048x1, .f32⟩ : BufTy).Contents (Elt F) → (⟨S4x2048x1, .f32⟩ : BufTy).Contents (Elt F) → (⟨S4x2048x1, .f32⟩ : BufTy).Contents (Elt F)),
    unary main_v92 main_v93 (Host.rsqrt : (⟨S4x2048x1, .f32⟩ : BufTy).Contents (Elt F) → (⟨S4x2048x1, .f32⟩ : BufTy).Contents (Elt F)),
    unary main_v93 main_v94 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v90 main_v94 main_v95 (mulf : (⟨S4x2048x1024, .f32⟩ : BufTy).Contents (Elt F) → (⟨S4x2048x1024, .f32⟩ : BufTy).Contents (Elt F) → (⟨S4x2048x1024, .f32⟩ : BufTy).Contents (Elt F)),
    unary main_arg10 main_v96 (broadcastInDim S1x1x1024 ![2] bcast_S1024_S1x1x1024_2 : (⟨S1024, .f32⟩ : BufTy).Contents (Elt F) → (⟨S1x1x1024, .f32⟩ : BufTy).Contents (Elt F)),
    unary main_v96 main_v97 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)) ]

/-- @main's operations 199 … 202 of 202. -/
abbrev opsF3 : List (HloOp τ sig (Elt F)) :=
  [ binary main_v95 main_v97 main_v98 (mulf : (⟨S4x2048x1024, .f32⟩ : BufTy).Contents (Elt F) → (⟨S4x2048x1024, .f32⟩ : BufTy).Contents (Elt F) → (⟨S4x2048x1024, .f32⟩ : BufTy).Contents (Elt F)),
    unary main_arg11 main_v99 (broadcastInDim S1x1x1024 ![2] bcast_S1024_S1x1x1024_2 : (⟨S1024, .f32⟩ : BufTy).Contents (Elt F) → (⟨S1x1x1024, .f32⟩ : BufTy).Contents (Elt F)),
    unary main_v99 main_v100 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    binary main_v98 main_v100 main_v101 (addf : (⟨S4x2048x1024, .f32⟩ : BufTy).Contents (Elt F) → (⟨S4x2048x1024, .f32⟩ : BufTy).Contents (Elt F) → (⟨S4x2048x1024, .f32⟩ : BufTy).Contents (Elt F)) ]

/-- The operations of @main's first part. -/
abbrev p0 : List (HloOp τ sig (Elt F)) := opsA ++ (opsB1 ++ (opsB2 ++ (opsC1)))
/-- The operations of @main's second part. -/
abbrev p1 : List (HloOp τ sig (Elt F)) := opsC2 ++ (opsD1 ++ (opsD2 ++ (opsE ++ (opsF1 ++ (opsF2)))))
/-- The operations of @main's third part. -/
abbrev p2 : List (HloOp τ sig (Elt F)) := opsF3
/-- @main's 202 operations, in order. -/
abbrev ops : List (HloOp τ sig (Elt F)) := p0 ++ (p1 ++ p2)

set_option maxRecDepth 16384 in
set_option maxHeartbeats 4000000 in
/-- The first part is that straight line: the functions' definitions unfolded at their calls, both sides are one chain
    of steps once sequencing is reassociated. -/
theorem part0_eq (c : Dev nD) : main_part0 (F := F) c = seq p0 := by
  simp only [main_part0, fn_tril.body, fn_where.body, fn_var.body, fn_where_0.body, p0, opsA, opsB1, opsB2, opsC1, seq_append, seq, bind_assoc, pure_bind]
  rfl

set_option maxRecDepth 16384 in
set_option maxHeartbeats 4000000 in
/-- The second part likewise. -/
theorem part1_eq (c : Dev nD) : main_part1 (F := F) c = seq p1 := by
  simp only [main_part1, fn_var.body, fn_where_0.body, fn_relu.body, p1, opsC2, opsD1, opsD2, opsE, opsF1, opsF2, seq_append, seq, bind_assoc, pure_bind]
  rfl

/-- The third part likewise. -/
theorem part2_eq (c : Dev nD) : main_part2 (F := F) c = seq p2 := rfl

/-- @main is its three parts in order. -/
theorem main_eq (c : Dev nD) : main (F := F) c = seq ops := by
  simp only [ops, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨binary_bufs_sub .., nullary_bufs_sub .., unary_bufs_sub .., unary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub ..⟩

set_option maxRecDepth 8192 in
theorem opsB1_sub : (opsB1 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

set_option maxRecDepth 8192 in
theorem opsB2_sub : (opsB2 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
theorem opsC1_sub : (opsC1 : List (HloOp τ sig (Elt F))).Forall fun op => op.bufs ⊆ tcRefs τ sig :=
  ⟨binary_bufs_sub .., nullary_bufs_sub .., unary_bufs_sub .., unary_bufs_sub .., binary_bufs_sub .., nullary_bufs_sub .., binary_bufs_sub .., nullary_bufs_sub .., unary_bufs_sub .., binary_bufs_sub .., unary_bufs_sub ..⟩

set_option maxRecDepth 8192 in
theorem opsC2_sub : (opsC2 : List (HloOp τ sig (Elt F))).Forall fun op => op.bufs ⊆ tcRefs τ sig :=
  ⟨unary_bufs_sub .., binary_bufs_sub .., unary_bufs_sub .., nullary_bufs_sub .., binary_bufs_sub .., unary_bufs_sub .., unary_bufs_sub .., binary_bufs_sub .., binary_bufs_sub .., binary_bufs_sub ..⟩

set_option maxRecDepth 8192 in
theorem opsD1_sub : (opsD1 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

set_option maxRecDepth 8192 in
theorem opsD2_sub : (opsD2 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
theorem opsE_sub : (opsE : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub ..⟩

set_option maxRecDepth 8192 in
theorem opsF1_sub : (opsF1 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

set_option maxRecDepth 8192 in
theorem opsF2_sub : (opsF2 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub ..⟩

set_option maxRecDepth 8192 in
theorem opsF3_sub : (opsF3 : List (HloOp τ sig (Elt F))).Forall fun op => op.bufs ⊆ tcRefs τ sig :=
  ⟨binary_bufs_sub .., unary_bufs_sub .., unary_bufs_sub .., binary_bufs_sub ..⟩

theorem mem_ops {op : HloOp τ sig (Elt F)} (h : op ∈ (ops : List (HloOp τ sig (Elt F)))) :
    op ∈ (opsA : List (HloOp τ sig (Elt F))) ∨ op ∈ (opsB1 : List (HloOp τ sig (Elt F))) ∨ op ∈ (opsB2 : List (HloOp τ sig (Elt F))) ∨ op ∈ (opsC1 : List (HloOp τ sig (Elt F))) ∨ op ∈ (opsC2 : List (HloOp τ sig (Elt F))) ∨ op ∈ (opsD1 : List (HloOp τ sig (Elt F))) ∨ op ∈ (opsD2 : List (HloOp τ sig (Elt F))) ∨ op ∈ (opsE : List (HloOp τ sig (Elt F))) ∨ op ∈ (opsF1 : List (HloOp τ sig (Elt F))) ∨ op ∈ (opsF2 : List (HloOp τ sig (Elt F))) ∨ op ∈ (opsF3 : List (HloOp τ sig (Elt F))) := by
  simpa only [ops, p0, p1, p2, List.mem_append, or_assoc] using h

theorem ops_sub : (ops : List (HloOp τ sig (Elt F))).Forall fun op => op.bufs ⊆ tcRefs τ sig :=
  List.forall_iff_forall_mem.mpr fun op h => by
    rcases mem_ops h with h | h | h | h | h | h | h | h | h | h | h
    exacts [List.forall_iff_forall_mem.mp opsA_sub op h, List.forall_iff_forall_mem.mp opsB1_sub op h, List.forall_iff_forall_mem.mp opsB2_sub op h, List.forall_iff_forall_mem.mp opsC1_sub op h, List.forall_iff_forall_mem.mp opsC2_sub op h, List.forall_iff_forall_mem.mp opsD1_sub op h, List.forall_iff_forall_mem.mp opsD2_sub op h, List.forall_iff_forall_mem.mp opsE_sub op h, List.forall_iff_forall_mem.mp opsF1_sub op h, List.forall_iff_forall_mem.mp opsF2_sub op h, List.forall_iff_forall_mem.mp opsF3_sub op h]

set_option maxRecDepth 8192 in
theorem opsA_fresh : ∀ op ∈ (opsA : List (HloOp τ sig (Elt F))), op.fresh = ∅ := by
  intro _ h; (repeat (cases h with | head => rfl | tail _ h => ?_)); exact nomatch h

set_option maxRecDepth 8192 in
theorem opsB1_fresh : ∀ op ∈ (opsB1 : List (HloOp τ sig (Elt F))), op.fresh = ∅ := by
  intro _ h; (repeat (cases h with | head => rfl | tail _ h => ?_)); exact nomatch h

set_option maxRecDepth 8192 in
theorem opsB2_fresh : ∀ op ∈ (opsB2 : List (HloOp τ sig (Elt F))), op.fresh = ∅ := by
  intro _ h; (repeat (cases h with | head => rfl | tail _ h => ?_)); exact nomatch h

set_option maxRecDepth 8192 in
theorem opsC1_fresh : ∀ op ∈ (opsC1 : List (HloOp τ sig (Elt F))), op.fresh = ∅ := by
  intro _ h; (repeat (cases h with | head => rfl | tail _ h => ?_)); exact nomatch h

set_option maxRecDepth 8192 in
theorem opsC2_fresh : ∀ op ∈ (opsC2 : List (HloOp τ sig (Elt F))), op.fresh = ∅ := by
  intro _ h; (repeat (cases h with | head => rfl | tail _ h => ?_)); exact nomatch h

set_option maxRecDepth 8192 in
theorem opsD1_fresh : ∀ op ∈ (opsD1 : List (HloOp τ sig (Elt F))), op.fresh = ∅ := by
  intro _ h; (repeat (cases h with | head => rfl | tail _ h => ?_)); exact nomatch h

set_option maxRecDepth 8192 in
theorem opsD2_fresh : ∀ op ∈ (opsD2 : List (HloOp τ sig (Elt F))), op.fresh = ∅ := by
  intro _ h; (repeat (cases h with | head => rfl | tail _ h => ?_)); exact nomatch h

set_option maxRecDepth 8192 in
theorem opsE_fresh : ∀ op ∈ (opsE : List (HloOp τ sig (Elt F))), op.fresh = ∅ := by
  intro _ h; (repeat (cases h with | head => rfl | tail _ h => ?_)); exact nomatch h

set_option maxRecDepth 8192 in
theorem opsF1_fresh : ∀ op ∈ (opsF1 : List (HloOp τ sig (Elt F))), op.fresh = ∅ := by
  intro _ h; (repeat (cases h with | head => rfl | tail _ h => ?_)); exact nomatch h

set_option maxRecDepth 8192 in
theorem opsF2_fresh : ∀ op ∈ (opsF2 : List (HloOp τ sig (Elt F))), op.fresh = ∅ := by
  intro _ h; (repeat (cases h with | head => rfl | tail _ h => ?_)); exact nomatch h

set_option maxRecDepth 8192 in
theorem opsF3_fresh : ∀ op ∈ (opsF3 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  rcases mem_ops h with h | h | h | h | h | h | h | h | h | h | h
  exacts [opsA_fresh op h, opsB1_fresh op h, opsB2_fresh op h, opsC1_fresh op h, opsC2_fresh op h, opsD1_fresh op h, opsD2_fresh op h, opsE_fresh op h, opsF1_fresh op h, opsF2_fresh op h, opsF3_fresh op h]

/-- Every weakly fair execution of @main terminates with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefValue

end
-- ==== Proof.RefDefs.lean ====
/-
  The reference program's result as a composition of named array functions, one per stage of the block: the
  scores, the causal mask, the softmax's pieces, the weighted sum, a row's mean, deviations and variance, the
  normalisation, the perceptron. Each is the program's own operations on whole arrays, at any float instance.
-/
import proofs.«167660_j22771916603726_2_alg».proof.Proof.Gen.ReferenceIdeal

noncomputable section

namespace Cert.ReferenceIdeal.RefValue

open Cert.ReferenceIdeal Cert.ReferenceIdeal.Gen Idealize.ShloMosaic Idealize.SL.Sem

variable {F : FTy → Type} [FloatOps F]

/-- The lower-triangle mask: true where the row's number is at least the column's. -/
def mask  : (⟨S2048x2048, .i1⟩ : BufTy).Contents (Elt F) :=
  (select (cmpi .sge (addi (iotaInDim S2048x2048 32 0 : (⟨S2048x2048, .i32⟩ : BufTy).Contents (Elt F)) (broadcastInDim S2048x2048 ![] bcast_S_S2048x2048 (constantI S_ 32 0#32 : (⟨S_, .i32⟩ : BufTy).Contents (Elt F)) : (⟨S2048x2048, .i32⟩ : BufTy).Contents (Elt F)) : (⟨S2048x2048, .i32⟩ : BufTy).Contents (Elt F)) (iotaInDim S2048x2048 32 1 : (⟨S2048x2048, .i32⟩ : BufTy).Contents (Elt F)) : (⟨S2048x2048, .i1⟩ : BufTy).Contents (Elt F)) (broadcastInDim S2048x2048 ![] bcast_S_S2048x2048 (constantI S_ 1 1#1 : (⟨S_, .i1⟩ : BufTy).Contents (Elt F)) : (⟨S2048x2048, .i1⟩ : BufTy).Contents (Elt F)) (broadcastInDim S2048x2048 ![] bcast_S_S2048x2048 (constantI S_ 1 0#1 : (⟨S_, .i1⟩ : BufTy).Contents (Elt F)) : (⟨S2048x2048, .i1⟩ : BufTy).Contents (Elt F)) : (⟨S2048x2048, .i1⟩ : BufTy).Contents (Elt F))

/-- The scores of query rows against key rows: the products summed over the feature axis, divided by the square root of the row length. -/
def scores (Q K : (⟨S4x2048x1024, .f32⟩ : BufTy).Contents (Elt F)) : (⟨S4x2048x2048, .f32⟩ : BufTy).Contents (Elt F) :=
  (Host.divf (Host.dotGeneral dot_S4x2048x1024_S4x2048x1024_S4x2048x2048_2_2_1_1_0_0 none Q K : (⟨S4x2048x2048, .f32⟩ : BufTy).Contents (Elt F)) (broadcastInDim S4x2048x2048 ![] bcast_S_S4x2048x2048 (Host.sqrt (constant S_ .f32 0x44800000#32 : (⟨S_, .f32⟩ : BufTy).Contents (Elt F)) : (⟨S_, .f32⟩ : BufTy).Contents (Elt F)) : (⟨S4x2048x2048, .f32⟩ : BufTy).Contents (Elt F)) : (⟨S4x2048x2048, .f32⟩ : BufTy).Contents (Elt F))

/-- The causal scores: masked positions at minus infinity. -/
def scSelf (Y : (⟨S4x2048x1024, .f32⟩ : BufTy).Contents (Elt F)) : (⟨S4x2048x2048, .f32⟩ : BufTy).Contents (Elt F) :=
  (select (broadcastInDim S4x2048x2048 ![0, 1, 2] bcast_S1x2048x2048_S4x2048x2048_0_1_2 (broadcastInDim S1x2048x2048 ![1, 2] bcast_S2048x2048_S1x2048x2048_1_2 (mask (F := F)) : (⟨S1x2048x2048, .i1⟩ : BufTy).Contents (Elt F)) : (⟨S4x2048x2048, .i1⟩ : BufTy).Contents (Elt F)) (scores Y Y) (broadcastInDim S4x2048x2048 ![] bcast_S_S4x2048x2048 (constant S_ .f32 0xFF800000#32 : (⟨S_, .f32⟩ : BufTy).Contents (Elt F)) : (⟨S4x2048x2048, .f32⟩ : BufTy).Contents (Elt F)) : (⟨S4x2048x2048, .f32⟩ : BufTy).Contents (Elt F))

/-- Each row's largest score. -/
def smMax (σ : (⟨S4x2048x2048, .f32⟩ : BufTy).Contents (Elt F)) : (⟨S4x2048, .f32⟩ : BufTy).Contents (Elt F) :=
  (maximumf (broadcastInDim S4x2048 ![] bcast_S_S4x2048 (constant S_ .f32 0xFF800000#32 : (⟨S_, .f32⟩ : BufTy).Contents (Elt F)) : (⟨S4x2048, .f32⟩ : BufTy).Contents (Elt F)) (Host.reduce FloatOps.maximumf σ (constant S_ .f32 0xFF800000#32 : (⟨S_, .f32⟩ : BufTy).Contents (Elt F)) reducesTo_S4x2048x2048_S4x2048_d2 h_S_ : (⟨S4x2048, .f32⟩ : BufTy).Contents (Elt F)) : (⟨S4x2048, .f32⟩ : BufTy).Contents (Elt F))

/-- The exponentials of the scores less their row's largest. -/
def smNum (σ : (⟨S4x2048x2048, .f32⟩ : BufTy).Contents (Elt F)) : (⟨S4x2048x2048, .f32⟩ : BufTy).Contents (Elt F) :=
  (Host.exp (subf σ (broadcastInDim S4x2048x2048 ![0, 1, 2] bcast_S4x2048x1_S4x2048x2048_0_1_2 (broadcastInDim S4x2048x1 ![0, 1] bcast_S4x2048_S4x2048x1_0_1 (smMax σ) : (⟨S4x2048x1, .f32⟩ : BufTy).Contents (Elt F)) : (⟨S4x2048x2048, .f32⟩ : BufTy).Contents (Elt F)) : (⟨S4x2048x2048, .f32⟩ : BufTy).Contents (Elt F)) : (⟨S4x2048x2048, .f32⟩ : BufTy).Contents (Elt F))

/-- Each row's sum of exponentials. -/
def smDen (σ : (⟨S4x2048x2048, .f32⟩ : BufTy).Contents (Elt F)) : (⟨S4x2048, .f32⟩ : BufTy).Contents (Elt F) :=
  (Host.reduceAdd (smNum σ) (constant S_ .f32 0x00000000#32 : (⟨S_, .f32⟩ : BufTy).Contents (Elt F)) reducesTo_S4x2048x2048_S4x2048_d2 h_S_ : (⟨S4x2048, .f32⟩ : BufTy).Contents (Elt F))

/-- The softmax weights. -/
def smW (σ : (⟨S4x2048x2048, .f32⟩ : BufTy).Contents (Elt F)) : (⟨S4x2048x2048, .f32⟩ : BufTy).Contents (Elt F) :=
  (Host.divf (smNum σ) (broadcastInDim S4x2048x2048 ![0, 1, 2] bcast_S4x2048x1_S4x2048x2048_0_1_2 (broadcastInDim S4x2048x1 ![0, 1] bcast_S4x2048_S4x2048x1_0_1 (smDen σ) : (⟨S4x2048x1, .f32⟩ : BufTy).Contents (Elt F)) : (⟨S4x2048x2048, .f32⟩ : BufTy).Contents (Elt F)) : (⟨S4x2048x2048, .f32⟩ : BufTy).Contents (Elt F))

/-- The weighted sums of the value rows. -/
def attn (σ : (⟨S4x2048x2048, .f32⟩ : BufTy).Contents (Elt F)) (V : (⟨S4x2048x1024, .f32⟩ : BufTy).Contents (Elt F)) : (⟨S4x2048x1024, .f32⟩ : BufTy).Contents (Elt F) :=
  (Host.dotGeneral dot_S4x2048x2048_S4x2048x1024_S4x2048x1024_2_1_1_2_0_0 none (smW σ) V : (⟨S4x2048x1024, .f32⟩ : BufTy).Contents (Elt F))

/-- A row's mean, one column per row. -/
def lnMeanCol (x : (⟨S4x2048x1024, .f32⟩ : BufTy).Contents (Elt F)) : (⟨S4x2048x1, .f32⟩ : BufTy).Contents (Elt F) :=
  (Host.divf (broadcastInDim S4x2048x1 ![0, 1] bcast_S4x2048_S4x2048x1_0_1 (Host.reduceAdd x (constant S_ .f32 0x00000000#32 : (⟨S_, .f32⟩ : BufTy).Contents (Elt F)) reducesTo_S4x2048x1024_S4x2048_d2 h_S_ : (⟨S4x2048, .f32⟩ : BufTy).Contents (Elt F)) : (⟨S4x2048x1, .f32⟩ : BufTy).Contents (Elt F)) (broadcastInDim S4x2048x1 ![] bcast_S_S4x2048x1 (constant S_ .f32 0x44800000#32 : (⟨S_, .f32⟩ : BufTy).Contents (Elt F)) : (⟨S4x2048x1, .f32⟩ : BufTy).Contents (Elt F)) : (⟨S4x2048x1, .f32⟩ : BufTy).Contents (Elt F))

/-- The deviations from the row's mean. -/
def lnDev (x : (⟨S4x2048x1024, .f32⟩ : BufTy).Contents (Elt F)) : (⟨S4x2048x1024, .f32⟩ : BufTy).Contents (Elt F) :=
  (subf x (broadcastInDim S4x2048x1024 ![0, 1, 2] bcast_S4x2048x1_S4x2048x1024_0_1_2 (lnMeanCol x) : (⟨S4x2048x1024, .f32⟩ : BufTy).Contents (Elt F)) : (⟨S4x2048x1024, .f32⟩ : BufTy).Contents (Elt F))

/-- A row's variance, one column per row: the mean of the squared deviations, guarded by the normaliser's sign. -/
def lnVarCol (x : (⟨S4x2048x1024, .f32⟩ : BufTy).Contents (Elt F)) : (⟨S4x2048x1, .f32⟩ : BufTy).Contents (Elt F) :=
  (select (broadcastInDim S4x2048x1 ![] bcast_S_S4x2048x1 (cmpf .ogt (subf (constant S_ .f32 0x44800000#32 : (⟨S_, .f32⟩ : BufTy).Contents (Elt F)) (sitofp .f32 (constantI S_ 32 0#32 : (⟨S_, .i32⟩ : BufTy).Contents (Elt F)) : (⟨S_, .f32⟩ : BufTy).Contents (Elt F)) : (⟨S_, .f32⟩ : BufTy).Contents (Elt F)) (constant S_ .f32 0x00000000#32 : (⟨S_, .f32⟩ : BufTy).Contents (Elt F)) : (⟨S_, .i1⟩ : BufTy).Contents (Elt F))) (Host.divf (broadcastInDim S4x2048x1 ![0, 1] bcast_S4x2048_S4x2048x1_0_1 (Host.reduceAdd (mulf (lnDev x) (lnDev x) : (⟨S4x2048x1024, .f32⟩ : BufTy).Contents (Elt F)) (constant S_ .f32 0x00000000#32 : (⟨S_, .f32⟩ : BufTy).Contents (Elt F)) reducesTo_S4x2048x1024_S4x2048_d2 h_S_ : (⟨S4x2048, .f32⟩ : BufTy).Contents (Elt F)) : (⟨S4x2048x1, .f32⟩ : BufTy).Contents (Elt F)) (broadcastInDim S4x2048x1 ![] bcast_S_S4x2048x1 (subf (constant S_ .f32 0x44800000#32 : (⟨S_, .f32⟩ : BufTy).Contents (Elt F)) (sitofp .f32 (constantI S_ 32 0#32 : (⟨S_, .i32⟩ : BufTy).Contents (Elt F)) : (⟨S_, .f32⟩ : BufTy).Contents (Elt F)) : (⟨S_, .f32⟩ : BufTy).Contents (Elt F)) : (⟨S4x2048x1, .f32⟩ : BufTy).Contents (Elt F)) : (⟨S4x2048x1, .f32⟩ : BufTy).Contents (Elt F)) (broadcastInDim S4x2048x1 ![] bcast_S_S4x2048x1 ((constant S_ .f32 0x7FC00000#32 : (⟨S_, .f32⟩ : BufTy).Contents (Elt F)) : (⟨S_, .f32⟩ : BufTy).Contents (Elt F)) : (⟨S4x2048x1, .f32⟩ : BufTy).Contents (Elt F)) : (⟨S4x2048x1, .f32⟩ : BufTy).Contents (Elt F))

/-- The deviations scaled by the inverse square root of the variance plus the offset. -/
def lnNormed (x : (⟨S4x2048x1024, .f32⟩ : BufTy).Contents (Elt F)) : (⟨S4x2048x1024, .f32⟩ : BufTy).Contents (Elt F) :=
  (mulf (lnDev x) (broadcastInDim S4x2048x1024 ![0, 1, 2] bcast_S4x2048x1_S4x2048x1024_0_1_2 (Host.rsqrt (addf (lnVarCol x) (broadcastInDim S4x2048x1 ![] bcast_S_S4x2048x1 (constant S_ .f32 0x3727C5AC#32 : (⟨S_, .f32⟩ : BufTy).Contents (Elt F)) : (⟨S4x2048x1, .f32⟩ : BufTy).Contents (Elt F)) : (⟨S4x2048x1, .f32⟩ : BufTy).Contents (Elt F)) : (⟨S4x2048x1, .f32⟩ : BufTy).Contents (Elt F)) : (⟨S4x2048x1024, .f32⟩ : BufTy).Contents (Elt F)) : (⟨S4x2048x1024, .f32⟩ : BufTy).Contents (Elt F))

/-- Layer normalisation with gain g and offset β. -/
def lnOut (x : (⟨S4x2048x1024, .f32⟩ : BufTy).Contents (Elt F)) (g β : (⟨S1024, .f32⟩ : BufTy).Contents (Elt F)) : (⟨S4x2048x1024, .f32⟩ : BufTy).Contents (Elt F) :=
  (addf (mulf (lnNormed x) (broadcastInDim S4x2048x1024 ![0, 1, 2] bcast_S1x1x1024_S4x2048x1024_0_1_2 (broadcastInDim S1x1x1024 ![2] bcast_S1024_S1x1x1024_2 g : (⟨S1x1x1024, .f32⟩ : BufTy).Contents (Elt F)) : (⟨S4x2048x1024, .f32⟩ : BufTy).Contents (Elt F)) : (⟨S4x2048x1024, .f32⟩ : BufTy).Contents (Elt F)) (broadcastInDim S4x2048x1024 ![0, 1, 2] bcast_S1x1x1024_S4x2048x1024_0_1_2 (broadcastInDim S1x1x1024 ![2] bcast_S1024_S1x1x1024_2 β : (⟨S1x1x1024, .f32⟩ : BufTy).Contents (Elt F)) : (⟨S4x2048x1024, .f32⟩ : BufTy).Contents (Elt F)) : (⟨S4x2048x1024, .f32⟩ : BufTy).Contents (Elt F))

/-- The perceptron's hidden layer. -/
def ffnHidden (x : (⟨S4x2048x1024, .f32⟩ : BufTy).Contents (Elt F)) (W1 : (⟨S1024x4096, .f32⟩ : BufTy).Contents (Elt F)) (B1 : (⟨S4096, .f32⟩ : BufTy).Contents (Elt F)) : (⟨S4x2048x4096, .f32⟩ : BufTy).Contents (Elt F) :=
  (maximumf (addf (Host.dotGeneral dot_S4x2048x1024_S1024x4096_S4x2048x4096_2_0_01_1_n_n none x W1 : (⟨S4x2048x4096, .f32⟩ : BufTy).Contents (Elt F)) (broadcastInDim S4x2048x4096 ![0, 1, 2] bcast_S1x1x4096_S4x2048x4096_0_1_2 (broadcastInDim S1x1x4096 ![2] bcast_S4096_S1x1x4096_2 B1 : (⟨S1x1x4096, .f32⟩ : BufTy).Contents (Elt F)) : (⟨S4x2048x4096, .f32⟩ : BufTy).Contents (Elt F)) : (⟨S4x2048x4096, .f32⟩ : BufTy).Contents (Elt F)) (broadcastInDim S4x2048x4096 ![] bcast_S_S4x2048x4096 (constant S_ .f32 0x00000000#32 : (⟨S_, .f32⟩ : BufTy).Contents (Elt F)) : (⟨S4x2048x4096, .f32⟩ : BufTy).Contents (Elt F)) : (⟨S4x2048x4096, .f32⟩ : BufTy).Contents (Elt F))

/-- The perceptron. -/
def ffn (x : (⟨S4x2048x1024, .f32⟩ : BufTy).Contents (Elt F)) (W1 : (⟨S1024x4096, .f32⟩ : BufTy).Contents (Elt F)) (B1 : (⟨S4096, .f32⟩ : BufTy).Contents (Elt F)) (W2 : (⟨S4096x1024, .f32⟩ : BufTy).Contents (Elt F)) (B2 : (⟨S1024, .f32⟩ : BufTy).Contents (Elt F)) : (⟨S4x2048x1024, .f32⟩ : BufTy).Contents (Elt F) :=
  (addf (Host.dotGeneral dot_S4x2048x4096_S4096x1024_S4x2048x1024_2_0_01_1_n_n none (ffnHidden x W1 B1) W2 : (⟨S4x2048x1024, .f32⟩ : BufTy).Contents (Elt F)) (broadcastInDim S4x2048x1024 ![0, 1, 2] bcast_S1x1x1024_S4x2048x1024_0_1_2 (broadcastInDim S1x1x1024 ![2] bcast_S1024_S1x1x1024_2 B2 : (⟨S1x1x1024, .f32⟩ : BufTy).Contents (Elt F)) : (⟨S4x2048x1024, .f32⟩ : BufTy).Contents (Elt F)) : (⟨S4x2048x1024, .f32⟩ : BufTy).Contents (Elt F))

/-- Stage 1 before normalisation: the input plus its causal self-attention. -/
def a1 (Y : (⟨S4x2048x1024, .f32⟩ : BufTy).Contents (Elt F)) : (⟨S4x2048x1024, .f32⟩ : BufTy).Contents (Elt F) :=
  (addf Y (attn (scSelf Y) Y) : (⟨S4x2048x1024, .f32⟩ : BufTy).Contents (Elt F))

/-- Stage 1. -/
def h1 (Y : (⟨S4x2048x1024, .f32⟩ : BufTy).Contents (Elt F)) (G1 Be1 : (⟨S1024, .f32⟩ : BufTy).Contents (Elt F)) : (⟨S4x2048x1024, .f32⟩ : BufTy).Contents (Elt F) :=
  lnOut (a1 Y) G1 Be1

/-- Stage 2 before normalisation: stage 1 plus its attention over the memory. -/
def a2 (Y Z : (⟨S4x2048x1024, .f32⟩ : BufTy).Contents (Elt F)) (G1 Be1 : (⟨S1024, .f32⟩ : BufTy).Contents (Elt F)) : (⟨S4x2048x1024, .f32⟩ : BufTy).Contents (Elt F) :=
  (addf (h1 Y G1 Be1) (attn (scores (h1 Y G1 Be1) Z) Z) : (⟨S4x2048x1024, .f32⟩ : BufTy).Contents (Elt F))

/-- Stage 2. -/
def h2 (Y Z : (⟨S4x2048x1024, .f32⟩ : BufTy).Contents (Elt F)) (G1 Be1 G2 Be2 : (⟨S1024, .f32⟩ : BufTy).Contents (Elt F)) : (⟨S4x2048x1024, .f32⟩ : BufTy).Contents (Elt F) :=
  lnOut (a2 Y Z G1 Be1) G2 Be2

/-- Stage 3 before normalisation: stage 2 plus its perceptron. -/
def a3 (Y Z : (⟨S4x2048x1024, .f32⟩ : BufTy).Contents (Elt F)) (W1 : (⟨S1024x4096, .f32⟩ : BufTy).Contents (Elt F)) (B1 : (⟨S4096, .f32⟩ : BufTy).Contents (Elt F)) (W2 : (⟨S4096x1024, .f32⟩ : BufTy).Contents (Elt F)) (B2 G1 Be1 G2 Be2 : (⟨S1024, .f32⟩ : BufTy).Contents (Elt F)) : (⟨S4x2048x1024, .f32⟩ : BufTy).Contents (Elt F) :=
  (addf (h2 Y Z G1 Be1 G2 Be2) (ffn (h2 Y Z G1 Be1 G2 Be2) W1 B1 W2 B2) : (⟨S4x2048x1024, .f32⟩ : BufTy).Contents (Elt F))

/-- The reference's result as a function of its twelve arguments. -/
def refOut (Y Z : (⟨S4x2048x1024, .f32⟩ : BufTy).Contents (Elt F)) (W1 : (⟨S1024x4096, .f32⟩ : BufTy).Contents (Elt F)) (B1 : (⟨S4096, .f32⟩ : BufTy).Contents (Elt F)) (W2 : (⟨S4096x1024, .f32⟩ : BufTy).Contents (Elt F)) (B2 G1 Be1 G2 Be2 G3 Be3 : (⟨S1024, .f32⟩ : BufTy).Contents (Elt F)) : (⟨S4x2048x1024, .f32⟩ : BufTy).Contents (Elt F) :=
  lnOut (a3 Y Z W1 B1 W2 B2 G1 Be1 G2 Be2) G3 Be3

end Cert.ReferenceIdeal.RefValue

end
-- ==== Proof.RefRun2.lean ====
/-
  The run of the reference program read back: the device's buffer contents after each stretch of the operation
  list, each buffer still needed given as a named array function of the arguments' launch contents, and from them
  the run's post: the result buffer at `refOut` of the arguments, the arguments unchanged.
-/
import proofs.«167660_j22771916603726_2_alg».proof.Proof.RefRun
import proofs.«167660_j22771916603726_2_alg».proof.Proof.RefDefs

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- One operation's written buffer is in the stretch's list. -/
local macro "writes_mem" : tactic =>
  `(tactic| (simp only [nullary_writes, unary_writes, binary_writes, ternary_writes, Finset.singleton_subset_iff, List.mem_toFinset]; exact List.mem_map_of_mem (by decide)))

/-- The fold of two stretches one after the other is the fold of their concatenation. -/
theorem after_append' : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_append' l₁ l₂]

/-- The device's buffer contents before the first stretch. -/
def val0 (V0 : Valuation τ sig (Elt F)) : Valuation τ sig (Elt F) := V0
/-- No buffer is written before the first stretch. -/
abbrev W0 : List (Ref sig .tc) := []
theorem val0_arg (V0 : Valuation τ sig (Elt F)) (r : Ref sig .tc) (h : r ∉ W0) :
    val0 V0 (no_index (Proc.devRef .tc r)) = V0 (Proc.devRef .tc r) := rfl

/-- The device's buffer contents after the first 1 stretch. -/
def val1 (V0 : Valuation τ sig (Elt F)) : Valuation τ sig (Elt F) := after opsA (val0 V0)
/-- The buffers that stretch 1 writes. -/
abbrev opsA_W : List (Ref sig .tc) := [main_v0, main_cst, main_v1, main_v2, main_v3, main_c, main_v4, main_call0_v0, main_call0_c, main_call0_v1, main_call0_v2, main_call0_v3, main_call0_v4, main_call0_c_0, main_call0_v5, main_v5, main_v6, main_cst_0, main_call1_v0, main_call1_v1, main_v7, main_cst_1, main_v8, main_cst_2, main_v9, main_v10, main_v11, main_v12, main_v13, main_v14, main_cst_3, main_v15, main_v16, main_v17, main_v18, main_v19, main_v20]
set_option maxRecDepth 8192 in
theorem opsA_writes : (opsA : List (HloOp τ sig (Elt F))).Forall fun op => op.writes ⊆ (opsA_W.map (Proc.devRef (τ := τ) .tc)).toFinset := by
  simp only [List.Forall]; exact ⟨by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem⟩
/-- A buffer that stretch 1 does not write keeps its contents through it. -/
theorem val1_keep (V0 : Valuation τ sig (Elt F)) (r : Ref sig .tc) (h : r ∉ opsA_W) :
    val1 V0 (Proc.devRef .tc r) = val0 V0 (Proc.devRef .tc r) :=
  after_of_writes_sub opsA _ opsA_writes h
/-- The buffers written by the end of stretch 1. -/
abbrev W1 : List (Ref sig .tc) := W0 ++ opsA_W
/-- A buffer not written by the end of stretch 1 is at its launch contents. -/
theorem val1_arg (V0 : Valuation τ sig (Elt F)) (r : Ref sig .tc) (h : r ∉ W1) :
    val1 V0 (no_index (Proc.devRef .tc r)) = V0 (Proc.devRef .tc r) :=
  (val1_keep V0 r fun hm => h (List.mem_append_right _ hm)).trans
    (val0_arg V0 r fun hm => h (List.mem_append_left _ hm))
set_option maxRecDepth 8192 in
set_option maxHeartbeats 4000000 in
theorem val1_main_v20 (V0 : Valuation τ sig (Elt F)) : val1 V0 (no_index (Proc.devRef .tc main_v20)) = (a1 (V0 (Proc.devRef .tc main_arg0))) := by
  unfold val1
  simp only [opsA]
  after_results_simp
  simp only [val0_arg V0 main_arg0 (by decide)] <;> rfl

/-- The device's buffer contents after the first 2 stretches. -/
def val2 (V0 : Valuation τ sig (Elt F)) : Valuation τ sig (Elt F) := after opsB1 (val1 V0)
/-- The buffers that stretch 2 writes. -/
abbrev opsB1_W : List (Ref sig .tc) := [main_cst_4, main_v21, main_v22, main_cst_5, main_v23, main_v24, main_c_6, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v25]
set_option maxRecDepth 8192 in
theorem opsB1_writes : (opsB1 : List (HloOp τ sig (Elt F))).Forall fun op => op.writes ⊆ (opsB1_W.map (Proc.devRef (τ := τ) .tc)).toFinset := by
  simp only [List.Forall]; exact ⟨by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem⟩
/-- A buffer that stretch 2 does not write keeps its contents through it. -/
theorem val2_keep (V0 : Valuation τ sig (Elt F)) (r : Ref sig .tc) (h : r ∉ opsB1_W) :
    val2 V0 (Proc.devRef .tc r) = val1 V0 (Proc.devRef .tc r) :=
  after_of_writes_sub opsB1 _ opsB1_writes h
/-- The buffers written by the end of stretch 2. -/
abbrev W2 : List (Ref sig .tc) := W1 ++ opsB1_W
/-- A buffer not written by the end of stretch 2 is at its launch contents. -/
theorem val2_arg (V0 : Valuation τ sig (Elt F)) (r : Ref sig .tc) (h : r ∉ W2) :
    val2 V0 (no_index (Proc.devRef .tc r)) = V0 (Proc.devRef .tc r) :=
  (val2_keep V0 r fun hm => h (List.mem_append_right _ hm)).trans
    (val1_arg V0 r fun hm => h (List.mem_append_left _ hm))
theorem val2_main_v20 (V0 : Valuation τ sig (Elt F)) : val2 V0 (no_index (Proc.devRef .tc main_v20)) = (a1 (V0 (Proc.devRef .tc main_arg0))) :=
  (val2_keep V0 main_v20 (by decide)).trans (val1_main_v20 V0)
set_option maxRecDepth 8192 in
set_option maxHeartbeats 4000000 in
theorem val2_main_v24 (V0 : Valuation τ sig (Elt F)) : val2 V0 (no_index (Proc.devRef .tc main_v24)) = lnMeanCol (a1 (V0 (Proc.devRef .tc main_arg0))) := by
  unfold val2
  simp only [opsB1]
  after_results_simp
  simp only [val1_main_v20] <;> rfl
set_option maxRecDepth 8192 in
set_option maxHeartbeats 4000000 in
theorem val2_main_v25 (V0 : Valuation τ sig (Elt F)) : val2 V0 (no_index (Proc.devRef .tc main_v25)) = lnVarCol (a1 (V0 (Proc.devRef .tc main_arg0))) := by
  unfold val2
  simp only [opsB1]
  after_results_simp
  simp only [val1_main_v20] <;> rfl

/-- The device's buffer contents after the first 3 stretches. -/
def val3 (V0 : Valuation τ sig (Elt F)) : Valuation τ sig (Elt F) := after opsB2 (val2 V0)
/-- The buffers that stretch 3 writes. -/
abbrev opsB2_W : List (Ref sig .tc) := [main_v26, main_v27, main_cst_7, main_v28, main_v29, main_v30, main_v31, main_v32, main_v33, main_v34, main_v35, main_v36, main_v37, main_v38]
set_option maxRecDepth 8192 in
theorem opsB2_writes : (opsB2 : List (HloOp τ sig (Elt F))).Forall fun op => op.writes ⊆ (opsB2_W.map (Proc.devRef (τ := τ) .tc)).toFinset := by
  simp only [List.Forall]; exact ⟨by writes_mem,
    by writes_mem,
    by writes_mem,
    by writes_mem,
    by writes_mem,
    by writes_mem,
    by writes_mem,
    by writes_mem,
    by writes_mem,
    by writes_mem,
    by writes_mem,
    by writes_mem,
    by writes_mem,
    by writes_mem⟩
/-- A buffer that stretch 3 does not write keeps its contents through it. -/
theorem val3_keep (V0 : Valuation τ sig (Elt F)) (r : Ref sig .tc) (h : r ∉ opsB2_W) :
    val3 V0 (Proc.devRef .tc r) = val2 V0 (Proc.devRef .tc r) :=
  after_of_writes_sub opsB2 _ opsB2_writes h
/-- The buffers written by the end of stretch 3. -/
abbrev W3 : List (Ref sig .tc) := W2 ++ opsB2_W
/-- A buffer not written by the end of stretch 3 is at its launch contents. -/
theorem val3_arg (V0 : Valuation τ sig (Elt F)) (r : Ref sig .tc) (h : r ∉ W3) :
    val3 V0 (no_index (Proc.devRef .tc r)) = V0 (Proc.devRef .tc r) :=
  (val3_keep V0 r fun hm => h (List.mem_append_right _ hm)).trans
    (val2_arg V0 r fun hm => h (List.mem_append_left _ hm))
set_option maxRecDepth 8192 in
set_option maxHeartbeats 4000000 in
theorem val3_main_v38 (V0 : Valuation τ sig (Elt F)) : val3 V0 (no_index (Proc.devRef .tc main_v38)) = (h1 (V0 (Proc.devRef .tc main_arg0)) (V0 (Proc.devRef .tc main_arg6)) (V0 (Proc.devRef .tc main_arg7))) := by
  unfold val3
  simp only [opsB2]
  after_results_simp
  simp only [val2_main_v24, val2_main_v20, val2_main_v25, val2_arg V0 main_arg6 (by decide), val2_arg V0 main_arg7 (by decide)] <;> rfl

/-- The device's buffer contents after the first 4 stretches. -/
def val4 (V0 : Valuation τ sig (Elt F)) : Valuation τ sig (Elt F) := after opsC1 (val3 V0)
/-- The buffers that stretch 4 writes. -/
abbrev opsC1_W : List (Ref sig .tc) := [main_v39, main_cst_8, main_v40, main_v41, main_v42, main_cst_9, main_v43, main_cst_10, main_v44, main_v45, main_v46]
set_option maxRecDepth 8192 in
theorem opsC1_writes : (opsC1 : List (HloOp τ sig (Elt F))).Forall fun op => op.writes ⊆ (opsC1_W.map (Proc.devRef (τ := τ) .tc)).toFinset := by
  simp only [List.Forall]; exact ⟨by writes_mem,
    by writes_mem,
    by writes_mem,
    by writes_mem,
    by writes_mem,
    by writes_mem,
    by writes_mem,
    by writes_mem,
    by writes_mem,
    by writes_mem,
    by writes_mem⟩
/-- A buffer that stretch 4 does not write keeps its contents through it. -/
theorem val4_keep (V0 : Valuation τ sig (Elt F)) (r : Ref sig .tc) (h : r ∉ opsC1_W) :
    val4 V0 (Proc.devRef .tc r) = val3 V0 (Proc.devRef .tc r) :=
  after_of_writes_sub opsC1 _ opsC1_writes h
/-- The buffers written by the end of stretch 4. -/
abbrev W4 : List (Ref sig .tc) := W3 ++ opsC1_W
/-- A buffer not written by the end of stretch 4 is at its launch contents. -/
theorem val4_arg (V0 : Valuation τ sig (Elt F)) (r : Ref sig .tc) (h : r ∉ W4) :
    val4 V0 (no_index (Proc.devRef .tc r)) = V0 (Proc.devRef .tc r) :=
  (val4_keep V0 r fun hm => h (List.mem_append_right _ hm)).trans
    (val3_arg V0 r fun hm => h (List.mem_append_left _ hm))
theorem val4_main_v38 (V0 : Valuation τ sig (Elt F)) : val4 V0 (no_index (Proc.devRef .tc main_v38)) = (h1 (V0 (Proc.devRef .tc main_arg0)) (V0 (Proc.devRef .tc main_arg6)) (V0 (Proc.devRef .tc main_arg7))) :=
  (val4_keep V0 main_v38 (by decide)).trans (val3_main_v38 V0)
set_option maxRecDepth 8192 in
set_option maxHeartbeats 4000000 in
theorem val4_main_v42 (V0 : Valuation τ sig (Elt F)) : val4 V0 (no_index (Proc.devRef .tc main_v42)) = scores (h1 (V0 (Proc.devRef .tc main_arg0)) (V0 (Proc.devRef .tc main_arg6)) (V0 (Proc.devRef .tc main_arg7))) (V0 (Proc.devRef .tc main_arg1)) := by
  unfold val4
  simp only [opsC1]
  after_results_simp
  simp only [val3_main_v38, val3_arg V0 main_arg1 (by decide)] <;> rfl
set_option maxRecDepth 8192 in
set_option maxHeartbeats 4000000 in
theorem val4_main_v46 (V0 : Valuation τ sig (Elt F)) : val4 V0 (no_index (Proc.devRef .tc main_v46)) = (broadcastInDim S4x2048x1 ![0, 1] bcast_S4x2048_S4x2048x1_0_1 (smMax (scores (h1 (V0 (Proc.devRef .tc main_arg0)) (V0 (Proc.devRef .tc main_arg6)) (V0 (Proc.devRef .tc main_arg7))) (V0 (Proc.devRef .tc main_arg1)))) : (⟨S4x2048x1, .f32⟩ : BufTy).Contents (Elt F)) := by
  unfold val4
  simp only [opsC1]
  after_results_simp
  simp only [val3_main_v38, val3_arg V0 main_arg1 (by decide)] <;> rfl

/-- The device's buffer contents after the first 5 stretches. -/
def val5 (V0 : Valuation τ sig (Elt F)) : Valuation τ sig (Elt F) := after opsC2 (val4 V0)
/-- The buffers that stretch 5 writes. -/
abbrev opsC2_W : List (Ref sig .tc) := [main_v47, main_v48, main_v49, main_cst_11, main_v50, main_v51, main_v52, main_v53, main_v54, main_v55]
set_option maxRecDepth 8192 in
theorem opsC2_writes : (opsC2 : List (HloOp τ sig (Elt F))).Forall fun op => op.writes ⊆ (opsC2_W.map (Proc.devRef (τ := τ) .tc)).toFinset := by
  simp only [List.Forall]; exact ⟨by writes_mem,
    by writes_mem,
    by writes_mem,
    by writes_mem,
    by writes_mem,
    by writes_mem,
    by writes_mem,
    by writes_mem,
    by writes_mem,
    by writes_mem⟩
/-- A buffer that stretch 5 does not write keeps its contents through it. -/
theorem val5_keep (V0 : Valuation τ sig (Elt F)) (r : Ref sig .tc) (h : r ∉ opsC2_W) :
    val5 V0 (Proc.devRef .tc r) = val4 V0 (Proc.devRef .tc r) :=
  after_of_writes_sub opsC2 _ opsC2_writes h
/-- The buffers written by the end of stretch 5. -/
abbrev W5 : List (Ref sig .tc) := W4 ++ opsC2_W
/-- A buffer not written by the end of stretch 5 is at its launch contents. -/
theorem val5_arg (V0 : Valuation τ sig (Elt F)) (r : Ref sig .tc) (h : r ∉ W5) :
    val5 V0 (no_index (Proc.devRef .tc r)) = V0 (Proc.devRef .tc r) :=
  (val5_keep V0 r fun hm => h (List.mem_append_right _ hm)).trans
    (val4_arg V0 r fun hm => h (List.mem_append_left _ hm))
set_option maxRecDepth 8192 in
set_option maxHeartbeats 4000000 in
theorem val5_main_v55 (V0 : Valuation τ sig (Elt F)) : val5 V0 (no_index (Proc.devRef .tc main_v55)) = (a2 (V0 (Proc.devRef .tc main_arg0)) (V0 (Proc.devRef .tc main_arg1)) (V0 (Proc.devRef .tc main_arg6)) (V0 (Proc.devRef .tc main_arg7))) := by
  unfold val5
  simp only [opsC2]
  after_results_simp
  simp only [val4_main_v46, val4_main_v42, val4_arg V0 main_arg1 (by decide), val4_main_v38] <;> rfl

/-- The device's buffer contents after the first 6 stretches. -/
def val6 (V0 : Valuation τ sig (Elt F)) : Valuation τ sig (Elt F) := after opsD1 (val5 V0)
/-- The buffers that stretch 6 writes. -/
abbrev opsD1_W : List (Ref sig .tc) := [main_cst_12, main_v56, main_v57, main_cst_13, main_v58, main_v59, main_c_14, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v60]
set_option maxRecDepth 8192 in
theorem opsD1_writes : (opsD1 : List (HloOp τ sig (Elt F))).Forall fun op => op.writes ⊆ (opsD1_W.map (Proc.devRef (τ := τ) .tc)).toFinset := by
  simp only [List.Forall]; exact ⟨by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem⟩
/-- A buffer that stretch 6 does not write keeps its contents through it. -/
theorem val6_keep (V0 : Valuation τ sig (Elt F)) (r : Ref sig .tc) (h : r ∉ opsD1_W) :
    val6 V0 (Proc.devRef .tc r) = val5 V0 (Proc.devRef .tc r) :=
  after_of_writes_sub opsD1 _ opsD1_writes h
/-- The buffers written by the end of stretch 6. -/
abbrev W6 : List (Ref sig .tc) := W5 ++ opsD1_W
/-- A buffer not written by the end of stretch 6 is at its launch contents. -/
theorem val6_arg (V0 : Valuation τ sig (Elt F)) (r : Ref sig .tc) (h : r ∉ W6) :
    val6 V0 (no_index (Proc.devRef .tc r)) = V0 (Proc.devRef .tc r) :=
  (val6_keep V0 r fun hm => h (List.mem_append_right _ hm)).trans
    (val5_arg V0 r fun hm => h (List.mem_append_left _ hm))
theorem val6_main_v55 (V0 : Valuation τ sig (Elt F)) : val6 V0 (no_index (Proc.devRef .tc main_v55)) = (a2 (V0 (Proc.devRef .tc main_arg0)) (V0 (Proc.devRef .tc main_arg1)) (V0 (Proc.devRef .tc main_arg6)) (V0 (Proc.devRef .tc main_arg7))) :=
  (val6_keep V0 main_v55 (by decide)).trans (val5_main_v55 V0)
set_option maxRecDepth 8192 in
set_option maxHeartbeats 4000000 in
theorem val6_main_v59 (V0 : Valuation τ sig (Elt F)) : val6 V0 (no_index (Proc.devRef .tc main_v59)) = lnMeanCol (a2 (V0 (Proc.devRef .tc main_arg0)) (V0 (Proc.devRef .tc main_arg1)) (V0 (Proc.devRef .tc main_arg6)) (V0 (Proc.devRef .tc main_arg7))) := by
  unfold val6
  simp only [opsD1]
  after_results_simp
  simp only [val5_main_v55] <;> rfl
set_option maxRecDepth 8192 in
set_option maxHeartbeats 4000000 in
theorem val6_main_v60 (V0 : Valuation τ sig (Elt F)) : val6 V0 (no_index (Proc.devRef .tc main_v60)) = lnVarCol (a2 (V0 (Proc.devRef .tc main_arg0)) (V0 (Proc.devRef .tc main_arg1)) (V0 (Proc.devRef .tc main_arg6)) (V0 (Proc.devRef .tc main_arg7))) := by
  unfold val6
  simp only [opsD1]
  after_results_simp
  simp only [val5_main_v55] <;> rfl

/-- The device's buffer contents after the first 7 stretches. -/
def val7 (V0 : Valuation τ sig (Elt F)) : Valuation τ sig (Elt F) := after opsD2 (val6 V0)
/-- The buffers that stretch 7 writes. -/
abbrev opsD2_W : List (Ref sig .tc) := [main_v61, main_v62, main_cst_15, main_v63, main_v64, main_v65, main_v66, main_v67, main_v68, main_v69, main_v70, main_v71, main_v72, main_v73]
set_option maxRecDepth 8192 in
theorem opsD2_writes : (opsD2 : List (HloOp τ sig (Elt F))).Forall fun op => op.writes ⊆ (opsD2_W.map (Proc.devRef (τ := τ) .tc)).toFinset := by
  simp only [List.Forall]; exact ⟨by writes_mem,
    by writes_mem,
    by writes_mem,
    by writes_mem,
    by writes_mem,
    by writes_mem,
    by writes_mem,
    by writes_mem,
    by writes_mem,
    by writes_mem,
    by writes_mem,
    by writes_mem,
    by writes_mem,
    by writes_mem⟩
/-- A buffer that stretch 7 does not write keeps its contents through it. -/
theorem val7_keep (V0 : Valuation τ sig (Elt F)) (r : Ref sig .tc) (h : r ∉ opsD2_W) :
    val7 V0 (Proc.devRef .tc r) = val6 V0 (Proc.devRef .tc r) :=
  after_of_writes_sub opsD2 _ opsD2_writes h
/-- The buffers written by the end of stretch 7. -/
abbrev W7 : List (Ref sig .tc) := W6 ++ opsD2_W
/-- A buffer not written by the end of stretch 7 is at its launch contents. -/
theorem val7_arg (V0 : Valuation τ sig (Elt F)) (r : Ref sig .tc) (h : r ∉ W7) :
    val7 V0 (no_index (Proc.devRef .tc r)) = V0 (Proc.devRef .tc r) :=
  (val7_keep V0 r fun hm => h (List.mem_append_right _ hm)).trans
    (val6_arg V0 r fun hm => h (List.mem_append_left _ hm))
set_option maxRecDepth 8192 in
set_option maxHeartbeats 4000000 in
theorem val7_main_v73 (V0 : Valuation τ sig (Elt F)) : val7 V0 (no_index (Proc.devRef .tc main_v73)) = (h2 (V0 (Proc.devRef .tc main_arg0)) (V0 (Proc.devRef .tc main_arg1)) (V0 (Proc.devRef .tc main_arg6)) (V0 (Proc.devRef .tc main_arg7)) (V0 (Proc.devRef .tc main_arg8)) (V0 (Proc.devRef .tc main_arg9))) := by
  unfold val7
  simp only [opsD2]
  after_results_simp
  simp only [val6_main_v59, val6_main_v55, val6_main_v60, val6_arg V0 main_arg8 (by decide), val6_arg V0 main_arg9 (by decide)] <;> rfl

/-- The device's buffer contents after the first 8 stretches. -/
def val8 (V0 : Valuation τ sig (Elt F)) : Valuation τ sig (Elt F) := after opsE (val7 V0)
/-- The buffers that stretch 8 writes. -/
abbrev opsE_W : List (Ref sig .tc) := [main_v74, main_v75, main_v76, main_v77, main_call4_cst, main_call4_v0, main_v78, main_v79, main_v80, main_v81, main_v82, main_v83]
set_option maxRecDepth 8192 in
theorem opsE_writes : (opsE : List (HloOp τ sig (Elt F))).Forall fun op => op.writes ⊆ (opsE_W.map (Proc.devRef (τ := τ) .tc)).toFinset := by
  simp only [List.Forall]; exact ⟨by writes_mem,
    by writes_mem,
    by writes_mem,
    by writes_mem,
    by writes_mem,
    by writes_mem,
    by writes_mem,
    by writes_mem,
    by writes_mem,
    by writes_mem,
    by writes_mem,
    by writes_mem⟩
/-- A buffer that stretch 8 does not write keeps its contents through it. -/
theorem val8_keep (V0 : Valuation τ sig (Elt F)) (r : Ref sig .tc) (h : r ∉ opsE_W) :
    val8 V0 (Proc.devRef .tc r) = val7 V0 (Proc.devRef .tc r) :=
  after_of_writes_sub opsE _ opsE_writes h
/-- The buffers written by the end of stretch 8. -/
abbrev W8 : List (Ref sig .tc) := W7 ++ opsE_W
/-- A buffer not written by the end of stretch 8 is at its launch contents. -/
theorem val8_arg (V0 : Valuation τ sig (Elt F)) (r : Ref sig .tc) (h : r ∉ W8) :
    val8 V0 (no_index (Proc.devRef .tc r)) = V0 (Proc.devRef .tc r) :=
  (val8_keep V0 r fun hm => h (List.mem_append_right _ hm)).trans
    (val7_arg V0 r fun hm => h (List.mem_append_left _ hm))
set_option maxRecDepth 8192 in
set_option maxHeartbeats 4000000 in
theorem val8_main_v83 (V0 : Valuation τ sig (Elt F)) : val8 V0 (no_index (Proc.devRef .tc main_v83)) = (a3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))) := by
  unfold val8
  simp only [opsE]
  after_results_simp
  simp only [val7_main_v73, val7_arg V0 main_arg2 (by decide), val7_arg V0 main_arg3 (by decide), val7_arg V0 main_arg4 (by decide), val7_arg V0 main_arg5 (by decide)] <;> rfl

/-- The device's buffer contents after the first 9 stretches. -/
def val9 (V0 : Valuation τ sig (Elt F)) : Valuation τ sig (Elt F) := after opsF1 (val8 V0)
/-- The buffers that stretch 9 writes. -/
abbrev opsF1_W : List (Ref sig .tc) := [main_cst_16, main_v84, main_v85, main_cst_17, main_v86, main_v87, main_c_18, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v88]
set_option maxRecDepth 8192 in
theorem opsF1_writes : (opsF1 : List (HloOp τ sig (Elt F))).Forall fun op => op.writes ⊆ (opsF1_W.map (Proc.devRef (τ := τ) .tc)).toFinset := by
  simp only [List.Forall]; exact ⟨by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem,
    by writes_mem⟩
/-- A buffer that stretch 9 does not write keeps its contents through it. -/
theorem val9_keep (V0 : Valuation τ sig (Elt F)) (r : Ref sig .tc) (h : r ∉ opsF1_W) :
    val9 V0 (Proc.devRef .tc r) = val8 V0 (Proc.devRef .tc r) :=
  after_of_writes_sub opsF1 _ opsF1_writes h
/-- The buffers written by the end of stretch 9. -/
abbrev W9 : List (Ref sig .tc) := W8 ++ opsF1_W
/-- A buffer not written by the end of stretch 9 is at its launch contents. -/
theorem val9_arg (V0 : Valuation τ sig (Elt F)) (r : Ref sig .tc) (h : r ∉ W9) :
    val9 V0 (no_index (Proc.devRef .tc r)) = V0 (Proc.devRef .tc r) :=
  (val9_keep V0 r fun hm => h (List.mem_append_right _ hm)).trans
    (val8_arg V0 r fun hm => h (List.mem_append_left _ hm))
theorem val9_main_v83 (V0 : Valuation τ sig (Elt F)) : val9 V0 (no_index (Proc.devRef .tc main_v83)) = (a3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))) :=
  (val9_keep V0 main_v83 (by decide)).trans (val8_main_v83 V0)
set_option maxRecDepth 8192 in
set_option maxHeartbeats 4000000 in
theorem val9_main_v87 (V0 : Valuation τ sig (Elt F)) : val9 V0 (no_index (Proc.devRef .tc main_v87)) = lnMeanCol (a3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))) := by
  unfold val9
  simp only [opsF1]
  after_results_simp
  simp only [val8_main_v83] <;> rfl
set_option maxRecDepth 8192 in
set_option maxHeartbeats 4000000 in
theorem val9_main_v88 (V0 : Valuation τ sig (Elt F)) : val9 V0 (no_index (Proc.devRef .tc main_v88)) = lnVarCol (a3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))) := by
  unfold val9
  simp only [opsF1]
  after_results_simp
  simp only [val8_main_v83] <;> rfl

/-- The device's buffer contents after the first 10 stretches. -/
def val10 (V0 : Valuation τ sig (Elt F)) : Valuation τ sig (Elt F) := after opsF2 (val9 V0)
/-- The buffers that stretch 10 writes. -/
abbrev opsF2_W : List (Ref sig .tc) := [main_v89, main_v90, main_cst_19, main_v91, main_v92, main_v93, main_v94, main_v95, main_v96, main_v97]
set_option maxRecDepth 8192 in
theorem opsF2_writes : (opsF2 : List (HloOp τ sig (Elt F))).Forall fun op => op.writes ⊆ (opsF2_W.map (Proc.devRef (τ := τ) .tc)).toFinset := by
  simp only [List.Forall]; exact ⟨by writes_mem,
    by writes_mem,
    by writes_mem,
    by writes_mem,
    by writes_mem,
    by writes_mem,
    by writes_mem,
    by writes_mem,
    by writes_mem,
    by writes_mem⟩
/-- A buffer that stretch 10 does not write keeps its contents through it. -/
theorem val10_keep (V0 : Valuation τ sig (Elt F)) (r : Ref sig .tc) (h : r ∉ opsF2_W) :
    val10 V0 (Proc.devRef .tc r) = val9 V0 (Proc.devRef .tc r) :=
  after_of_writes_sub opsF2 _ opsF2_writes h
/-- The buffers written by the end of stretch 10. -/
abbrev W10 : List (Ref sig .tc) := W9 ++ opsF2_W
/-- A buffer not written by the end of stretch 10 is at its launch contents. -/
theorem val10_arg (V0 : Valuation τ sig (Elt F)) (r : Ref sig .tc) (h : r ∉ W10) :
    val10 V0 (no_index (Proc.devRef .tc r)) = V0 (Proc.devRef .tc r) :=
  (val10_keep V0 r fun hm => h (List.mem_append_right _ hm)).trans
    (val9_arg V0 r fun hm => h (List.mem_append_left _ hm))
set_option maxRecDepth 8192 in
set_option maxHeartbeats 4000000 in
theorem val10_main_v95 (V0 : Valuation τ sig (Elt F)) : val10 V0 (no_index (Proc.devRef .tc main_v95)) = lnNormed (a3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))) := by
  unfold val10
  simp only [opsF2]
  after_results_simp
  simp only [val9_main_v87, val9_main_v83, val9_main_v88, val9_arg V0 main_arg10 (by decide)] <;> rfl
set_option maxRecDepth 8192 in
set_option maxHeartbeats 4000000 in
theorem val10_main_v97 (V0 : Valuation τ sig (Elt F)) : val10 V0 (no_index (Proc.devRef .tc main_v97)) = (broadcastInDim S4x2048x1024 ![0, 1, 2] bcast_S1x1x1024_S4x2048x1024_0_1_2 (broadcastInDim S1x1x1024 ![2] bcast_S1024_S1x1x1024_2 (V0 (Proc.devRef .tc main_arg10)) : (⟨S1x1x1024, .f32⟩ : BufTy).Contents (Elt F)) : (⟨S4x2048x1024, .f32⟩ : BufTy).Contents (Elt F)) := by
  unfold val10
  simp only [opsF2]
  after_results_simp
  simp only [val9_main_v87, val9_main_v83, val9_main_v88, val9_arg V0 main_arg10 (by decide)] <;> rfl

/-- The device's buffer contents after the first 11 stretches. -/
def val11 (V0 : Valuation τ sig (Elt F)) : Valuation τ sig (Elt F) := after opsF3 (val10 V0)
/-- The buffers that stretch 11 writes. -/
abbrev opsF3_W : List (Ref sig .tc) := [main_v98, main_v99, main_v100, main_v101]
set_option maxRecDepth 8192 in
theorem opsF3_writes : (opsF3 : List (HloOp τ sig (Elt F))).Forall fun op => op.writes ⊆ (opsF3_W.map (Proc.devRef (τ := τ) .tc)).toFinset := by
  simp only [List.Forall]; exact ⟨by writes_mem,
    by writes_mem,
    by writes_mem,
    by writes_mem⟩
/-- A buffer that stretch 11 does not write keeps its contents through it. -/
theorem val11_keep (V0 : Valuation τ sig (Elt F)) (r : Ref sig .tc) (h : r ∉ opsF3_W) :
    val11 V0 (Proc.devRef .tc r) = val10 V0 (Proc.devRef .tc r) :=
  after_of_writes_sub opsF3 _ opsF3_writes h
/-- The buffers written by the end of stretch 11. -/
abbrev W11 : List (Ref sig .tc) := W10 ++ opsF3_W
/-- A buffer not written by the end of stretch 11 is at its launch contents. -/
theorem val11_arg (V0 : Valuation τ sig (Elt F)) (r : Ref sig .tc) (h : r ∉ W11) :
    val11 V0 (no_index (Proc.devRef .tc r)) = V0 (Proc.devRef .tc r) :=
  (val11_keep V0 r fun hm => h (List.mem_append_right _ hm)).trans
    (val10_arg V0 r fun hm => h (List.mem_append_left _ hm))
set_option maxRecDepth 8192 in
set_option maxHeartbeats 4000000 in
theorem val11_main_v101 (V0 : Valuation τ sig (Elt F)) : val11 V0 (no_index (Proc.devRef .tc main_v101)) = refOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold val11
  simp only [opsF3]
  after_results_simp
  simp only [val10_main_v95, val10_main_v97, val10_arg V0 main_arg11 (by decide)] <;> rfl

/-- The fold over the whole list is the last of the stretch-by-stretch contents. -/
theorem after_ops (V0 : Valuation τ sig (Elt F)) : after ops V0 = val11 V0 := by
  simp only [ops, p0, p1, p2, after_append']
  rfl

/-- On every device, for any float values, from any memory with zero counters: every weakly fair execution of @main
    terminates with the result at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v101) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v101).trans (by simp only [after_ops]; exact val11_main_v101 (launchContents m c)),
      (h c main_arg0).trans (by simp only [after_ops]; exact val11_arg (launchContents m c) main_arg0 (by decide)),
      (h c main_arg1).trans (by simp only [after_ops]; exact val11_arg (launchContents m c) main_arg1 (by decide)),
      (h c main_arg2).trans (by simp only [after_ops]; exact val11_arg (launchContents m c) main_arg2 (by decide)),
      (h c main_arg3).trans (by simp only [after_ops]; exact val11_arg (launchContents m c) main_arg3 (by decide)),
      (h c main_arg4).trans (by simp only [after_ops]; exact val11_arg (launchContents m c) main_arg4 (by decide)),
      (h c main_arg5).trans (by simp only [after_ops]; exact val11_arg (launchContents m c) main_arg5 (by decide)),
      (h c main_arg6).trans (by simp only [after_ops]; exact val11_arg (launchContents m c) main_arg6 (by decide)),
      (h c main_arg7).trans (by simp only [after_ops]; exact val11_arg (launchContents m c) main_arg7 (by decide)),
      (h c main_arg8).trans (by simp only [after_ops]; exact val11_arg (launchContents m c) main_arg8 (by decide)),
      (h c main_arg9).trans (by simp only [after_ops]; exact val11_arg (launchContents m c) main_arg9 (by decide)),
      (h c main_arg10).trans (by simp only [after_ops]; exact val11_arg (launchContents m c) main_arg10 (by decide)),
      (h c main_arg11).trans (by simp only [after_ops]; exact val11_arg (launchContents m c) main_arg11 (by decide))⟩)
    (run_main m ρ)

end Cert.ReferenceIdeal.RefValue

end
-- ==== Proof.RefRead.lean ====
/-
  The reference's array functions read at an index, at the ideal values: each operation at explicit coordinates
  (a broadcast reads its operand, a row's sum from zero is the sum over the row, a row's maximum from minus infinity
  is the supremum over the row, a product is the sum over the contracted coordinate), then each named function as
  the specification's function of the rows it reads, and last the whole result as the specification's block.
-/
import proofs.«167660_j22771916603726_2_alg».proof.Proof.RefDefs
import proofs.«167660_j22771916603726_2_alg».proof.Proof.Spec
import Idealize.ShloMosaic.Lib.IdealHost
import Idealize.ShloMosaic.Lib.Pipeline.Value
import Idealize.ShloMosaic.Lib.StackMember
import Idealize.ShloMosaic.Lib.Affine
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.ValueIdx Idealize.SL.Sem
open scoped BigOperators

/-! ## The literals -/

/-- The pattern of minus infinity is the bottom of the extended reals. -/
theorem ofBits_negInf : Ideal.ofBits .f32 0xFF800000#32 = ⊥ := by simp [Ideal.ofBits, Ideal.ieee]

/-- The row length as a float is positive. -/
theorem c1024_pos : (0 : EReal) < Ideal.ofBits .f32 0x44800000#32 := by
  have e : Ideal.ofBits .f32 0x44800000#32 = ((1024 : ℝ) : EReal) := by
    simp [Ideal.ofBits, Ideal.ieee, -EReal.coe_mul]; norm_num
  rw [e]; exact_mod_cast (by norm_num : (0 : ℝ) < 1024)

/-- The integer zero converted is zero. -/
theorem sitofp_zero : FloatOps.sitofp (F := Ideal) .f32 (0#32 : BitVec 32) = 0 := by
  show (((0#32 : BitVec 32).toInt : ℝ) : EReal) = 0
  simp

/-- The host's elementwise functions at an index. -/
theorem hostSqrt_apply {s : Shape} (v : FVec Ideal s .f32) (i : s.Idx) : Host.sqrt v i = Ideal.sqrt (v i) := rfl
theorem hostRsqrt_apply {s : Shape} (v : FVec Ideal s .f32) (i : s.Idx) : Host.rsqrt v i = Ideal.rsqrt (v i) := rfl
theorem hostExp_apply {s : Shape} (v : FVec Ideal s .f32) (i : s.Idx) : Host.exp v i = Ideal.exp (v i) := rfl
theorem cmpi_apply {s : Shape} {w : Nat} (p : CmpIPredicate) (a b : IVec s w) (i : s.Idx) : cmpi p a b i = IntOp.cmpi p (a i) (b i) := rfl
theorem addi_apply {s : Shape} {w : Nat} (a b : IVec s w) (i : s.Idx) : addi a b i = IntOp.addi (a i) (b i) := rfl

/-! ## Broadcasts at an index -/

section Bcast
variable {α : Type}

theorem bc_row_col (h : S4x2048.BroadcastsInDim S4x2048x1 (![0, 1] : Fin 2 → Fin S4x2048x1.rank)) (x : S4x2048.Idx → α)
    (b : Fin 4) (q : Fin 2048) (u : Fin 1) : broadcastInDim S4x2048x1 ![0, 1] h x (ix3 b q u) = x (ix2 b q) :=
  broadcastInDim_apply _ h x _ _ fun a => match a with | ⟨0, _⟩ => rfl | ⟨1, _⟩ => rfl

theorem bc_col_S (h : S4x2048x1.BroadcastsInDim S4x2048x2048 (![0, 1, 2] : Fin 3 → Fin S4x2048x2048.rank)) (x : S4x2048x1.Idx → α)
    (b : Fin 4) (q : Fin 2048) (k : Fin 2048) : broadcastInDim S4x2048x2048 ![0, 1, 2] h x (ix3 b q k) = x (ix3 b q 0) :=
  broadcastInDim_apply _ h x _ _ fun a => match a with | ⟨0, _⟩ => rfl | ⟨1, _⟩ => rfl | ⟨2, _⟩ => rfl

theorem bc_col_D (h : S4x2048x1.BroadcastsInDim S4x2048x1024 (![0, 1, 2] : Fin 3 → Fin S4x2048x1024.rank)) (x : S4x2048x1.Idx → α)
    (b : Fin 4) (q : Fin 2048) (d : Fin 1024) : broadcastInDim S4x2048x1024 ![0, 1, 2] h x (ix3 b q d) = x (ix3 b q 0) :=
  broadcastInDim_apply _ h x _ _ fun a => match a with | ⟨0, _⟩ => rfl | ⟨1, _⟩ => rfl | ⟨2, _⟩ => rfl

theorem bc_vec_D (h : S1024.BroadcastsInDim S1x1x1024 (![2] : Fin 1 → Fin S1x1x1024.rank)) (x : S1024.Idx → α)
    (u v : Fin 1) (d : Fin 1024) : broadcastInDim S1x1x1024 ![2] h x (ix3 u v d) = x (ix1 d) :=
  broadcastInDim_apply _ h x _ _ fun a => match a with | ⟨0, _⟩ => rfl

theorem bc_vec3_D (h : S1x1x1024.BroadcastsInDim S4x2048x1024 (![0, 1, 2] : Fin 3 → Fin S4x2048x1024.rank)) (x : S1x1x1024.Idx → α)
    (b : Fin 4) (q : Fin 2048) (d : Fin 1024) : broadcastInDim S4x2048x1024 ![0, 1, 2] h x (ix3 b q d) = x (ix3 0 0 d) :=
  broadcastInDim_apply _ h x _ _ fun a => match a with | ⟨0, _⟩ => rfl | ⟨1, _⟩ => rfl | ⟨2, _⟩ => rfl

theorem bc_vec_F (h : S4096.BroadcastsInDim S1x1x4096 (![2] : Fin 1 → Fin S1x1x4096.rank)) (x : S4096.Idx → α)
    (u v : Fin 1) (f : Fin 4096) : broadcastInDim S1x1x4096 ![2] h x (ix3 u v f) = x (ix1 f) :=
  broadcastInDim_apply _ h x _ _ fun a => match a with | ⟨0, _⟩ => rfl

theorem bc_vec3_F (h : S1x1x4096.BroadcastsInDim S4x2048x4096 (![0, 1, 2] : Fin 3 → Fin S4x2048x4096.rank)) (x : S1x1x4096.Idx → α)
    (b : Fin 4) (q : Fin 2048) (f : Fin 4096) : broadcastInDim S4x2048x4096 ![0, 1, 2] h x (ix3 b q f) = x (ix3 0 0 f) :=
  broadcastInDim_apply _ h x _ _ fun a => match a with | ⟨0, _⟩ => rfl | ⟨1, _⟩ => rfl | ⟨2, _⟩ => rfl

theorem bc_mask1 (h : S2048x2048.BroadcastsInDim S1x2048x2048 (![1, 2] : Fin 2 → Fin S1x2048x2048.rank)) (x : S2048x2048.Idx → α)
    (u : Fin 1) (q k : Fin 2048) : broadcastInDim S1x2048x2048 ![1, 2] h x (ix3 u q k) = x (ix2 q k) :=
  broadcastInDim_apply _ h x _ _ fun a => match a with | ⟨0, _⟩ => rfl | ⟨1, _⟩ => rfl

theorem bc_mask4 (h : S1x2048x2048.BroadcastsInDim S4x2048x2048 (![0, 1, 2] : Fin 3 → Fin S4x2048x2048.rank)) (x : S1x2048x2048.Idx → α)
    (b : Fin 4) (q k : Fin 2048) : broadcastInDim S4x2048x2048 ![0, 1, 2] h x (ix3 b q k) = x (ix3 0 q k) :=
  broadcastInDim_apply _ h x _ _ fun a => match a with | ⟨0, _⟩ => rfl | ⟨1, _⟩ => rfl | ⟨2, _⟩ => rfl

end Bcast

/-! ## Reductions over the last axis at an index -/

/-- A row's sum from a zero initial value, over 1024 columns. -/
theorem rowSumD_apply (x : FVec Ideal S4x2048x1024 .f32) (h' : S4x2048x1024.ReducesTo [2] S4x2048) (hu : 0 < S_.numel)
    (b : Fin 4) (q : Fin 2048) :
    Host.reduceAdd x (constant S_ .f32 0x00000000#32) h' hu (ix2 b q) = ∑ d : Fin 1024, x (ix3 b q d) := by
  rw [hostReduceAdd_apply, Ideal.hostReduceAdd_single h' (by decide : S4x2048x1024.Reduces [2] S4x2048), constant_apply,
    Ideal.ofBits_zero_f32, zero_add]
  exact Finset.sum_congr rfl fun k _ => congrArg x (funext fun c => Fin.ext (match c with | ⟨0, _⟩ => rfl | ⟨1, _⟩ => rfl | ⟨2, _⟩ => rfl))

/-- A row's sum from a zero initial value, over 2048 columns. -/
theorem rowSumS_apply (x : FVec Ideal S4x2048x2048 .f32) (h' : S4x2048x2048.ReducesTo [2] S4x2048) (hu : 0 < S_.numel)
    (b : Fin 4) (q : Fin 2048) :
    Host.reduceAdd x (constant S_ .f32 0x00000000#32) h' hu (ix2 b q) = ∑ k : Fin 2048, x (ix3 b q k) := by
  rw [hostReduceAdd_apply, Ideal.hostReduceAdd_single h' (by decide : S4x2048x2048.Reduces [2] S4x2048), constant_apply,
    Ideal.ofBits_zero_f32, zero_add]
  exact Finset.sum_congr rfl fun k _ => congrArg x (funext fun c => Fin.ext (match c with | ⟨0, _⟩ => rfl | ⟨1, _⟩ => rfl | ⟨2, _⟩ => rfl))

/-- A row's largest element from minus infinity, over 2048 columns. -/
theorem rowMaxS_apply (x : FVec Ideal S4x2048x2048 .f32) (h' : S4x2048x2048.ReducesTo [2] S4x2048) (hu : 0 < S_.numel)
    (b : Fin 4) (q : Fin 2048) :
    Host.reduce FloatOps.maximumf x (constant (F := Ideal) S_ .f32 0xFF800000#32) h' hu (ix2 b q)
      = Finset.univ.sup fun k : Fin 2048 => x (ix3 b q k) := by
  rw [Host.reduce_eq_fold_single FloatOps.maximumf x _ h' (by decide : S4x2048x2048.Reduces [2] S4x2048), constant_apply, ofBits_negInf]
  have e : (x ∘ (by decide : S4x2048x2048.Reduces [2] S4x2048).lift (ix2 b q)) = fun k : Fin 2048 => x (ix3 b q k) :=
    funext fun k => congrArg x (funext fun c => Fin.ext (match c with | ⟨0, _⟩ => rfl | ⟨1, _⟩ => rfl | ⟨2, _⟩ => rfl))
  rw [e]
  rfl

/-! ## The products at an index -/

section Dots
variable {G m n k : Nat}

/-- Both operands contracted on their last axis, batched on the first: the sum over the shared coordinate. -/
theorem dotGeneral_lastlast_apply {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-- A stack of rows times one matrix: the left operand's last axis against the matrix's first. -/
theorem dotGeneral_rows_apply {φ₁ φ₂ : FTy}
    (w : DotDims.WF ⟨3, ![G, m, k]⟩ ⟨2, ![k, n]⟩ ⟨3, ![G, m, n]⟩ [2] [0] [0, 1] [1] [] [])
    (prec : Option ContractPrecision) (A : FVec Ideal ⟨3, ![G, m, k]⟩ φ₁) (B : FVec Ideal ⟨2, ![k, n]⟩ φ₂)
    (g : Fin G) (a : Fin m) (b : Fin n) :
    Host.dotGeneral (⟨[2], [0], [0, 1], [1], [], [], w⟩ : DotDims _ _ _) prec A B (ix3 g a b)
      = ∑ c : Fin k, A (ix3 g a c) * B (ix2 c b) := by
  show FloatOps.dotGeneral _ prec _ A B (ix3 g a b) = _
  rw [Ideal.dotGeneral_apply,
    ← Equiv.sum_comp (contrEquiv1 (⟨[2], [0], [0, 1], [1], [], [], w⟩ : DotDims _ _ _) k rfl rfl).symm]
  refine Finset.sum_congr rfl fun c _ => ?_
  have c3 := contrEquiv1_symm_val
    (⟨[2], [0], [0, 1], [1], [], [], w⟩ : DotDims ⟨3, ![G, m, k]⟩ ⟨2, ![k, n]⟩ ⟨3, ![G, m, n]⟩) k rfl rfl c
  have l3 : (⟨[2], [0], [0, 1], [1], [], [], w⟩ : DotDims ⟨3, ![G, m, k]⟩ ⟨2, ![k, n]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![G, m, k]⟩ ⟨2, ![k, n]⟩ ⟨3, ![G, m, n]⟩).rhsIdx (ix3 g a b)
      ((contrEquiv1 _ k rfl rfl).symm c) = ix2 c b := by
    funext ax; apply Fin.ext
    match ax with
    | ⟨0, _⟩ => simp [DotDims.rhsIdx]; exact c3
    | ⟨1, _⟩ => simp [DotDims.rhsIdx]; rfl
  rw [l3, r3]

end Dots

/-! ## The normalisation at an index -/

theorem lnMeanCol_apply (x : FVec Ideal S4x2048x1024 .f32) (b : Fin 4) (q : Fin 2048) (u : Fin 1) :
    lnMeanCol (F := Ideal) x (ix3 b q u) = Cert.Spec.mean fun j => x (ix3 b q j) := by
  unfold lnMeanCol Cert.Spec.mean
  rw [hostDivf_apply, bc_row_col, broadcastInDim_scalar_apply, rowSumD_apply, constant_apply]
  rfl

theorem lnDev_apply (x : FVec Ideal S4x2048x1024 .f32) (b : Fin 4) (q : Fin 2048) (d : Fin 1024) :
    lnDev (F := Ideal) x (ix3 b q d) = x (ix3 b q d) - Cert.Spec.mean fun j => x (ix3 b q j) := by
  unfold lnDev
  rw [subf_apply, bc_col_D, lnMeanCol_apply]

/-- The variance's guard holds: the normaliser, the row length less the integer zero converted, is positive. -/
theorem var_guard :
    cmpf (F := Ideal) .ogt (subf (constant S_ .f32 0x44800000#32) (sitofp .f32 (constantI S_ 32 0#32))) (constant S_ .f32 0x00000000#32) ix0
      = 1#1 := by
  show Ideal.cmp .ogt (Ideal.ofBits .f32 0x44800000#32 - FloatOps.sitofp (F := Ideal) .f32 (0#32 : BitVec 32)) (Ideal.ofBits .f32 0x00000000#32) = 1#1
  rw [sitofp_zero, sub_zero, Ideal.ofBits_zero_f32]
  unfold Ideal.cmp
  simp [c1024_pos]

/-- The variance's normaliser is the row length. -/
theorem var_den :
    subf (F := Ideal) (constant S_ .f32 0x44800000#32) (sitofp .f32 (constantI S_ 32 0#32)) ix0 = Cert.Spec.c1024 := by
  show Ideal.ofBits .f32 0x44800000#32 - FloatOps.sitofp (F := Ideal) .f32 (0#32 : BitVec 32) = _
  rw [sitofp_zero, sub_zero]
  rfl

theorem lnVarCol_apply (x : FVec Ideal S4x2048x1024 .f32) (b : Fin 4) (q : Fin 2048) (u : Fin 1) :
    lnVarCol (F := Ideal) x (ix3 b q u) = Cert.Spec.var fun j => x (ix3 b q j) := by
  unfold lnVarCol Cert.Spec.var
  rw [select_apply, broadcastInDim_scalar_apply, var_guard, select_one, hostDivf_apply, bc_row_col, rowSumD_apply,
    broadcastInDim_scalar_apply, var_den]
  simp only [mulf_apply, lnDev_apply]

theorem lnNormed_apply (x : FVec Ideal S4x2048x1024 .f32) (b : Fin 4) (q : Fin 2048) (d : Fin 1024) :
    lnNormed (F := Ideal) x (ix3 b q d)
      = (x (ix3 b q d) - Cert.Spec.mean fun j => x (ix3 b q j)) * Ideal.rsqrt ((Cert.Spec.var fun j => x (ix3 b q j)) + Cert.Spec.eps) := by
  unfold lnNormed
  rw [mulf_apply, lnDev_apply, bc_col_D, hostRsqrt_apply, addf_apply, lnVarCol_apply, broadcastInDim_scalar_apply, constant_apply]
  rfl

theorem lnOut_apply (x : FVec Ideal S4x2048x1024 .f32) (g β : FVec Ideal S1024 .f32) (b : Fin 4) (q : Fin 2048) (d : Fin 1024) :
    lnOut (F := Ideal) x g β (ix3 b q d)
      = Cert.Spec.ln (fun j => x (ix3 b q j)) (fun j => g (ix1 j)) (fun j => β (ix1 j)) d := by
  unfold lnOut Cert.Spec.ln
  rw [addf_apply, mulf_apply, lnNormed_apply, bc_vec3_D, bc_vec_D, bc_vec3_D, bc_vec_D]

/-! ## The scores, the mask and the softmax at an index -/

theorem scores_apply (Q K : FVec Ideal S4x2048x1024 .f32) (b : Fin 4) (q k : Fin 2048) :
    scores (F := Ideal) Q K (ix3 b q k) = Cert.Spec.score (fun d => Q (ix3 b q d)) (fun d => K (ix3 b k d)) := by
  unfold scores Cert.Spec.score
  rw [hostDivf_apply, dot_S4x2048x1024_S4x2048x1024_S4x2048x2048_2_2_1_1_0_0, dotGeneral_lastlast_apply, broadcastInDim_scalar_apply,
    hostSqrt_apply, constant_apply]
  rfl

/-- A small natural number as a 32-bit word reads back as itself, signed. -/
theorem toInt_ofNat_small (n : Nat) (h : n < 2048) : (BitVec.ofNat 32 n).toInt = n := by
  rw [BitVec.toInt_eq_toNat_cond, BitVec.toNat_ofNat, Nat.mod_eq_of_lt (by omega), if_pos (by omega)]

/-- The mask chooses the first value on and below the diagonal. -/
theorem mask_select {α : Type} (q k : Fin 2048) (x y : α) :
    Scalar.select (mask (F := Ideal) (ix2 q k)) x y = if k.val ≤ q.val then x else y := by
  unfold mask
  rw [select_apply, cmpi_apply, addi_apply, iotaInDim_apply, iotaInDim_apply, broadcastInDim_scalar_apply, broadcastInDim_scalar_apply,
    broadcastInDim_scalar_apply, constantI_apply, constantI_apply, constantI_apply]
  have h0 : IntOp.addi (BitVec.ofNat 32 ((ix2 q k) (0 : Fin 2)).val) (0#32) = BitVec.ofNat 32 q.val := by
    show BitVec.ofNat 32 q.val + 0#32 = _
    simp
  rw [h0]
  show Scalar.select (Scalar.select (IntOp.cmpi .sge (BitVec.ofNat 32 q.val) (BitVec.ofNat 32 k.val)) 1#1 0#1) x y = _
  by_cases h : k.val ≤ q.val
  · have hc : IntOp.cmpi .sge (BitVec.ofNat 32 q.val) (BitVec.ofNat 32 k.val) = 1#1 :=
      IntOp.cmpi_sge.mpr (by rw [toInt_ofNat_small _ k.isLt, toInt_ofNat_small _ q.isLt]; exact_mod_cast h)
    rw [hc, select_one, select_one, if_pos h]
  · have hc : ¬ IntOp.cmpi .sge (BitVec.ofNat 32 q.val) (BitVec.ofNat 32 k.val) = 1#1 := fun e =>
      h (by have := IntOp.cmpi_sge.mp e; rw [toInt_ofNat_small _ k.isLt, toInt_ofNat_small _ q.isLt] at this; exact_mod_cast this)
    rw [eq_zero_of_ne_one hc, select_zero, select_zero, if_neg h]

theorem scSelf_apply (Y : FVec Ideal S4x2048x1024 .f32) (b : Fin 4) (q k : Fin 2048) :
    scSelf (F := Ideal) Y (ix3 b q k) = Cert.Spec.causalScores (fun q d => Y (ix3 b q d)) q k := by
  unfold scSelf Cert.Spec.causalScores
  rw [select_apply, bc_mask4, bc_mask1, mask_select, scores_apply, broadcastInDim_scalar_apply, constant_apply, ofBits_negInf]

theorem smMax_apply (σ : FVec Ideal S4x2048x2048 .f32) (b : Fin 4) (q : Fin 2048) :
    smMax (F := Ideal) σ (ix2 b q) = Cert.Spec.rowMax fun k => σ (ix3 b q k) := by
  unfold smMax Cert.Spec.rowMax
  rw [maximumf_apply, broadcastInDim_scalar_apply, constant_apply, ofBits_negInf, rowMaxS_apply]
  exact max_bot_left _

theorem smNum_apply (σ : FVec Ideal S4x2048x2048 .f32) (b : Fin 4) (q k : Fin 2048) :
    smNum (F := Ideal) σ (ix3 b q k) = Ideal.exp (σ (ix3 b q k) - Cert.Spec.rowMax fun j => σ (ix3 b q j)) := by
  unfold smNum
  rw [hostExp_apply, subf_apply, bc_col_S, bc_row_col, smMax_apply]

theorem smDen_apply (σ : FVec Ideal S4x2048x2048 .f32) (b : Fin 4) (q : Fin 2048) :
    smDen (F := Ideal) σ (ix2 b q) = ∑ j : Fin 2048, Ideal.exp (σ (ix3 b q j) - Cert.Spec.rowMax fun j => σ (ix3 b q j)) := by
  unfold smDen
  rw [rowSumS_apply]
  simp only [smNum_apply]

theorem smW_apply (σ : FVec Ideal S4x2048x2048 .f32) (b : Fin 4) (q k : Fin 2048) :
    smW (F := Ideal) σ (ix3 b q k)
      = Ideal.div (Ideal.exp (σ (ix3 b q k) - Cert.Spec.rowMax fun j => σ (ix3 b q j)))
          (∑ j : Fin 2048, Ideal.exp (σ (ix3 b q j) - Cert.Spec.rowMax fun j => σ (ix3 b q j))) := by
  unfold smW
  rw [hostDivf_apply, smNum_apply, bc_col_S, bc_row_col, smDen_apply]

theorem attn_apply (σ : FVec Ideal S4x2048x2048 .f32) (V : FVec Ideal S4x2048x1024 .f32) (b : Fin 4) (q : Fin 2048) (d : Fin 1024) :
    attn (F := Ideal) σ V (ix3 b q d) = Cert.Spec.attnRow (fun k => σ (ix3 b q k)) (fun k d => V (ix3 b k d)) d := by
  unfold attn Cert.Spec.attnRow
  rw [dot_S4x2048x2048_S4x2048x1024_S4x2048x1024_2_1_1_2_0_0, StackMember.dotGeneral_stack_apply]
  simp only [smW_apply]

/-! ## The perceptron at an index -/

theorem ffnHidden_apply (x : FVec Ideal S4x2048x1024 .f32) (W1 : FVec Ideal S1024x4096 .f32) (B1 : FVec Ideal S4096 .f32) (b : Fin 4) (q : Fin 2048) (f : Fin 4096) :
    ffnHidden (F := Ideal) x W1 B1 (ix3 b q f)
      = Cert.Spec.hidden (fun j => x (ix3 b q j)) (fun j f => W1 (ix2 j f)) (fun f => B1 (ix1 f)) f := by
  unfold ffnHidden Cert.Spec.hidden
  rw [maximumf_apply, addf_apply, dot_S4x2048x1024_S1024x4096_S4x2048x4096_2_0_01_1_n_n, dotGeneral_rows_apply, bc_vec3_F, bc_vec_F,
    broadcastInDim_scalar_apply, constant_apply, Ideal.ofBits_zero_f32]

theorem ffn_apply (x : FVec Ideal S4x2048x1024 .f32) (W1 : FVec Ideal S1024x4096 .f32) (B1 : FVec Ideal S4096 .f32) (W2 : FVec Ideal S4096x1024 .f32) (B2 : FVec Ideal S1024 .f32)
    (b : Fin 4) (q : Fin 2048) (d : Fin 1024) :
    ffn (F := Ideal) x W1 B1 W2 B2 (ix3 b q d)
      = (∑ f : Fin 4096, Cert.Spec.hidden (fun j => x (ix3 b q j)) (fun j f => W1 (ix2 j f)) (fun f => B1 (ix1 f)) f * W2 (ix2 f d))
          + B2 (ix1 d) := by
  unfold ffn
  rw [addf_apply, dot_S4x2048x4096_S4096x1024_S4x2048x1024_2_0_01_1_n_n, dotGeneral_rows_apply, bc_vec3_D, bc_vec_D]
  simp only [ffnHidden_apply]

/-! ## The stages at an index -/

theorem a1_apply (Y : FVec Ideal S4x2048x1024 .f32) (b : Fin 4) (q : Fin 2048) (d : Fin 1024) :
    a1 (F := Ideal) Y (ix3 b q d)
      = Y (ix3 b q d) + Cert.Spec.attnRow (Cert.Spec.causalScores (fun q d => Y (ix3 b q d)) q) (fun k d => Y (ix3 b k d)) d := by
  unfold a1
  rw [addf_apply, attn_apply]
  simp only [scSelf_apply]

theorem h1_apply (Y : FVec Ideal S4x2048x1024 .f32) (G1 Be1 : FVec Ideal S1024 .f32) (b : Fin 4) (q : Fin 2048) (d : Fin 1024) :
    h1 (F := Ideal) Y G1 Be1 (ix3 b q d)
      = Cert.Spec.stage1 (fun q d => Y (ix3 b q d)) (fun j => G1 (ix1 j)) (fun j => Be1 (ix1 j)) q d := by
  unfold h1 Cert.Spec.stage1
  rw [lnOut_apply]
  simp only [a1_apply]

theorem a2_apply (Y Z : FVec Ideal S4x2048x1024 .f32) (G1 Be1 : FVec Ideal S1024 .f32) (b : Fin 4) (q : Fin 2048) (d : Fin 1024) :
    a2 (F := Ideal) Y Z G1 Be1 (ix3 b q d)
      = Cert.Spec.stage1 (fun q d => Y (ix3 b q d)) (fun j => G1 (ix1 j)) (fun j => Be1 (ix1 j)) q d
        + Cert.Spec.attnRow
            (fun k => Cert.Spec.score (Cert.Spec.stage1 (fun q d => Y (ix3 b q d)) (fun j => G1 (ix1 j)) (fun j => Be1 (ix1 j)) q)
              (fun d => Z (ix3 b k d)))
            (fun k d => Z (ix3 b k d)) d := by
  unfold a2
  rw [addf_apply, attn_apply, h1_apply]
  simp only [scores_apply, h1_apply]

theorem h2_apply (Y Z : FVec Ideal S4x2048x1024 .f32) (G1 Be1 G2 Be2 : FVec Ideal S1024 .f32) (b : Fin 4) (q : Fin 2048) (d : Fin 1024) :
    h2 (F := Ideal) Y Z G1 Be1 G2 Be2 (ix3 b q d)
      = Cert.Spec.stage2 (Cert.Spec.stage1 (fun q d => Y (ix3 b q d)) (fun j => G1 (ix1 j)) (fun j => Be1 (ix1 j)))
          (fun k d => Z (ix3 b k d)) (fun j => G2 (ix1 j)) (fun j => Be2 (ix1 j)) q d := by
  unfold h2 Cert.Spec.stage2
  rw [lnOut_apply]
  simp only [a2_apply]

theorem a3_apply (Y Z : FVec Ideal S4x2048x1024 .f32) (W1 : FVec Ideal S1024x4096 .f32) (B1 : FVec Ideal S4096 .f32) (W2 : FVec Ideal S4096x1024 .f32)
    (B2 G1 Be1 G2 Be2 : FVec Ideal S1024 .f32) (b : Fin 4) (q : Fin 2048) (d : Fin 1024) :
    a3 (F := Ideal) Y Z W1 B1 W2 B2 G1 Be1 G2 Be2 (ix3 b q d)
      = (fun x : Fin 1024 → EReal =>
          x d + ((∑ f : Fin 4096, Cert.Spec.hidden x (fun j f => W1 (ix2 j f)) (fun f => B1 (ix1 f)) f * W2 (ix2 f d)) + B2 (ix1 d)))
        (Cert.Spec.stage2 (Cert.Spec.stage1 (fun q d => Y (ix3 b q d)) (fun j => G1 (ix1 j)) (fun j => Be1 (ix1 j)))
          (fun k d => Z (ix3 b k d)) (fun j => G2 (ix1 j)) (fun j => Be2 (ix1 j)) q) := by
  unfold a3
  rw [addf_apply, ffn_apply, h2_apply]
  simp only [h2_apply]

/-- The reference's result, index by index, is the block of the specification. -/
theorem refOut_eq (Y Z : FVec Ideal S4x2048x1024 .f32) (W1 : FVec Ideal S1024x4096 .f32) (B1 : FVec Ideal S4096 .f32) (W2 : FVec Ideal S4096x1024 .f32)
    (B2 G1 Be1 G2 Be2 G3 Be3 : FVec Ideal S1024 .f32) :
    refOut (F := Ideal) Y Z W1 B1 W2 B2 G1 Be1 G2 Be2 G3 Be3 = Cert.Spec.out Y Z W1 B1 W2 B2 G1 Be1 G2 Be2 G3 Be3 := by
  funext i
  obtain ⟨b, q, d, rfl⟩ : ∃ (b : Fin 4) (q : Fin 2048) (d : Fin 1024), i = ix3 b q d :=
    ⟨i 0, i 1, i 2, eq_ix3 (n0 := 4) (n1 := 2048) (n2 := 1024) i⟩
  unfold refOut Cert.Spec.out Cert.Spec.block Cert.Spec.stage3
  rw [lnOut_apply]
  simp only [a3_apply]

end Cert.ReferenceIdeal.RefValue

end
-- ==== Proof.RefFacts.lean ====
/-
  The two facts about the reference program at the ideal values: every weakly fair execution terminates with the
  arguments unchanged; and with the result buffer at the specification's block of the arguments' launch contents.
-/
import proofs.«167660_j22771916603726_2_alg».proof.Proof.RefRun2
import proofs.«167660_j22771916603726_2_alg».proof.Proof.RefRead

noncomputable section

namespace Cert.ReferenceIdeal.RefValue

open Cert.ReferenceIdeal Cert.ReferenceIdeal.Gen Idealize.ShloMosaic Idealize.ShloMosaic.TcCoe Idealize.SL.Sem Idealize.ShloMosaic.StableHlo

/-- Every weakly fair execution of the reference terminates with the result at the specification's block of the
    arguments' launch contents, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v101) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => by rw [← refOut_eq]; exact h c) (run (F := Ideal) m ρ)

/-- Every weakly fair execution of the reference terminates with the arguments unchanged. -/
theorem run_frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => (h c).2) (run (F := Ideal) m ρ)

end Cert.ReferenceIdeal.RefValue

end
-- ==== Proof.PreFinite.lean ====
/-
  The precondition says every input entry is a real number: each array's entries have absolute value below +∞ on the
  extended reals, which leaves out both infinities.
-/
import proofs.«167660_j22771916603726_2_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.Affine

set_option maxRecDepth 16384

noncomputable section

namespace Cert.PreFinite

open Idealize.ShloMosaic Idealize.ShloMosaic.ValueIdx Cert.Pre_finite_inputs

instance : Subsingleton S_.Idx := ⟨fun a b => funext fun d => d.elim0⟩

/-- An extended real whose absolute value is below +∞ is a real. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  rw [Ideal.cmpf_def, Ideal.hostAbsf_def, Ideal.absf_def, Ideal.ofBits_def, htop] at h
  induction x using EReal.rec with
  | bot => exfalso; simp [Ideal.cmp] at h
  | coe r => exact ⟨r, rfl⟩
  | top => exfalso; simp [Ideal.cmp] at h

/-- One array's test: a reduce by "and" of the entrywise comparison that is 1 makes every entry a real. -/
theorem real_of_all {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant (F := Ideal) S_ .f32 0x7F800000#32))) (constantI S_ 1 1#1) hr hu ix0 = 1#1)
    (i : s.Idx) : ∃ r : ℝ, x i = (r : EReal) := by
  have := Host.reduce_andi_all _ _ hr hu ix0 h i
  exact real_of_abs_lt (x i) this

variable [Facts]

set_option maxHeartbeats 4000000 in
/-- The precondition at the extended reals: every entry of every input is a real. -/
theorem finite_of_pre (a0 : FVec Ideal S4x2048x1024 .f32) (a1 : FVec Ideal S4x2048x1024 .f32) (a2 : FVec Ideal S1024x4096 .f32) (a3 : FVec Ideal S4096 .f32) (a4 : FVec Ideal S4096x1024 .f32) (a5 : FVec Ideal S1024 .f32) (a6 : FVec Ideal S1024 .f32) (a7 : FVec Ideal S1024 .f32) (a8 : FVec Ideal S1024 .f32) (a9 : FVec Ideal S1024 .f32) (a10 : FVec Ideal S1024 .f32) (a11 : FVec Ideal S1024 .f32)
    (h : fn (F := Ideal) a0 a1 a2 a3 a4 a5 a6 a7 a8 a9 a10 a11 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) ∧ (∀ i, ∃ r : ℝ, a4 i = (r : EReal)) ∧ (∀ i, ∃ r : ℝ, a5 i = (r : EReal)) ∧ (∀ i, ∃ r : ℝ, a6 i = (r : EReal)) ∧ (∀ i, ∃ r : ℝ, a7 i = (r : EReal)) ∧ (∀ i, ∃ r : ℝ, a8 i = (r : EReal)) ∧ (∀ i, ∃ r : ℝ, a9 i = (r : EReal)) ∧ (∀ i, ∃ r : ℝ, a10 i = (r : EReal)) ∧ (∀ i, ∃ r : ℝ, a11 i = (r : EReal)) := by
  have h0 := congrFun h ix0
  dsimp only [fn, fn_part1, fn_part2, fn_part3] at h0
  simp only [andi, IntOp.andi_eq_one] at h0
  obtain ⟨⟨⟨⟨⟨⟨⟨⟨⟨⟨⟨h0, h1⟩, h2⟩, h3⟩, h4⟩, h5⟩, h6⟩, h7⟩, h8⟩, h9⟩, h10⟩, h11⟩ := h0
  exact ⟨real_of_all a0 _ _ _ h0, real_of_all a1 _ _ _ h1, real_of_all a2 _ _ _ h2, real_of_all a3 _ _ _ h3, real_of_all a4 _ _ _ h4, real_of_all a5 _ _ _ h5,
    real_of_all a6 _ _ _ h6, real_of_all a7 _ _ _ h7, real_of_all a8 _ _ _ h8, real_of_all a9 _ _ _ h9, real_of_all a10 _ _ _ h10, real_of_all a11 _ _ _ h11⟩

end Cert.PreFinite

end
-- ==== Proof.lean ====
/-
  One decoder block — causal self-attention, attention over a memory and a two-layer perceptron, each followed by a
  residual sum and a layer normalisation — computed by three pipelined kernels, against the same block written with
  whole-array operations.

  On the extended reals both programs compute Cert.Spec.out of the twelve argument arrays. The reference does so
  operation by operation. The kernels compute attention one key tile at a time with a running maximum: for finite
  inputs the quotient they store is the softmax-weighted sum (the exponential shifts cancel), a masked score −∞
  contributing exp(−∞) = 0; the sentinel the first kernel masks with is named −∞. Layer normalisation and the
  perceptron are the same sums on both sides. Finiteness of every intermediate row follows from that of the inputs.

  Each program runs to the end without a fault and leaves its arguments unchanged: the kernels region by region, every
  region's arrays split out of the buffers at its entry and put back at its exit.
-/
import proofs.«167660_j22771916603726_2_alg».proof.Defs
import proofs.«167660_j22771916603726_2_alg».proof.Proof.Gen.Kernel
import proofs.«167660_j22771916603726_2_alg».proof.Proof.Gen.KernelIdeal
import proofs.«167660_j22771916603726_2_alg».proof.Proof.Gen.ReferenceIdeal
import proofs.«167660_j22771916603726_2_alg».proof.Proof.Gen.Pre_finite_inputs
import proofs.«167660_j22771916603726_2_alg».proof.Proof.BKFrame
import proofs.«167660_j22771916603726_2_alg».proof.Proof.KResult
import proofs.«167660_j22771916603726_2_alg».proof.Proof.RefFacts
import proofs.«167660_j22771916603726_2_alg».proof.Proof.PreFinite
import Idealize.ShloMosaic.Adequacy
import Idealize.ShloMosaic.Init

noncomputable section

namespace Cert.Proof

open Idealize.ShloMosaic Idealize.SL.Sem

/-- The kernel as printed runs to the end and keeps its arguments. -/
theorem frame_k : Cert.frame_Kernel := fun m ρ _ =>
  (θ_run Cert.Kernel.defs _ _).mono (fun _ h c => (h c).2) (Cert.Kernel.KF.run (F := Bits) m ρ)

/-- So does its reading on the extended reals. -/
theorem frame_ki : Cert.frame_KernelIdeal := fun m ρ _ =>
  (θ_run Cert.KernelIdeal.defs _ _).mono (fun _ h c => (h c).2) (Cert.KernelIdeal.KF.run (F := Ideal) m ρ)

/-- And the reference. -/
theorem frame_ri : Cert.frame_ReferenceIdeal := fun m g _ => Cert.ReferenceIdeal.RefValue.run_frame m g

/-- The masking sentinel is named −∞. -/
theorem preserves : Cert.preserves_Kernel_KernelIdeal :=
  IdealRules.named_const.statement Cert.KernelIdeal.κ "neg_big" .f32 0xF149F2CA#32 ⊥ rfl

/-- From finite inputs the kernels' result and the reference's are the same array. -/
theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun _ h c => ⟨(h c).1.trans ?_, (h c).2⟩) (Cert.KernelIdeal.KF.run (F := Ideal) m ρ)
    exact Cert.KernelIdeal.KRes.result_eq m c (Cert.PreFinite.finite_of_pre _ _ _ _ _ _ _ _ _ _ _ _ (hpre c))
  · refine (θ_run Cert.ReferenceIdeal.defs _ _).mono (fun _ h c => ⟨(h c).1.trans ?_, (h c).2⟩) (Cert.ReferenceIdeal.RefValue.run_spec m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
